-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S2x1x2048 : Shape := ⟨3, ![2, 1, 2048]⟩
abbrev S100x6 : Shape := ⟨2, ![100, 6]⟩
abbrev S6144x6 : Shape := ⟨2, ![6144, 6]⟩
abbrev S6144x2048 : Shape := ⟨2, ![6144, 2048]⟩
abbrev S6144 : Shape := ⟨1, ![6144]⟩
abbrev S100x2048 : Shape := ⟨2, ![100, 2048]⟩
abbrev S100 : Shape := ⟨1, ![100]⟩
abbrev S_ : Shape := ⟨0, ![]⟩

class Facts : Prop where
  bcast_S_S2x1x2048 : S_.BroadcastsInDim S2x1x2048 (![] : Fin 0 → Fin S2x1x2048.rank)
  reducesTo_S2x1x2048_S_d0_1_2 : S2x1x2048.ReducesTo [0, 1, 2] S_
  h_S_ : 0 < S_.numel
  bcast_S_S100x6 : S_.BroadcastsInDim S100x6 (![] : Fin 0 → Fin S100x6.rank)
  reducesTo_S100x6_S_d0_1 : S100x6.ReducesTo [0, 1] S_
  bcast_S_S6144x6 : S_.BroadcastsInDim S6144x6 (![] : Fin 0 → Fin S6144x6.rank)
  reducesTo_S6144x6_S_d0_1 : S6144x6.ReducesTo [0, 1] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S100x2048 : S_.BroadcastsInDim S100x2048 (![] : Fin 0 → Fin S100x2048.rank)
  reducesTo_S100x2048_S_d0_1 : S100x2048.ReducesTo [0, 1] S_
  bcast_S_S100 : S_.BroadcastsInDim S100 (![] : Fin 0 → Fin S100.rank)
  reducesTo_S100_S_d0 : S100.ReducesTo [0] S_

variable [Facts]

def fn_part3 {F : FTy → Type} [FloatOps F] (main_arg12 : FVec F S100 .f32) (main_v48 : IVec S_ 1) (main_v49 : FVec F S100x2048 .f32) (main_v50 : FVec F S100x2048 .f32) : IVec S_ 1 :=
  let main_v51 : IVec S100x2048 1 := cmpf .olt main_v49 main_v50
  let main_c_19 : IVec S_ 1 := constantI S_ 1 1#1
  let main_v52 : IVec S_ 1 := (fun x v => Host.reduce IntOp.andi x v reducesTo_S100x2048_S_d0_1 h_S_) main_v51 main_c_19
  let main_v53 : IVec S_ 1 := andi main_v48 main_v52
  let main_v54 : FVec F S100 .f32 := Host.absf main_arg12
  let main_cst_20 : FVec F S_ .f32 := constant S_ .f32 0x7F800000#32
  let main_v55 : FVec F S100 .f32 := broadcastInDim S100 ![] bcast_S_S100 main_cst_20
  let main_v56 : IVec S100 1 := cmpf .olt main_v54 main_v55
  let main_c_21 : IVec S_ 1 := constantI S_ 1 1#1
  let main_v57 : IVec S_ 1 := (fun x v => Host.reduce IntOp.andi x v reducesTo_S100_S_d0 h_S_) main_v56 main_c_21
  let main_v58 : IVec S_ 1 := andi main_v53 main_v57
  main_v58

def fn_part2 {F : FTy → Type} [FloatOps F] (main_arg8 : FVec F S6144x2048 .f32) (main_arg9 : FVec F S6144 .f32) (main_arg10 : FVec F S6144 .f32) (main_arg11 : FVec F S100x2048 .f32) (main_arg12 : FVec F S100 .f32) (main_v33 : IVec S_ 1) : IVec S_ 1 :=
  let main_v34 : FVec F S6144x2048 .f32 := Host.absf main_arg8
  let main_cst_12 : FVec F S_ .f32 := constant S_ .f32 0x7F800000#32
  let main_v35 : FVec F S6144x2048 .f32 := broadcastInDim S6144x2048 ![] bcast_S_S6144x2048 main_cst_12
  let main_v36 : IVec S6144x2048 1 := cmpf .olt main_v34 main_v35
  let main_c_13 : IVec S_ 1 := constantI S_ 1 1#1
  let main_v37 : IVec S_ 1 := (fun x v => Host.reduce IntOp.andi x v reducesTo_S6144x2048_S_d0_1 h_S_) main_v36 main_c_13
  let main_v38 : IVec S_ 1 := andi main_v33 main_v37
  let main_v39 : FVec F S6144 .f32 := Host.absf main_arg9
  let main_cst_14 : FVec F S_ .f32 := constant S_ .f32 0x7F800000#32
  let main_v40 : FVec F S6144 .f32 := broadcastInDim S6144 ![] bcast_S_S6144 main_cst_14
  let main_v41 : IVec S6144 1 := cmpf .olt main_v39 main_v40
  let main_c_15 : IVec S_ 1 := constantI S_ 1 1#1
  let main_v42 : IVec S_ 1 := (fun x v => Host.reduce IntOp.andi x v reducesTo_S6144_S_d0 h_S_) main_v41 main_c_15
  let main_v43 : IVec S_ 1 := andi main_v38 main_v42
  let main_v44 : FVec F S6144 .f32 := Host.absf main_arg10
  let main_cst_16 : FVec F S_ .f32 := constant S_ .f32 0x7F800000#32
  let main_v45 : FVec F S6144 .f32 := broadcastInDim S6144 ![] bcast_S_S6144 main_cst_16
  let main_v46 : IVec S6144 1 := cmpf .olt main_v44 main_v45
  let main_c_17 : IVec S_ 1 := constantI S_ 1 1#1
  let main_v47 : IVec S_ 1 := (fun x v => Host.reduce IntOp.andi x v reducesTo_S6144_S_d0 h_S_) main_v46 main_c_17
  let main_v48 : IVec S_ 1 := andi main_v43 main_v47
  let main_v49 : FVec F S100x2048 .f32 := Host.absf main_arg11
  let main_cst_18 : FVec F S_ .f32 := constant S_ .f32 0x7F800000#32
  let main_v50 : FVec F S100x2048 .f32 := broadcastInDim S100x2048 ![] bcast_S_S100x2048 main_cst_18
  fn_part3 (F := F) main_arg12 main_v48 main_v49 main_v50

def fn_part1 {F : FTy → Type} [FloatOps F] (main_arg5 : FVec F S6144 .f32) (main_arg6 : FVec F S6144 .f32) (main_arg7 : FVec F S6144x2048 .f32) (main_arg8 : FVec F S6144x2048 .f32) (main_arg9 : FVec F S6144 .f32) (main_arg10 : FVec F S6144 .f32) (main_arg11 : FVec F S100x2048 .f32) (main_arg12 : FVec F S100 .f32) (main_v13 : IVec S_ 1) (main_v16 : IVec S6144x2048 1) : IVec S_ 1 :=
  let main_c_5 : IVec S_ 1 := constantI S_ 1 1#1
  let main_v17 : IVec S_ 1 := (fun x v => Host.reduce IntOp.andi x v reducesTo_S6144x2048_S_d0_1 h_S_) main_v16 main_c_5
  let main_v18 : IVec S_ 1 := andi main_v13 main_v17
  let main_v19 : FVec F S6144 .f32 := Host.absf main_arg5
  let main_cst_6 : FVec F S_ .f32 := constant S_ .f32 0x7F800000#32
  let main_v20 : FVec F S6144 .f32 := broadcastInDim S6144 ![] bcast_S_S6144 main_cst_6
  let main_v21 : IVec S6144 1 := cmpf .olt main_v19 main_v20
  let main_c_7 : IVec S_ 1 := constantI S_ 1 1#1
  let main_v22 : IVec S_ 1 := (fun x v => Host.reduce IntOp.andi x v reducesTo_S6144_S_d0 h_S_) main_v21 main_c_7
  let main_v23 : IVec S_ 1 := andi main_v18 main_v22
  let main_v24 : FVec F S6144 .f32 := Host.absf main_arg6
  let main_cst_8 : FVec F S_ .f32 := constant S_ .f32 0x7F800000#32
  let main_v25 : FVec F S6144 .f32 := broadcastInDim S6144 ![] bcast_S_S6144 main_cst_8
  let main_v26 : IVec S6144 1 := cmpf .olt main_v24 main_v25
  let main_c_9 : IVec S_ 1 := constantI S_ 1 1#1
  let main_v27 : IVec S_ 1 := (fun x v => Host.reduce IntOp.andi x v reducesTo_S6144_S_d0 h_S_) main_v26 main_c_9
  let main_v28 : IVec S_ 1 := andi main_v23 main_v27
  let main_v29 : FVec F S6144x2048 .f32 := Host.absf main_arg7
  let main_cst_10 : FVec F S_ .f32 := constant S_ .f32 0x7F800000#32
  let main_v30 : FVec F S6144x2048 .f32 := broadcastInDim S6144x2048 ![] bcast_S_S6144x2048 main_cst_10
  let main_v31 : IVec S6144x2048 1 := cmpf .olt main_v29 main_v30
  let main_c_11 : IVec S_ 1 := constantI S_ 1 1#1
  let main_v32 : IVec S_ 1 := (fun x v => Host.reduce IntOp.andi x v reducesTo_S6144x2048_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : IVec S1 32) (main_arg1 : FVec F S2x1x2048 .f32) (main_arg2 : FVec F S100x6 .f32) (main_arg3 : FVec F S6144x6 .f32) (main_arg4 : FVec F S6144x2048 .f32) (main_arg5 : FVec F S6144 .f32) (main_arg6 : FVec F S6144 .f32) (main_arg7 : FVec F S6144x2048 .f32) (main_arg8 : FVec F S6144x2048 .f32) (main_arg9 : FVec F S6144 .f32) (main_arg10 : FVec F S6144 .f32) (main_arg11 : FVec F S100x2048 .f32) (main_arg12 : FVec F S100 .f32) : IVec S_ 1 :=
  let main_v0 : FVec F S2x1x2048 .f32 := Host.absf main_arg1
  let main_cst : FVec F S_ .f32 := constant S_ .f32 0x7F800000#32
  let main_v1 : FVec F S2x1x2048 .f32 := broadcastInDim S2x1x2048 ![] bcast_S_S2x1x2048 main_cst
  let main_v2 : IVec S2x1x2048 1 := cmpf .olt main_v0 main_v1
  let main_c : IVec S_ 1 := constantI S_ 1 1#1
  let main_v3 : IVec S_ 1 := (fun x v => Host.reduce IntOp.andi x v reducesTo_S2x1x2048_S_d0_1_2 h_S_) main_v2 main_c
  let main_v4 : FVec F S100x6 .f32 := Host.absf main_arg2
  let main_cst_0 : FVec F S_ .f32 := constant S_ .f32 0x7F800000#32
  let main_v5 : FVec F S100x6 .f32 := broadcastInDim S100x6 ![] bcast_S_S100x6 main_cst_0
  let main_v6 : IVec S100x6 1 := cmpf .olt main_v4 main_v5
  let main_c_1 : IVec S_ 1 := constantI S_ 1 1#1
  let main_v7 : IVec S_ 1 := (fun x v => Host.reduce IntOp.andi x v reducesTo_S100x6_S_d0_1 h_S_) main_v6 main_c_1
  let main_v8 : IVec S_ 1 := andi main_v3 main_v7
  let main_v9 : FVec F S6144x6 .f32 := Host.absf main_arg3
  let main_cst_2 : FVec F S_ .f32 := constant S_ .f32 0x7F800000#32
  let main_v10 : FVec F S6144x6 .f32 := broadcastInDim S6144x6 ![] bcast_S_S6144x6 main_cst_2
  let main_v11 : IVec S6144x6 1 := cmpf .olt main_v9 main_v10
  let main_c_3 : IVec S_ 1 := constantI S_ 1 1#1
  let main_v12 : IVec S_ 1 := (fun x v => Host.reduce IntOp.andi x v reducesTo_S6144x6_S_d0_1 h_S_) main_v11 main_c_3
  let main_v13 : IVec S_ 1 := andi main_v8 main_v12
  let main_v14 : FVec F S6144x2048 .f32 := Host.absf main_arg4
  let main_cst_4 : FVec F S_ .f32 := constant S_ .f32 0x7F800000#32
  let main_v15 : FVec F S6144x2048 .f32 := broadcastInDim S6144x2048 ![] bcast_S_S6144x2048 main_cst_4
  let main_v16 : IVec S6144x2048 1 := cmpf .olt main_v14 main_v15
  fn_part1 (F := F) main_arg5 main_arg6 main_arg7 main_arg8 main_arg9 main_arg10 main_arg11 main_arg12 main_v13 main_v16
-- ==== Kernel.lean ====
abbrev S1 : Shape := ⟨1, ![1]⟩
abbrev S2x1x2048 : Shape := ⟨3, ![2, 1, 2048]⟩
abbrev S100x6 : Shape := ⟨2, ![100, 6]⟩
abbrev S6144x6 : Shape := ⟨2, ![6144, 6]⟩
abbrev S6144x2048 : Shape := ⟨2, ![6144, 2048]⟩
abbrev S6144 : Shape := ⟨1, ![6144]⟩
abbrev S100x2048 : Shape := ⟨2, ![100, 2048]⟩
abbrev S100 : Shape := ⟨1, ![100]⟩
abbrev S_ : Shape := ⟨0, ![]⟩
abbrev S1x1 : Shape := ⟨2, ![1, 1]⟩
abbrev S1x6 : Shape := ⟨2, ![1, 6]⟩
abbrev S1x1x2048 : Shape := ⟨3, ![1, 1, 2048]⟩
abbrev S1x2048 : Shape := ⟨2, ![1, 2048]⟩
abbrev S1x6144 : Shape := ⟨2, ![1, 6144]⟩
abbrev S1x100 : Shape := ⟨2, ![1, 100]⟩
abbrev S256x6 : Shape := ⟨2, ![256, 6]⟩
abbrev S256x2048 : Shape := ⟨2, ![256, 2048]⟩
abbrev S1x256 : Shape := ⟨2, ![1, 256]⟩
abbrev S1x1x100 : Shape := ⟨3, ![1, 1, 100]⟩

abbrev nBuf : Space → Nat
  | .hbm => 38
  | .vmem => 60
  | .smem => 0
  | _ => 0

abbrev bufTy : (tb : Table) → Fin (tcTables nBuf tb) → BufTy
  | .hbm, ⟨0, _⟩ => ⟨S1, .i32⟩
  | .hbm, ⟨1, _⟩ => ⟨S2x1x2048, .f32⟩
  | .hbm, ⟨2, _⟩ => ⟨S100x6, .f32⟩
  | .hbm, ⟨3, _⟩ => ⟨S6144x6, .f32⟩
  | .hbm, ⟨4, _⟩ => ⟨S6144x2048, .f32⟩
  | .hbm, ⟨5, _⟩ => ⟨S6144, .f32⟩
  | .hbm, ⟨6, _⟩ => ⟨S6144, .f32⟩
  | .hbm, ⟨7, _⟩ => ⟨S6144x2048, .f32⟩
  | .hbm, ⟨8, _⟩ => ⟨S6144x2048, .f32⟩
  | .hbm, ⟨9, _⟩ => ⟨S6144, .f32⟩
  | .hbm, ⟨10, _⟩ => ⟨S6144, .f32⟩
  | .hbm, ⟨11, _⟩ => ⟨S100x2048, .f32⟩
  | .hbm, ⟨12, _⟩ => ⟨S100, .f32⟩
  | .hbm, ⟨13, _⟩ => ⟨S_, .i32⟩
  | .hbm, ⟨14, _⟩ => ⟨S1, .i32⟩
  | .hbm, ⟨15, _⟩ => ⟨S1, .i1⟩
  | .hbm, ⟨16, _⟩ => ⟨S_, .i32⟩
  | .hbm, ⟨17, _⟩ => ⟨S1, .i32⟩
  | .hbm, ⟨18, _⟩ => ⟨S1, .i32⟩
  | .hbm, ⟨19, _⟩ => ⟨S1, .i32⟩
  | .hbm, ⟨20, _⟩ => ⟨S1x1, .i32⟩
  | .hbm, ⟨21, _⟩ => ⟨S1x6, .f32⟩
  | .hbm, ⟨22, _⟩ => ⟨S1x1x2048, .f32⟩
  | .hbm, ⟨23, _⟩ => ⟨S1x2048, .f32⟩
  | .hbm, ⟨24, _⟩ => ⟨S1x1x2048, .f32⟩
  | .hbm, ⟨25, _⟩ => ⟨S1x2048, .f32⟩
  | .hbm, ⟨26, _⟩ => ⟨S1x6144, .f32⟩
  | .hbm, ⟨27, _⟩ => ⟨S1x6144, .f32⟩
  | .hbm, ⟨28, _⟩ => ⟨S1x6144, .f32⟩
  | .hbm, ⟨29, _⟩ => ⟨S1x6144, .f32⟩
  | .hbm, ⟨30, _⟩ => ⟨S1x100, .f32⟩
  | .hbm, ⟨31, _⟩ => ⟨S1x2048, .f32⟩
  | .hbm, ⟨32, _⟩ => ⟨S1x2048, .f32⟩
  | .hbm, ⟨33, _⟩ => ⟨S1x100, .f32⟩
  | .hbm, ⟨34, _⟩ => ⟨S1x1x100, .f32⟩
  | .hbm, ⟨35, _⟩ => ⟨S1x1x2048, .f32⟩
  | .hbm, ⟨36, _⟩ => ⟨S1x1x2048, .f32⟩
  | .hbm, ⟨37, _⟩ => ⟨S2x1x2048, .f32⟩
  | .local _ .vmem, ⟨0, _⟩ => ⟨S1x6, .f32⟩
  | .local _ .vmem, ⟨1, _⟩ => ⟨S1x2048, .f32⟩
  | .local _ .vmem, ⟨2, _⟩ => ⟨S256x6, .f32⟩
  | .local _ .vmem, ⟨3, _⟩ => ⟨S256x6, .f32⟩
  | .local _ .vmem, ⟨4, _⟩ => ⟨S256x6, .f32⟩
  | .local _ .vmem, ⟨5, _⟩ => ⟨S256x6, .f32⟩
  | .local _ .vmem, ⟨6, _⟩ => ⟨S256x6, .f32⟩
  | .local _ .vmem, ⟨7, _⟩ => ⟨S256x6, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x2048, .f32⟩
  | .local _ .vmem, ⟨29, _⟩ => ⟨S1x2048, .f32⟩
  | .local _ .vmem, ⟨30, _⟩ => ⟨S256x2048, .f32⟩
  | .local _ .vmem, ⟨31, _⟩ => ⟨S256x2048, .f32⟩
  | .local _ .vmem, ⟨32, _⟩ => ⟨S256x2048, .f32⟩
  | .local _ .vmem, ⟨33, _⟩ => ⟨S256x2048, .f32⟩
  | .local _ .vmem, ⟨34, _⟩ => ⟨S256x2048, .f32⟩
  | .local _ .vmem, ⟨35, _⟩ => ⟨S256x2048, .f32⟩
  | .local _ .vmem, ⟨36, _⟩ => ⟨S256x2048, .f32⟩
  | .local _ .vmem, ⟨37, _⟩ => ⟨S256x2048, .f32⟩
  | .local _ .vmem, ⟨38, _⟩ => ⟨S256x2048, .f32⟩
  | .local _ .vmem, ⟨39, _⟩ => ⟨S256x2048, .f32⟩
  | .local _ .vmem, ⟨40, _⟩ => ⟨S256x2048, .f32⟩
  | .local _ .vmem, ⟨41, _⟩ => ⟨S256x2048, .f32⟩
  | .local _ .vmem, ⟨42, _⟩ => ⟨S1x256, .f32⟩
  | .local _ .vmem, ⟨43, _⟩ => ⟨S1x256, .f32⟩
  | .local _ .vmem, ⟨44, _⟩ => ⟨S1x256, .f32⟩
  | .local _ .vmem, ⟨45, _⟩ => ⟨S1x256, .f32⟩
  | .local _ .vmem, ⟨46, _⟩ => ⟨S1x256, .f32⟩
  | .local _ .vmem, ⟨47, _⟩ => ⟨S1x256, .f32⟩
  | .local _ .vmem, ⟨48, _⟩ => ⟨S1x256, .f32⟩
  | .local _ .vmem, ⟨49, _⟩ => ⟨S1x256, .f32⟩
  | .local _ .vmem, ⟨50, _⟩ => ⟨S1x256, .f32⟩
  | .local _ .vmem, ⟨51, _⟩ => ⟨S1x256, .f32⟩
  | .local _ .vmem, ⟨52, _⟩ => ⟨S1x256, .f32⟩
  | .local _ .vmem, ⟨53, _⟩ => ⟨S1x256, .f32⟩
  | .local _ .vmem, ⟨54, _⟩ => ⟨S1x256, .f32⟩
  | .local _ .vmem, ⟨55, _⟩ => ⟨S1x256, .f32⟩
  | .local _ .vmem, ⟨56, _⟩ => ⟨S1x2048, .f32⟩
  | .local _ .vmem, ⟨57, _⟩ => ⟨S100x2048, .f32⟩
  | .local _ .vmem, ⟨58, _⟩ => ⟨S1x100, .f32⟩
  | .local _ .vmem, ⟨59, _⟩ => ⟨S1x100, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc1_stg0_0 : Ref sig .tc := ⟨.vmem, 28, rfl⟩
abbrev cc1_stg1_0 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc1_stg4_0 : Ref sig .tc := ⟨.vmem, 34, rfl⟩
abbrev cc1_stg4_1 : Ref sig .tc := ⟨.vmem, 35, rfl⟩
abbrev cc1_stg5_0 : Ref sig .tc := ⟨.vmem, 36, rfl⟩
abbrev cc1_stg5_1 : Ref sig .tc := ⟨.vmem, 37, rfl⟩
abbrev cc1_stg6_0 : Ref sig .tc := ⟨.vmem, 38, rfl⟩
abbrev cc1_stg6_1 : Ref sig .tc := ⟨.vmem, 39, rfl⟩
abbrev cc1_stg7_0 : Ref sig .tc := ⟨.vmem, 40, rfl⟩
abbrev cc1_stg7_1 : Ref sig .tc := ⟨.vmem, 41, rfl⟩
abbrev cc1_stg8_0 : Ref sig .tc := ⟨.vmem, 42, rfl⟩
abbrev cc1_stg8_1 : Ref sig .tc := ⟨.vmem, 43, rfl⟩
abbrev cc1_stg9_0 : Ref sig .tc := ⟨.vmem, 44, rfl⟩
abbrev cc1_stg9_1 : Ref sig .tc := ⟨.vmem, 45, rfl⟩
abbrev cc1_stg10_0 : Ref sig .tc := ⟨.vmem, 46, rfl⟩
abbrev cc1_stg10_1 : Ref sig .tc := ⟨.vmem, 47, rfl⟩
abbrev cc1_stg11_0 : Ref sig .tc := ⟨.vmem, 48, rfl⟩
abbrev cc1_stg11_1 : Ref sig .tc := ⟨.vmem, 49, rfl⟩
abbrev cc1_stg12_0 : Ref sig .tc := ⟨.vmem, 50, rfl⟩
abbrev cc1_stg12_1 : Ref sig .tc := ⟨.vmem, 51, rfl⟩
abbrev cc1_stg13_0 : Ref sig .tc := ⟨.vmem, 52, rfl⟩
abbrev cc1_stg13_1 : Ref sig .tc := ⟨.vmem, 53, rfl⟩
abbrev cc1_stg14_0 : Ref sig .tc := ⟨.vmem, 54, rfl⟩
abbrev cc1_stg14_1 : Ref sig .tc := ⟨.vmem, 55, rfl⟩
abbrev cc2_stg0_0 : Ref sig .tc := ⟨.vmem, 56, rfl⟩
abbrev cc2_stg1_0 : Ref sig .tc := ⟨.vmem, 57, rfl⟩
abbrev cc2_stg2_0 : Ref sig .tc := ⟨.vmem, 58, rfl⟩
abbrev cc2_stg3_0 : Ref sig .tc := ⟨.vmem, 59, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc1_sem0_0 : DmaSem sig := 28
abbrev cc1_sem1_0 : DmaSem sig := 29
abbrev cc1_sem2_0 : DmaSem sig := 30
abbrev cc1_sem2_1 : DmaSem sig := 31
abbrev cc1_sem3_0 : DmaSem sig := 32
abbrev cc1_sem3_1 : DmaSem sig := 33
abbrev cc1_sem4_0 : DmaSem sig := 34
abbrev cc1_sem4_1 : DmaSem sig := 35
abbrev cc1_sem5_0 : DmaSem sig := 36
abbrev cc1_sem5_1 : DmaSem sig := 37
abbrev cc1_sem6_0 : DmaSem sig := 38
abbrev cc1_sem6_1 : DmaSem sig := 39
abbrev cc1_sem7_0 : DmaSem sig := 40
abbrev cc1_sem7_1 : DmaSem sig := 41
abbrev cc1_sem8_0 : DmaSem sig := 42
abbrev cc1_sem8_1 : DmaSem sig := 43
abbrev cc1_sem9_0 : DmaSem sig := 44
abbrev cc1_sem9_1 : DmaSem sig := 45
abbrev cc1_sem10_0 : DmaSem sig := 46
abbrev cc1_sem10_1 : DmaSem sig := 47
abbrev cc1_sem11_0 : DmaSem sig := 48
abbrev cc1_sem11_1 : DmaSem sig := 49
abbrev cc1_sem12_0 : DmaSem sig := 50
abbrev cc1_sem12_1 : DmaSem sig := 51
abbrev cc1_sem13_0 : DmaSem sig := 52
abbrev cc1_sem13_1 : DmaSem sig := 53
abbrev cc1_sem14_0 : DmaSem sig := 54
abbrev cc1_sem14_1 : DmaSem sig := 55
abbrev cc2_sem0_0 : DmaSem sig := 56
abbrev cc2_sem1_0 : DmaSem sig := 57
abbrev cc2_sem2_0 : DmaSem sig := 58
abbrev cc2_sem3_0 : DmaSem sig := 59

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let c0_32 : Index := 0#32
  let arg0 : BitVec 32 := BitVec.ofNat 32 (i 0).val
  let c256_i32 : BitVec 32 := 256#32
  let v0 : BitVec 32 := Scalar.muli arg0 c256_i32
  let v1 : BitVec 32 := v0
  let v51 : Index := Scalar.indexCast v1
  ![0, v51.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x6 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![8], ![false]⟩

def k1_mult1 (i : grid1.Coords) : BitVec 32 :=
  let arg0 : BitVec 32 := BitVec.ofNat 32 (i 0).val
  let c256_i32 : BitVec 32 := 256#32
  let v0 : BitVec 32 := Scalar.muli arg0 c256_i32
  v0
def k1_off1 (i : grid1.Coords) : Fin 2 → Nat :=
  let c0_32 : Index := 0#32
  let arg0 : BitVec 32 := BitVec.ofNat 32 (i 0).val
  let c256_i32 : BitVec 32 := 256#32
  let v0 : BitVec 32 := Scalar.muli arg0 c256_i32
  let v1 : BitVec 32 := v0
  let v51 : Index := Scalar.indexCast v1
  ![0, v51.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_6 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_9 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_10 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_11 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_12 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_13 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S100x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x100 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  bcast_S_S1 : S_.BroadcastsInDim S1 (![] : Fin 0 → Fin S1.rank)
  bcast_S1_S1x1_0 : S1.BroadcastsInDim S1x1 (![0] : Fin 1 → Fin S1x1.rank)
  slices_S2x1x2048_S1x1x2048_0_0_0 : S2x1x2048.Slices ![0, 0, 0] S1x1x2048
  shapeCasts_S1x1x2048_S1x2048 : S1x1x2048.ShapeCasts S1x2048
  slices_S2x1x2048_S1x1x2048_1_0_0 : S2x1x2048.Slices ![1, 0, 0] S1x1x2048
  shapeCasts_S6144_S1x6144 : S6144.ShapeCasts S1x6144
  shapeCasts_S100_S1x100 : S100.ShapeCasts S1x100
  inb_S1x6_S1x6_0_0 : ∀ a, (![0, 0] : Fin 2 → Nat) a + S1x6.size a ≤ S1x6.size a
  h_S1x6 : 0 < S1x6.numel
  shapeCasts_S1x6_S1x6 : S1x6.ShapeCasts S1x6
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S256x6_S256x6_0_0 : ∀ a, (![0, 0] : Fin 2 → Nat) a + S256x6.size a ≤ S256x6.size a
  h_S256x6 : 0 < S256x6.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x2048_S256x2048_0_0 : ∀ a, (![0, 0] : Fin 2 → Nat) a + S256x2048.size a ≤ S256x2048.size a
  h_S256x2048 : 0 < S256x2048.numel
  inb_S100x2048_S100x2048_0_0 : ∀ a, (![0, 0] : Fin 2 → Nat) a + S100x2048.size a ≤ S100x2048.size a
  h_S100x2048 : 0 < S100x2048.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  bcast_S1x100_S1x1x100_1_2 : S1x100.BroadcastsInDim S1x1x100 (![1, 2] : Fin 2 → Fin S1x1x100.rank)
  bcast_S1x2048_S1x1x2048_1_2 : S1x2048.BroadcastsInDim S1x1x2048 (![1, 2] : Fin 2 → Fin S1x1x2048.rank)
  concatenates_S1x1x2048_S1x1x2048_S2x1x2048_d0 : Shape.Concatenates [S1x1x2048, S1x1x2048] S2x1x2048 0
  gather_S100x6_S1x1_S1x6_1_0_n_n_0_1_16_wf : GatherDims.WF S100x6 S1x1 S1x6 [1] [0] [] [0] [] 1 ![1, 6]
  dot_S1x6_S256x6_S1x256_1_1_0_0_n_n_wf : DotDims.WF S1x6 S256x6 S1x256 [1] [1] [0] [0] [] []
  dot_S1x2048_S256x2048_S1x256_1_1_0_0_n_n_wf : DotDims.WF S1x2048 S256x2048 S1x256 [1] [1] [0] [0] [] []
  dot_S1x2048_S100x2048_S1x100_1_1_0_0_n_n_wf : DotDims.WF S1x2048 S100x2048 S1x100 [1] [1] [0] [0] [] []
  hrank0 : 0 < grid0.rank
  k0_mult1_dvd : ∀ i : grid0.Coords, 256 ∣ (k0_mult1 i).toNat
  k0_off1_inb : ∀ i : grid0.Coords, ∀ a, (k0_off1 i) a + S1x256.size a ≤ S1x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x6.size a ≤ S1x6.size a
  hwx0_0 : ∀ i : grid0.Coords, EltTy.bits .f32 = 32 ∨ (Rect.block (s := S1x6) S1x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x6.size a ≤ S6144x6.size a
  hwx0_2 : ∀ i : grid0.Coords, EltTy.bits .f32 = 32 ∨ (Rect.block (s := S6144x6) S256x6.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x6.size a ≤ S6144x6.size a
  hwx0_3 : ∀ i : grid0.Coords, EltTy.bits .f32 = 32 ∨ (Rect.block (s := S6144x6) S256x6.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x6.size a ≤ S6144x6.size a
  hwx0_4 : ∀ i : grid0.Coords, EltTy.bits .f32 = 32 ∨ (Rect.block (s := S6144x6) S256x6.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S6144x2048.size a
  hwx0_5 : ∀ i : grid0.Coords, EltTy.bits .f32 = 32 ∨ (Rect.block (s := S6144x2048) S256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S6144x2048.size a
  hwx0_6 : ∀ i : grid0.Coords, EltTy.bits .f32 = 32 ∨ (Rect.block (s := S6144x2048) S256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S6144x2048.size a
  hwx0_7 : ∀ i : grid0.Coords, EltTy.bits .f32 = 32 ∨ (Rect.block (s := S6144x2048) S256x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x6144.size a
  hwx0_8 : ∀ i : grid0.Coords, EltTy.bits .f32 = 32 ∨ (Rect.block (s := S1x6144) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x6144.size a
  hwx0_9 : ∀ i : grid0.Coords, EltTy.bits .f32 = 32 ∨ (Rect.block (s := S1x6144) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x6144.size a
  hwx0_10 : ∀ i : grid0.Coords, EltTy.bits .f32 = 32 ∨ (Rect.block (s := S1x6144) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x6144.size a
  hwx0_11 : ∀ i : grid0.Coords, EltTy.bits .f32 = 32 ∨ (Rect.block (s := S1x6144) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x6144.size a
  hwx0_12 : ∀ i : grid0.Coords, EltTy.bits .f32 = 32 ∨ (Rect.block (s := S1x6144) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x6144.size a
  hwx0_13 : ∀ i : grid0.Coords, EltTy.bits .f32 = 32 ∨ (Rect.block (s := S1x6144) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S1x256.size a ≤ S1x2048.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x2048.size a
  hwx1_0 : ∀ i : grid1.Coords, EltTy.bits .f32 = 32 ∨ (Rect.block (s := S1x2048) S1x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S6144x2048.size a
  hwx1_2 : ∀ i : grid1.Coords, EltTy.bits .f32 = 32 ∨ (Rect.block (s := S6144x2048) S256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S6144x2048.size a
  hwx1_3 : ∀ i : grid1.Coords, EltTy.bits .f32 = 32 ∨ (Rect.block (s := S6144x2048) S256x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S6144x2048.size a
  hwx1_4 : ∀ i : grid1.Coords, EltTy.bits .f32 = 32 ∨ (Rect.block (s := S6144x2048) S256x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x2048.size a ≤ S6144x2048.size a
  hwx1_5 : ∀ i : grid1.Coords, EltTy.bits .f32 = 32 ∨ (Rect.block (s := S6144x2048) S256x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x2048.size a ≤ S6144x2048.size a
  hwx1_6 : ∀ i : grid1.Coords, EltTy.bits .f32 = 32 ∨ (Rect.block (s := S6144x2048) S256x2048.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x2048.size a ≤ S6144x2048.size a
  hwx1_7 : ∀ i : grid1.Coords, EltTy.bits .f32 = 32 ∨ (Rect.block (s := S6144x2048) S256x2048.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x6144.size a
  hwx1_8 : ∀ i : grid1.Coords, EltTy.bits .f32 = 32 ∨ (Rect.block (s := S1x6144) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x6144.size a
  hwx1_9 : ∀ i : grid1.Coords, EltTy.bits .f32 = 32 ∨ (Rect.block (s := S1x6144) S1x256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x6144.size a
  hwx1_10 : ∀ i : grid1.Coords, EltTy.bits .f32 = 32 ∨ (Rect.block (s := S1x6144) S1x256.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x6144.size a
  hwx1_11 : ∀ i : grid1.Coords, EltTy.bits .f32 = 32 ∨ (Rect.block (s := S1x6144) S1x256.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1x256.size a ≤ S1x6144.size a
  hwx1_12 : ∀ i : grid1.Coords, EltTy.bits .f32 = 32 ∨ (Rect.block (s := S1x6144) S1x256.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1x256.size a ≤ S1x6144.size a
  hwx1_13 : ∀ i : grid1.Coords, EltTy.bits .f32 = 32 ∨ (Rect.block (s := S1x6144) S1x256.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S1x256.size a ≤ S1x2048.size a
  hwx1_14 : ∀ i : grid1.Coords, EltTy.bits .f32 = 32 ∨ (Rect.block (s := S1x2048) S1x256.size (cc1_transform_14 i) (hinb1_14 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x2048.size a ≤ S1x2048.size a
  hwx2_0 : ∀ i : grid2.Coords, EltTy.bits .f32 = 32 ∨ (Rect.block (s := S1x2048) S1x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S100x2048.size a ≤ S100x2048.size a
  hwx2_1 : ∀ i : grid2.Coords, EltTy.bits .f32 = 32 ∨ (Rect.block (s := S100x2048) S100x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x100.size a ≤ S1x100.size a
  hwx2_2 : ∀ i : grid2.Coords, EltTy.bits .f32 = 32 ∨ (Rect.block (s := S1x100) S1x100.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x100.size a ≤ S1x100.size a
  hwx2_3 : ∀ i : grid2.Coords, EltTy.bits .f32 = 32 ∨ (Rect.block (s := S1x100) S1x100.size (cc2_transform_3 i) (hinb2_3 i)).WholeWords (EltTy.packing .f32)

variable [Facts₀]

def gather_S100x6_S1x1_S1x6_1_0_n_n_0_1_16 : GatherDims S100x6 S1x1 S1x6 where
  offsetDims := [1]
  collapsedSliceDims := [0]
  operandBatchingDims := []
  startIndicesBatchingDims := []
  startIndexMap := [0]
  indexVectorDim := 1
  sliceSizes := ![1, 6]
  wf := gather_S100x6_S1x1_S1x6_1_0_n_n_0_1_16_wf
def dot_S1x6_S256x6_S1x256_1_1_0_0_n_n : DotDims S1x6 S256x6 S1x256 where
  lhsContracting := [1]
  rhsContracting := [1]
  lhsNonContracting := [0]
  rhsNonContracting := [0]
  lhsBatch := []
  rhsBatch := []
  wf := dot_S1x6_S256x6_S1x256_1_1_0_0_n_n_wf
def dot_S1x2048_S256x2048_S1x256_1_1_0_0_n_n : DotDims S1x2048 S256x2048 S1x256 where
  lhsContracting := [1]
  rhsContracting := [1]
  lhsNonContracting := [0]
  rhsNonContracting := [0]
  lhsBatch := []
  rhsBatch := []
  wf := dot_S1x2048_S256x2048_S1x256_1_1_0_0_n_n_wf
def dot_S1x2048_S100x2048_S1x100_1_1_0_0_n_n : DotDims S1x2048 S100x2048 S1x100 where
  lhsContracting := [1]
  rhsContracting := [1]
  lhsNonContracting := [0]
  rhsNonContracting := [0]
  lhsBatch := []
  rhsBatch := []
  wf := dot_S1x2048_S100x2048_S1x100_1_1_0_0_n_n_wf

abbrev win0_0 : Pipeline.Window sig grid0 :=
  Pipeline.Window.ofSpec (Memref.whole main_v6) S1x6.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x6.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x6.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v16) S1x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v16) S1x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S256x2048.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S256x2048.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S256x2048.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v13) S1x256.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v13) S1x256.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v13) S1x256.size cc1_transform_10 reads1_10 false false 2 stage1_10 sem1_10
    hrank1 hreads1_10 hinb1_10 nbuf1_10 (Memref.isWhole_whole _) hwx1_10 hstage1_10

abbrev win1_11 : Pipeline.Window sig grid1 :=
  Pipeline.Window.ofSpec (Memref.whole main_v14) S1x256.size cc1_transform_11 reads1_11 false false 2 stage1_11 sem1_11
    hrank1 hreads1_11 hinb1_11 nbuf1_11 (Memref.isWhole_whole _) hwx1_11 hstage1_11

abbrev win1_12 : Pipeline.Window sig grid1 :=
  Pipeline.Window.ofSpec (Memref.whole main_v14) S1x256.size cc1_transform_12 reads1_12 false false 2 stage1_12 sem1_12
    hrank1 hreads1_12 hinb1_12 nbuf1_12 (Memref.isWhole_whole _) hwx1_12 hstage1_12

abbrev win1_13 : Pipeline.Window sig grid1 :=
  Pipeline.Window.ofSpec (Memref.whole main_v14) S1x256.size cc1_transform_13 reads1_13 false false 2 stage1_13 sem1_13
    hrank1 hreads1_13 hinb1_13 nbuf1_13 (Memref.isWhole_whole _) hwx1_13 hstage1_13

abbrev win1_14 : Pipeline.Window sig grid1 :=
  Pipeline.Window.ofSpec (Memref.whole main_v17) S1x256.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_v17) S1x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S100x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x100.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x100.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1 : Shape := ⟨1, ![1]⟩
abbrev S2x1x2048 : Shape := ⟨3, ![2, 1, 2048]⟩
abbrev S100x6 : Shape := ⟨2, ![100, 6]⟩
abbrev S6144x6 : Shape := ⟨2, ![6144, 6]⟩
abbrev S6144x2048 : Shape := ⟨2, ![6144, 2048]⟩
abbrev S6144 : Shape := ⟨1, ![6144]⟩
abbrev S100x2048 : Shape := ⟨2, ![100, 2048]⟩
abbrev S100 : Shape := ⟨1, ![100]⟩
abbrev S_ : Shape := ⟨0, ![]⟩
abbrev S1x1 : Shape := ⟨2, ![1, 1]⟩
abbrev S1x6 : Shape := ⟨2, ![1, 6]⟩
abbrev S1x1x2048 : Shape := ⟨3, ![1, 1, 2048]⟩
abbrev S1x2048 : Shape := ⟨2, ![1, 2048]⟩
abbrev S6x6144 : Shape := ⟨2, ![6, 6144]⟩
abbrev S1x6144 : Shape := ⟨2, ![1, 6144]⟩
abbrev S2048x6144 : Shape := ⟨2, ![2048, 6144]⟩
abbrev S2048x100 : Shape := ⟨2, ![2048, 100]⟩
abbrev S1x100 : Shape := ⟨2, ![1, 100]⟩
abbrev S1x1x100 : Shape := ⟨3, ![1, 1, 100]⟩

abbrev nBuf : Space → Nat
  | .hbm => 116
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x1x2048, .f32⟩
  | .hbm, ⟨2, _⟩ => ⟨S100x6, .f32⟩
  | .hbm, ⟨3, _⟩ => ⟨S6144x6, .f32⟩
  | .hbm, ⟨4, _⟩ => ⟨S6144x2048, .f32⟩
  | .hbm, ⟨5, _⟩ => ⟨S6144, .f32⟩
  | .hbm, ⟨6, _⟩ => ⟨S6144, .f32⟩
  | .hbm, ⟨7, _⟩ => ⟨S6144x2048, .f32⟩
  | .hbm, ⟨8, _⟩ => ⟨S6144x2048, .f32⟩
  | .hbm, ⟨9, _⟩ => ⟨S6144, .f32⟩
  | .hbm, ⟨10, _⟩ => ⟨S6144, .f32⟩
  | .hbm, ⟨11, _⟩ => ⟨S100x2048, .f32⟩
  | .hbm, ⟨12, _⟩ => ⟨S100, .f32⟩
  | .hbm, ⟨13, _⟩ => ⟨S_, .i32⟩
  | .hbm, ⟨14, _⟩ => ⟨S1, .i32⟩
  | .hbm, ⟨15, _⟩ => ⟨S1, .i1⟩
  | .hbm, ⟨16, _⟩ => ⟨S_, .i32⟩
  | .hbm, ⟨17, _⟩ => ⟨S1, .i32⟩
  | .hbm, ⟨18, _⟩ => ⟨S1, .i32⟩
  | .hbm, ⟨19, _⟩ => ⟨S1, .i32⟩
  | .hbm, ⟨20, _⟩ => ⟨S1x1, .i32⟩
  | .hbm, ⟨21, _⟩ => ⟨S1x6, .f32⟩
  | .hbm, ⟨22, _⟩ => ⟨S1x1x2048, .f32⟩
  | .hbm, ⟨23, _⟩ => ⟨S1x2048, .f32⟩
  | .hbm, ⟨24, _⟩ => ⟨S6x6144, .f32⟩
  | .hbm, ⟨25, _⟩ => ⟨S1x6144, .f32⟩
  | .hbm, ⟨26, _⟩ => ⟨S1x6144, .f32⟩
  | .hbm, ⟨27, _⟩ => ⟨S1x6144, .f32⟩
  | .hbm, ⟨28, _⟩ => ⟨S2048x6144, .f32⟩
  | .hbm, ⟨29, _⟩ => ⟨S1x6144, .f32⟩
  | .hbm, ⟨30, _⟩ => ⟨S1x6144, .f32⟩
  | .hbm, ⟨31, _⟩ => ⟨S1x6144, .f32⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S_, .f32⟩
  | .hbm, ⟨42, _⟩ => ⟨S1x2048, .f32⟩
  | .hbm, ⟨43, _⟩ => ⟨S1x2048, .f32⟩
  | .hbm, ⟨44, _⟩ => ⟨S_, .f32⟩
  | .hbm, ⟨45, _⟩ => ⟨S1x2048, .f32⟩
  | .hbm, ⟨46, _⟩ => ⟨S1x2048, .f32⟩
  | .hbm, ⟨47, _⟩ => ⟨S1x2048, .f32⟩
  | .hbm, ⟨48, _⟩ => ⟨S1x2048, .f32⟩
  | .hbm, ⟨49, _⟩ => ⟨S1x2048, .f32⟩
  | .hbm, ⟨50, _⟩ => ⟨S_, .f32⟩
  | .hbm, ⟨51, _⟩ => ⟨S1x2048, .f32⟩
  | .hbm, ⟨52, _⟩ => ⟨S1x2048, .f32⟩
  | .hbm, ⟨53, _⟩ => ⟨S_, .f32⟩
  | .hbm, ⟨54, _⟩ => ⟨S1x2048, .f32⟩
  | .hbm, ⟨55, _⟩ => ⟨S1x2048, .f32⟩
  | .hbm, ⟨56, _⟩ => ⟨S1x2048, .f32⟩
  | .hbm, ⟨57, _⟩ => ⟨S1x2048, .f32⟩
  | .hbm, ⟨58, _⟩ => ⟨S1x2048, .f32⟩
  | .hbm, ⟨59, _⟩ => ⟨S_, .f32⟩
  | .hbm, ⟨60, _⟩ => ⟨S1x2048, .f32⟩
  | .hbm, ⟨61, _⟩ => ⟨S1x2048, .f32⟩
  | .hbm, ⟨62, _⟩ => ⟨S1x2048, .f32⟩
  | .hbm, ⟨63, _⟩ => ⟨S1x2048, .f32⟩
  | .hbm, ⟨64, _⟩ => ⟨S1x2048, .f32⟩
  | .hbm, ⟨65, _⟩ => ⟨S1x1x2048, .f32⟩
  | .hbm, ⟨66, _⟩ => ⟨S1x2048, .f32⟩
  | .hbm, ⟨67, _⟩ => ⟨S2048x6144, .f32⟩
  | .hbm, ⟨68, _⟩ => ⟨S1x6144, .f32⟩
  | .hbm, ⟨69, _⟩ => ⟨S1x6144, .f32⟩
  | .hbm, ⟨70, _⟩ => ⟨S1x6144, .f32⟩
  | .hbm, ⟨71, _⟩ => ⟨S2048x6144, .f32⟩
  | .hbm, ⟨72, _⟩ => ⟨S1x6144, .f32⟩
  | .hbm, ⟨73, _⟩ => ⟨S1x6144, .f32⟩
  | .hbm, ⟨74, _⟩ => ⟨S1x6144, .f32⟩
  | .hbm, ⟨75, _⟩ => ⟨S1x2048, .f32⟩
  | .hbm, ⟨76, _⟩ => ⟨S1x2048, .f32⟩
  | .hbm, ⟨77, _⟩ => ⟨S1x2048, .f32⟩
  | .hbm, ⟨78, _⟩ => ⟨S1x2048, .f32⟩
  | .hbm, ⟨79, _⟩ => ⟨S1x2048, .f32⟩
  | .hbm, ⟨80, _⟩ => ⟨S1x2048, .f32⟩
  | .hbm, ⟨81, _⟩ => ⟨S1x2048, .f32⟩
  | .hbm, ⟨82, _⟩ => ⟨S1x2048, .f32⟩
  | .hbm, ⟨83, _⟩ => ⟨S1x2048, .f32⟩
  | .hbm, ⟨84, _⟩ => ⟨S_, .f32⟩
  | .hbm, ⟨85, _⟩ => ⟨S1x2048, .f32⟩
  | .hbm, ⟨86, _⟩ => ⟨S1x2048, .f32⟩
  | .hbm, ⟨87, _⟩ => ⟨S_, .f32⟩
  | .hbm, ⟨88, _⟩ => ⟨S1x2048, .f32⟩
  | .hbm, ⟨89, _⟩ => ⟨S1x2048, .f32⟩
  | .hbm, ⟨90, _⟩ => ⟨S1x2048, .f32⟩
  | .hbm, ⟨91, _⟩ => ⟨S1x2048, .f32⟩
  | .hbm, ⟨92, _⟩ => ⟨S1x2048, .f32⟩
  | .hbm, ⟨93, _⟩ => ⟨S_, .f32⟩
  | .hbm, ⟨94, _⟩ => ⟨S1x2048, .f32⟩
  | .hbm, ⟨95, _⟩ => ⟨S1x2048, .f32⟩
  | .hbm, ⟨96, _⟩ => ⟨S_, .f32⟩
  | .hbm, ⟨97, _⟩ => ⟨S1x2048, .f32⟩
  | .hbm, ⟨98, _⟩ => ⟨S1x2048, .f32⟩
  | .hbm, ⟨99, _⟩ => ⟨S1x2048, .f32⟩
  | .hbm, ⟨100, _⟩ => ⟨S1x2048, .f32⟩
  | .hbm, ⟨101, _⟩ => ⟨S1x2048, .f32⟩
  | .hbm, ⟨102, _⟩ => ⟨S_, .f32⟩
  | .hbm, ⟨103, _⟩ => ⟨S1x2048, .f32⟩
  | .hbm, ⟨104, _⟩ => ⟨S1x2048, .f32⟩
  | .hbm, ⟨105, _⟩ => ⟨S1x2048, .f32⟩
  | .hbm, ⟨106, _⟩ => ⟨S1x2048, .f32⟩
  | .hbm, ⟨107, _⟩ => ⟨S1x2048, .f32⟩
  | .hbm, ⟨108, _⟩ => ⟨S1x1x2048, .f32⟩
  | .hbm, ⟨109, _⟩ => ⟨S1x1x2048, .f32⟩
  | .hbm, ⟨110, _⟩ => ⟨S2x1x2048, .f32⟩
  | .hbm, ⟨111, _⟩ => ⟨S2048x100, .f32⟩
  | .hbm, ⟨112, _⟩ => ⟨S1x100, .f32⟩
  | .hbm, ⟨113, _⟩ => ⟨S1x100, .f32⟩
  | .hbm, ⟨114, _⟩ => ⟨S1x100, .f32⟩
  | .hbm, ⟨115, _⟩ => ⟨S1x1x100, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_2 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_5 : Ref sig .tc := ⟨.hbm, 84, rfl⟩
abbrev main_v64 : Ref sig .tc := ⟨.hbm, 85, rfl⟩
abbrev main_v65 : Ref sig .tc := ⟨.hbm, 86, rfl⟩
abbrev main_cst_6 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_7 : Ref sig .tc := ⟨.hbm, 93, rfl⟩
abbrev main_v71 : Ref sig .tc := ⟨.hbm, 94, rfl⟩
abbrev main_v72 : Ref sig .tc := ⟨.hbm, 95, rfl⟩
abbrev main_cst_8 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_9 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  slices_S2x1x2048_S1x1x2048_0_0_0 : S2x1x2048.Slices ![0, 0, 0] S1x1x2048
  shapeCasts_S1x1x2048_S1x2048 : S1x1x2048.ShapeCasts S1x2048
  transposes_S6144x6_S6x6144_1_0 : S6144x6.Transposes [1, 0] S6x6144
  bcast_S6144_S1x6144_1 : S6144.BroadcastsInDim S1x6144 (![1] : Fin 1 → Fin S1x6144.rank)
  transposes_S6144x2048_S2048x6144_1_0 : S6144x2048.Transposes [1, 0] S2048x6144
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  bcast_S_S1x2048 : S_.BroadcastsInDim S1x2048 (![] : Fin 0 → Fin S1x2048.rank)
  slices_S2x1x2048_S1x1x2048_1_0_0 : S2x1x2048.Slices ![1, 0, 0] S1x1x2048
  bcast_S1x2048_S1x1x2048_1_2 : S1x2048.BroadcastsInDim S1x1x2048 (![1, 2] : Fin 2 → Fin S1x1x2048.rank)
  concatenates_S1x1x2048_S1x1x2048_S2x1x2048_d0 : Shape.Concatenates [S1x1x2048, S1x1x2048] S2x1x2048 0
  transposes_S100x2048_S2048x100_1_0 : S100x2048.Transposes [1, 0] S2048x100
  bcast_S100_S1x100_1 : S100.BroadcastsInDim S1x100 (![1] : Fin 1 → Fin S1x100.rank)
  bcast_S1x100_S1x1x100_1_2 : S1x100.BroadcastsInDim S1x1x100 (![1, 2] : Fin 2 → Fin S1x1x100.rank)
  gather_S100x6_S1x1_S1x6_1_0_n_n_0_1_16_wf : GatherDims.WF S100x6 S1x1 S1x6 [1] [0] [] [0] [] 1 ![1, 6]
  dot_S1x6_S6x6144_S1x6144_1_0_0_1_n_n_wf : DotDims.WF S1x6 S6x6144 S1x6144 [1] [0] [0] [1] [] []
  dot_S1x2048_S2048x6144_S1x6144_1_0_0_1_n_n_wf : DotDims.WF S1x2048 S2048x6144 S1x6144 [1] [0] [0] [1] [] []
  dot_S1x2048_S2048x100_S1x100_1_0_0_1_n_n_wf : DotDims.WF S1x2048 S2048x100 S1x100 [1] [0] [0] [1] [] []

variable [Facts₀]

def gather_S100x6_S1x1_S1x6_1_0_n_n_0_1_16 : GatherDims S100x6 S1x1 S1x6 where
  offsetDims := [1]
  collapsedSliceDims := [0]
  operandBatchingDims := []
  startIndicesBatchingDims := []
  startIndexMap := [0]
  indexVectorDim := 1
  sliceSizes := ![1, 6]
  wf := gather_S100x6_S1x1_S1x6_1_0_n_n_0_1_16_wf
def dot_S1x6_S6x6144_S1x6144_1_0_0_1_n_n : DotDims S1x6 S6x6144 S1x6144 where
  lhsContracting := [1]
  rhsContracting := [0]
  lhsNonContracting := [0]
  rhsNonContracting := [1]
  lhsBatch := []
  rhsBatch := []
  wf := dot_S1x6_S6x6144_S1x6144_1_0_0_1_n_n_wf
def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf
def dot_S1x2048_S2048x100_S1x100_1_0_0_1_n_n : DotDims S1x2048 S2048x100 S1x100 where
  lhsContracting := [1]
  rhsContracting := [0]
  lhsNonContracting := [0]
  rhsNonContracting := [1]
  lhsBatch := []
  rhsBatch := []
  wf := dot_S1x2048_S2048x100_S1x100_1_0_0_1_n_n_wf

class Facts : Prop extends Facts₀ where

variable [Facts]
-- ==== Proof.K.Data.lean ====
import proofs.«106570_j81046032876009_1_alg».proof.Proof.Gen.Kernel.Launch
import proofs.«106570_j81046032876009_1_alg».proof.Proof.Gen.Kernel.Skeleton
import proofs.«106570_j81046032876009_1_alg».proof.Proof.Gen.Kernel.Points
import Idealize.ShloMosaic.Lib.Pipeline.FrameBody
import Idealize.ShloMosaic.Lib.Pipeline.Frame
import Idealize.ShloMosaic.Lib.Pipeline.Kit

noncomputable section

namespace Cert.Kernel.Gen

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! # What each of the three calls computes, as proof data

The two recurrent-cell calls walk the 2048 hidden entries in 8 blocks of 256; the decoder call has one point. -/

/-- What one grid point of the layer-0 cell leaves in its output block: the block's one store, over the whole
    block, of the cell's value computed from the point's input blocks (the gate weights' row blocks, the bias blocks, the
    input row, the whole previous hidden row and its 256 entries at the point's offset). -/
def out0_14 (i : grid0.Coords) (x0 : Vec F S1x6 .f32) (x1 : Vec F S1x2048 .f32) (x2 : Vec F S256x6 .f32) (x3 : Vec F S256x6 .f32) (x4 : Vec F S256x6 .f32) (x5 : Vec F S256x2048 .f32) (x6 : Vec F S256x2048 .f32) (x7 : Vec F S256x2048 .f32) (x8 : Vec F S1x256 .f32) (x9 : Vec F S1x256 .f32) (x10 : Vec F S1x256 .f32) (x11 : Vec F S1x256 .f32) (x12 : Vec F S1x256 .f32) (x13 : Vec F S1x256 .f32) : Vec F S1x256 .f32 :=
  View.canon [⟨(Rect.unit (s := S1x256) ![0, 0] S1x256.size inb_S1x256_S1x256_0_0), k0_pay1 (k0_pay3 (View.ld x1 (Rect.unit (s := S1x2048) ![0, 0] S1x2048.size inb_S1x2048_S1x2048_0_0))) (k0_pay4 (View.ld x0 (Rect.unit (s := S1x6) ![0, 0] S1x6.size inb_S1x6_S1x6_0_0)) (View.ld x2 (Rect.unit (s := S256x6) ![0, 0] S256x6.size inb_S256x6_S256x6_0_0)) (View.ld x8 (Rect.unit (s := S1x256) ![0, 0] S1x256.size inb_S1x256_S1x256_0_0))) (k0_pay5 (View.ld x0 (Rect.unit (s := S1x6) ![0, 0] S1x6.size inb_S1x6_S1x6_0_0)) (View.ld x3 (Rect.unit (s := S256x6) ![0, 0] S256x6.size inb_S256x6_S256x6_0_0)) (View.ld x9 (Rect.unit (s := S1x256) ![0, 0] S1x256.size inb_S1x256_S1x256_0_0))) (k0_pay6 (View.ld x0 (Rect.unit (s := S1x6) ![0, 0] S1x6.size inb_S1x6_S1x6_0_0)) (View.ld x4 (Rect.unit (s := S256x6) ![0, 0] S256x6.size inb_S256x6_S256x6_0_0)) (View.ld x10 (Rect.unit (s := S1x256) ![0, 0] S1x256.size inb_S1x256_S1x256_0_0))) (k0_pay7 (View.ld x1 (Rect.unit (s := S1x2048) ![0, 0] S1x2048.size inb_S1x2048_S1x2048_0_0)) (View.ld x5 (Rect.unit (s := S256x2048) ![0, 0] S256x2048.size inb_S256x2048_S256x2048_0_0)) (View.ld x11 (Rect.unit (s := S1x256) ![0, 0] S1x256.size inb_S1x256_S1x256_0_0))) (View.ld x6 (Rect.unit (s := S256x2048) ![0, 0] S256x2048.size inb_S256x2048_S256x2048_0_0)) (View.ld x12 (Rect.unit (s := S1x256) ![0, 0] S1x256.size inb_S1x256_S1x256_0_0)) (View.ld x7 (Rect.unit (s := S256x2048) ![0, 0] S256x2048.size inb_S256x2048_S256x2048_0_0)) (View.ld x13 (Rect.unit (s := S1x256) ![0, 0] S1x256.size inb_S1x256_S1x256_0_0)) (View.ld x1 (Rect.unit (s := S1x2048) (k0_off1 i) S1x256.size (k0_off1_inb i)))⟩]

/-- What one grid point of the layer-1 cell leaves in its output block: the block's one store, over the whole
    block, of the cell's value computed from the point's input blocks (the gate weights' row blocks, the bias blocks, the
    input row, the whole previous hidden row and its 256 entries at the point's offset). -/
def out1_14 (i : grid1.Coords) (x0 : Vec F S1x2048 .f32) (x1 : Vec F S1x2048 .f32) (x2 : Vec F S256x2048 .f32) (x3 : Vec F S256x2048 .f32) (x4 : Vec F S256x2048 .f32) (x5 : Vec F S256x2048 .f32) (x6 : Vec F S256x2048 .f32) (x7 : Vec F S256x2048 .f32) (x8 : Vec F S1x256 .f32) (x9 : Vec F S1x256 .f32) (x10 : Vec F S1x256 .f32) (x11 : Vec F S1x256 .f32) (x12 : Vec F S1x256 .f32) (x13 : Vec F S1x256 .f32) : Vec F S1x256 .f32 :=
  View.canon [⟨(Rect.unit (s := S1x256) ![0, 0] S1x256.size inb_S1x256_S1x256_0_0), k1_pay1 (k1_pay3 (View.ld x1 (Rect.unit (s := S1x2048) ![0, 0] S1x2048.size inb_S1x2048_S1x2048_0_0))) (k1_pay4 (View.ld x0 (Rect.unit (s := S1x2048) ![0, 0] S1x2048.size inb_S1x2048_S1x2048_0_0)) (View.ld x2 (Rect.unit (s := S256x2048) ![0, 0] S256x2048.size inb_S256x2048_S256x2048_0_0)) (View.ld x8 (Rect.unit (s := S1x256) ![0, 0] S1x256.size inb_S1x256_S1x256_0_0))) (k1_pay5 (View.ld x0 (Rect.unit (s := S1x2048) ![0, 0] S1x2048.size inb_S1x2048_S1x2048_0_0)) (View.ld x3 (Rect.unit (s := S256x2048) ![0, 0] S256x2048.size inb_S256x2048_S256x2048_0_0)) (View.ld x9 (Rect.unit (s := S1x256) ![0, 0] S1x256.size inb_S1x256_S1x256_0_0))) (k1_pay6 (View.ld x0 (Rect.unit (s := S1x2048) ![0, 0] S1x2048.size inb_S1x2048_S1x2048_0_0)) (View.ld x4 (Rect.unit (s := S256x2048) ![0, 0] S256x2048.size inb_S256x2048_S256x2048_0_0)) (View.ld x10 (Rect.unit (s := S1x256) ![0, 0] S1x256.size inb_S1x256_S1x256_0_0))) (k1_pay7 (View.ld x1 (Rect.unit (s := S1x2048) ![0, 0] S1x2048.size inb_S1x2048_S1x2048_0_0)) (View.ld x5 (Rect.unit (s := S256x2048) ![0, 0] S256x2048.size inb_S256x2048_S256x2048_0_0)) (View.ld x11 (Rect.unit (s := S1x256) ![0, 0] S1x256.size inb_S1x256_S1x256_0_0))) (View.ld x6 (Rect.unit (s := S256x2048) ![0, 0] S256x2048.size inb_S256x2048_S256x2048_0_0)) (View.ld x12 (Rect.unit (s := S1x256) ![0, 0] S1x256.size inb_S1x256_S1x256_0_0)) (View.ld x7 (Rect.unit (s := S256x2048) ![0, 0] S256x2048.size inb_S256x2048_S256x2048_0_0)) (View.ld x13 (Rect.unit (s := S1x256) ![0, 0] S1x256.size inb_S1x256_S1x256_0_0)) (View.ld x1 (Rect.unit (s := S1x2048) (k1_off1 i) S1x256.size (k1_off1_inb i)))⟩]

/-- What the decoder's one grid point leaves in its output block: one store, over the whole block, of the row times the
    transposed weight plus the bias. -/
def out2_3 (x0 : Vec F S1x2048 .f32) (x1 : Vec F S100x2048 .f32) (x2 : Vec F S1x100 .f32) : Vec F S1x100 .f32 :=
  View.canon [⟨(Rect.unit (s := S1x100) ![0, 0] S1x100.size inb_S1x100_S1x100_0_0), k2_pay1 (View.ld x0 (Rect.unit (s := S1x2048) ![0, 0] S1x2048.size inb_S1x2048_S1x2048_0_0)) (View.ld x1 (Rect.unit (s := S100x2048) ![0, 0] S100x2048.size inb_S100x2048_S100x2048_0_0)) (View.ld x2 (Rect.unit (s := S1x100) ![0, 0] S1x100.size inb_S1x100_S1x100_0_0))⟩]

section
variable (V : (c : Dev nD) → (b : Ref sig .tc) → Buf (Elt F) ((c : Thread nD τ).loc b))

/-- Window `w`'s block at grid point `t` of call 0, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block at grid point `t` of call 1, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window `w`'s block at grid point `t` of call 2, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The share of each input array a window of call 0 holds: the three gate windows on one weight (or bias) array
    hold a third of it each (the left half, and the two halves of the right half); the others all of it. -/
def q0 : Fin 15 → PosShare TreeShare := fun
  | 2 => fullShare.left | 3 => fullShare.right.left | 4 => fullShare.right.right
  | 5 => fullShare.left | 6 => fullShare.right.left | 7 => fullShare.right.right
  | 8 => fullShare.left | 9 => fullShare.right.left | 10 => fullShare.right.right
  | 11 => fullShare.left | 12 => fullShare.right.left | 13 => fullShare.right.right
  | _ => fullShare

/-- The share of each input array a window of call 1 holds: the three gate windows on one weight (or bias) array
    hold a third of it each (the left half, and the two halves of the right half); the others all of it. -/
def q1 : Fin 15 → PosShare TreeShare := fun
  | 2 => fullShare.left | 3 => fullShare.right.left | 4 => fullShare.right.right
  | 5 => fullShare.left | 6 => fullShare.right.left | 7 => fullShare.right.right
  | 8 => fullShare.left | 9 => fullShare.right.left | 10 => fullShare.right.right
  | 11 => fullShare.left | 12 => fullShare.right.left | 13 => fullShare.right.right
  | _ => fullShare

/-- The proof data of call 0 on core `c`: the arrays as the call finds them; after the body at point `t` every input
    block in place and the output block at the cell's value; nothing kept between points but the scoped rest and the
    generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
  Φ _ := Pipeline.ΦA spec0 c
  q := q0
  owed _ := 0

/-- The proof data of call 1 on core `c`: the arrays as the call finds them; after the body at point `t` every input
    block in place and the output block at the cell's value; nothing kept between points but the scoped rest and the
    generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => out1_14 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
  Φ _ := Pipeline.ΦA spec1 c
  q := q1
  owed _ := 0

/-- The proof data of the decoder call on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

end

end Cert.Kernel.Gen

end
-- ==== Proof.K.Shares.lean ====
import proofs.«106570_j81046032876009_1_alg».proof.Proof.K.Data
import Idealize.ShloMosaic.Lib.Pipeline.Regions
import Idealize.ShloMosaic.Lib.Pipeline.RegionsLoop

/-!
# One array behind three windows

In each recurrent-cell call the three gate windows of a weight (or bias) array read the SAME array. At the call's
entry the array, held whole, is divided among its three windows (a half, and the two halves of the other half); at
the exit the three parts, still holding the entry contents, are put together again. The output array is held whole
by its one window throughout.
-/

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An array held whole is the same array held in three parts: a half, and the two halves of the other half. -/
theorem thirds {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  constructor
  · iintro H
    ihave H := (pointsTo_share (PosShare.mem_left_op_right fullShare)).1 $$ H
    icases H with ⟨H0, H⟩
    ihave H := (pointsTo_share (PosShare.mem_left_op_right fullShare.right)).1 $$ H
    icases H with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

/-! ## Call 0 -/

/-- The distinct arrays behind call 0's fifteen windows. -/
theorem arrs0 : Finset.univ.image (Pipeline.arrRef spec0) = ([main_v6, main_v8, main_arg3, main_arg4, main_v11, main_v12, main_v16] : List (Ref sig .tc)).toFinset := by decide

/-- The seven arrays held whole at contents `V'`, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v6) ↦{fullShare} V' main_v6) ∗ (((c : Thread nD τ).loc main_v8) ↦{fullShare} V' main_v8) ∗ (((c : Thread nD τ).loc main_arg3) ↦{fullShare} V' main_arg3) ∗ (((c : Thread nD τ).loc main_arg4) ↦{fullShare} V' main_arg4) ∗ (((c : Thread nD τ).loc main_v11) ↦{fullShare} V' main_v11) ∗ (((c : Thread nD τ).loc main_v12) ↦{fullShare} V' main_v12) ∗ (((c : Thread nD τ).loc main_v16) ↦{fullShare} V' main_v16)) := by
  unfold Pipeline.arrBufs
  exact bigSep_eq_bigSepL_of_eq [main_v6, main_v8, main_arg3, main_arg4, main_v11, main_v12, main_v16] arrs0 (by decide) _

/-- The call's arrays, window by window, each a whole buffer at its window's share. -/
theorem arrays0_eq (c : Dev nD) (G : (w : Fin cfg0.W) → Buf (Elt F) ((cfg0.win w).arr.view.loc (c : Thread nD τ))) :
    ((dat0 V c).arrays G : sProp 𝕄)
      = bigSep Finset.univ fun w => (((c : Thread nD τ).loc (Pipeline.arrRef spec0 w)) ↦{(dat0 V c).share w} G w : sProp 𝕄) := by
  unfold Dat.arrays
  exact bigSep_congr fun w _ => by rw [(arr_whole0 w).set_eq_univ]

/-- The fifteen windows' arrays at given contents, one by one, each at its window's share of its array. -/
theorem arrays0_list (c : Dev nD) (G : (w : Fin cfg0.W) → Buf (Elt F) ((cfg0.win w).arr.view.loc (c : Thread nD τ))) :
    ((dat0 V c).arrays G : sProp 𝕄) = iprop((((c : Thread nD τ).loc main_v6) ↦{fullShare} G 0) ∗ (((c : Thread nD τ).loc main_v8) ↦{fullShare} G 1) ∗ (((c : Thread nD τ).loc main_arg3) ↦{fullShare.left} G 2) ∗ (((c : Thread nD τ).loc main_arg3) ↦{fullShare.right.left} G 3) ∗ (((c : Thread nD τ).loc main_arg3) ↦{fullShare.right.right} G 4) ∗ (((c : Thread nD τ).loc main_arg4) ↦{fullShare.left} G 5) ∗ (((c : Thread nD τ).loc main_arg4) ↦{fullShare.right.left} G 6) ∗ (((c : Thread nD τ).loc main_arg4) ↦{fullShare.right.right} G 7) ∗ (((c : Thread nD τ).loc main_v11) ↦{fullShare.left} G 8) ∗ (((c : Thread nD τ).loc main_v11) ↦{fullShare.right.left} G 9) ∗ (((c : Thread nD τ).loc main_v11) ↦{fullShare.right.right} G 10) ∗ (((c : Thread nD τ).loc main_v12) ↦{fullShare.left} G 11) ∗ (((c : Thread nD τ).loc main_v12) ↦{fullShare.right.left} G 12) ∗ (((c : Thread nD τ).loc main_v12) ↦{fullShare.right.right} G 13) ∗ (((c : Thread nD τ).loc main_v16) ↦{fullShare} G 14)) := by
  rw [arrays0_eq, bigSep_W0]
  rfl

/-- An input window's array is never written: after all the write-backs it holds the entry contents. -/
theorem in_eq0 (c : Dev nD) (w : Fin cfg0.W) (hw : (cfg0.win w).isOut = false) :
    (dat0 V c).arrAt w cfg0.N = V c (Pipeline.arrRef spec0 w) :=
  ((dat0 V c).arrAt_in w hw _).trans (by dsimp only [dat0])

/-- The seven whole arrays and the fifteen windows' parts of them, at one family of contents. -/
theorem parts0 (c : Dev nD) (f : (b : Ref sig .tc) → Buf (Elt F) ((c : Thread nD τ).loc b)) :
    (iprop((((c : Thread nD τ).loc main_v6) ↦{fullShare} f main_v6) ∗ (((c : Thread nD τ).loc main_v8) ↦{fullShare} f main_v8) ∗ (((c : Thread nD τ).loc main_arg3) ↦{fullShare} f main_arg3) ∗ (((c : Thread nD τ).loc main_arg4) ↦{fullShare} f main_arg4) ∗ (((c : Thread nD τ).loc main_v11) ↦{fullShare} f main_v11) ∗ (((c : Thread nD τ).loc main_v12) ↦{fullShare} f main_v12) ∗ (((c : Thread nD τ).loc main_v16) ↦{fullShare} f main_v16)) : sProp 𝕄)
      ⊣⊢ iprop((((c : Thread nD τ).loc main_v6) ↦{fullShare} f main_v6) ∗ (((c : Thread nD τ).loc main_v8) ↦{fullShare} f main_v8) ∗ (((c : Thread nD τ).loc main_arg3) ↦{fullShare.left} f main_arg3) ∗ (((c : Thread nD τ).loc main_arg3) ↦{fullShare.right.left} f main_arg3) ∗ (((c : Thread nD τ).loc main_arg3) ↦{fullShare.right.right} f main_arg3) ∗ (((c : Thread nD τ).loc main_arg4) ↦{fullShare.left} f main_arg4) ∗ (((c : Thread nD τ).loc main_arg4) ↦{fullShare.right.left} f main_arg4) ∗ (((c : Thread nD τ).loc main_arg4) ↦{fullShare.right.right} f main_arg4) ∗ (((c : Thread nD τ).loc main_v11) ↦{fullShare.left} f main_v11) ∗ (((c : Thread nD τ).loc main_v11) ↦{fullShare.right.left} f main_v11) ∗ (((c : Thread nD τ).loc main_v11) ↦{fullShare.right.right} f main_v11) ∗ (((c : Thread nD τ).loc main_v12) ↦{fullShare.left} f main_v12) ∗ (((c : Thread nD τ).loc main_v12) ↦{fullShare.right.left} f main_v12) ∗ (((c : Thread nD τ).loc main_v12) ↦{fullShare.right.right} f main_v12) ∗ (((c : Thread nD τ).loc main_v16) ↦{fullShare} f main_v16)) := by
  constructor
  · iintro ⟨Hx, Hh, Hwi, Hwh, Hbi, Hbh, Ho⟩
    ihave Hwi := (thirds _).1 $$ Hwi
    icases Hwi with ⟨Hwi0, Hwi1, Hwi2⟩
    ihave Hwh := (thirds _).1 $$ Hwh
    icases Hwh with ⟨Hwh0, Hwh1, Hwh2⟩
    ihave Hbi := (thirds _).1 $$ Hbi
    icases Hbi with ⟨Hbi0, Hbi1, Hbi2⟩
    ihave Hbh := (thirds _).1 $$ Hbh
    icases Hbh with ⟨Hbh0, Hbh1, Hbh2⟩
    isplitl [Hx]; · iexact Hx
    isplitl [Hh]; · iexact Hh
    isplitl [Hwi0]; · iexact Hwi0
    isplitl [Hwi1]; · iexact Hwi1
    isplitl [Hwi2]; · iexact Hwi2
    isplitl [Hwh0]; · iexact Hwh0
    isplitl [Hwh1]; · iexact Hwh1
    isplitl [Hwh2]; · iexact Hwh2
    isplitl [Hbi0]; · iexact Hbi0
    isplitl [Hbi1]; · iexact Hbi1
    isplitl [Hbi2]; · iexact Hbi2
    isplitl [Hbh0]; · iexact Hbh0
    isplitl [Hbh1]; · iexact Hbh1
    isplitl [Hbh2]; · iexact Hbh2
    iexact Ho
  · iintro ⟨Hx, Hh, Hwi0, Hwi1, Hwi2, Hwh0, Hwh1, Hwh2, Hbi0, Hbi1, Hbi2, Hbh0, Hbh1, Hbh2, Ho⟩
    isplitl [Hx]; · iexact Hx
    isplitl [Hh]; · iexact Hh
    isplitl [Hwi0 Hwi1 Hwi2]
    · iapply (thirds _).2
      isplitl [Hwi0]; · iexact Hwi0
      isplitl [Hwi1]; · iexact Hwi1
      iexact Hwi2
    isplitl [Hwh0 Hwh1 Hwh2]
    · iapply (thirds _).2
      isplitl [Hwh0]; · iexact Hwh0
      isplitl [Hwh1]; · iexact Hwh1
      iexact Hwh2
    isplitl [Hbi0 Hbi1 Hbi2]
    · iapply (thirds _).2
      isplitl [Hbi0]; · iexact Hbi0
      isplitl [Hbi1]; · iexact Hbi1
      iexact Hbi2
    isplitl [Hbh0 Hbh1 Hbh2]
    · iapply (thirds _).2
      isplitl [Hbh0]; · iexact Hbh0
      isplitl [Hbh1]; · iexact Hbh1
      iexact Hbh2
    iexact Ho

/-- ENTRY: the seven arrays held whole at the entry contents are the fifteen windows' arrays at the proof data's
    entry contents, a shared array divided among its three windows. -/
theorem hsplit0 (c : Dev nD) :
    (Pipeline.arrBufs (Ix := Unit) (Name := ℕ) (U := UR sig nD τ) (Lvl := ℕ) spec0 c (V c) : sProp 𝕄)
      ⊢ (dat0 V c).arrays ((dat0 V c).arrAt · 0) := by
  rw [arrBufs0_eq, arrays0_list]
  exact (parts0 c (V c)).1

set_option maxHeartbeats 4000000 in
/-- The windows' arrays after all the write-backs, one by one: every input array at the entry contents, the output array at
    what the write-backs left. -/
theorem arrays0_exit (c : Dev nD) (V' : (b : Ref sig .tc) → Buf (Elt F) ((c : Thread nD τ).loc b))
    (hout : V' main_v16 = (dat0 V c).arrAt 14 cfg0.N) (hrest : ∀ b, b ≠ main_v16 → V' b = V c b) :
    ((dat0 V c).arrays ((dat0 V c).arrAt · cfg0.N) : sProp 𝕄) = iprop((((c : Thread nD τ).loc main_v6) ↦{fullShare} V' main_v6) ∗ (((c : Thread nD τ).loc main_v8) ↦{fullShare} V' main_v8) ∗ (((c : Thread nD τ).loc main_arg3) ↦{fullShare.left} V' main_arg3) ∗ (((c : Thread nD τ).loc main_arg3) ↦{fullShare.right.left} V' main_arg3) ∗ (((c : Thread nD τ).loc main_arg3) ↦{fullShare.right.right} V' main_arg3) ∗ (((c : Thread nD τ).loc main_arg4) ↦{fullShare.left} V' main_arg4) ∗ (((c : Thread nD τ).loc main_arg4) ↦{fullShare.right.left} V' main_arg4) ∗ (((c : Thread nD τ).loc main_arg4) ↦{fullShare.right.right} V' main_arg4) ∗ (((c : Thread nD τ).loc main_v11) ↦{fullShare.left} V' main_v11) ∗ (((c : Thread nD τ).loc main_v11) ↦{fullShare.right.left} V' main_v11) ∗ (((c : Thread nD τ).loc main_v11) ↦{fullShare.right.right} V' main_v11) ∗ (((c : Thread nD τ).loc main_v12) ↦{fullShare.left} V' main_v12) ∗ (((c : Thread nD τ).loc main_v12) ↦{fullShare.right.left} V' main_v12) ∗ (((c : Thread nD τ).loc main_v12) ↦{fullShare.right.right} V' main_v12) ∗ (((c : Thread nD τ).loc main_v16) ↦{fullShare} V' main_v16)) := by
  rw [arrays0_list]
  have hx := hrest main_v6 (by decide)
  have hh := hrest main_v8 (by decide)
  have hwi := hrest main_arg3 (by decide)
  have hwh := hrest main_arg4 (by decide)
  have hbi := hrest main_v11 (by decide)
  have hbh := hrest main_v12 (by decide)
  rw [hx, hh, hwi, hwh, hbi, hbh, hout]
  refine congrArg₂ _ (congrArg _ (in_eq0 V c 0 rfl)) (congrArg₂ _ (congrArg _ (in_eq0 V c 1 rfl)) (congrArg₂ _ (congrArg _ (in_eq0 V c 2 rfl))
    (congrArg₂ _ (congrArg _ (in_eq0 V c 3 rfl)) (congrArg₂ _ (congrArg _ (in_eq0 V c 4 rfl)) (congrArg₂ _ (congrArg _ (in_eq0 V c 5 rfl))
    (congrArg₂ _ (congrArg _ (in_eq0 V c 6 rfl)) (congrArg₂ _ (congrArg _ (in_eq0 V c 7 rfl)) (congrArg₂ _ (congrArg _ (in_eq0 V c 8 rfl))
    (congrArg₂ _ (congrArg _ (in_eq0 V c 9 rfl)) (congrArg₂ _ (congrArg _ (in_eq0 V c 10 rfl)) (congrArg₂ _ (congrArg _ (in_eq0 V c 11 rfl))
    (congrArg₂ _ (congrArg _ (in_eq0 V c 12 rfl)) (congrArg₂ _ (congrArg _ (in_eq0 V c 13 rfl)) rfl)))))))))))))

/-- EXIT: the fifteen windows' arrays at what the write-backs leave — every input array as it was, the output array
    rewritten — are the seven arrays held whole at any contents `V'` that has the output array so and agrees with
    the entry contents elsewhere. -/
theorem hjoin0 (c : Dev nD) (V' : (b : Ref sig .tc) → Buf (Elt F) ((c : Thread nD τ).loc b))
    (hout : V' main_v16 = (dat0 V c).arrAt 14 cfg0.N) (hrest : ∀ b, b ≠ main_v16 → V' b = V c b) :
    ((dat0 V c).arrays ((dat0 V c).arrAt · cfg0.N) : sProp 𝕄)
      ⊢ Pipeline.arrBufs (Ix := Unit) (Name := ℕ) (U := UR sig nD τ) (Lvl := ℕ) spec0 c V' := by
  rw [arrBufs0_eq, arrays0_exit V c V' hout hrest]
  exact (parts0 c V').2

/-! ## Call 1 -/

/-- The distinct arrays behind call 1's fifteen windows. -/
theorem arrs1 : Finset.univ.image (Pipeline.arrRef spec1) = ([main_v16, main_v10, main_arg7, main_arg8, main_v13, main_v14, main_v17] : List (Ref sig .tc)).toFinset := by decide

/-- The seven arrays held whole at contents `V'`, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v16) ↦{fullShare} V' main_v16) ∗ (((c : Thread nD τ).loc main_v10) ↦{fullShare} V' main_v10) ∗ (((c : Thread nD τ).loc main_arg7) ↦{fullShare} V' main_arg7) ∗ (((c : Thread nD τ).loc main_arg8) ↦{fullShare} V' main_arg8) ∗ (((c : Thread nD τ).loc main_v13) ↦{fullShare} V' main_v13) ∗ (((c : Thread nD τ).loc main_v14) ↦{fullShare} V' main_v14) ∗ (((c : Thread nD τ).loc main_v17) ↦{fullShare} V' main_v17)) := by
  unfold Pipeline.arrBufs
  exact bigSep_eq_bigSepL_of_eq [main_v16, main_v10, main_arg7, main_arg8, main_v13, main_v14, main_v17] arrs1 (by decide) _

/-- The call's arrays, window by window, each a whole buffer at its window's share. -/
theorem arrays1_eq (c : Dev nD) (G : (w : Fin cfg1.W) → Buf (Elt F) ((cfg1.win w).arr.view.loc (c : Thread nD τ))) :
    ((dat1 V c).arrays G : sProp 𝕄)
      = bigSep Finset.univ fun w => (((c : Thread nD τ).loc (Pipeline.arrRef spec1 w)) ↦{(dat1 V c).share w} G w : sProp 𝕄) := by
  unfold Dat.arrays
  exact bigSep_congr fun w _ => by rw [(arr_whole1 w).set_eq_univ]

/-- The fifteen windows' arrays at given contents, one by one, each at its window's share of its array. -/
theorem arrays1_list (c : Dev nD) (G : (w : Fin cfg1.W) → Buf (Elt F) ((cfg1.win w).arr.view.loc (c : Thread nD τ))) :
    ((dat1 V c).arrays G : sProp 𝕄) = iprop((((c : Thread nD τ).loc main_v16) ↦{fullShare} G 0) ∗ (((c : Thread nD τ).loc main_v10) ↦{fullShare} G 1) ∗ (((c : Thread nD τ).loc main_arg7) ↦{fullShare.left} G 2) ∗ (((c : Thread nD τ).loc main_arg7) ↦{fullShare.right.left} G 3) ∗ (((c : Thread nD τ).loc main_arg7) ↦{fullShare.right.right} G 4) ∗ (((c : Thread nD τ).loc main_arg8) ↦{fullShare.left} G 5) ∗ (((c : Thread nD τ).loc main_arg8) ↦{fullShare.right.left} G 6) ∗ (((c : Thread nD τ).loc main_arg8) ↦{fullShare.right.right} G 7) ∗ (((c : Thread nD τ).loc main_v13) ↦{fullShare.left} G 8) ∗ (((c : Thread nD τ).loc main_v13) ↦{fullShare.right.left} G 9) ∗ (((c : Thread nD τ).loc main_v13) ↦{fullShare.right.right} G 10) ∗ (((c : Thread nD τ).loc main_v14) ↦{fullShare.left} G 11) ∗ (((c : Thread nD τ).loc main_v14) ↦{fullShare.right.left} G 12) ∗ (((c : Thread nD τ).loc main_v14) ↦{fullShare.right.right} G 13) ∗ (((c : Thread nD τ).loc main_v17) ↦{fullShare} G 14)) := by
  rw [arrays1_eq, bigSep_W1]
  rfl

/-- An input window's array is never written: after all the write-backs it holds the entry contents. -/
theorem in_eq1 (c : Dev nD) (w : Fin cfg1.W) (hw : (cfg1.win w).isOut = false) :
    (dat1 V c).arrAt w cfg1.N = V c (Pipeline.arrRef spec1 w) :=
  ((dat1 V c).arrAt_in w hw _).trans (by dsimp only [dat1])

/-- The seven whole arrays and the fifteen windows' parts of them, at one family of contents. -/
theorem parts1 (c : Dev nD) (f : (b : Ref sig .tc) → Buf (Elt F) ((c : Thread nD τ).loc b)) :
    (iprop((((c : Thread nD τ).loc main_v16) ↦{fullShare} f main_v16) ∗ (((c : Thread nD τ).loc main_v10) ↦{fullShare} f main_v10) ∗ (((c : Thread nD τ).loc main_arg7) ↦{fullShare} f main_arg7) ∗ (((c : Thread nD τ).loc main_arg8) ↦{fullShare} f main_arg8) ∗ (((c : Thread nD τ).loc main_v13) ↦{fullShare} f main_v13) ∗ (((c : Thread nD τ).loc main_v14) ↦{fullShare} f main_v14) ∗ (((c : Thread nD τ).loc main_v17) ↦{fullShare} f main_v17)) : sProp 𝕄)
      ⊣⊢ iprop((((c : Thread nD τ).loc main_v16) ↦{fullShare} f main_v16) ∗ (((c : Thread nD τ).loc main_v10) ↦{fullShare} f main_v10) ∗ (((c : Thread nD τ).loc main_arg7) ↦{fullShare.left} f main_arg7) ∗ (((c : Thread nD τ).loc main_arg7) ↦{fullShare.right.left} f main_arg7) ∗ (((c : Thread nD τ).loc main_arg7) ↦{fullShare.right.right} f main_arg7) ∗ (((c : Thread nD τ).loc main_arg8) ↦{fullShare.left} f main_arg8) ∗ (((c : Thread nD τ).loc main_arg8) ↦{fullShare.right.left} f main_arg8) ∗ (((c : Thread nD τ).loc main_arg8) ↦{fullShare.right.right} f main_arg8) ∗ (((c : Thread nD τ).loc main_v13) ↦{fullShare.left} f main_v13) ∗ (((c : Thread nD τ).loc main_v13) ↦{fullShare.right.left} f main_v13) ∗ (((c : Thread nD τ).loc main_v13) ↦{fullShare.right.right} f main_v13) ∗ (((c : Thread nD τ).loc main_v14) ↦{fullShare.left} f main_v14) ∗ (((c : Thread nD τ).loc main_v14) ↦{fullShare.right.left} f main_v14) ∗ (((c : Thread nD τ).loc main_v14) ↦{fullShare.right.right} f main_v14) ∗ (((c : Thread nD τ).loc main_v17) ↦{fullShare} f main_v17)) := by
  constructor
  · iintro ⟨Hx, Hh, Hwi, Hwh, Hbi, Hbh, Ho⟩
    ihave Hwi := (thirds _).1 $$ Hwi
    icases Hwi with ⟨Hwi0, Hwi1, Hwi2⟩
    ihave Hwh := (thirds _).1 $$ Hwh
    icases Hwh with ⟨Hwh0, Hwh1, Hwh2⟩
    ihave Hbi := (thirds _).1 $$ Hbi
    icases Hbi with ⟨Hbi0, Hbi1, Hbi2⟩
    ihave Hbh := (thirds _).1 $$ Hbh
    icases Hbh with ⟨Hbh0, Hbh1, Hbh2⟩
    isplitl [Hx]; · iexact Hx
    isplitl [Hh]; · iexact Hh
    isplitl [Hwi0]; · iexact Hwi0
    isplitl [Hwi1]; · iexact Hwi1
    isplitl [Hwi2]; · iexact Hwi2
    isplitl [Hwh0]; · iexact Hwh0
    isplitl [Hwh1]; · iexact Hwh1
    isplitl [Hwh2]; · iexact Hwh2
    isplitl [Hbi0]; · iexact Hbi0
    isplitl [Hbi1]; · iexact Hbi1
    isplitl [Hbi2]; · iexact Hbi2
    isplitl [Hbh0]; · iexact Hbh0
    isplitl [Hbh1]; · iexact Hbh1
    isplitl [Hbh2]; · iexact Hbh2
    iexact Ho
  · iintro ⟨Hx, Hh, Hwi0, Hwi1, Hwi2, Hwh0, Hwh1, Hwh2, Hbi0, Hbi1, Hbi2, Hbh0, Hbh1, Hbh2, Ho⟩
    isplitl [Hx]; · iexact Hx
    isplitl [Hh]; · iexact Hh
    isplitl [Hwi0 Hwi1 Hwi2]
    · iapply (thirds _).2
      isplitl [Hwi0]; · iexact Hwi0
      isplitl [Hwi1]; · iexact Hwi1
      iexact Hwi2
    isplitl [Hwh0 Hwh1 Hwh2]
    · iapply (thirds _).2
      isplitl [Hwh0]; · iexact Hwh0
      isplitl [Hwh1]; · iexact Hwh1
      iexact Hwh2
    isplitl [Hbi0 Hbi1 Hbi2]
    · iapply (thirds _).2
      isplitl [Hbi0]; · iexact Hbi0
      isplitl [Hbi1]; · iexact Hbi1
      iexact Hbi2
    isplitl [Hbh0 Hbh1 Hbh2]
    · iapply (thirds _).2
      isplitl [Hbh0]; · iexact Hbh0
      isplitl [Hbh1]; · iexact Hbh1
      iexact Hbh2
    iexact Ho

/-- ENTRY: the seven arrays held whole at the entry contents are the fifteen windows' arrays at the proof data's
    entry contents, a shared array divided among its three windows. -/
theorem hsplit1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_list]
  exact (parts1 c (V c)).1

set_option maxHeartbeats 4000000 in
/-- The windows' arrays after all the write-backs, one by one: every input array at the entry contents, the output array at
    what the write-backs left. -/
theorem arrays1_exit (c : Dev nD) (V' : (b : Ref sig .tc) → Buf (Elt F) ((c : Thread nD τ).loc b))
    (hout : V' main_v17 = (dat1 V c).arrAt 14 cfg1.N) (hrest : ∀ b, b ≠ main_v17 → V' b = V c b) :
    ((dat1 V c).arrays ((dat1 V c).arrAt · cfg1.N) : sProp 𝕄) = iprop((((c : Thread nD τ).loc main_v16) ↦{fullShare} V' main_v16) ∗ (((c : Thread nD τ).loc main_v10) ↦{fullShare} V' main_v10) ∗ (((c : Thread nD τ).loc main_arg7) ↦{fullShare.left} V' main_arg7) ∗ (((c : Thread nD τ).loc main_arg7) ↦{fullShare.right.left} V' main_arg7) ∗ (((c : Thread nD τ).loc main_arg7) ↦{fullShare.right.right} V' main_arg7) ∗ (((c : Thread nD τ).loc main_arg8) ↦{fullShare.left} V' main_arg8) ∗ (((c : Thread nD τ).loc main_arg8) ↦{fullShare.right.left} V' main_arg8) ∗ (((c : Thread nD τ).loc main_arg8) ↦{fullShare.right.right} V' main_arg8) ∗ (((c : Thread nD τ).loc main_v13) ↦{fullShare.left} V' main_v13) ∗ (((c : Thread nD τ).loc main_v13) ↦{fullShare.right.left} V' main_v13) ∗ (((c : Thread nD τ).loc main_v13) ↦{fullShare.right.right} V' main_v13) ∗ (((c : Thread nD τ).loc main_v14) ↦{fullShare.left} V' main_v14) ∗ (((c : Thread nD τ).loc main_v14) ↦{fullShare.right.left} V' main_v14) ∗ (((c : Thread nD τ).loc main_v14) ↦{fullShare.right.right} V' main_v14) ∗ (((c : Thread nD τ).loc main_v17) ↦{fullShare} V' main_v17)) := by
  rw [arrays1_list]
  have hx := hrest main_v16 (by decide)
  have hh := hrest main_v10 (by decide)
  have hwi := hrest main_arg7 (by decide)
  have hwh := hrest main_arg8 (by decide)
  have hbi := hrest main_v13 (by decide)
  have hbh := hrest main_v14 (by decide)
  rw [hx, hh, hwi, hwh, hbi, hbh, hout]
  refine congrArg₂ _ (congrArg _ (in_eq1 V c 0 rfl)) (congrArg₂ _ (congrArg _ (in_eq1 V c 1 rfl)) (congrArg₂ _ (congrArg _ (in_eq1 V c 2 rfl))
    (congrArg₂ _ (congrArg _ (in_eq1 V c 3 rfl)) (congrArg₂ _ (congrArg _ (in_eq1 V c 4 rfl)) (congrArg₂ _ (congrArg _ (in_eq1 V c 5 rfl))
    (congrArg₂ _ (congrArg _ (in_eq1 V c 6 rfl)) (congrArg₂ _ (congrArg _ (in_eq1 V c 7 rfl)) (congrArg₂ _ (congrArg _ (in_eq1 V c 8 rfl))
    (congrArg₂ _ (congrArg _ (in_eq1 V c 9 rfl)) (congrArg₂ _ (congrArg _ (in_eq1 V c 10 rfl)) (congrArg₂ _ (congrArg _ (in_eq1 V c 11 rfl))
    (congrArg₂ _ (congrArg _ (in_eq1 V c 12 rfl)) (congrArg₂ _ (congrArg _ (in_eq1 V c 13 rfl)) rfl)))))))))))))

/-- EXIT: the fifteen windows' arrays at what the write-backs leave — every input array as it was, the output array
    rewritten — are the seven arrays held whole at any contents `V'` that has the output array so and agrees with
    the entry contents elsewhere. -/
theorem hjoin1 (c : Dev nD) (V' : (b : Ref sig .tc) → Buf (Elt F) ((c : Thread nD τ).loc b))
    (hout : V' main_v17 = (dat1 V c).arrAt 14 cfg1.N) (hrest : ∀ b, b ≠ main_v17 → V' b = V c b) :
    ((dat1 V c).arrays ((dat1 V c).arrAt · cfg1.N) : sProp 𝕄)
      ⊢ Pipeline.arrBufs (Ix := Unit) (Name := ℕ) (U := UR sig nD τ) (Lvl := ℕ) spec1 c V' := by
  rw [arrBufs1_eq, arrays1_exit V c V' hout hrest]
  exact (parts1 c V').2

end Cert.Kernel.Gen

end
-- ==== Proof.K.Vals.lean ====
import proofs.«106570_j81046032876009_1_alg».proof.Proof.K.Data
import Idealize.ShloMosaic.Lib.Pipeline.Regions
import Idealize.ShloMosaic.Lib.StableHlo.Run

/-!
# The buffers' contents through the program

@main is five stretches: host operations, the layer-0 call, the layer-1 call, the decoder call, host operations. The
contents of every unscoped buffer are followed from the launch memory through the five: a host stretch applies its
operations; a call rewrites its one output array with what its grid points wrote back and leaves everything else.
-/

noncomputable section

namespace Cert.Kernel.Gen

open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-! ## The buffers' contents between the five stretches -/

/-- Core `c`'s buffers at launch. -/
abbrev W0 : Dev nD → Valuation τ sig (Elt F) := fun c b => m (c, b)
/-- After the first host stretch: the layer-0 call's entry contents. -/
abbrev W1 : Dev nD → Valuation τ sig (Elt F) := fun c => StableHlo.after hostOps0 (W0 m c)
/-- The same read at the TensorCore's references. -/
abbrev T1 : (c : Dev nD) → (b : Ref sig .tc) → Buf (Elt F) ((c : Thread nD τ).loc b) := fun c b => W1 m c b
/-- The new first-layer hidden row: what the layer-0 call's eight write-backs leave in its output array. -/
def hid0 (c : Dev nD) : Buf (Elt F) ((c : Thread nD τ).loc main_v16) := (dat0 (T1 m) c).arrAt 14 cfg0.N
/-- After the layer-0 call: its output array rewritten, everything else as entered. -/
def W2 (c : Dev nD) : Valuation τ sig (Elt F) := Function.update (W1 m c) (Proc.devRef .tc main_v16) (hid0 m c)
abbrev T2 : (c : Dev nD) → (b : Ref sig .tc) → Buf (Elt F) ((c : Thread nD τ).loc b) := fun c b => W2 m c b
/-- The new second-layer hidden row. -/
def hid1 (c : Dev nD) : Buf (Elt F) ((c : Thread nD τ).loc main_v17) := (dat1 (T2 m) c).arrAt 14 cfg1.N
/-- After the layer-1 call. -/
def W3 (c : Dev nD) : Valuation τ sig (Elt F) := Function.update (W2 m c) (Proc.devRef .tc main_v17) (hid1 m c)
abbrev T3 : (c : Dev nD) → (b : Ref sig .tc) → Buf (Elt F) ((c : Thread nD τ).loc b) := fun c b => W3 m c b
/-- The read-out row. -/
def dec (c : Dev nD) : Buf (Elt F) ((c : Thread nD τ).loc main_v18) := (dat2 (T3 m) c).arrAt 3 cfg2.N
/-- After the decoder call. -/
def W4 (c : Dev nD) : Valuation τ sig (Elt F) := Function.update (W3 m c) (Proc.devRef .tc main_v18) (dec m c)
abbrev T4 : (c : Dev nD) → (b : Ref sig .tc) → Buf (Elt F) ((c : Thread nD τ).loc b) := fun c b => W4 m c b
/-- After the last host stretch: the final contents. -/
abbrev W5 : Dev nD → Valuation τ sig (Elt F) := fun c => StableHlo.after hostOps3 (W4 m c)

theorem W2_out (c : Dev nD) : T2 m c main_v16 = (dat0 (T1 m) c).arrAt 14 cfg0.N := by
  show W2 m c (Proc.devRef .tc main_v16) = _; unfold W2; rw [Function.update_self]; rfl
theorem W2_of_ne (c : Dev nD) (b : Ref sig .tc) (hb : b ≠ main_v16) : T2 m c b = T1 m c b := by
  show W2 m c (Proc.devRef .tc b) = W1 m c (Proc.devRef .tc b); unfold W2
  rw [Function.update_of_ne (StableHlo.devRef_ne_of_ne hb)]
theorem W3_out (c : Dev nD) : T3 m c main_v17 = (dat1 (T2 m) c).arrAt 14 cfg1.N := by
  show W3 m c (Proc.devRef .tc main_v17) = _; unfold W3; rw [Function.update_self]; rfl
theorem W3_of_ne (c : Dev nD) (b : Ref sig .tc) (hb : b ≠ main_v17) : T3 m c b = T2 m c b := by
  show W3 m c (Proc.devRef .tc b) = W2 m c (Proc.devRef .tc b); unfold W3
  rw [Function.update_of_ne (StableHlo.devRef_ne_of_ne hb)]
theorem W4_out (c : Dev nD) : T4 m c main_v18 = (dat2 (T3 m) c).arrAt 3 cfg2.N := by
  show W4 m c (Proc.devRef .tc main_v18) = _; unfold W4; rw [Function.update_self]; rfl
theorem W4_of_ne (c : Dev nD) (b : Ref sig .tc) (hb : b ≠ main_v18) : T4 m c b = T3 m c b := by
  show W4 m c (Proc.devRef .tc b) = W3 m c (Proc.devRef .tc b); unfold W4
  rw [Function.update_of_ne (StableHlo.devRef_ne_of_ne hb)]

end Cert.Kernel.Gen

end
-- ==== Proof.K.Run.lean ====
import proofs.«106570_j81046032876009_1_alg».proof.Proof.K.Shares
import proofs.«106570_j81046032876009_1_alg».proof.Proof.K.Vals
import proofs.«106570_j81046032876009_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

/-!
# The run of the whole program

@main is five stretches: host operations, the layer-0 call, the layer-1 call, the decoder call, host operations. The
contents of every unscoped buffer are followed from the launch memory through the five: a host stretch applies its
operations, a call rewrites its one output array with what its grid points wrote back and leaves everything else. The run
ends with every unscoped buffer at the last of these contents — which gives both that the arguments end unchanged and
what the results hold. The three bodies' obligations are hypotheses here; they are proved beside this module.
-/

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T2 m) c
  | ⟨2, _⟩ => fun c => dat2 (T3 m) c

abbrev 𝒱₀ : Variants := Variants.none
/-- No core owes another anything. -/
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)

/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

section Run

variable (hb0 : ∀ (V : (c : Dev nD) → (b : Ref sig .tc) → Buf (Elt F) ((c : Thread nD τ).loc b)) (c : Dev nD), BodyObligation (dat0 (F := F) V c) (defs₀ (F := F)) Variants.none () Set.univ)
variable (hb1 : ∀ (V : (c : Dev nD) → (b : Ref sig .tc) → Buf (Elt F) ((c : Thread nD τ).loc b)) (c : Dev nD), BodyObligation (dat1 (F := F) V c) (defs₀ (F := F)) Variants.none () Set.univ)
variable (hb2 : ∀ (V : (c : Dev nD) → (b : Ref sig .tc) → Buf (Elt F) ((c : Thread nD τ).loc b)) (c : Dev nD), BodyObligation (dat2 (F := F) V c) (defs₀ (F := F)) Variants.none () Set.univ)

/-! ## The three calls as segments -/

set_option backward.isDefEq.respectTransparency.types false in
/-- Call 0 as a segment: entered holding every unscoped buffer at `W1`, left holding them at `W2`. Its arrays are
    taken out of the unscoped buffers at the entry (a shared array divided among its windows) and put back at the exit
    with the output array rewritten; the generator register goes into the body's invariant and comes back; nothing is owed. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (hb0 (T1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsp : (StableHlo.held (c : Thread nD τ) (Pipeline.ucRefs τ sig) (W1 m c) : sProp 𝕄)
        ⊢ iprop((pdats m 0 c).arrays ((pdats m 0 c).arrAt · 0) ∗ Pipeline.unscopedRest spec0 c (T1 m c)) := by
      rw [← Pipeline.unscopedBufs_held c (W1 m c), Pipeline.unscopedBufs_split₀ cfgs 0 winFacts₀0.arr_unscoped c]
      exact sep_mono (hsplit0 (T1 m) c) .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hj : iprop((pdats m 0 c).arrays ((pdats m 0 c).arrAt · cfg0.N) ∗ Pipeline.unscopedRest spec0 c (T1 m c))
        ⊢ (StableHlo.held (c : Thread nD τ) (Pipeline.ucRefs τ sig) (W2 m c) : sProp 𝕄) := by
      rw [← Pipeline.unscopedBufs_held c (W2 m c), Pipeline.unscopedBufs_split₀ cfgs 0 winFacts₀0.arr_unscoped c]
      refine sep_mono (hjoin0 (T1 m) c _ (W2_out m c) (fun b hb => W2_of_ne m c b hb)) (Entails.of_eq ?_)
      unfold Pipeline.unscopedRest
      exact bigSep_congr fun b hb => by
        show (((c : Thread nD τ).loc b) ↦{fullShare} T1 m c b : sProp 𝕄) = (((c : Thread nD τ).loc b) ↦{fullShare} T2 m c b)
        rw [W2_of_ne m c b (fun e => (Finset.mem_sdiff.mp hb).2 (by rw [e, arrs0]; decide))]
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered holding every unscoped buffer at `W2`, left holding them at `W3`. Its arrays are
    taken out of the unscoped buffers at the entry (a shared array divided among its windows) and put back at the exit
    with the output array rewritten; the generator register goes into the body's invariant and comes back; nothing is owed. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb1 (T2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsp : (StableHlo.held (c : Thread nD τ) (Pipeline.ucRefs τ sig) (W2 m c) : sProp 𝕄)
        ⊢ iprop((pdats m 1 c).arrays ((pdats m 1 c).arrAt · 0) ∗ Pipeline.unscopedRest spec1 c (T2 m c)) := by
      rw [← Pipeline.unscopedBufs_held c (W2 m c), Pipeline.unscopedBufs_split₀ cfgs 1 winFacts₀1.arr_unscoped c]
      exact sep_mono (hsplit1 (T2 m) c) .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hj : iprop((pdats m 1 c).arrays ((pdats m 1 c).arrAt · cfg1.N) ∗ Pipeline.unscopedRest spec1 c (T2 m c))
        ⊢ (StableHlo.held (c : Thread nD τ) (Pipeline.ucRefs τ sig) (W3 m c) : sProp 𝕄) := by
      rw [← Pipeline.unscopedBufs_held c (W3 m c), Pipeline.unscopedBufs_split₀ cfgs 1 winFacts₀1.arr_unscoped c]
      refine sep_mono (hjoin1 (T2 m) c _ (W3_out m c) (fun b hb => W3_of_ne m c b hb)) (Entails.of_eq ?_)
      unfold Pipeline.unscopedRest
      exact bigSep_congr fun b hb => by
        show (((c : Thread nD τ).loc b) ↦{fullShare} T2 m c b : sProp 𝕄) = (((c : Thread nD τ).loc b) ↦{fullShare} T3 m c b)
        rw [W3_of_ne m c b (fun e => (Finset.mem_sdiff.mp hb).2 (by rw [e, arrs1]; decide))]
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder call as a segment: its four windows are on four distinct arrays, each held whole. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb2 (T3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (T3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hF : ∀ w : Fin cfg2.W, (pdats m 2 c).arrAt w cfg2.N = T4 m c (Pipeline.arrRef spec2 w) := fun w => by
      match w with
      | ⟨0, _⟩ => exact (((pdats m 2 c).arrAt_in 0 rfl _).trans rfl).trans (W4_of_ne m c main_v17 (by decide)).symm
      | ⟨1, _⟩ => exact (((pdats m 2 c).arrAt_in 1 rfl _).trans rfl).trans (W4_of_ne m c main_arg11 (by decide)).symm
      | ⟨2, _⟩ => exact (((pdats m 2 c).arrAt_in 2 rfl _).trans rfl).trans (W4_of_ne m c main_v15 (by decide)).symm
      | ⟨3, _⟩ => exact (W4_out m c).symm
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T3 m c) (T4 m c) ((pdats m 2 c).arrAt · cfg2.N) hF
      (fun b hb => W4_of_ne m c b fun e => hb (e ▸ Finset.mem_image.mpr ⟨3, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as five segments, and the launch -/

abbrev stretches : List (Pipeline.Seg (pcfgs (F := F)) adm (pdats m) () defs₀ 𝒱₀ L lv) :=
  [ .host (hseg hostOps0 hostOps0_sub hostOps0_fresh (W0 m)),
    .region (reg0 m hb0),
    .region (reg1 m hb1),
    .region (reg2 m hb2),
    .host (hseg hostOps3 hostOps3_sub hostOps3_fresh (W4 m)) ]

/-- @main is the run of the five segments. -/
theorem main_run (c : Dev nD) : main (F := F) c = Pipeline.Seg.run (stretches m hb0 hb1 hb2) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hb0 hb1 hb2 in
set_option backward.isDefEq.respectTransparency.types false in
/-- THE RUN: from any memory with zero counters every weakly fair execution of @main terminates, nothing faulting, and
    every final state holds every unscoped buffer of every core at the final contents `W5`. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (stretches m hb0 hb1 hb2)
    (fun c Q => by rw [main_run m hb0 hb1 hb2 c])
    (by simp only [stretches, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Run

end Cert.Kernel.Gen

end
-- ==== Proof.K.Body0.lean ====
import proofs.«106570_j81046032876009_1_alg».proof.Proof.K.Data
import Idealize.ShloMosaic.Lib.Pipeline.FrameBody
import Idealize.ShloMosaic.Lib.Tactic

-- membership in a rectangle of full extents: the structural look recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! # The layer-0 cell call's body: eight points, fourteen input windows, one output window

At a point the body loads the input row, the whole previous hidden row, the three gates' row blocks of both weights and
of both biases, the 256 entries of the previous hidden row at the point's offset, and its output block (a value it
never uses), and stores the cell's 256 new entries over the whole output block. The first loads are made by a part the
body calls, which returns the four pre-activations it computed from them. -/

section
variable (V : (c : Dev nD) → (b : Ref sig .tc) → Buf (Elt F) ((c : Thread nD τ).loc b))

/-! ## The proof data, projected -/

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) :
    (dat0 V c).after 14 t = out0_14 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

/-! ## Each input's current staging buffer holds its block, fetched at the point or not

The input row and the previous hidden row are fetched at the first point only and their block index never moves; the
other windows are fetched at every point. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

theorem before0_9 (c : Dev nD) (t : Fin cfg0.N) (d) : (dat0 V c).before 9 t d = iblk0 V c 9 t :=
  ((dat0 V c).before_in_eq_fetched 9 rfl (fun _ => rfl) (fun _ _ _ => rfl)
    (fun t => by rw [after0_9]; unfold Dat.blockOf iblk0; rw [A_eq0]; try rfl) t d).trans
    (by unfold Dat.fetched Dat.blockOf iblk0; rw [A_eq0]; try rfl)

theorem before0_10 (c : Dev nD) (t : Fin cfg0.N) (d) : (dat0 V c).before 10 t d = iblk0 V c 10 t :=
  ((dat0 V c).before_in_eq_fetched 10 rfl (fun _ => rfl) (fun _ _ _ => rfl)
    (fun t => by rw [after0_10]; unfold Dat.blockOf iblk0; rw [A_eq0]; try rfl) t d).trans
    (by unfold Dat.fetched Dat.blockOf iblk0; rw [A_eq0]; try rfl)

theorem before0_11 (c : Dev nD) (t : Fin cfg0.N) (d) : (dat0 V c).before 11 t d = iblk0 V c 11 t :=
  ((dat0 V c).before_in_eq_fetched 11 rfl (fun _ => rfl) (fun _ _ _ => rfl)
    (fun t => by rw [after0_11]; unfold Dat.blockOf iblk0; rw [A_eq0]; try rfl) t d).trans
    (by unfold Dat.fetched Dat.blockOf iblk0; rw [A_eq0]; try rfl)

theorem before0_12 (c : Dev nD) (t : Fin cfg0.N) (d) : (dat0 V c).before 12 t d = iblk0 V c 12 t :=
  ((dat0 V c).before_in_eq_fetched 12 rfl (fun _ => rfl) (fun _ _ _ => rfl)
    (fun t => by rw [after0_12]; unfold Dat.blockOf iblk0; rw [A_eq0]; try rfl) t d).trans
    (by unfold Dat.fetched Dat.blockOf iblk0; rw [A_eq0]; try rfl)

theorem before0_13 (c : Dev nD) (t : Fin cfg0.N) (d) : (dat0 V c).before 13 t d = iblk0 V c 13 t :=
  ((dat0 V c).before_in_eq_fetched 13 rfl (fun _ => rfl) (fun _ _ _ => rfl)
    (fun t => by rw [after0_13]; unfold Dat.blockOf iblk0; rw [A_eq0]; try rfl) t d).trans
    (by unfold Dat.fetched Dat.blockOf iblk0; rw [A_eq0]; try rfl)

/-! ## The body's triple -/

/-- The one store of the body covers the output block: it is the block's whole rectangle. -/
theorem cover0_14 (p0 : Vec F S1x256 .f32) (y : S1x256.Idx) :
    ∃ pc ∈ ([⟨Rect.unit (s := S1x256) ![0, 0] S1x256.size inb_S1x256_S1x256_0_0, p0⟩] : List (View.Piece (Elt F) S1x256 .f32)), y ∈ pc.1.set :=
  View.cover_of_tiled [⟨Rect.unit (s := S1x256) ![0, 0] S1x256.size inb_S1x256_S1x256_0_0, p0⟩] S1x256.size (by rfl) y

set_option maxHeartbeats 4000000 in
/-- The cell body at grid coordinates `i`, on whole staging memrefs, the fourteen inputs' at contents `x0 … x13` and the
    output's at anything, runs to the continuation holding the inputs' as they were and the output's at the one store's
    value over the whole block. The part's loads and the body's own are all of input blocks nothing stores into; the
    entries of the previous hidden row are read through the rectangle at the point's offset; the load of the output
    block reads a value that nothing uses. -/
theorem sound_kernel0 (c : Dev nD) (E : Set ℕ) (i : grid0.Coords)
    (arg1 : Memref sig .tc .vmem S1x6 .f32) (harg1 : arg1.IsWhole)
    (arg2 : Memref sig .tc .vmem S1x2048 .f32) (harg2 : arg2.IsWhole)
    (arg3 : Memref sig .tc .vmem S256x6 .f32) (harg3 : arg3.IsWhole)
    (arg4 : Memref sig .tc .vmem S256x6 .f32) (harg4 : arg4.IsWhole)
    (arg5 : Memref sig .tc .vmem S256x6 .f32) (harg5 : arg5.IsWhole)
    (arg6 : Memref sig .tc .vmem S256x2048 .f32) (harg6 : arg6.IsWhole)
    (arg7 : Memref sig .tc .vmem S256x2048 .f32) (harg7 : arg7.IsWhole)
    (arg8 : Memref sig .tc .vmem S256x2048 .f32) (harg8 : arg8.IsWhole)
    (arg9 : Memref sig .tc .vmem S1x256 .f32) (harg9 : arg9.IsWhole)
    (arg10 : Memref sig .tc .vmem S1x256 .f32) (harg10 : arg10.IsWhole)
    (arg11 : Memref sig .tc .vmem S1x256 .f32) (harg11 : arg11.IsWhole)
    (arg12 : Memref sig .tc .vmem S1x256 .f32) (harg12 : arg12.IsWhole)
    (arg13 : Memref sig .tc .vmem S1x256 .f32) (harg13 : arg13.IsWhole)
    (arg14 : Memref sig .tc .vmem S1x256 .f32) (harg14 : arg14.IsWhole)
    (arg15 : Memref sig .tc .vmem S1x256 .f32) (harg15 : arg15.IsWhole)
    (x0 : Vec F S1x6 .f32) (x1 : Vec F S1x2048 .f32) (x2 : Vec F S256x6 .f32) (x3 : Vec F S256x6 .f32) (x4 : Vec F S256x6 .f32) (x5 : Vec F S256x2048 .f32) (x6 : Vec F S256x2048 .f32) (x7 : Vec F S256x2048 .f32) (x8 : Vec F S1x256 .f32) (x9 : Vec F S1x256 .f32) (x10 : Vec F S1x256 .f32) (x11 : Vec F S1x256 .f32) (x12 : Vec F S1x256 .f32) (x13 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ (∃ d, owns (c : Thread nD τ) arg15 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare (out0_14 i x0 x1 x2 x3 x4 x5 x6 x7 x8 x9 x10 x11 x12 x13)) -∗ K ⟨⟩))
      ⊢ wp frame (wpE (defs₀ (F := F)) Variants.none c none) E (cc0__gru_kernel_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__gru_kernel_body_eq_skeleton]; unfold cc0__gru_kernel_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover0_14 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t))

set_option maxHeartbeats 1000000 in
/-- The body at any point: the inputs' memrefs hold their blocks, so the body's triple applies at the point's grid
    coordinates; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel0 c Set.univ (grid0.coords t) _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Gen

end
-- ==== Proof.K.Body1.lean ====
import proofs.«106570_j81046032876009_1_alg».proof.Proof.K.Data
import Idealize.ShloMosaic.Lib.Pipeline.FrameBody
import Idealize.ShloMosaic.Lib.Tactic

-- membership in a rectangle of full extents: the structural look recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! # The layer-1 cell call's body: eight points, fourteen input windows, one output window

At a point the body loads the input row, the whole previous hidden row, the three gates' row blocks of both weights and
of both biases, the 256 entries of the previous hidden row at the point's offset, and its output block (a value it
never uses), and stores the cell's 256 new entries over the whole output block. The first loads are made by a part the
body calls, which returns the four pre-activations it computed from them. -/

section
variable (V : (c : Dev nD) → (b : Ref sig .tc) → Buf (Elt F) ((c : Thread nD τ).loc b))

/-! ## The proof data, projected -/

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) :
    (dat1 V c).after 14 t = out1_14 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by dsimp only [dat1]

/-! ## Each input's current staging buffer holds its block, fetched at the point or not

The input row and the previous hidden row are fetched at the first point only and their block index never moves; the
other windows are fetched at every point. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)

theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)

theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)

theorem before1_11 (c : Dev nD) (t : Fin cfg1.N) (d) : (dat1 V c).before 11 t d = iblk1 V c 11 t :=
  ((dat1 V c).before_in_eq_fetched 11 rfl (fun _ => rfl) (fun _ _ _ => rfl)
    (fun t => by rw [after1_11]; unfold Dat.blockOf iblk1; rw [A_eq1]; try rfl) t d).trans
    (by unfold Dat.fetched Dat.blockOf iblk1; rw [A_eq1]; try rfl)

theorem before1_12 (c : Dev nD) (t : Fin cfg1.N) (d) : (dat1 V c).before 12 t d = iblk1 V c 12 t :=
  ((dat1 V c).before_in_eq_fetched 12 rfl (fun _ => rfl) (fun _ _ _ => rfl)
    (fun t => by rw [after1_12]; unfold Dat.blockOf iblk1; rw [A_eq1]; try rfl) t d).trans
    (by unfold Dat.fetched Dat.blockOf iblk1; rw [A_eq1]; try rfl)

theorem before1_13 (c : Dev nD) (t : Fin cfg1.N) (d) : (dat1 V c).before 13 t d = iblk1 V c 13 t :=
  ((dat1 V c).before_in_eq_fetched 13 rfl (fun _ => rfl) (fun _ _ _ => rfl)
    (fun t => by rw [after1_13]; unfold Dat.blockOf iblk1; rw [A_eq1]; try rfl) t d).trans
    (by unfold Dat.fetched Dat.blockOf iblk1; rw [A_eq1]; try rfl)

/-! ## The body's triple -/

/-- The one store of the body covers the output block: it is the block's whole rectangle. -/
theorem cover1_14 (p0 : Vec F S1x256 .f32) (y : S1x256.Idx) :
    ∃ pc ∈ ([⟨Rect.unit (s := S1x256) ![0, 0] S1x256.size inb_S1x256_S1x256_0_0, p0⟩] : List (View.Piece (Elt F) S1x256 .f32)), y ∈ pc.1.set :=
  View.cover_of_tiled [⟨Rect.unit (s := S1x256) ![0, 0] S1x256.size inb_S1x256_S1x256_0_0, p0⟩] S1x256.size (by rfl) y

set_option maxHeartbeats 4000000 in
/-- The cell body at grid coordinates `i`, on whole staging memrefs, the fourteen inputs' at contents `x0 … x13` and the
    output's at anything, runs to the continuation holding the inputs' as they were and the output's at the one store's
    value over the whole block. The part's loads and the body's own are all of input blocks nothing stores into; the
    entries of the previous hidden row are read through the rectangle at the point's offset; the load of the output
    block reads a value that nothing uses. -/
theorem sound_kernel1 (c : Dev nD) (E : Set ℕ) (i : grid1.Coords)
    (arg1 : Memref sig .tc .vmem S1x2048 .f32) (harg1 : arg1.IsWhole)
    (arg2 : Memref sig .tc .vmem S1x2048 .f32) (harg2 : arg2.IsWhole)
    (arg3 : Memref sig .tc .vmem S256x2048 .f32) (harg3 : arg3.IsWhole)
    (arg4 : Memref sig .tc .vmem S256x2048 .f32) (harg4 : arg4.IsWhole)
    (arg5 : Memref sig .tc .vmem S256x2048 .f32) (harg5 : arg5.IsWhole)
    (arg6 : Memref sig .tc .vmem S256x2048 .f32) (harg6 : arg6.IsWhole)
    (arg7 : Memref sig .tc .vmem S256x2048 .f32) (harg7 : arg7.IsWhole)
    (arg8 : Memref sig .tc .vmem S256x2048 .f32) (harg8 : arg8.IsWhole)
    (arg9 : Memref sig .tc .vmem S1x256 .f32) (harg9 : arg9.IsWhole)
    (arg10 : Memref sig .tc .vmem S1x256 .f32) (harg10 : arg10.IsWhole)
    (arg11 : Memref sig .tc .vmem S1x256 .f32) (harg11 : arg11.IsWhole)
    (arg12 : Memref sig .tc .vmem S1x256 .f32) (harg12 : arg12.IsWhole)
    (arg13 : Memref sig .tc .vmem S1x256 .f32) (harg13 : arg13.IsWhole)
    (arg14 : Memref sig .tc .vmem S1x256 .f32) (harg14 : arg14.IsWhole)
    (arg15 : Memref sig .tc .vmem S1x256 .f32) (harg15 : arg15.IsWhole)
    (x0 : Vec F S1x2048 .f32) (x1 : Vec F S1x2048 .f32) (x2 : Vec F S256x2048 .f32) (x3 : Vec F S256x2048 .f32) (x4 : Vec F S256x2048 .f32) (x5 : Vec F S256x2048 .f32) (x6 : Vec F S256x2048 .f32) (x7 : Vec F S256x2048 .f32) (x8 : Vec F S1x256 .f32) (x9 : Vec F S1x256 .f32) (x10 : Vec F S1x256 .f32) (x11 : Vec F S1x256 .f32) (x12 : Vec F S1x256 .f32) (x13 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ (∃ d, owns (c : Thread nD τ) arg15 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare (out1_14 i x0 x1 x2 x3 x4 x5 x6 x7 x8 x9 x10 x11 x12 x13)) -∗ K ⟨⟩))
      ⊢ wp frame (wpE (defs₀ (F := F)) Variants.none c none) E (cc1__gru_kernel_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__gru_kernel_body_eq_skeleton]; unfold cc1__gru_kernel_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover1_14 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t))

set_option maxHeartbeats 1000000 in
/-- The body at any point: the inputs' memrefs hold their blocks, so the body's triple applies at the point's grid
    coordinates; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel1 c Set.univ (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Gen

end
-- ==== Proof.K.Body2.lean ====
import proofs.«106570_j81046032876009_1_alg».proof.Proof.K.Data
import Idealize.ShloMosaic.Lib.Pipeline.FrameBody
import Idealize.ShloMosaic.Lib.Tactic

-- membership in a rectangle of full extents: the structural look recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! # The decoder call's body: one point, three input windows, one output window

The body loads the hidden row, the whole weight block and the bias row, loads its output block (a value it never
uses), and stores the row times the transposed weight plus the bias over the whole output block. -/

section
variable (V : (c : Dev nD) → (b : Ref sig .tc) → Buf (Elt F) ((c : Thread nD τ).loc b))

/-! ## The proof data, projected -/

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-! ## Each input's current staging buffer holds its block, fetched at the point or not -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body's triple -/

/-- The one store of the body covers the output block: it is the block's whole rectangle. -/
theorem cover2_3 (p0 : Vec F S1x100 .f32) (y : S1x100.Idx) :
    ∃ pc ∈ ([⟨Rect.unit (s := S1x100) ![0, 0] S1x100.size inb_S1x100_S1x100_0_0, p0⟩] : List (View.Piece (Elt F) S1x100 .f32)), y ∈ pc.1.set :=
  View.cover_of_tiled [⟨Rect.unit (s := S1x100) ![0, 0] S1x100.size inb_S1x100_S1x100_0_0, p0⟩] S1x100.size (by rfl) y

set_option maxHeartbeats 1000000 in
/-- The decoder body on whole staging memrefs, the three inputs' at contents `x0 x1 x2` and the output's at anything,
    runs to the continuation holding the inputs' as they were and the output's at the one store's value: the row times
    the transposed weight plus the bias, over the whole block. The body's load of its output block reads a value that
    nothing uses. -/
theorem sound_kernel2 (c : Dev nD) (E : Set ℕ) (i : grid2.Coords)
    (arg1 : Memref sig .tc .vmem S1x2048 .f32) (harg1 : arg1.IsWhole) (arg2 : Memref sig .tc .vmem S100x2048 .f32) (harg2 : arg2.IsWhole)
    (arg3 : Memref sig .tc .vmem S1x100 .f32) (harg3 : arg3.IsWhole) (arg4 : Memref sig .tc .vmem S1x100 .f32) (harg4 : arg4.IsWhole)
    (x0 : Vec F S1x2048 .f32) (x1 : Vec F S100x2048 .f32) (x2 : Vec F S1x100 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__decoder_kernel_body i arg1 harg1 arg2 harg2 arg3 harg3 arg4 harg4) K := by
  simp only [cc2__decoder_kernel_body_eq_skeleton]; unfold cc2__decoder_kernel_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Gen

end
-- ==== Proof.K.HostReads.lean ====
import proofs.«106570_j81046032876009_1_alg».proof.Proof.Gen.Kernel.Launch
import proofs.«106570_j81046032876009_1_alg».proof.Proof.Gen.Kernel.Regions
import Idealize.ShloMosaic.Lib.StableHlo.Run
import Idealize.ShloMosaic.Lib.ValueLayout

/-!
# What the two stretches of host operations leave, read back

Before the three calls the program prepares their operands: the token's row of the embedding table (the token index
wrapped once if negative), the two layers' previous hidden rows (the two slabs of the stacked state, each reshaped to a
row), and the four gate biases and the decoder bias reshaped to rows. After the calls it stacks the two new hidden rows
and adds unit axes to the read-out. Each result is stated here as the operations' composed term over an ARBITRARY
starting valuation `W`, generic in the float instance; a buffer no operation of a stretch writes keeps its contents.
The reshaped rows are then read at an index.
-/

noncomputable section

namespace Cert.Kernel.Gen

open Idealize.ShloMosaic Idealize.ShloMosaic.TcCoe Idealize.ShloMosaic.StableHlo Idealize.ShloMosaic.ValueIdx
open Idealize.SL.Sem

variable {F : FTy → Type} [FloatOps F]

section
variable (W : Valuation τ sig (Elt F))

/-! ## The first stretch -/

/-- The token's row of the embedding table: the table gathered at the token index, the index first wrapped by the
    table's 100 rows when it is negative. -/
theorem host0_v6 : StableHlo.after hostOps0 W (Proc.devRef .tc main_v6)
    = Host.gather gather_S100x6_S1x1_S1x6_1_0_n_n_0_1_16 (W main_arg2)
        (broadcastInDim S1x1 ![0] bcast_S1_S1x1_0
          (select (cmpi .slt (W main_arg0) (broadcastInDim S1 ![] bcast_S_S1 (constantI S_ 32 0#32)))
            (addi (W main_arg0) (broadcastInDim S1 ![] bcast_S_S1 (constantI S_ 32 100#32))) (W main_arg0))) := by
  after_results

/-- Layer 0's previous hidden row: slab 0 of the stacked state, as a row. -/
theorem host0_v8 : StableHlo.after hostOps0 W (Proc.devRef .tc main_v8)
    = shapeCast S1x2048 (extractStridedSlice S1x1x2048 ![0, 0, 0] (W main_arg1) slices_S2x1x2048_S1x1x2048_0_0_0) shapeCasts_S1x1x2048_S1x2048 := by
  after_results
  rfl

/-- Layer 1's previous hidden row: slab 1 of the stacked state, as a row. -/
theorem host0_v10 : StableHlo.after hostOps0 W (Proc.devRef .tc main_v10)
    = shapeCast S1x2048 (extractStridedSlice S1x1x2048 ![1, 0, 0] (W main_arg1) slices_S2x1x2048_S1x1x2048_1_0_0) shapeCasts_S1x1x2048_S1x2048 := by
  after_results
  rfl

/-- The four gate biases, each as a row of length 6144. -/
theorem host0_v11 : StableHlo.after hostOps0 W (Proc.devRef .tc main_v11) = shapeCast S1x6144 (W main_arg5) shapeCasts_S6144_S1x6144 := by
  after_results
  rfl
theorem host0_v12 : StableHlo.after hostOps0 W (Proc.devRef .tc main_v12) = shapeCast S1x6144 (W main_arg6) shapeCasts_S6144_S1x6144 := by
  after_results
  rfl
theorem host0_v13 : StableHlo.after hostOps0 W (Proc.devRef .tc main_v13) = shapeCast S1x6144 (W main_arg9) shapeCasts_S6144_S1x6144 := by
  after_results
  rfl
theorem host0_v14 : StableHlo.after hostOps0 W (Proc.devRef .tc main_v14) = shapeCast S1x6144 (W main_arg10) shapeCasts_S6144_S1x6144 := by
  after_results
  rfl

/-- The decoder bias as a row of length 100. -/
theorem host0_v15 : StableHlo.after hostOps0 W (Proc.devRef .tc main_v15) = shapeCast S1x100 (W main_arg12) shapeCasts_S100_S1x100 := by
  after_results
  rfl

/-- A buffer the first stretch does not write keeps its contents. -/
theorem host0_keep (r : Ref sig .tc) (h : r ∉ hostOps0_W) :
    StableHlo.after hostOps0 W (Proc.devRef .tc r) = W (Proc.devRef .tc r) :=
  StableHlo.after_of_writes_sub hostOps0 _ hostOps0_writes h

/-! ## The last stretch -/

/-- The read-out with two unit axes in front of its 100 entries. -/
theorem host3_v19 : StableHlo.after hostOps3 W (Proc.devRef .tc main_v19)
    = broadcastInDim S1x1x100 ![1, 2] bcast_S1x100_S1x1x100_1_2 (W main_v18) := by
  after_results

/-- The new stacked state: the two layers' new hidden rows, each given a unit axis, one above the other. -/
theorem host3_v22 : StableHlo.after hostOps3 W (Proc.devRef .tc main_v22)
    = concatenate S2x1x2048 0 [⟨S1x1x2048, broadcastInDim S1x1x2048 ![1, 2] bcast_S1x2048_S1x1x2048_1_2 (W main_v16)⟩,
        ⟨S1x1x2048, broadcastInDim S1x1x2048 ![1, 2] bcast_S1x2048_S1x1x2048_1_2 (W main_v17)⟩]
        concatenates_S1x1x2048_S1x1x2048_S2x1x2048_d0 := by
  after_results

/-- A buffer the last stretch does not write keeps its contents. -/
theorem host3_keep (r : Ref sig .tc) (h : r ∉ hostOps3_W) :
    StableHlo.after hostOps3 W (Proc.devRef .tc r) = W (Proc.devRef .tc r) :=
  StableHlo.after_of_writes_sub hostOps3 _ hostOps3_writes h

end

/-! ## The reshaped rows read at an index

Stated for any element type; at the extended reals they are the forms the value proof cites. -/

section
variable {α : Type}

/-- A vector of length 6144 reshaped to a row: entry `(0, q)` of the row is entry `q` of the vector. -/
theorem row6144_apply (b : S6144.Idx → α) (q : Fin 6144) :
    shapeCast S1x6144 b shapeCasts_S6144_S1x6144 (ix2 (0 : Fin 1) q) = b (ix1 q) :=
  shapeCast_a_1a_apply b shapeCasts_S6144_S1x6144 0 q

/-- A vector of length 100 reshaped to a row: entry `(0, q)` of the row is entry `q` of the vector. -/
theorem row100_apply (b : S100.Idx → α) (q : Fin 100) :
    shapeCast S1x100 b shapeCasts_S100_S1x100 (ix2 (0 : Fin 1) q) = b (ix1 q) :=
  shapeCast_a_1a_apply b shapeCasts_S100_S1x100 0 q

/-- Slab 0 of the stacked state as a row: entry `(0, j)` of the row is entry `(0, 0, j)` of the stack. -/
theorem hrow0_apply (a1 : S2x1x2048.Idx → α) (j : Fin 2048) :
    shapeCast S1x2048 (extractStridedSlice S1x1x2048 ![0, 0, 0] a1 slices_S2x1x2048_S1x1x2048_0_0_0) shapeCasts_S1x1x2048_S1x2048
        (ix2 (0 : Fin 1) j) = a1 (ix3 (0 : Fin 2) (0 : Fin 1) j) := by
  refine (shapeCast_1ab_ab_apply _ shapeCasts_S1x1x2048_S1x2048 (0 : Fin 1) j).trans ?_
  exact extractStridedSlice_apply _ a1 _ _ _ fun a => by
    match a with
    | ⟨0, _⟩ => rfl
    | ⟨1, _⟩ => rfl
    | ⟨2, _⟩ => show j.val = 0 + j.val; omega

/-- Slab 1 of the stacked state as a row: entry `(0, j)` of the row is entry `(1, 0, j)` of the stack. -/
theorem hrow1_apply (a1 : S2x1x2048.Idx → α) (j : Fin 2048) :
    shapeCast S1x2048 (extractStridedSlice S1x1x2048 ![1, 0, 0] a1 slices_S2x1x2048_S1x1x2048_1_0_0) shapeCasts_S1x1x2048_S1x2048
        (ix2 (0 : Fin 1) j) = a1 (ix3 (1 : Fin 2) (0 : Fin 1) j) := by
  refine (shapeCast_1ab_ab_apply _ shapeCasts_S1x1x2048_S1x2048 (0 : Fin 1) j).trans ?_
  exact extractStridedSlice_apply _ a1 _ _ _ fun a => by
    match a with
    | ⟨0, _⟩ => rfl
    | ⟨1, _⟩ => rfl
    | ⟨2, _⟩ => show j.val = 0 + j.val; omega

end

end Cert.Kernel.Gen

end
-- ==== Proof.K.Kept.lean ====
import proofs.«106570_j81046032876009_1_alg».proof.Proof.K.Vals
import proofs.«106570_j81046032876009_1_alg».proof.Proof.K.HostReads
import Idealize.ShloMosaic.Lib.Pipeline.Frame

/-!
# The arguments end as launched

Of the five stretches of @main, the host stretches write only their own results and each call rewrites only its one
output array; none of these is an argument. So every argument array holds, in the final contents, what the launch
memory held; and a run of @main that ends with every unscoped buffer at the final contents ends with every argument as
launched.
-/

noncomputable section

namespace Cert.Kernel.Gen

open Idealize.ShloMosaic Idealize.ShloMosaic.TcCoe
open Idealize.SL Idealize.SL.Sem

variable {F : FTy → Type} [FloatOps F]

variable (m : (ℓ : Loc nD τ sig) → Buf (Elt F) ℓ)

/-- A buffer that neither host stretch writes and that is no call's output array holds at the end what it held at
    launch: back through the last host stretch, the three calls and the first host stretch. -/
theorem W5_kept (c : Dev nD) (r : Ref sig .tc) (h3 : r ∉ hostOps3_W) (h18 : r ≠ main_v18) (h17 : r ≠ main_v17)
    (h16 : r ≠ main_v16) (h0 : r ∉ hostOps0_W) : W5 m c (Proc.devRef .tc r) = m ((c.tc : Thread nD τ).loc r) :=
  (host3_keep (W4 m c) r h3).trans <| (W4_of_ne m c r h18).trans <| (W3_of_ne m c r h17).trans <|
    (W2_of_ne m c r h16).trans <| (host0_keep (W0 m c) r h0).trans rfl

/-! ## The thirteen arguments -/

theorem W5_main_arg0 (c : Dev nD) : W5 (F := F) m c (Proc.devRef .tc main_arg0) = m ((c.tc : Thread nD τ).loc main_arg0) :=
  W5_kept m c main_arg0 (by decide) (by decide) (by decide) (by decide) (by decide)
theorem W5_main_arg1 (c : Dev nD) : W5 (F := F) m c (Proc.devRef .tc main_arg1) = m ((c.tc : Thread nD τ).loc main_arg1) :=
  W5_kept m c main_arg1 (by decide) (by decide) (by decide) (by decide) (by decide)
theorem W5_main_arg2 (c : Dev nD) : W5 (F := F) m c (Proc.devRef .tc main_arg2) = m ((c.tc : Thread nD τ).loc main_arg2) :=
  W5_kept m c main_arg2 (by decide) (by decide) (by decide) (by decide) (by decide)
theorem W5_main_arg3 (c : Dev nD) : W5 (F := F) m c (Proc.devRef .tc main_arg3) = m ((c.tc : Thread nD τ).loc main_arg3) :=
  W5_kept m c main_arg3 (by decide) (by decide) (by decide) (by decide) (by decide)
theorem W5_main_arg4 (c : Dev nD) : W5 (F := F) m c (Proc.devRef .tc main_arg4) = m ((c.tc : Thread nD τ).loc main_arg4) :=
  W5_kept m c main_arg4 (by decide) (by decide) (by decide) (by decide) (by decide)
theorem W5_main_arg5 (c : Dev nD) : W5 (F := F) m c (Proc.devRef .tc main_arg5) = m ((c.tc : Thread nD τ).loc main_arg5) :=
  W5_kept m c main_arg5 (by decide) (by decide) (by decide) (by decide) (by decide)
theorem W5_main_arg6 (c : Dev nD) : W5 (F := F) m c (Proc.devRef .tc main_arg6) = m ((c.tc : Thread nD τ).loc main_arg6) :=
  W5_kept m c main_arg6 (by decide) (by decide) (by decide) (by decide) (by decide)
theorem W5_main_arg7 (c : Dev nD) : W5 (F := F) m c (Proc.devRef .tc main_arg7) = m ((c.tc : Thread nD τ).loc main_arg7) :=
  W5_kept m c main_arg7 (by decide) (by decide) (by decide) (by decide) (by decide)
theorem W5_main_arg8 (c : Dev nD) : W5 (F := F) m c (Proc.devRef .tc main_arg8) = m ((c.tc : Thread nD τ).loc main_arg8) :=
  W5_kept m c main_arg8 (by decide) (by decide) (by decide) (by decide) (by decide)
theorem W5_main_arg9 (c : Dev nD) : W5 (F := F) m c (Proc.devRef .tc main_arg9) = m ((c.tc : Thread nD τ).loc main_arg9) :=
  W5_kept m c main_arg9 (by decide) (by decide) (by decide) (by decide) (by decide)
theorem W5_main_arg10 (c : Dev nD) : W5 (F := F) m c (Proc.devRef .tc main_arg10) = m ((c.tc : Thread nD τ).loc main_arg10) :=
  W5_kept m c main_arg10 (by decide) (by decide) (by decide) (by decide) (by decide)
theorem W5_main_arg11 (c : Dev nD) : W5 (F := F) m c (Proc.devRef .tc main_arg11) = m ((c.tc : Thread nD τ).loc main_arg11) :=
  W5_kept m c main_arg11 (by decide) (by decide) (by decide) (by decide) (by decide)
theorem W5_main_arg12 (c : Dev nD) : W5 (F := F) m c (Proc.devRef .tc main_arg12) = m ((c.tc : Thread nD τ).loc main_arg12) :=
  W5_kept m c main_arg12 (by decide) (by decide) (by decide) (by decide) (by decide)

/-- An unscoped TensorCore reference is among the unscoped buffers. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- A run of @main that ends with every unscoped buffer at the final contents ends with every argument array as
    launched. -/
theorem frame_of_run (ρ : Dev nD → PrngReg)
    (h : θ_run defs (onTc (τ := τ) (main (F := F))) ⟨m, fun _ => 0, ρ⟩
      (fun r => ∀ c : Dev nD, ∀ b ∈ Pipeline.ucRefs τ sig, r.2.mem (((c : Thread nD τ)).1, b) = W5 m c b)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r hr c =>
    ⟨(hr c (Proc.devRef .tc main_arg0) (mem_ucRefs main_arg0 (by decide))).trans (W5_main_arg0 m c),
      (hr c (Proc.devRef .tc main_arg1) (mem_ucRefs main_arg1 (by decide))).trans (W5_main_arg1 m c),
      (hr c (Proc.devRef .tc main_arg2) (mem_ucRefs main_arg2 (by decide))).trans (W5_main_arg2 m c),
      (hr c (Proc.devRef .tc main_arg3) (mem_ucRefs main_arg3 (by decide))).trans (W5_main_arg3 m c),
      (hr c (Proc.devRef .tc main_arg4) (mem_ucRefs main_arg4 (by decide))).trans (W5_main_arg4 m c),
      (hr c (Proc.devRef .tc main_arg5) (mem_ucRefs main_arg5 (by decide))).trans (W5_main_arg5 m c),
      (hr c (Proc.devRef .tc main_arg6) (mem_ucRefs main_arg6 (by decide))).trans (W5_main_arg6 m c),
      (hr c (Proc.devRef .tc main_arg7) (mem_ucRefs main_arg7 (by decide))).trans (W5_main_arg7 m c),
      (hr c (Proc.devRef .tc main_arg8) (mem_ucRefs main_arg8 (by decide))).trans (W5_main_arg8 m c),
      (hr c (Proc.devRef .tc main_arg9) (mem_ucRefs main_arg9 (by decide))).trans (W5_main_arg9 m c),
      (hr c (Proc.devRef .tc main_arg10) (mem_ucRefs main_arg10 (by decide))).trans (W5_main_arg10 m c),
      (hr c (Proc.devRef .tc main_arg11) (mem_ucRefs main_arg11 (by decide))).trans (W5_main_arg11 m c),
      (hr c (Proc.devRef .tc main_arg12) (mem_ucRefs main_arg12 (by decide))).trans (W5_main_arg12 m c)⟩) h

end Cert.Kernel.Gen

end
-- ==== Proof.KI.Data.lean ====
import proofs.«106570_j81046032876009_1_alg».proof.Proof.Gen.KernelIdeal.Launch
import proofs.«106570_j81046032876009_1_alg».proof.Proof.Gen.KernelIdeal.Skeleton
import proofs.«106570_j81046032876009_1_alg».proof.Proof.Gen.KernelIdeal.Points
import Idealize.ShloMosaic.Lib.Pipeline.FrameBody
import Idealize.ShloMosaic.Lib.Pipeline.Frame
import Idealize.ShloMosaic.Lib.Pipeline.Kit

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! # What each of the three calls computes, as proof data

The two recurrent-cell calls walk the 2048 hidden entries in 8 blocks of 256; the decoder call has one point. -/

/-- What one grid point of the layer-0 cell leaves in its output block: the block's one store, over the whole
    block, of the cell's value computed from the point's input blocks (the gate weights' row blocks, the bias blocks, the
    input row, the whole previous hidden row and its 256 entries at the point's offset). -/
def out0_14 (i : grid0.Coords) (x0 : Vec F S1x6 .f32) (x1 : Vec F S1x2048 .f32) (x2 : Vec F S256x6 .f32) (x3 : Vec F S256x6 .f32) (x4 : Vec F S256x6 .f32) (x5 : Vec F S256x2048 .f32) (x6 : Vec F S256x2048 .f32) (x7 : Vec F S256x2048 .f32) (x8 : Vec F S1x256 .f32) (x9 : Vec F S1x256 .f32) (x10 : Vec F S1x256 .f32) (x11 : Vec F S1x256 .f32) (x12 : Vec F S1x256 .f32) (x13 : Vec F S1x256 .f32) : Vec F S1x256 .f32 :=
  View.canon [⟨(Rect.unit (s := S1x256) ![0, 0] S1x256.size inb_S1x256_S1x256_0_0), k0_pay1 (k0_pay3 (View.ld x1 (Rect.unit (s := S1x2048) ![0, 0] S1x2048.size inb_S1x2048_S1x2048_0_0))) (k0_pay4 (View.ld x0 (Rect.unit (s := S1x6) ![0, 0] S1x6.size inb_S1x6_S1x6_0_0)) (View.ld x2 (Rect.unit (s := S256x6) ![0, 0] S256x6.size inb_S256x6_S256x6_0_0)) (View.ld x8 (Rect.unit (s := S1x256) ![0, 0] S1x256.size inb_S1x256_S1x256_0_0))) (k0_pay5 (View.ld x0 (Rect.unit (s := S1x6) ![0, 0] S1x6.size inb_S1x6_S1x6_0_0)) (View.ld x3 (Rect.unit (s := S256x6) ![0, 0] S256x6.size inb_S256x6_S256x6_0_0)) (View.ld x9 (Rect.unit (s := S1x256) ![0, 0] S1x256.size inb_S1x256_S1x256_0_0))) (k0_pay6 (View.ld x0 (Rect.unit (s := S1x6) ![0, 0] S1x6.size inb_S1x6_S1x6_0_0)) (View.ld x4 (Rect.unit (s := S256x6) ![0, 0] S256x6.size inb_S256x6_S256x6_0_0)) (View.ld x10 (Rect.unit (s := S1x256) ![0, 0] S1x256.size inb_S1x256_S1x256_0_0))) (k0_pay7 (View.ld x1 (Rect.unit (s := S1x2048) ![0, 0] S1x2048.size inb_S1x2048_S1x2048_0_0)) (View.ld x5 (Rect.unit (s := S256x2048) ![0, 0] S256x2048.size inb_S256x2048_S256x2048_0_0)) (View.ld x11 (Rect.unit (s := S1x256) ![0, 0] S1x256.size inb_S1x256_S1x256_0_0))) (View.ld x6 (Rect.unit (s := S256x2048) ![0, 0] S256x2048.size inb_S256x2048_S256x2048_0_0)) (View.ld x12 (Rect.unit (s := S1x256) ![0, 0] S1x256.size inb_S1x256_S1x256_0_0)) (View.ld x7 (Rect.unit (s := S256x2048) ![0, 0] S256x2048.size inb_S256x2048_S256x2048_0_0)) (View.ld x13 (Rect.unit (s := S1x256) ![0, 0] S1x256.size inb_S1x256_S1x256_0_0)) (View.ld x1 (Rect.unit (s := S1x2048) (k0_off1 i) S1x256.size (k0_off1_inb i)))⟩]

/-- What one grid point of the layer-1 cell leaves in its output block: the block's one store, over the whole
    block, of the cell's value computed from the point's input blocks (the gate weights' row blocks, the bias blocks, the
    input row, the whole previous hidden row and its 256 entries at the point's offset). -/
def out1_14 (i : grid1.Coords) (x0 : Vec F S1x2048 .f32) (x1 : Vec F S1x2048 .f32) (x2 : Vec F S256x2048 .f32) (x3 : Vec F S256x2048 .f32) (x4 : Vec F S256x2048 .f32) (x5 : Vec F S256x2048 .f32) (x6 : Vec F S256x2048 .f32) (x7 : Vec F S256x2048 .f32) (x8 : Vec F S1x256 .f32) (x9 : Vec F S1x256 .f32) (x10 : Vec F S1x256 .f32) (x11 : Vec F S1x256 .f32) (x12 : Vec F S1x256 .f32) (x13 : Vec F S1x256 .f32) : Vec F S1x256 .f32 :=
  View.canon [⟨(Rect.unit (s := S1x256) ![0, 0] S1x256.size inb_S1x256_S1x256_0_0), k1_pay1 (k1_pay3 (View.ld x1 (Rect.unit (s := S1x2048) ![0, 0] S1x2048.size inb_S1x2048_S1x2048_0_0))) (k1_pay4 (View.ld x0 (Rect.unit (s := S1x2048) ![0, 0] S1x2048.size inb_S1x2048_S1x2048_0_0)) (View.ld x2 (Rect.unit (s := S256x2048) ![0, 0] S256x2048.size inb_S256x2048_S256x2048_0_0)) (View.ld x8 (Rect.unit (s := S1x256) ![0, 0] S1x256.size inb_S1x256_S1x256_0_0))) (k1_pay5 (View.ld x0 (Rect.unit (s := S1x2048) ![0, 0] S1x2048.size inb_S1x2048_S1x2048_0_0)) (View.ld x3 (Rect.unit (s := S256x2048) ![0, 0] S256x2048.size inb_S256x2048_S256x2048_0_0)) (View.ld x9 (Rect.unit (s := S1x256) ![0, 0] S1x256.size inb_S1x256_S1x256_0_0))) (k1_pay6 (View.ld x0 (Rect.unit (s := S1x2048) ![0, 0] S1x2048.size inb_S1x2048_S1x2048_0_0)) (View.ld x4 (Rect.unit (s := S256x2048) ![0, 0] S256x2048.size inb_S256x2048_S256x2048_0_0)) (View.ld x10 (Rect.unit (s := S1x256) ![0, 0] S1x256.size inb_S1x256_S1x256_0_0))) (k1_pay7 (View.ld x1 (Rect.unit (s := S1x2048) ![0, 0] S1x2048.size inb_S1x2048_S1x2048_0_0)) (View.ld x5 (Rect.unit (s := S256x2048) ![0, 0] S256x2048.size inb_S256x2048_S256x2048_0_0)) (View.ld x11 (Rect.unit (s := S1x256) ![0, 0] S1x256.size inb_S1x256_S1x256_0_0))) (View.ld x6 (Rect.unit (s := S256x2048) ![0, 0] S256x2048.size inb_S256x2048_S256x2048_0_0)) (View.ld x12 (Rect.unit (s := S1x256) ![0, 0] S1x256.size inb_S1x256_S1x256_0_0)) (View.ld x7 (Rect.unit (s := S256x2048) ![0, 0] S256x2048.size inb_S256x2048_S256x2048_0_0)) (View.ld x13 (Rect.unit (s := S1x256) ![0, 0] S1x256.size inb_S1x256_S1x256_0_0)) (View.ld x1 (Rect.unit (s := S1x2048) (k1_off1 i) S1x256.size (k1_off1_inb i)))⟩]

/-- What the decoder's one grid point leaves in its output block: one store, over the whole block, of the row times the
    transposed weight plus the bias. -/
def out2_3 (x0 : Vec F S1x2048 .f32) (x1 : Vec F S100x2048 .f32) (x2 : Vec F S1x100 .f32) : Vec F S1x100 .f32 :=
  View.canon [⟨(Rect.unit (s := S1x100) ![0, 0] S1x100.size inb_S1x100_S1x100_0_0), k2_pay1 (View.ld x0 (Rect.unit (s := S1x2048) ![0, 0] S1x2048.size inb_S1x2048_S1x2048_0_0)) (View.ld x1 (Rect.unit (s := S100x2048) ![0, 0] S100x2048.size inb_S100x2048_S100x2048_0_0)) (View.ld x2 (Rect.unit (s := S1x100) ![0, 0] S1x100.size inb_S1x100_S1x100_0_0))⟩]

section
variable (V : (c : Dev nD) → (b : Ref sig .tc) → Buf (Elt F) ((c : Thread nD τ).loc b))

/-- Window `w`'s block at grid point `t` of call 0, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block at grid point `t` of call 1, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window `w`'s block at grid point `t` of call 2, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The share of each input array a window of call 0 holds: the three gate windows on one weight (or bias) array
    hold a third of it each (the left half, and the two halves of the right half); the others all of it. -/
def q0 : Fin 15 → PosShare TreeShare := fun
  | 2 => fullShare.left | 3 => fullShare.right.left | 4 => fullShare.right.right
  | 5 => fullShare.left | 6 => fullShare.right.left | 7 => fullShare.right.right
  | 8 => fullShare.left | 9 => fullShare.right.left | 10 => fullShare.right.right
  | 11 => fullShare.left | 12 => fullShare.right.left | 13 => fullShare.right.right
  | _ => fullShare

/-- The share of each input array a window of call 1 holds: the three gate windows on one weight (or bias) array
    hold a third of it each (the left half, and the two halves of the right half); the others all of it. -/
def q1 : Fin 15 → PosShare TreeShare := fun
  | 2 => fullShare.left | 3 => fullShare.right.left | 4 => fullShare.right.right
  | 5 => fullShare.left | 6 => fullShare.right.left | 7 => fullShare.right.right
  | 8 => fullShare.left | 9 => fullShare.right.left | 10 => fullShare.right.right
  | 11 => fullShare.left | 12 => fullShare.right.left | 13 => fullShare.right.right
  | _ => fullShare

/-- The proof data of call 0 on core `c`: the arrays as the call finds them; after the body at point `t` every input
    block in place and the output block at the cell's value; nothing kept between points but the scoped rest and the
    generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
  Φ _ := Pipeline.ΦA spec0 c
  q := q0
  owed _ := 0

/-- The proof data of call 1 on core `c`: the arrays as the call finds them; after the body at point `t` every input
    block in place and the output block at the cell's value; nothing kept between points but the scoped rest and the
    generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => out1_14 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
  Φ _ := Pipeline.ΦA spec1 c
  q := q1
  owed _ := 0

/-- The proof data of the decoder call on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

end

end Cert.KernelIdeal.Gen

end
-- ==== Proof.KI.Shares.lean ====
import proofs.«106570_j81046032876009_1_alg».proof.Proof.KI.Data
import Idealize.ShloMosaic.Lib.Pipeline.Regions
import Idealize.ShloMosaic.Lib.Pipeline.RegionsLoop

/-!
# One array behind three windows

In each recurrent-cell call the three gate windows of a weight (or bias) array read the SAME array. At the call's
entry the array, held whole, is divided among its three windows (a half, and the two halves of the other half); at
the exit the three parts, still holding the entry contents, are put together again. The output array is held whole
by its one window throughout.
-/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An array held whole is the same array held in three parts: a half, and the two halves of the other half. -/
theorem thirds {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  constructor
  · iintro H
    ihave H := (pointsTo_share (PosShare.mem_left_op_right fullShare)).1 $$ H
    icases H with ⟨H0, H⟩
    ihave H := (pointsTo_share (PosShare.mem_left_op_right fullShare.right)).1 $$ H
    icases H with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

/-! ## Call 0 -/

/-- The distinct arrays behind call 0's fifteen windows. -/
theorem arrs0 : Finset.univ.image (Pipeline.arrRef spec0) = ([main_v6, main_v8, main_arg3, main_arg4, main_v11, main_v12, main_v16] : List (Ref sig .tc)).toFinset := by decide

/-- The seven arrays held whole at contents `V'`, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v6) ↦{fullShare} V' main_v6) ∗ (((c : Thread nD τ).loc main_v8) ↦{fullShare} V' main_v8) ∗ (((c : Thread nD τ).loc main_arg3) ↦{fullShare} V' main_arg3) ∗ (((c : Thread nD τ).loc main_arg4) ↦{fullShare} V' main_arg4) ∗ (((c : Thread nD τ).loc main_v11) ↦{fullShare} V' main_v11) ∗ (((c : Thread nD τ).loc main_v12) ↦{fullShare} V' main_v12) ∗ (((c : Thread nD τ).loc main_v16) ↦{fullShare} V' main_v16)) := by
  unfold Pipeline.arrBufs
  exact bigSep_eq_bigSepL_of_eq [main_v6, main_v8, main_arg3, main_arg4, main_v11, main_v12, main_v16] arrs0 (by decide) _

/-- The call's arrays, window by window, each a whole buffer at its window's share. -/
theorem arrays0_eq (c : Dev nD) (G : (w : Fin cfg0.W) → Buf (Elt F) ((cfg0.win w).arr.view.loc (c : Thread nD τ))) :
    ((dat0 V c).arrays G : sProp 𝕄)
      = bigSep Finset.univ fun w => (((c : Thread nD τ).loc (Pipeline.arrRef spec0 w)) ↦{(dat0 V c).share w} G w : sProp 𝕄) := by
  unfold Dat.arrays
  exact bigSep_congr fun w _ => by rw [(arr_whole0 w).set_eq_univ]

/-- The fifteen windows' arrays at given contents, one by one, each at its window's share of its array. -/
theorem arrays0_list (c : Dev nD) (G : (w : Fin cfg0.W) → Buf (Elt F) ((cfg0.win w).arr.view.loc (c : Thread nD τ))) :
    ((dat0 V c).arrays G : sProp 𝕄) = iprop((((c : Thread nD τ).loc main_v6) ↦{fullShare} G 0) ∗ (((c : Thread nD τ).loc main_v8) ↦{fullShare} G 1) ∗ (((c : Thread nD τ).loc main_arg3) ↦{fullShare.left} G 2) ∗ (((c : Thread nD τ).loc main_arg3) ↦{fullShare.right.left} G 3) ∗ (((c : Thread nD τ).loc main_arg3) ↦{fullShare.right.right} G 4) ∗ (((c : Thread nD τ).loc main_arg4) ↦{fullShare.left} G 5) ∗ (((c : Thread nD τ).loc main_arg4) ↦{fullShare.right.left} G 6) ∗ (((c : Thread nD τ).loc main_arg4) ↦{fullShare.right.right} G 7) ∗ (((c : Thread nD τ).loc main_v11) ↦{fullShare.left} G 8) ∗ (((c : Thread nD τ).loc main_v11) ↦{fullShare.right.left} G 9) ∗ (((c : Thread nD τ).loc main_v11) ↦{fullShare.right.right} G 10) ∗ (((c : Thread nD τ).loc main_v12) ↦{fullShare.left} G 11) ∗ (((c : Thread nD τ).loc main_v12) ↦{fullShare.right.left} G 12) ∗ (((c : Thread nD τ).loc main_v12) ↦{fullShare.right.right} G 13) ∗ (((c : Thread nD τ).loc main_v16) ↦{fullShare} G 14)) := by
  rw [arrays0_eq, bigSep_W0]
  rfl

/-- An input window's array is never written: after all the write-backs it holds the entry contents. -/
theorem in_eq0 (c : Dev nD) (w : Fin cfg0.W) (hw : (cfg0.win w).isOut = false) :
    (dat0 V c).arrAt w cfg0.N = V c (Pipeline.arrRef spec0 w) :=
  ((dat0 V c).arrAt_in w hw _).trans (by dsimp only [dat0])

/-- The seven whole arrays and the fifteen windows' parts of them, at one family of contents. -/
theorem parts0 (c : Dev nD) (f : (b : Ref sig .tc) → Buf (Elt F) ((c : Thread nD τ).loc b)) :
    (iprop((((c : Thread nD τ).loc main_v6) ↦{fullShare} f main_v6) ∗ (((c : Thread nD τ).loc main_v8) ↦{fullShare} f main_v8) ∗ (((c : Thread nD τ).loc main_arg3) ↦{fullShare} f main_arg3) ∗ (((c : Thread nD τ).loc main_arg4) ↦{fullShare} f main_arg4) ∗ (((c : Thread nD τ).loc main_v11) ↦{fullShare} f main_v11) ∗ (((c : Thread nD τ).loc main_v12) ↦{fullShare} f main_v12) ∗ (((c : Thread nD τ).loc main_v16) ↦{fullShare} f main_v16)) : sProp 𝕄)
      ⊣⊢ iprop((((c : Thread nD τ).loc main_v6) ↦{fullShare} f main_v6) ∗ (((c : Thread nD τ).loc main_v8) ↦{fullShare} f main_v8) ∗ (((c : Thread nD τ).loc main_arg3) ↦{fullShare.left} f main_arg3) ∗ (((c : Thread nD τ).loc main_arg3) ↦{fullShare.right.left} f main_arg3) ∗ (((c : Thread nD τ).loc main_arg3) ↦{fullShare.right.right} f main_arg3) ∗ (((c : Thread nD τ).loc main_arg4) ↦{fullShare.left} f main_arg4) ∗ (((c : Thread nD τ).loc main_arg4) ↦{fullShare.right.left} f main_arg4) ∗ (((c : Thread nD τ).loc main_arg4) ↦{fullShare.right.right} f main_arg4) ∗ (((c : Thread nD τ).loc main_v11) ↦{fullShare.left} f main_v11) ∗ (((c : Thread nD τ).loc main_v11) ↦{fullShare.right.left} f main_v11) ∗ (((c : Thread nD τ).loc main_v11) ↦{fullShare.right.right} f main_v11) ∗ (((c : Thread nD τ).loc main_v12) ↦{fullShare.left} f main_v12) ∗ (((c : Thread nD τ).loc main_v12) ↦{fullShare.right.left} f main_v12) ∗ (((c : Thread nD τ).loc main_v12) ↦{fullShare.right.right} f main_v12) ∗ (((c : Thread nD τ).loc main_v16) ↦{fullShare} f main_v16)) := by
  constructor
  · iintro ⟨Hx, Hh, Hwi, Hwh, Hbi, Hbh, Ho⟩
    ihave Hwi := (thirds _).1 $$ Hwi
    icases Hwi with ⟨Hwi0, Hwi1, Hwi2⟩
    ihave Hwh := (thirds _).1 $$ Hwh
    icases Hwh with ⟨Hwh0, Hwh1, Hwh2⟩
    ihave Hbi := (thirds _).1 $$ Hbi
    icases Hbi with ⟨Hbi0, Hbi1, Hbi2⟩
    ihave Hbh := (thirds _).1 $$ Hbh
    icases Hbh with ⟨Hbh0, Hbh1, Hbh2⟩
    isplitl [Hx]; · iexact Hx
    isplitl [Hh]; · iexact Hh
    isplitl [Hwi0]; · iexact Hwi0
    isplitl [Hwi1]; · iexact Hwi1
    isplitl [Hwi2]; · iexact Hwi2
    isplitl [Hwh0]; · iexact Hwh0
    isplitl [Hwh1]; · iexact Hwh1
    isplitl [Hwh2]; · iexact Hwh2
    isplitl [Hbi0]; · iexact Hbi0
    isplitl [Hbi1]; · iexact Hbi1
    isplitl [Hbi2]; · iexact Hbi2
    isplitl [Hbh0]; · iexact Hbh0
    isplitl [Hbh1]; · iexact Hbh1
    isplitl [Hbh2]; · iexact Hbh2
    iexact Ho
  · iintro ⟨Hx, Hh, Hwi0, Hwi1, Hwi2, Hwh0, Hwh1, Hwh2, Hbi0, Hbi1, Hbi2, Hbh0, Hbh1, Hbh2, Ho⟩
    isplitl [Hx]; · iexact Hx
    isplitl [Hh]; · iexact Hh
    isplitl [Hwi0 Hwi1 Hwi2]
    · iapply (thirds _).2
      isplitl [Hwi0]; · iexact Hwi0
      isplitl [Hwi1]; · iexact Hwi1
      iexact Hwi2
    isplitl [Hwh0 Hwh1 Hwh2]
    · iapply (thirds _).2
      isplitl [Hwh0]; · iexact Hwh0
      isplitl [Hwh1]; · iexact Hwh1
      iexact Hwh2
    isplitl [Hbi0 Hbi1 Hbi2]
    · iapply (thirds _).2
      isplitl [Hbi0]; · iexact Hbi0
      isplitl [Hbi1]; · iexact Hbi1
      iexact Hbi2
    isplitl [Hbh0 Hbh1 Hbh2]
    · iapply (thirds _).2
      isplitl [Hbh0]; · iexact Hbh0
      isplitl [Hbh1]; · iexact Hbh1
      iexact Hbh2
    iexact Ho

/-- ENTRY: the seven arrays held whole at the entry contents are the fifteen windows' arrays at the proof data's
    entry contents, a shared array divided among its three windows. -/
theorem hsplit0 (c : Dev nD) :
    (Pipeline.arrBufs (Ix := Unit) (Name := ℕ) (U := UR sig nD τ) (Lvl := ℕ) spec0 c (V c) : sProp 𝕄)
      ⊢ (dat0 V c).arrays ((dat0 V c).arrAt · 0) := by
  rw [arrBufs0_eq, arrays0_list]
  exact (parts0 c (V c)).1

set_option maxHeartbeats 4000000 in
/-- The windows' arrays after all the write-backs, one by one: every input array at the entry contents, the output array at
    what the write-backs left. -/
theorem arrays0_exit (c : Dev nD) (V' : (b : Ref sig .tc) → Buf (Elt F) ((c : Thread nD τ).loc b))
    (hout : V' main_v16 = (dat0 V c).arrAt 14 cfg0.N) (hrest : ∀ b, b ≠ main_v16 → V' b = V c b) :
    ((dat0 V c).arrays ((dat0 V c).arrAt · cfg0.N) : sProp 𝕄) = iprop((((c : Thread nD τ).loc main_v6) ↦{fullShare} V' main_v6) ∗ (((c : Thread nD τ).loc main_v8) ↦{fullShare} V' main_v8) ∗ (((c : Thread nD τ).loc main_arg3) ↦{fullShare.left} V' main_arg3) ∗ (((c : Thread nD τ).loc main_arg3) ↦{fullShare.right.left} V' main_arg3) ∗ (((c : Thread nD τ).loc main_arg3) ↦{fullShare.right.right} V' main_arg3) ∗ (((c : Thread nD τ).loc main_arg4) ↦{fullShare.left} V' main_arg4) ∗ (((c : Thread nD τ).loc main_arg4) ↦{fullShare.right.left} V' main_arg4) ∗ (((c : Thread nD τ).loc main_arg4) ↦{fullShare.right.right} V' main_arg4) ∗ (((c : Thread nD τ).loc main_v11) ↦{fullShare.left} V' main_v11) ∗ (((c : Thread nD τ).loc main_v11) ↦{fullShare.right.left} V' main_v11) ∗ (((c : Thread nD τ).loc main_v11) ↦{fullShare.right.right} V' main_v11) ∗ (((c : Thread nD τ).loc main_v12) ↦{fullShare.left} V' main_v12) ∗ (((c : Thread nD τ).loc main_v12) ↦{fullShare.right.left} V' main_v12) ∗ (((c : Thread nD τ).loc main_v12) ↦{fullShare.right.right} V' main_v12) ∗ (((c : Thread nD τ).loc main_v16) ↦{fullShare} V' main_v16)) := by
  rw [arrays0_list]
  have hx := hrest main_v6 (by decide)
  have hh := hrest main_v8 (by decide)
  have hwi := hrest main_arg3 (by decide)
  have hwh := hrest main_arg4 (by decide)
  have hbi := hrest main_v11 (by decide)
  have hbh := hrest main_v12 (by decide)
  rw [hx, hh, hwi, hwh, hbi, hbh, hout]
  refine congrArg₂ _ (congrArg _ (in_eq0 V c 0 rfl)) (congrArg₂ _ (congrArg _ (in_eq0 V c 1 rfl)) (congrArg₂ _ (congrArg _ (in_eq0 V c 2 rfl))
    (congrArg₂ _ (congrArg _ (in_eq0 V c 3 rfl)) (congrArg₂ _ (congrArg _ (in_eq0 V c 4 rfl)) (congrArg₂ _ (congrArg _ (in_eq0 V c 5 rfl))
    (congrArg₂ _ (congrArg _ (in_eq0 V c 6 rfl)) (congrArg₂ _ (congrArg _ (in_eq0 V c 7 rfl)) (congrArg₂ _ (congrArg _ (in_eq0 V c 8 rfl))
    (congrArg₂ _ (congrArg _ (in_eq0 V c 9 rfl)) (congrArg₂ _ (congrArg _ (in_eq0 V c 10 rfl)) (congrArg₂ _ (congrArg _ (in_eq0 V c 11 rfl))
    (congrArg₂ _ (congrArg _ (in_eq0 V c 12 rfl)) (congrArg₂ _ (congrArg _ (in_eq0 V c 13 rfl)) rfl)))))))))))))

/-- EXIT: the fifteen windows' arrays at what the write-backs leave — every input array as it was, the output array
    rewritten — are the seven arrays held whole at any contents `V'` that has the output array so and agrees with
    the entry contents elsewhere. -/
theorem hjoin0 (c : Dev nD) (V' : (b : Ref sig .tc) → Buf (Elt F) ((c : Thread nD τ).loc b))
    (hout : V' main_v16 = (dat0 V c).arrAt 14 cfg0.N) (hrest : ∀ b, b ≠ main_v16 → V' b = V c b) :
    ((dat0 V c).arrays ((dat0 V c).arrAt · cfg0.N) : sProp 𝕄)
      ⊢ Pipeline.arrBufs (Ix := Unit) (Name := ℕ) (U := UR sig nD τ) (Lvl := ℕ) spec0 c V' := by
  rw [arrBufs0_eq, arrays0_exit V c V' hout hrest]
  exact (parts0 c V').2

/-! ## Call 1 -/

/-- The distinct arrays behind call 1's fifteen windows. -/
theorem arrs1 : Finset.univ.image (Pipeline.arrRef spec1) = ([main_v16, main_v10, main_arg7, main_arg8, main_v13, main_v14, main_v17] : List (Ref sig .tc)).toFinset := by decide

/-- The seven arrays held whole at contents `V'`, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v16) ↦{fullShare} V' main_v16) ∗ (((c : Thread nD τ).loc main_v10) ↦{fullShare} V' main_v10) ∗ (((c : Thread nD τ).loc main_arg7) ↦{fullShare} V' main_arg7) ∗ (((c : Thread nD τ).loc main_arg8) ↦{fullShare} V' main_arg8) ∗ (((c : Thread nD τ).loc main_v13) ↦{fullShare} V' main_v13) ∗ (((c : Thread nD τ).loc main_v14) ↦{fullShare} V' main_v14) ∗ (((c : Thread nD τ).loc main_v17) ↦{fullShare} V' main_v17)) := by
  unfold Pipeline.arrBufs
  exact bigSep_eq_bigSepL_of_eq [main_v16, main_v10, main_arg7, main_arg8, main_v13, main_v14, main_v17] arrs1 (by decide) _

/-- The call's arrays, window by window, each a whole buffer at its window's share. -/
theorem arrays1_eq (c : Dev nD) (G : (w : Fin cfg1.W) → Buf (Elt F) ((cfg1.win w).arr.view.loc (c : Thread nD τ))) :
    ((dat1 V c).arrays G : sProp 𝕄)
      = bigSep Finset.univ fun w => (((c : Thread nD τ).loc (Pipeline.arrRef spec1 w)) ↦{(dat1 V c).share w} G w : sProp 𝕄) := by
  unfold Dat.arrays
  exact bigSep_congr fun w _ => by rw [(arr_whole1 w).set_eq_univ]

/-- The fifteen windows' arrays at given contents, one by one, each at its window's share of its array. -/
theorem arrays1_list (c : Dev nD) (G : (w : Fin cfg1.W) → Buf (Elt F) ((cfg1.win w).arr.view.loc (c : Thread nD τ))) :
    ((dat1 V c).arrays G : sProp 𝕄) = iprop((((c : Thread nD τ).loc main_v16) ↦{fullShare} G 0) ∗ (((c : Thread nD τ).loc main_v10) ↦{fullShare} G 1) ∗ (((c : Thread nD τ).loc main_arg7) ↦{fullShare.left} G 2) ∗ (((c : Thread nD τ).loc main_arg7) ↦{fullShare.right.left} G 3) ∗ (((c : Thread nD τ).loc main_arg7) ↦{fullShare.right.right} G 4) ∗ (((c : Thread nD τ).loc main_arg8) ↦{fullShare.left} G 5) ∗ (((c : Thread nD τ).loc main_arg8) ↦{fullShare.right.left} G 6) ∗ (((c : Thread nD τ).loc main_arg8) ↦{fullShare.right.right} G 7) ∗ (((c : Thread nD τ).loc main_v13) ↦{fullShare.left} G 8) ∗ (((c : Thread nD τ).loc main_v13) ↦{fullShare.right.left} G 9) ∗ (((c : Thread nD τ).loc main_v13) ↦{fullShare.right.right} G 10) ∗ (((c : Thread nD τ).loc main_v14) ↦{fullShare.left} G 11) ∗ (((c : Thread nD τ).loc main_v14) ↦{fullShare.right.left} G 12) ∗ (((c : Thread nD τ).loc main_v14) ↦{fullShare.right.right} G 13) ∗ (((c : Thread nD τ).loc main_v17) ↦{fullShare} G 14)) := by
  rw [arrays1_eq, bigSep_W1]
  rfl

/-- An input window's array is never written: after all the write-backs it holds the entry contents. -/
theorem in_eq1 (c : Dev nD) (w : Fin cfg1.W) (hw : (cfg1.win w).isOut = false) :
    (dat1 V c).arrAt w cfg1.N = V c (Pipeline.arrRef spec1 w) :=
  ((dat1 V c).arrAt_in w hw _).trans (by dsimp only [dat1])

/-- The seven whole arrays and the fifteen windows' parts of them, at one family of contents. -/
theorem parts1 (c : Dev nD) (f : (b : Ref sig .tc) → Buf (Elt F) ((c : Thread nD τ).loc b)) :
    (iprop((((c : Thread nD τ).loc main_v16) ↦{fullShare} f main_v16) ∗ (((c : Thread nD τ).loc main_v10) ↦{fullShare} f main_v10) ∗ (((c : Thread nD τ).loc main_arg7) ↦{fullShare} f main_arg7) ∗ (((c : Thread nD τ).loc main_arg8) ↦{fullShare} f main_arg8) ∗ (((c : Thread nD τ).loc main_v13) ↦{fullShare} f main_v13) ∗ (((c : Thread nD τ).loc main_v14) ↦{fullShare} f main_v14) ∗ (((c : Thread nD τ).loc main_v17) ↦{fullShare} f main_v17)) : sProp 𝕄)
      ⊣⊢ iprop((((c : Thread nD τ).loc main_v16) ↦{fullShare} f main_v16) ∗ (((c : Thread nD τ).loc main_v10) ↦{fullShare} f main_v10) ∗ (((c : Thread nD τ).loc main_arg7) ↦{fullShare.left} f main_arg7) ∗ (((c : Thread nD τ).loc main_arg7) ↦{fullShare.right.left} f main_arg7) ∗ (((c : Thread nD τ).loc main_arg7) ↦{fullShare.right.right} f main_arg7) ∗ (((c : Thread nD τ).loc main_arg8) ↦{fullShare.left} f main_arg8) ∗ (((c : Thread nD τ).loc main_arg8) ↦{fullShare.right.left} f main_arg8) ∗ (((c : Thread nD τ).loc main_arg8) ↦{fullShare.right.right} f main_arg8) ∗ (((c : Thread nD τ).loc main_v13) ↦{fullShare.left} f main_v13) ∗ (((c : Thread nD τ).loc main_v13) ↦{fullShare.right.left} f main_v13) ∗ (((c : Thread nD τ).loc main_v13) ↦{fullShare.right.right} f main_v13) ∗ (((c : Thread nD τ).loc main_v14) ↦{fullShare.left} f main_v14) ∗ (((c : Thread nD τ).loc main_v14) ↦{fullShare.right.left} f main_v14) ∗ (((c : Thread nD τ).loc main_v14) ↦{fullShare.right.right} f main_v14) ∗ (((c : Thread nD τ).loc main_v17) ↦{fullShare} f main_v17)) := by
  constructor
  · iintro ⟨Hx, Hh, Hwi, Hwh, Hbi, Hbh, Ho⟩
    ihave Hwi := (thirds _).1 $$ Hwi
    icases Hwi with ⟨Hwi0, Hwi1, Hwi2⟩
    ihave Hwh := (thirds _).1 $$ Hwh
    icases Hwh with ⟨Hwh0, Hwh1, Hwh2⟩
    ihave Hbi := (thirds _).1 $$ Hbi
    icases Hbi with ⟨Hbi0, Hbi1, Hbi2⟩
    ihave Hbh := (thirds _).1 $$ Hbh
    icases Hbh with ⟨Hbh0, Hbh1, Hbh2⟩
    isplitl [Hx]; · iexact Hx
    isplitl [Hh]; · iexact Hh
    isplitl [Hwi0]; · iexact Hwi0
    isplitl [Hwi1]; · iexact Hwi1
    isplitl [Hwi2]; · iexact Hwi2
    isplitl [Hwh0]; · iexact Hwh0
    isplitl [Hwh1]; · iexact Hwh1
    isplitl [Hwh2]; · iexact Hwh2
    isplitl [Hbi0]; · iexact Hbi0
    isplitl [Hbi1]; · iexact Hbi1
    isplitl [Hbi2]; · iexact Hbi2
    isplitl [Hbh0]; · iexact Hbh0
    isplitl [Hbh1]; · iexact Hbh1
    isplitl [Hbh2]; · iexact Hbh2
    iexact Ho
  · iintro ⟨Hx, Hh, Hwi0, Hwi1, Hwi2, Hwh0, Hwh1, Hwh2, Hbi0, Hbi1, Hbi2, Hbh0, Hbh1, Hbh2, Ho⟩
    isplitl [Hx]; · iexact Hx
    isplitl [Hh]; · iexact Hh
    isplitl [Hwi0 Hwi1 Hwi2]
    · iapply (thirds _).2
      isplitl [Hwi0]; · iexact Hwi0
      isplitl [Hwi1]; · iexact Hwi1
      iexact Hwi2
    isplitl [Hwh0 Hwh1 Hwh2]
    · iapply (thirds _).2
      isplitl [Hwh0]; · iexact Hwh0
      isplitl [Hwh1]; · iexact Hwh1
      iexact Hwh2
    isplitl [Hbi0 Hbi1 Hbi2]
    · iapply (thirds _).2
      isplitl [Hbi0]; · iexact Hbi0
      isplitl [Hbi1]; · iexact Hbi1
      iexact Hbi2
    isplitl [Hbh0 Hbh1 Hbh2]
    · iapply (thirds _).2
      isplitl [Hbh0]; · iexact Hbh0
      isplitl [Hbh1]; · iexact Hbh1
      iexact Hbh2
    iexact Ho

/-- ENTRY: the seven arrays held whole at the entry contents are the fifteen windows' arrays at the proof data's
    entry contents, a shared array divided among its three windows. -/
theorem hsplit1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_list]
  exact (parts1 c (V c)).1

set_option maxHeartbeats 4000000 in
/-- The windows' arrays after all the write-backs, one by one: every input array at the entry contents, the output array at
    what the write-backs left. -/
theorem arrays1_exit (c : Dev nD) (V' : (b : Ref sig .tc) → Buf (Elt F) ((c : Thread nD τ).loc b))
    (hout : V' main_v17 = (dat1 V c).arrAt 14 cfg1.N) (hrest : ∀ b, b ≠ main_v17 → V' b = V c b) :
    ((dat1 V c).arrays ((dat1 V c).arrAt · cfg1.N) : sProp 𝕄) = iprop((((c : Thread nD τ).loc main_v16) ↦{fullShare} V' main_v16) ∗ (((c : Thread nD τ).loc main_v10) ↦{fullShare} V' main_v10) ∗ (((c : Thread nD τ).loc main_arg7) ↦{fullShare.left} V' main_arg7) ∗ (((c : Thread nD τ).loc main_arg7) ↦{fullShare.right.left} V' main_arg7) ∗ (((c : Thread nD τ).loc main_arg7) ↦{fullShare.right.right} V' main_arg7) ∗ (((c : Thread nD τ).loc main_arg8) ↦{fullShare.left} V' main_arg8) ∗ (((c : Thread nD τ).loc main_arg8) ↦{fullShare.right.left} V' main_arg8) ∗ (((c : Thread nD τ).loc main_arg8) ↦{fullShare.right.right} V' main_arg8) ∗ (((c : Thread nD τ).loc main_v13) ↦{fullShare.left} V' main_v13) ∗ (((c : Thread nD τ).loc main_v13) ↦{fullShare.right.left} V' main_v13) ∗ (((c : Thread nD τ).loc main_v13) ↦{fullShare.right.right} V' main_v13) ∗ (((c : Thread nD τ).loc main_v14) ↦{fullShare.left} V' main_v14) ∗ (((c : Thread nD τ).loc main_v14) ↦{fullShare.right.left} V' main_v14) ∗ (((c : Thread nD τ).loc main_v14) ↦{fullShare.right.right} V' main_v14) ∗ (((c : Thread nD τ).loc main_v17) ↦{fullShare} V' main_v17)) := by
  rw [arrays1_list]
  have hx := hrest main_v16 (by decide)
  have hh := hrest main_v10 (by decide)
  have hwi := hrest main_arg7 (by decide)
  have hwh := hrest main_arg8 (by decide)
  have hbi := hrest main_v13 (by decide)
  have hbh := hrest main_v14 (by decide)
  rw [hx, hh, hwi, hwh, hbi, hbh, hout]
  refine congrArg₂ _ (congrArg _ (in_eq1 V c 0 rfl)) (congrArg₂ _ (congrArg _ (in_eq1 V c 1 rfl)) (congrArg₂ _ (congrArg _ (in_eq1 V c 2 rfl))
    (congrArg₂ _ (congrArg _ (in_eq1 V c 3 rfl)) (congrArg₂ _ (congrArg _ (in_eq1 V c 4 rfl)) (congrArg₂ _ (congrArg _ (in_eq1 V c 5 rfl))
    (congrArg₂ _ (congrArg _ (in_eq1 V c 6 rfl)) (congrArg₂ _ (congrArg _ (in_eq1 V c 7 rfl)) (congrArg₂ _ (congrArg _ (in_eq1 V c 8 rfl))
    (congrArg₂ _ (congrArg _ (in_eq1 V c 9 rfl)) (congrArg₂ _ (congrArg _ (in_eq1 V c 10 rfl)) (congrArg₂ _ (congrArg _ (in_eq1 V c 11 rfl))
    (congrArg₂ _ (congrArg _ (in_eq1 V c 12 rfl)) (congrArg₂ _ (congrArg _ (in_eq1 V c 13 rfl)) rfl)))))))))))))

/-- EXIT: the fifteen windows' arrays at what the write-backs leave — every input array as it was, the output array
    rewritten — are the seven arrays held whole at any contents `V'` that has the output array so and agrees with
    the entry contents elsewhere. -/
theorem hjoin1 (c : Dev nD) (V' : (b : Ref sig .tc) → Buf (Elt F) ((c : Thread nD τ).loc b))
    (hout : V' main_v17 = (dat1 V c).arrAt 14 cfg1.N) (hrest : ∀ b, b ≠ main_v17 → V' b = V c b) :
    ((dat1 V c).arrays ((dat1 V c).arrAt · cfg1.N) : sProp 𝕄)
      ⊢ Pipeline.arrBufs (Ix := Unit) (Name := ℕ) (U := UR sig nD τ) (Lvl := ℕ) spec1 c V' := by
  rw [arrBufs1_eq, arrays1_exit V c V' hout hrest]
  exact (parts1 c V').2

end Cert.KernelIdeal.Gen

end
-- ==== Proof.KI.Vals.lean ====
import proofs.«106570_j81046032876009_1_alg».proof.Proof.KI.Data
import Idealize.ShloMosaic.Lib.Pipeline.Regions
import Idealize.ShloMosaic.Lib.StableHlo.Run

/-!
# The buffers' contents through the program

@main is five stretches: host operations, the layer-0 call, the layer-1 call, the decoder call, host operations. The
contents of every unscoped buffer are followed from the launch memory through the five: a host stretch applies its
operations; a call rewrites its one output array with what its grid points wrote back and leaves everything else.
-/

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-! ## The buffers' contents between the five stretches -/

/-- Core `c`'s buffers at launch. -/
abbrev W0 : Dev nD → Valuation τ sig (Elt F) := fun c b => m (c, b)
/-- After the first host stretch: the layer-0 call's entry contents. -/
abbrev W1 : Dev nD → Valuation τ sig (Elt F) := fun c => StableHlo.after hostOps0 (W0 m c)
/-- The same read at the TensorCore's references. -/
abbrev T1 : (c : Dev nD) → (b : Ref sig .tc) → Buf (Elt F) ((c : Thread nD τ).loc b) := fun c b => W1 m c b
/-- The new first-layer hidden row: what the layer-0 call's eight write-backs leave in its output array. -/
def hid0 (c : Dev nD) : Buf (Elt F) ((c : Thread nD τ).loc main_v16) := (dat0 (T1 m) c).arrAt 14 cfg0.N
/-- After the layer-0 call: its output array rewritten, everything else as entered. -/
def W2 (c : Dev nD) : Valuation τ sig (Elt F) := Function.update (W1 m c) (Proc.devRef .tc main_v16) (hid0 m c)
abbrev T2 : (c : Dev nD) → (b : Ref sig .tc) → Buf (Elt F) ((c : Thread nD τ).loc b) := fun c b => W2 m c b
/-- The new second-layer hidden row. -/
def hid1 (c : Dev nD) : Buf (Elt F) ((c : Thread nD τ).loc main_v17) := (dat1 (T2 m) c).arrAt 14 cfg1.N
/-- After the layer-1 call. -/
def W3 (c : Dev nD) : Valuation τ sig (Elt F) := Function.update (W2 m c) (Proc.devRef .tc main_v17) (hid1 m c)
abbrev T3 : (c : Dev nD) → (b : Ref sig .tc) → Buf (Elt F) ((c : Thread nD τ).loc b) := fun c b => W3 m c b
/-- The read-out row. -/
def dec (c : Dev nD) : Buf (Elt F) ((c : Thread nD τ).loc main_v18) := (dat2 (T3 m) c).arrAt 3 cfg2.N
/-- After the decoder call. -/
def W4 (c : Dev nD) : Valuation τ sig (Elt F) := Function.update (W3 m c) (Proc.devRef .tc main_v18) (dec m c)
abbrev T4 : (c : Dev nD) → (b : Ref sig .tc) → Buf (Elt F) ((c : Thread nD τ).loc b) := fun c b => W4 m c b
/-- After the last host stretch: the final contents. -/
abbrev W5 : Dev nD → Valuation τ sig (Elt F) := fun c => StableHlo.after hostOps3 (W4 m c)

theorem W2_out (c : Dev nD) : T2 m c main_v16 = (dat0 (T1 m) c).arrAt 14 cfg0.N := by
  show W2 m c (Proc.devRef .tc main_v16) = _; unfold W2; rw [Function.update_self]; rfl
theorem W2_of_ne (c : Dev nD) (b : Ref sig .tc) (hb : b ≠ main_v16) : T2 m c b = T1 m c b := by
  show W2 m c (Proc.devRef .tc b) = W1 m c (Proc.devRef .tc b); unfold W2
  rw [Function.update_of_ne (StableHlo.devRef_ne_of_ne hb)]
theorem W3_out (c : Dev nD) : T3 m c main_v17 = (dat1 (T2 m) c).arrAt 14 cfg1.N := by
  show W3 m c (Proc.devRef .tc main_v17) = _; unfold W3; rw [Function.update_self]; rfl
theorem W3_of_ne (c : Dev nD) (b : Ref sig .tc) (hb : b ≠ main_v17) : T3 m c b = T2 m c b := by
  show W3 m c (Proc.devRef .tc b) = W2 m c (Proc.devRef .tc b); unfold W3
  rw [Function.update_of_ne (StableHlo.devRef_ne_of_ne hb)]
theorem W4_out (c : Dev nD) : T4 m c main_v18 = (dat2 (T3 m) c).arrAt 3 cfg2.N := by
  show W4 m c (Proc.devRef .tc main_v18) = _; unfold W4; rw [Function.update_self]; rfl
theorem W4_of_ne (c : Dev nD) (b : Ref sig .tc) (hb : b ≠ main_v18) : T4 m c b = T3 m c b := by
  show W4 m c (Proc.devRef .tc b) = W3 m c (Proc.devRef .tc b); unfold W4
  rw [Function.update_of_ne (StableHlo.devRef_ne_of_ne hb)]

end Cert.KernelIdeal.Gen

end
-- ==== Proof.KI.Run.lean ====
import proofs.«106570_j81046032876009_1_alg».proof.Proof.KI.Shares
import proofs.«106570_j81046032876009_1_alg».proof.Proof.KI.Vals
import proofs.«106570_j81046032876009_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

/-!
# The run of the whole program

@main is five stretches: host operations, the layer-0 call, the layer-1 call, the decoder call, host operations. The
contents of every unscoped buffer are followed from the launch memory through the five: a host stretch applies its
operations, a call rewrites its one output array with what its grid points wrote back and leaves everything else. The run
ends with every unscoped buffer at the last of these contents — which gives both that the arguments end unchanged and
what the results hold. The three bodies' obligations are hypotheses here; they are proved beside this module.
-/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T2 m) c
  | ⟨2, _⟩ => fun c => dat2 (T3 m) c

abbrev 𝒱₀ : Variants := Variants.none
/-- No core owes another anything. -/
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)

/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

section Run

variable (hb0 : ∀ (V : (c : Dev nD) → (b : Ref sig .tc) → Buf (Elt F) ((c : Thread nD τ).loc b)) (c : Dev nD), BodyObligation (dat0 (F := F) V c) (defs₀ (F := F)) Variants.none () Set.univ)
variable (hb1 : ∀ (V : (c : Dev nD) → (b : Ref sig .tc) → Buf (Elt F) ((c : Thread nD τ).loc b)) (c : Dev nD), BodyObligation (dat1 (F := F) V c) (defs₀ (F := F)) Variants.none () Set.univ)
variable (hb2 : ∀ (V : (c : Dev nD) → (b : Ref sig .tc) → Buf (Elt F) ((c : Thread nD τ).loc b)) (c : Dev nD), BodyObligation (dat2 (F := F) V c) (defs₀ (F := F)) Variants.none () Set.univ)

/-! ## The three calls as segments -/

set_option backward.isDefEq.respectTransparency.types false in
/-- Call 0 as a segment: entered holding every unscoped buffer at `W1`, left holding them at `W2`. Its arrays are
    taken out of the unscoped buffers at the entry (a shared array divided among its windows) and put back at the exit
    with the output array rewritten; the generator register goes into the body's invariant and comes back; nothing is owed. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (hb0 (T1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsp : (StableHlo.held (c : Thread nD τ) (Pipeline.ucRefs τ sig) (W1 m c) : sProp 𝕄)
        ⊢ iprop((pdats m 0 c).arrays ((pdats m 0 c).arrAt · 0) ∗ Pipeline.unscopedRest spec0 c (T1 m c)) := by
      rw [← Pipeline.unscopedBufs_held c (W1 m c), Pipeline.unscopedBufs_split₀ cfgs 0 winFacts₀0.arr_unscoped c]
      exact sep_mono (hsplit0 (T1 m) c) .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hj : iprop((pdats m 0 c).arrays ((pdats m 0 c).arrAt · cfg0.N) ∗ Pipeline.unscopedRest spec0 c (T1 m c))
        ⊢ (StableHlo.held (c : Thread nD τ) (Pipeline.ucRefs τ sig) (W2 m c) : sProp 𝕄) := by
      rw [← Pipeline.unscopedBufs_held c (W2 m c), Pipeline.unscopedBufs_split₀ cfgs 0 winFacts₀0.arr_unscoped c]
      refine sep_mono (hjoin0 (T1 m) c _ (W2_out m c) (fun b hb => W2_of_ne m c b hb)) (Entails.of_eq ?_)
      unfold Pipeline.unscopedRest
      exact bigSep_congr fun b hb => by
        show (((c : Thread nD τ).loc b) ↦{fullShare} T1 m c b : sProp 𝕄) = (((c : Thread nD τ).loc b) ↦{fullShare} T2 m c b)
        rw [W2_of_ne m c b (fun e => (Finset.mem_sdiff.mp hb).2 (by rw [e, arrs0]; decide))]
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered holding every unscoped buffer at `W2`, left holding them at `W3`. Its arrays are
    taken out of the unscoped buffers at the entry (a shared array divided among its windows) and put back at the exit
    with the output array rewritten; the generator register goes into the body's invariant and comes back; nothing is owed. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb1 (T2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsp : (StableHlo.held (c : Thread nD τ) (Pipeline.ucRefs τ sig) (W2 m c) : sProp 𝕄)
        ⊢ iprop((pdats m 1 c).arrays ((pdats m 1 c).arrAt · 0) ∗ Pipeline.unscopedRest spec1 c (T2 m c)) := by
      rw [← Pipeline.unscopedBufs_held c (W2 m c), Pipeline.unscopedBufs_split₀ cfgs 1 winFacts₀1.arr_unscoped c]
      exact sep_mono (hsplit1 (T2 m) c) .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hj : iprop((pdats m 1 c).arrays ((pdats m 1 c).arrAt · cfg1.N) ∗ Pipeline.unscopedRest spec1 c (T2 m c))
        ⊢ (StableHlo.held (c : Thread nD τ) (Pipeline.ucRefs τ sig) (W3 m c) : sProp 𝕄) := by
      rw [← Pipeline.unscopedBufs_held c (W3 m c), Pipeline.unscopedBufs_split₀ cfgs 1 winFacts₀1.arr_unscoped c]
      refine sep_mono (hjoin1 (T2 m) c _ (W3_out m c) (fun b hb => W3_of_ne m c b hb)) (Entails.of_eq ?_)
      unfold Pipeline.unscopedRest
      exact bigSep_congr fun b hb => by
        show (((c : Thread nD τ).loc b) ↦{fullShare} T2 m c b : sProp 𝕄) = (((c : Thread nD τ).loc b) ↦{fullShare} T3 m c b)
        rw [W3_of_ne m c b (fun e => (Finset.mem_sdiff.mp hb).2 (by rw [e, arrs1]; decide))]
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder call as a segment: its four windows are on four distinct arrays, each held whole. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb2 (T3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (T3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hF : ∀ w : Fin cfg2.W, (pdats m 2 c).arrAt w cfg2.N = T4 m c (Pipeline.arrRef spec2 w) := fun w => by
      match w with
      | ⟨0, _⟩ => exact (((pdats m 2 c).arrAt_in 0 rfl _).trans rfl).trans (W4_of_ne m c main_v17 (by decide)).symm
      | ⟨1, _⟩ => exact (((pdats m 2 c).arrAt_in 1 rfl _).trans rfl).trans (W4_of_ne m c main_arg11 (by decide)).symm
      | ⟨2, _⟩ => exact (((pdats m 2 c).arrAt_in 2 rfl _).trans rfl).trans (W4_of_ne m c main_v15 (by decide)).symm
      | ⟨3, _⟩ => exact (W4_out m c).symm
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T3 m c) (T4 m c) ((pdats m 2 c).arrAt · cfg2.N) hF
      (fun b hb => W4_of_ne m c b fun e => hb (e ▸ Finset.mem_image.mpr ⟨3, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as five segments, and the launch -/

abbrev stretches : List (Pipeline.Seg (pcfgs (F := F)) adm (pdats m) () defs₀ 𝒱₀ L lv) :=
  [ .host (hseg hostOps0 hostOps0_sub hostOps0_fresh (W0 m)),
    .region (reg0 m hb0),
    .region (reg1 m hb1),
    .region (reg2 m hb2),
    .host (hseg hostOps3 hostOps3_sub hostOps3_fresh (W4 m)) ]

/-- @main is the run of the five segments. -/
theorem main_run (c : Dev nD) : main (F := F) c = Pipeline.Seg.run (stretches m hb0 hb1 hb2) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hb0 hb1 hb2 in
set_option backward.isDefEq.respectTransparency.types false in
/-- THE RUN: from any memory with zero counters every weakly fair execution of @main terminates, nothing faulting, and
    every final state holds every unscoped buffer of every core at the final contents `W5`. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (stretches m hb0 hb1 hb2)
    (fun c Q => by rw [main_run m hb0 hb1 hb2 c])
    (by simp only [stretches, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Run

end Cert.KernelIdeal.Gen

end
-- ==== Proof.KI.Body0.lean ====
import proofs.«106570_j81046032876009_1_alg».proof.Proof.KI.Data
import Idealize.ShloMosaic.Lib.Pipeline.FrameBody
import Idealize.ShloMosaic.Lib.Tactic

-- membership in a rectangle of full extents: the structural look recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! # The layer-0 cell call's body: eight points, fourteen input windows, one output window

At a point the body loads the input row, the whole previous hidden row, the three gates' row blocks of both weights and
of both biases, the 256 entries of the previous hidden row at the point's offset, and its output block (a value it
never uses), and stores the cell's 256 new entries over the whole output block. The first loads are made by a part the
body calls, which returns the four pre-activations it computed from them. -/

section
variable (V : (c : Dev nD) → (b : Ref sig .tc) → Buf (Elt F) ((c : Thread nD τ).loc b))

/-! ## The proof data, projected -/

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) :
    (dat0 V c).after 14 t = out0_14 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

/-! ## Each input's current staging buffer holds its block, fetched at the point or not

The input row and the previous hidden row are fetched at the first point only and their block index never moves; the
other windows are fetched at every point. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

theorem before0_9 (c : Dev nD) (t : Fin cfg0.N) (d) : (dat0 V c).before 9 t d = iblk0 V c 9 t :=
  ((dat0 V c).before_in_eq_fetched 9 rfl (fun _ => rfl) (fun _ _ _ => rfl)
    (fun t => by rw [after0_9]; unfold Dat.blockOf iblk0; rw [A_eq0]; try rfl) t d).trans
    (by unfold Dat.fetched Dat.blockOf iblk0; rw [A_eq0]; try rfl)

theorem before0_10 (c : Dev nD) (t : Fin cfg0.N) (d) : (dat0 V c).before 10 t d = iblk0 V c 10 t :=
  ((dat0 V c).before_in_eq_fetched 10 rfl (fun _ => rfl) (fun _ _ _ => rfl)
    (fun t => by rw [after0_10]; unfold Dat.blockOf iblk0; rw [A_eq0]; try rfl) t d).trans
    (by unfold Dat.fetched Dat.blockOf iblk0; rw [A_eq0]; try rfl)

theorem before0_11 (c : Dev nD) (t : Fin cfg0.N) (d) : (dat0 V c).before 11 t d = iblk0 V c 11 t :=
  ((dat0 V c).before_in_eq_fetched 11 rfl (fun _ => rfl) (fun _ _ _ => rfl)
    (fun t => by rw [after0_11]; unfold Dat.blockOf iblk0; rw [A_eq0]; try rfl) t d).trans
    (by unfold Dat.fetched Dat.blockOf iblk0; rw [A_eq0]; try rfl)

theorem before0_12 (c : Dev nD) (t : Fin cfg0.N) (d) : (dat0 V c).before 12 t d = iblk0 V c 12 t :=
  ((dat0 V c).before_in_eq_fetched 12 rfl (fun _ => rfl) (fun _ _ _ => rfl)
    (fun t => by rw [after0_12]; unfold Dat.blockOf iblk0; rw [A_eq0]; try rfl) t d).trans
    (by unfold Dat.fetched Dat.blockOf iblk0; rw [A_eq0]; try rfl)

theorem before0_13 (c : Dev nD) (t : Fin cfg0.N) (d) : (dat0 V c).before 13 t d = iblk0 V c 13 t :=
  ((dat0 V c).before_in_eq_fetched 13 rfl (fun _ => rfl) (fun _ _ _ => rfl)
    (fun t => by rw [after0_13]; unfold Dat.blockOf iblk0; rw [A_eq0]; try rfl) t d).trans
    (by unfold Dat.fetched Dat.blockOf iblk0; rw [A_eq0]; try rfl)

/-! ## The body's triple -/

/-- The one store of the body covers the output block: it is the block's whole rectangle. -/
theorem cover0_14 (p0 : Vec F S1x256 .f32) (y : S1x256.Idx) :
    ∃ pc ∈ ([⟨Rect.unit (s := S1x256) ![0, 0] S1x256.size inb_S1x256_S1x256_0_0, p0⟩] : List (View.Piece (Elt F) S1x256 .f32)), y ∈ pc.1.set :=
  View.cover_of_tiled [⟨Rect.unit (s := S1x256) ![0, 0] S1x256.size inb_S1x256_S1x256_0_0, p0⟩] S1x256.size (by rfl) y

set_option maxHeartbeats 4000000 in
/-- The cell body at grid coordinates `i`, on whole staging memrefs, the fourteen inputs' at contents `x0 … x13` and the
    output's at anything, runs to the continuation holding the inputs' as they were and the output's at the one store's
    value over the whole block. The part's loads and the body's own are all of input blocks nothing stores into; the
    entries of the previous hidden row are read through the rectangle at the point's offset; the load of the output
    block reads a value that nothing uses. -/
theorem sound_kernel0 (c : Dev nD) (E : Set ℕ) (i : grid0.Coords)
    (arg1 : Memref sig .tc .vmem S1x6 .f32) (harg1 : arg1.IsWhole)
    (arg2 : Memref sig .tc .vmem S1x2048 .f32) (harg2 : arg2.IsWhole)
    (arg3 : Memref sig .tc .vmem S256x6 .f32) (harg3 : arg3.IsWhole)
    (arg4 : Memref sig .tc .vmem S256x6 .f32) (harg4 : arg4.IsWhole)
    (arg5 : Memref sig .tc .vmem S256x6 .f32) (harg5 : arg5.IsWhole)
    (arg6 : Memref sig .tc .vmem S256x2048 .f32) (harg6 : arg6.IsWhole)
    (arg7 : Memref sig .tc .vmem S256x2048 .f32) (harg7 : arg7.IsWhole)
    (arg8 : Memref sig .tc .vmem S256x2048 .f32) (harg8 : arg8.IsWhole)
    (arg9 : Memref sig .tc .vmem S1x256 .f32) (harg9 : arg9.IsWhole)
    (arg10 : Memref sig .tc .vmem S1x256 .f32) (harg10 : arg10.IsWhole)
    (arg11 : Memref sig .tc .vmem S1x256 .f32) (harg11 : arg11.IsWhole)
    (arg12 : Memref sig .tc .vmem S1x256 .f32) (harg12 : arg12.IsWhole)
    (arg13 : Memref sig .tc .vmem S1x256 .f32) (harg13 : arg13.IsWhole)
    (arg14 : Memref sig .tc .vmem S1x256 .f32) (harg14 : arg14.IsWhole)
    (arg15 : Memref sig .tc .vmem S1x256 .f32) (harg15 : arg15.IsWhole)
    (x0 : Vec F S1x6 .f32) (x1 : Vec F S1x2048 .f32) (x2 : Vec F S256x6 .f32) (x3 : Vec F S256x6 .f32) (x4 : Vec F S256x6 .f32) (x5 : Vec F S256x2048 .f32) (x6 : Vec F S256x2048 .f32) (x7 : Vec F S256x2048 .f32) (x8 : Vec F S1x256 .f32) (x9 : Vec F S1x256 .f32) (x10 : Vec F S1x256 .f32) (x11 : Vec F S1x256 .f32) (x12 : Vec F S1x256 .f32) (x13 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ (∃ d, owns (c : Thread nD τ) arg15 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare (out0_14 i x0 x1 x2 x3 x4 x5 x6 x7 x8 x9 x10 x11 x12 x13)) -∗ K ⟨⟩))
      ⊢ wp frame (wpE (defs₀ (F := F)) Variants.none c none) E (cc0__gru_kernel_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__gru_kernel_body_eq_skeleton]; unfold cc0__gru_kernel_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover0_14 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t))

set_option maxHeartbeats 1000000 in
/-- The body at any point: the inputs' memrefs hold their blocks, so the body's triple applies at the point's grid
    coordinates; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel0 c Set.univ (grid0.coords t) _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Gen

end
-- ==== Proof.KI.Body1.lean ====
import proofs.«106570_j81046032876009_1_alg».proof.Proof.KI.Data
import Idealize.ShloMosaic.Lib.Pipeline.FrameBody
import Idealize.ShloMosaic.Lib.Tactic

-- membership in a rectangle of full extents: the structural look recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! # The layer-1 cell call's body: eight points, fourteen input windows, one output window

At a point the body loads the input row, the whole previous hidden row, the three gates' row blocks of both weights and
of both biases, the 256 entries of the previous hidden row at the point's offset, and its output block (a value it
never uses), and stores the cell's 256 new entries over the whole output block. The first loads are made by a part the
body calls, which returns the four pre-activations it computed from them. -/

section
variable (V : (c : Dev nD) → (b : Ref sig .tc) → Buf (Elt F) ((c : Thread nD τ).loc b))

/-! ## The proof data, projected -/

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) :
    (dat1 V c).after 14 t = out1_14 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by dsimp only [dat1]

/-! ## Each input's current staging buffer holds its block, fetched at the point or not

The input row and the previous hidden row are fetched at the first point only and their block index never moves; the
other windows are fetched at every point. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)

theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)

theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)

theorem before1_11 (c : Dev nD) (t : Fin cfg1.N) (d) : (dat1 V c).before 11 t d = iblk1 V c 11 t :=
  ((dat1 V c).before_in_eq_fetched 11 rfl (fun _ => rfl) (fun _ _ _ => rfl)
    (fun t => by rw [after1_11]; unfold Dat.blockOf iblk1; rw [A_eq1]; try rfl) t d).trans
    (by unfold Dat.fetched Dat.blockOf iblk1; rw [A_eq1]; try rfl)

theorem before1_12 (c : Dev nD) (t : Fin cfg1.N) (d) : (dat1 V c).before 12 t d = iblk1 V c 12 t :=
  ((dat1 V c).before_in_eq_fetched 12 rfl (fun _ => rfl) (fun _ _ _ => rfl)
    (fun t => by rw [after1_12]; unfold Dat.blockOf iblk1; rw [A_eq1]; try rfl) t d).trans
    (by unfold Dat.fetched Dat.blockOf iblk1; rw [A_eq1]; try rfl)

theorem before1_13 (c : Dev nD) (t : Fin cfg1.N) (d) : (dat1 V c).before 13 t d = iblk1 V c 13 t :=
  ((dat1 V c).before_in_eq_fetched 13 rfl (fun _ => rfl) (fun _ _ _ => rfl)
    (fun t => by rw [after1_13]; unfold Dat.blockOf iblk1; rw [A_eq1]; try rfl) t d).trans
    (by unfold Dat.fetched Dat.blockOf iblk1; rw [A_eq1]; try rfl)

/-! ## The body's triple -/

/-- The one store of the body covers the output block: it is the block's whole rectangle. -/
theorem cover1_14 (p0 : Vec F S1x256 .f32) (y : S1x256.Idx) :
    ∃ pc ∈ ([⟨Rect.unit (s := S1x256) ![0, 0] S1x256.size inb_S1x256_S1x256_0_0, p0⟩] : List (View.Piece (Elt F) S1x256 .f32)), y ∈ pc.1.set :=
  View.cover_of_tiled [⟨Rect.unit (s := S1x256) ![0, 0] S1x256.size inb_S1x256_S1x256_0_0, p0⟩] S1x256.size (by rfl) y

set_option maxHeartbeats 4000000 in
/-- The cell body at grid coordinates `i`, on whole staging memrefs, the fourteen inputs' at contents `x0 … x13` and the
    output's at anything, runs to the continuation holding the inputs' as they were and the output's at the one store's
    value over the whole block. The part's loads and the body's own are all of input blocks nothing stores into; the
    entries of the previous hidden row are read through the rectangle at the point's offset; the load of the output
    block reads a value that nothing uses. -/
theorem sound_kernel1 (c : Dev nD) (E : Set ℕ) (i : grid1.Coords)
    (arg1 : Memref sig .tc .vmem S1x2048 .f32) (harg1 : arg1.IsWhole)
    (arg2 : Memref sig .tc .vmem S1x2048 .f32) (harg2 : arg2.IsWhole)
    (arg3 : Memref sig .tc .vmem S256x2048 .f32) (harg3 : arg3.IsWhole)
    (arg4 : Memref sig .tc .vmem S256x2048 .f32) (harg4 : arg4.IsWhole)
    (arg5 : Memref sig .tc .vmem S256x2048 .f32) (harg5 : arg5.IsWhole)
    (arg6 : Memref sig .tc .vmem S256x2048 .f32) (harg6 : arg6.IsWhole)
    (arg7 : Memref sig .tc .vmem S256x2048 .f32) (harg7 : arg7.IsWhole)
    (arg8 : Memref sig .tc .vmem S256x2048 .f32) (harg8 : arg8.IsWhole)
    (arg9 : Memref sig .tc .vmem S1x256 .f32) (harg9 : arg9.IsWhole)
    (arg10 : Memref sig .tc .vmem S1x256 .f32) (harg10 : arg10.IsWhole)
    (arg11 : Memref sig .tc .vmem S1x256 .f32) (harg11 : arg11.IsWhole)
    (arg12 : Memref sig .tc .vmem S1x256 .f32) (harg12 : arg12.IsWhole)
    (arg13 : Memref sig .tc .vmem S1x256 .f32) (harg13 : arg13.IsWhole)
    (arg14 : Memref sig .tc .vmem S1x256 .f32) (harg14 : arg14.IsWhole)
    (arg15 : Memref sig .tc .vmem S1x256 .f32) (harg15 : arg15.IsWhole)
    (x0 : Vec F S1x2048 .f32) (x1 : Vec F S1x2048 .f32) (x2 : Vec F S256x2048 .f32) (x3 : Vec F S256x2048 .f32) (x4 : Vec F S256x2048 .f32) (x5 : Vec F S256x2048 .f32) (x6 : Vec F S256x2048 .f32) (x7 : Vec F S256x2048 .f32) (x8 : Vec F S1x256 .f32) (x9 : Vec F S1x256 .f32) (x10 : Vec F S1x256 .f32) (x11 : Vec F S1x256 .f32) (x12 : Vec F S1x256 .f32) (x13 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ (∃ d, owns (c : Thread nD τ) arg15 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare (out1_14 i x0 x1 x2 x3 x4 x5 x6 x7 x8 x9 x10 x11 x12 x13)) -∗ K ⟨⟩))
      ⊢ wp frame (wpE (defs₀ (F := F)) Variants.none c none) E (cc1__gru_kernel_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__gru_kernel_body_eq_skeleton]; unfold cc1__gru_kernel_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover1_14 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t))

set_option maxHeartbeats 1000000 in
/-- The body at any point: the inputs' memrefs hold their blocks, so the body's triple applies at the point's grid
    coordinates; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel1 c Set.univ (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Gen

end
-- ==== Proof.KI.Body2.lean ====
import proofs.«106570_j81046032876009_1_alg».proof.Proof.KI.Data
import Idealize.ShloMosaic.Lib.Pipeline.FrameBody
import Idealize.ShloMosaic.Lib.Tactic

-- membership in a rectangle of full extents: the structural look recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! # The decoder call's body: one point, three input windows, one output window

The body loads the hidden row, the whole weight block and the bias row, loads its output block (a value it never
uses), and stores the row times the transposed weight plus the bias over the whole output block. -/

section
variable (V : (c : Dev nD) → (b : Ref sig .tc) → Buf (Elt F) ((c : Thread nD τ).loc b))

/-! ## The proof data, projected -/

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-! ## Each input's current staging buffer holds its block, fetched at the point or not -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body's triple -/

/-- The one store of the body covers the output block: it is the block's whole rectangle. -/
theorem cover2_3 (p0 : Vec F S1x100 .f32) (y : S1x100.Idx) :
    ∃ pc ∈ ([⟨Rect.unit (s := S1x100) ![0, 0] S1x100.size inb_S1x100_S1x100_0_0, p0⟩] : List (View.Piece (Elt F) S1x100 .f32)), y ∈ pc.1.set :=
  View.cover_of_tiled [⟨Rect.unit (s := S1x100) ![0, 0] S1x100.size inb_S1x100_S1x100_0_0, p0⟩] S1x100.size (by rfl) y

set_option maxHeartbeats 1000000 in
/-- The decoder body on whole staging memrefs, the three inputs' at contents `x0 x1 x2` and the output's at anything,
    runs to the continuation holding the inputs' as they were and the output's at the one store's value: the row times
    the transposed weight plus the bias, over the whole block. The body's load of its output block reads a value that
    nothing uses. -/
theorem sound_kernel2 (c : Dev nD) (E : Set ℕ) (i : grid2.Coords)
    (arg1 : Memref sig .tc .vmem S1x2048 .f32) (harg1 : arg1.IsWhole) (arg2 : Memref sig .tc .vmem S100x2048 .f32) (harg2 : arg2.IsWhole)
    (arg3 : Memref sig .tc .vmem S1x100 .f32) (harg3 : arg3.IsWhole) (arg4 : Memref sig .tc .vmem S1x100 .f32) (harg4 : arg4.IsWhole)
    (x0 : Vec F S1x2048 .f32) (x1 : Vec F S100x2048 .f32) (x2 : Vec F S1x100 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__decoder_kernel_body i arg1 harg1 arg2 harg2 arg3 harg3 arg4 harg4) K := by
  simp only [cc2__decoder_kernel_body_eq_skeleton]; unfold cc2__decoder_kernel_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Gen

end
-- ==== Proof.KI.HostReads.lean ====
import proofs.«106570_j81046032876009_1_alg».proof.Proof.Gen.KernelIdeal.Launch
import proofs.«106570_j81046032876009_1_alg».proof.Proof.Gen.KernelIdeal.Regions
import Idealize.ShloMosaic.Lib.StableHlo.Run
import Idealize.ShloMosaic.Lib.ValueLayout

/-!
# What the two stretches of host operations leave, read back

Before the three calls the program prepares their operands: the token's row of the embedding table (the token index
wrapped once if negative), the two layers' previous hidden rows (the two slabs of the stacked state, each reshaped to a
row), and the four gate biases and the decoder bias reshaped to rows. After the calls it stacks the two new hidden rows
and adds unit axes to the read-out. Each result is stated here as the operations' composed term over an ARBITRARY
starting valuation `W`, generic in the float instance; a buffer no operation of a stretch writes keeps its contents.
The reshaped rows are then read at an index.
-/

noncomputable section

namespace Cert.KernelIdeal.Gen

open Idealize.ShloMosaic Idealize.ShloMosaic.TcCoe Idealize.ShloMosaic.StableHlo Idealize.ShloMosaic.ValueIdx
open Idealize.SL.Sem

variable {F : FTy → Type} [FloatOps F]

section
variable (W : Valuation τ sig (Elt F))

/-! ## The first stretch -/

/-- The token's row of the embedding table: the table gathered at the token index, the index first wrapped by the
    table's 100 rows when it is negative. -/
theorem host0_v6 : StableHlo.after hostOps0 W (Proc.devRef .tc main_v6)
    = Host.gather gather_S100x6_S1x1_S1x6_1_0_n_n_0_1_16 (W main_arg2)
        (broadcastInDim S1x1 ![0] bcast_S1_S1x1_0
          (select (cmpi .slt (W main_arg0) (broadcastInDim S1 ![] bcast_S_S1 (constantI S_ 32 0#32)))
            (addi (W main_arg0) (broadcastInDim S1 ![] bcast_S_S1 (constantI S_ 32 100#32))) (W main_arg0))) := by
  after_results

/-- Layer 0's previous hidden row: slab 0 of the stacked state, as a row. -/
theorem host0_v8 : StableHlo.after hostOps0 W (Proc.devRef .tc main_v8)
    = shapeCast S1x2048 (extractStridedSlice S1x1x2048 ![0, 0, 0] (W main_arg1) slices_S2x1x2048_S1x1x2048_0_0_0) shapeCasts_S1x1x2048_S1x2048 := by
  after_results
  rfl

/-- Layer 1's previous hidden row: slab 1 of the stacked state, as a row. -/
theorem host0_v10 : StableHlo.after hostOps0 W (Proc.devRef .tc main_v10)
    = shapeCast S1x2048 (extractStridedSlice S1x1x2048 ![1, 0, 0] (W main_arg1) slices_S2x1x2048_S1x1x2048_1_0_0) shapeCasts_S1x1x2048_S1x2048 := by
  after_results
  rfl

/-- The four gate biases, each as a row of length 6144. -/
theorem host0_v11 : StableHlo.after hostOps0 W (Proc.devRef .tc main_v11) = shapeCast S1x6144 (W main_arg5) shapeCasts_S6144_S1x6144 := by
  after_results
  rfl
theorem host0_v12 : StableHlo.after hostOps0 W (Proc.devRef .tc main_v12) = shapeCast S1x6144 (W main_arg6) shapeCasts_S6144_S1x6144 := by
  after_results
  rfl
theorem host0_v13 : StableHlo.after hostOps0 W (Proc.devRef .tc main_v13) = shapeCast S1x6144 (W main_arg9) shapeCasts_S6144_S1x6144 := by
  after_results
  rfl
theorem host0_v14 : StableHlo.after hostOps0 W (Proc.devRef .tc main_v14) = shapeCast S1x6144 (W main_arg10) shapeCasts_S6144_S1x6144 := by
  after_results
  rfl

/-- The decoder bias as a row of length 100. -/
theorem host0_v15 : StableHlo.after hostOps0 W (Proc.devRef .tc main_v15) = shapeCast S1x100 (W main_arg12) shapeCasts_S100_S1x100 := by
  after_results
  rfl

/-- A buffer the first stretch does not write keeps its contents. -/
theorem host0_keep (r : Ref sig .tc) (h : r ∉ hostOps0_W) :
    StableHlo.after hostOps0 W (Proc.devRef .tc r) = W (Proc.devRef .tc r) :=
  StableHlo.after_of_writes_sub hostOps0 _ hostOps0_writes h

/-! ## The last stretch -/

/-- The read-out with two unit axes in front of its 100 entries. -/
theorem host3_v19 : StableHlo.after hostOps3 W (Proc.devRef .tc main_v19)
    = broadcastInDim S1x1x100 ![1, 2] bcast_S1x100_S1x1x100_1_2 (W main_v18) := by
  after_results

/-- The new stacked state: the two layers' new hidden rows, each given a unit axis, one above the other. -/
theorem host3_v22 : StableHlo.after hostOps3 W (Proc.devRef .tc main_v22)
    = concatenate S2x1x2048 0 [⟨S1x1x2048, broadcastInDim S1x1x2048 ![1, 2] bcast_S1x2048_S1x1x2048_1_2 (W main_v16)⟩,
        ⟨S1x1x2048, broadcastInDim S1x1x2048 ![1, 2] bcast_S1x2048_S1x1x2048_1_2 (W main_v17)⟩]
        concatenates_S1x1x2048_S1x1x2048_S2x1x2048_d0 := by
  after_results

/-- A buffer the last stretch does not write keeps its contents. -/
theorem host3_keep (r : Ref sig .tc) (h : r ∉ hostOps3_W) :
    StableHlo.after hostOps3 W (Proc.devRef .tc r) = W (Proc.devRef .tc r) :=
  StableHlo.after_of_writes_sub hostOps3 _ hostOps3_writes h

end

/-! ## The reshaped rows read at an index

Stated for any element type; at the extended reals they are the forms the value proof cites. -/

section
variable {α : Type}

/-- A vector of length 6144 reshaped to a row: entry `(0, q)` of the row is entry `q` of the vector. -/
theorem row6144_apply (b : S6144.Idx → α) (q : Fin 6144) :
    shapeCast S1x6144 b shapeCasts_S6144_S1x6144 (ix2 (0 : Fin 1) q) = b (ix1 q) :=
  shapeCast_a_1a_apply b shapeCasts_S6144_S1x6144 0 q

/-- A vector of length 100 reshaped to a row: entry `(0, q)` of the row is entry `q` of the vector. -/
theorem row100_apply (b : S100.Idx → α) (q : Fin 100) :
    shapeCast S1x100 b shapeCasts_S100_S1x100 (ix2 (0 : Fin 1) q) = b (ix1 q) :=
  shapeCast_a_1a_apply b shapeCasts_S100_S1x100 0 q

/-- Slab 0 of the stacked state as a row: entry `(0, j)` of the row is entry `(0, 0, j)` of the stack. -/
theorem hrow0_apply (a1 : S2x1x2048.Idx → α) (j : Fin 2048) :
    shapeCast S1x2048 (extractStridedSlice S1x1x2048 ![0, 0, 0] a1 slices_S2x1x2048_S1x1x2048_0_0_0) shapeCasts_S1x1x2048_S1x2048
        (ix2 (0 : Fin 1) j) = a1 (ix3 (0 : Fin 2) (0 : Fin 1) j) := by
  refine (shapeCast_1ab_ab_apply _ shapeCasts_S1x1x2048_S1x2048 (0 : Fin 1) j).trans ?_
  exact extractStridedSlice_apply _ a1 _ _ _ fun a => by
    match a with
    | ⟨0, _⟩ => rfl
    | ⟨1, _⟩ => rfl
    | ⟨2, _⟩ => show j.val = 0 + j.val; omega

/-- Slab 1 of the stacked state as a row: entry `(0, j)` of the row is entry `(1, 0, j)` of the stack. -/
theorem hrow1_apply (a1 : S2x1x2048.Idx → α) (j : Fin 2048) :
    shapeCast S1x2048 (extractStridedSlice S1x1x2048 ![1, 0, 0] a1 slices_S2x1x2048_S1x1x2048_1_0_0) shapeCasts_S1x1x2048_S1x2048
        (ix2 (0 : Fin 1) j) = a1 (ix3 (1 : Fin 2) (0 : Fin 1) j) := by
  refine (shapeCast_1ab_ab_apply _ shapeCasts_S1x1x2048_S1x2048 (0 : Fin 1) j).trans ?_
  exact extractStridedSlice_apply _ a1 _ _ _ fun a => by
    match a with
    | ⟨0, _⟩ => rfl
    | ⟨1, _⟩ => rfl
    | ⟨2, _⟩ => show j.val = 0 + j.val; omega

end

end Cert.KernelIdeal.Gen

end
-- ==== Proof.KI.Kept.lean ====
import proofs.«106570_j81046032876009_1_alg».proof.Proof.KI.Vals
import proofs.«106570_j81046032876009_1_alg».proof.Proof.KI.HostReads
import Idealize.ShloMosaic.Lib.Pipeline.Frame

/-!
# The arguments end as launched

Of the five stretches of @main, the host stretches write only their own results and each call rewrites only its one
output array; none of these is an argument. So every argument array holds, in the final contents, what the launch
memory held; and a run of @main that ends with every unscoped buffer at the final contents ends with every argument as
launched.
-/

noncomputable section

namespace Cert.KernelIdeal.Gen

open Idealize.ShloMosaic Idealize.ShloMosaic.TcCoe
open Idealize.SL Idealize.SL.Sem

variable {F : FTy → Type} [FloatOps F]

variable (m : (ℓ : Loc nD τ sig) → Buf (Elt F) ℓ)

/-- A buffer that neither host stretch writes and that is no call's output array holds at the end what it held at
    launch: back through the last host stretch, the three calls and the first host stretch. -/
theorem W5_kept (c : Dev nD) (r : Ref sig .tc) (h3 : r ∉ hostOps3_W) (h18 : r ≠ main_v18) (h17 : r ≠ main_v17)
    (h16 : r ≠ main_v16) (h0 : r ∉ hostOps0_W) : W5 m c (Proc.devRef .tc r) = m ((c.tc : Thread nD τ).loc r) :=
  (host3_keep (W4 m c) r h3).trans <| (W4_of_ne m c r h18).trans <| (W3_of_ne m c r h17).trans <|
    (W2_of_ne m c r h16).trans <| (host0_keep (W0 m c) r h0).trans rfl

/-! ## The thirteen arguments -/

theorem W5_main_arg0 (c : Dev nD) : W5 (F := F) m c (Proc.devRef .tc main_arg0) = m ((c.tc : Thread nD τ).loc main_arg0) :=
  W5_kept m c main_arg0 (by decide) (by decide) (by decide) (by decide) (by decide)
theorem W5_main_arg1 (c : Dev nD) : W5 (F := F) m c (Proc.devRef .tc main_arg1) = m ((c.tc : Thread nD τ).loc main_arg1) :=
  W5_kept m c main_arg1 (by decide) (by decide) (by decide) (by decide) (by decide)
theorem W5_main_arg2 (c : Dev nD) : W5 (F := F) m c (Proc.devRef .tc main_arg2) = m ((c.tc : Thread nD τ).loc main_arg2) :=
  W5_kept m c main_arg2 (by decide) (by decide) (by decide) (by decide) (by decide)
theorem W5_main_arg3 (c : Dev nD) : W5 (F := F) m c (Proc.devRef .tc main_arg3) = m ((c.tc : Thread nD τ).loc main_arg3) :=
  W5_kept m c main_arg3 (by decide) (by decide) (by decide) (by decide) (by decide)
theorem W5_main_arg4 (c : Dev nD) : W5 (F := F) m c (Proc.devRef .tc main_arg4) = m ((c.tc : Thread nD τ).loc main_arg4) :=
  W5_kept m c main_arg4 (by decide) (by decide) (by decide) (by decide) (by decide)
theorem W5_main_arg5 (c : Dev nD) : W5 (F := F) m c (Proc.devRef .tc main_arg5) = m ((c.tc : Thread nD τ).loc main_arg5) :=
  W5_kept m c main_arg5 (by decide) (by decide) (by decide) (by decide) (by decide)
theorem W5_main_arg6 (c : Dev nD) : W5 (F := F) m c (Proc.devRef .tc main_arg6) = m ((c.tc : Thread nD τ).loc main_arg6) :=
  W5_kept m c main_arg6 (by decide) (by decide) (by decide) (by decide) (by decide)
theorem W5_main_arg7 (c : Dev nD) : W5 (F := F) m c (Proc.devRef .tc main_arg7) = m ((c.tc : Thread nD τ).loc main_arg7) :=
  W5_kept m c main_arg7 (by decide) (by decide) (by decide) (by decide) (by decide)
theorem W5_main_arg8 (c : Dev nD) : W5 (F := F) m c (Proc.devRef .tc main_arg8) = m ((c.tc : Thread nD τ).loc main_arg8) :=
  W5_kept m c main_arg8 (by decide) (by decide) (by decide) (by decide) (by decide)
theorem W5_main_arg9 (c : Dev nD) : W5 (F := F) m c (Proc.devRef .tc main_arg9) = m ((c.tc : Thread nD τ).loc main_arg9) :=
  W5_kept m c main_arg9 (by decide) (by decide) (by decide) (by decide) (by decide)
theorem W5_main_arg10 (c : Dev nD) : W5 (F := F) m c (Proc.devRef .tc main_arg10) = m ((c.tc : Thread nD τ).loc main_arg10) :=
  W5_kept m c main_arg10 (by decide) (by decide) (by decide) (by decide) (by decide)
theorem W5_main_arg11 (c : Dev nD) : W5 (F := F) m c (Proc.devRef .tc main_arg11) = m ((c.tc : Thread nD τ).loc main_arg11) :=
  W5_kept m c main_arg11 (by decide) (by decide) (by decide) (by decide) (by decide)
theorem W5_main_arg12 (c : Dev nD) : W5 (F := F) m c (Proc.devRef .tc main_arg12) = m ((c.tc : Thread nD τ).loc main_arg12) :=
  W5_kept m c main_arg12 (by decide) (by decide) (by decide) (by decide) (by decide)

/-- An unscoped TensorCore reference is among the unscoped buffers. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- A run of @main that ends with every unscoped buffer at the final contents ends with every argument array as
    launched. -/
theorem frame_of_run (ρ : Dev nD → PrngReg)
    (h : θ_run defs (onTc (τ := τ) (main (F := F))) ⟨m, fun _ => 0, ρ⟩
      (fun r => ∀ c : Dev nD, ∀ b ∈ Pipeline.ucRefs τ sig, r.2.mem (((c : Thread nD τ)).1, b) = W5 m c b)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r hr c =>
    ⟨(hr c (Proc.devRef .tc main_arg0) (mem_ucRefs main_arg0 (by decide))).trans (W5_main_arg0 m c),
      (hr c (Proc.devRef .tc main_arg1) (mem_ucRefs main_arg1 (by decide))).trans (W5_main_arg1 m c),
      (hr c (Proc.devRef .tc main_arg2) (mem_ucRefs main_arg2 (by decide))).trans (W5_main_arg2 m c),
      (hr c (Proc.devRef .tc main_arg3) (mem_ucRefs main_arg3 (by decide))).trans (W5_main_arg3 m c),
      (hr c (Proc.devRef .tc main_arg4) (mem_ucRefs main_arg4 (by decide))).trans (W5_main_arg4 m c),
      (hr c (Proc.devRef .tc main_arg5) (mem_ucRefs main_arg5 (by decide))).trans (W5_main_arg5 m c),
      (hr c (Proc.devRef .tc main_arg6) (mem_ucRefs main_arg6 (by decide))).trans (W5_main_arg6 m c),
      (hr c (Proc.devRef .tc main_arg7) (mem_ucRefs main_arg7 (by decide))).trans (W5_main_arg7 m c),
      (hr c (Proc.devRef .tc main_arg8) (mem_ucRefs main_arg8 (by decide))).trans (W5_main_arg8 m c),
      (hr c (Proc.devRef .tc main_arg9) (mem_ucRefs main_arg9 (by decide))).trans (W5_main_arg9 m c),
      (hr c (Proc.devRef .tc main_arg10) (mem_ucRefs main_arg10 (by decide))).trans (W5_main_arg10 m c),
      (hr c (Proc.devRef .tc main_arg11) (mem_ucRefs main_arg11 (by decide))).trans (W5_main_arg11 m c),
      (hr c (Proc.devRef .tc main_arg12) (mem_ucRefs main_arg12 (by decide))).trans (W5_main_arg12 m c)⟩) h

end Cert.KernelIdeal.Gen

end
-- ==== Proof.Spec.lean ====
import Idealize.ShloMosaic.PureOps.Ideal
import Idealize.ShloMosaic.Lib.ValueIdx

/-!
# The recurrent step as one function of the argument arrays

One step of a two-layer gated recurrent cell on a single row, and the linear read-out of the top layer, written once over
the extended reals. Every array is a function of its index; a row vector of length `K` is an array of shape `[1, K]`.

For an input row `x`, a previous hidden row `h`, gate weights `Wi : [6144, K]`, `Wh : [6144, 2048]` and gate biases
`bi bh : [6144]` (the three gates' 2048 rows stacked: reset, update, candidate), entry `j` of the new hidden row is

  `(1 - z j) * n j + z j * h j`,  with
  `r j = σ (gi j + gh j)`, `z j = σ (gi (2048 + j) + gh (2048 + j))`, `n j = tanh (gi (4096 + j) + r j * gh (4096 + j))`,
  `gi q = (∑ k, x k * Wi q k) + bi q`, `gh q = (∑ k, h k * Wh q k) + bh q`,

`σ` the logistic function. The read-out's entry `q` is `(∑ k, h k * Wd q k) + bd q`.
-/

noncomputable section

open scoped BigOperators

namespace Cert.Spec

open Idealize.ShloMosaic Idealize.ShloMosaic.ValueIdx

/-- The shapes the specification is stated over, as literals. -/
abbrev Row6 : Shape := ⟨2, ![1, 6]⟩
abbrev Row2048 : Shape := ⟨2, ![1, 2048]⟩
abbrev Row100 : Shape := ⟨2, ![1, 100]⟩
abbrev Mat6144x6 : Shape := ⟨2, ![6144, 6]⟩
abbrev Mat6144x2048 : Shape := ⟨2, ![6144, 2048]⟩
abbrev Mat100x2048 : Shape := ⟨2, ![100, 2048]⟩
abbrev Vec6144 : Shape := ⟨1, ![6144]⟩
abbrev Vec100 : Shape := ⟨1, ![100]⟩

/-- The float word of the number one, as both programs write it. -/
def one : EReal := Ideal.ofBits .f32 0x3F800000#32

/-- A gate's pre-activation from a row of length 6: row `q` of the weight against the input, plus the bias. -/
def pre6 (x : Row6.Idx → EReal) (W : Mat6144x6.Idx → EReal) (b : Vec6144.Idx → EReal) (q : Fin 6144) : EReal :=
  (∑ k : Fin 6, x (ix2 (0 : Fin 1) k) * W (ix2 q k)) + b (ix1 q)

/-- A gate's pre-activation from a row of length 2048. -/
def pre2048 (x : Row2048.Idx → EReal) (W : Mat6144x2048.Idx → EReal) (b : Vec6144.Idx → EReal) (q : Fin 6144) : EReal :=
  (∑ k : Fin 2048, x (ix2 (0 : Fin 1) k) * W (ix2 q k)) + b (ix1 q)

/-- Row `j` of gate `g` (0 reset, 1 update, 2 candidate) among the 6144 stacked rows. -/
def gateRow (g : Fin 3) (j : Fin 2048) : Fin 6144 := ⟨g.val * 2048 + j.val, by have := g.isLt; have := j.isLt; omega⟩

/-- Entry `j` of the new hidden row from the two stacks of pre-activations and the previous hidden row. -/
def cellOf (gi gh : Fin 6144 → EReal) (h : Row2048.Idx → EReal) (j : Fin 2048) : EReal :=
  (one - Ideal.logistic (gi (gateRow 1 j) + gh (gateRow 1 j)))
      * Ideal.tanh (gi (gateRow 2 j) + Ideal.logistic (gi (gateRow 0 j) + gh (gateRow 0 j)) * gh (gateRow 2 j))
    + Ideal.logistic (gi (gateRow 1 j) + gh (gateRow 1 j)) * h (ix2 (0 : Fin 1) j)

/-- The first layer's new hidden row (its input row has length 6). -/
def layer0 (x : Row6.Idx → EReal) (h : Row2048.Idx → EReal) (Wi : Mat6144x6.Idx → EReal) (Wh : Mat6144x2048.Idx → EReal)
    (bi bh : Vec6144.Idx → EReal) : Row2048.Idx → EReal :=
  fun i => cellOf (pre6 x Wi bi) (pre2048 h Wh bh) h (i 1)

/-- The second layer's new hidden row (its input row has length 2048). -/
def layer1 (x : Row2048.Idx → EReal) (h : Row2048.Idx → EReal) (Wi Wh : Mat6144x2048.Idx → EReal)
    (bi bh : Vec6144.Idx → EReal) : Row2048.Idx → EReal :=
  fun i => cellOf (pre2048 x Wi bi) (pre2048 h Wh bh) h (i 1)

/-- The read-out row. -/
def readout (h : Row2048.Idx → EReal) (W : Mat100x2048.Idx → EReal) (b : Vec100.Idx → EReal) : Row100.Idx → EReal :=
  fun i => (∑ k : Fin 2048, h (ix2 (0 : Fin 1) k) * W (ix2 (i 1) k)) + b (ix1 (i 1))

end Cert.Spec

end
-- ==== Proof.KI.CellCommon.lean ====
import proofs.«106570_j81046032876009_1_alg».proof.Proof.KI.Data
import proofs.«106570_j81046032876009_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# What the three calls' value lemmas share

The zero offsets of a whole-block access; the gate product of the two recurrent cells — a row `[1, 2048]` against a weight
block `[256, 2048]`, both contracted on their second axis — read at an index as a sum over the 2048 columns; the hidden
entry a grid point and a block column name; and the cell's arithmetic at one entry, from the gates' pre-activations.
-/

noncomputable section

open scoped BigOperators

namespace Cert.KernelIdeal.CellValue

open Cert.KernelIdeal Cert.KernelIdeal.Gen Idealize.ShloMosaic Idealize.ShloMosaic.TcCoe Idealize.SL.Sem
open Idealize.ShloMosaic.ValueIdx

/-- The two zero offsets, however spelt. -/
theorem zero_off2 : (![0, 0] : Fin 2 → Nat) = fun _ => 0 := funext fun a => by fin_cases a <;> rfl

/-- The hidden-state gate product: row [1, 2048] against a weight block [256, 2048], both contracted on their second axis. -/
abbrev dotH : DotDims S1x2048 S256x2048 S1x256 := dot_S1x2048_S256x2048_S1x256_1_1_0_0_n_n

theorem dotH_lhs0 (i : S1x256.Idx) (q : dotH.contr.Idx) : (dotH.lhsIdx i q 0).val = (i 0).val := by
  unfold DotDims.lhsIdx
  rw [dif_neg (show ¬(0 : Fin S1x2048.rank) ∈ dotH.lhsBatch by decide), dif_pos (show (0 : Fin S1x2048.rank) ∈ dotH.lhsNonContracting by decide)]
  rfl
theorem dotH_lhs1 (i : S1x256.Idx) (q : dotH.contr.Idx) : (dotH.lhsIdx i q 1).val = (q ⟨0, by decide⟩).val :=
  dotH.lhsIdx_val_of_single rfl i q
theorem dotH_rhs0 (i : S1x256.Idx) (q : dotH.contr.Idx) : (dotH.rhsIdx i q 0).val = (i 1).val := by
  unfold DotDims.rhsIdx
  rw [dif_neg (show ¬(0 : Fin S256x2048.rank) ∈ dotH.rhsBatch by decide), dif_pos (show (0 : Fin S256x2048.rank) ∈ dotH.rhsNonContracting by decide)]
  rfl
theorem dotH_rhs1 (i : S1x256.Idx) (q : dotH.contr.Idx) : (dotH.rhsIdx i q 1).val = (q ⟨0, by decide⟩).val :=
  dotH.rhsIdx_val_of_single rfl i q

/-- That product into the zero accumulator, at entry `(p, q)`: the row against row `q` of the block. -/
theorem mmH_apply {φ₁ φ₂ : FTy} (l : FVec Ideal S1x2048 φ₁) (r : FVec Ideal S256x2048 φ₂) (p : Fin 1) (q : Fin 256) :
    (matmul dotH none l r (constant S1x256 .f32 0x00000000#32) : S1x256.Idx → EReal) (ix2 p q)
      = ∑ k : Fin 2048, (l : S1x2048.Idx → EReal) (ix2 (0 : Fin 1) k) * (r : S256x2048.Idx → EReal) (ix2 q k) := by
  refine (Ideal.matmul_constant_zero_apply dotH none l r (ix2 p q)).trans ?_
  rw [← Equiv.sum_comp (contrEquiv1 dotH 2048 rfl rfl).symm]
  refine Finset.sum_congr rfl fun k _ => ?_
  have hk := contrEquiv1_symm_val dotH 2048 rfl rfl k
  have el : dotH.lhsIdx (ix2 p q) ((contrEquiv1 dotH 2048 rfl rfl).symm k) = ix2 (0 : Fin 1) k := funext fun a => Fin.ext (by
    match a with
    | ⟨0, _⟩ => exact (dotH_lhs0 _ _).trans (by show p.val = 0; omega)
    | ⟨1, _⟩ => exact (dotH_lhs1 _ _).trans hk)
  have er : dotH.rhsIdx (ix2 p q) ((contrEquiv1 dotH 2048 rfl rfl).symm k) = ix2 q k := funext fun a => Fin.ext (by
    match a with
    | ⟨0, _⟩ => exact dotH_rhs0 _ _
    | ⟨1, _⟩ => exact (dotH_rhs1 _ _).trans hk)
  rw [el, er]

/-- The hidden entry that column `q` of grid point `n`'s block of 256 names. -/
def colAt (n : Nat) (hn : n < 8) (q : Fin 256) : Fin 2048 := ⟨256 * n + q.val, by have := q.isLt; omega⟩

theorem colAt_val (n : Nat) (hn : n < 8) (q : Fin 256) : (colAt n hn q).val = 256 * n + q.val := rfl

/-- Row `j` of gate `g` is row `g * 2048 + j` of the stacked weights. -/
theorem gateRow_val (g : Fin 3) (j : Fin 2048) : (Cert.Spec.gateRow g j).val = g.val * 2048 + j.val := rfl

end Cert.KernelIdeal.CellValue

end
-- ==== Proof.KI.Cell0.lean ====
import proofs.«106570_j81046032876009_1_alg».proof.Proof.KI.CellCommon

/-!
# The layer-0 cell call's output array

The call walks the 2048 hidden entries in 8 blocks of 256. At grid point `t` its body reads the input row, the whole previous
hidden row, the three gates' weight blocks (rows `g * 2048 + 256 t + q` of the stacked weights, `g` the gate) and bias blocks,
and stores, over the whole output block, the new hidden entries `256 t + q`. Read at an index that is the specification's
cell at that entry; the 8 blocks tile the row.
-/

noncomputable section

open scoped BigOperators

namespace Cert.KernelIdeal.CellValue

open Cert.KernelIdeal Cert.KernelIdeal.Gen Idealize.ShloMosaic Idealize.ShloMosaic.TcCoe Idealize.SL.Sem
open Idealize.ShloMosaic.ValueIdx
open Idealize.ShloMosaic.Pipeline (Dat)

/-- The logistic function and the hyperbolic tangent of a vector, at an index. -/
theorem l0_logistic_apply {s : Shape} {φ : FTy} (x : FVec Ideal s φ) (i : s.Idx) : logistic x i = Ideal.logistic (x i) := rfl
theorem l0_tanh_apply {s : Shape} {φ : FTy} (x : FVec Ideal s φ) (i : s.Idx) : tanh x i = Ideal.tanh (x i) := rfl

/-- The input gate product of layer 0: row [1, 6] against a weight block [256, 6], both contracted on their second axis. -/
abbrev dotX : DotDims S1x6 S256x6 S1x256 := dot_S1x6_S256x6_S1x256_1_1_0_0_n_n

theorem dotX_lhs0 (i : S1x256.Idx) (q : dotX.contr.Idx) : (dotX.lhsIdx i q 0).val = (i 0).val := by
  unfold DotDims.lhsIdx
  rw [dif_neg (show ¬(0 : Fin S1x6.rank) ∈ dotX.lhsBatch by decide), dif_pos (show (0 : Fin S1x6.rank) ∈ dotX.lhsNonContracting by decide)]
  rfl
theorem dotX_lhs1 (i : S1x256.Idx) (q : dotX.contr.Idx) : (dotX.lhsIdx i q 1).val = (q ⟨0, by decide⟩).val :=
  dotX.lhsIdx_val_of_single rfl i q
theorem dotX_rhs0 (i : S1x256.Idx) (q : dotX.contr.Idx) : (dotX.rhsIdx i q 0).val = (i 1).val := by
  unfold DotDims.rhsIdx
  rw [dif_neg (show ¬(0 : Fin S256x6.rank) ∈ dotX.rhsBatch by decide), dif_pos (show (0 : Fin S256x6.rank) ∈ dotX.rhsNonContracting by decide)]
  rfl
theorem dotX_rhs1 (i : S1x256.Idx) (q : dotX.contr.Idx) : (dotX.rhsIdx i q 1).val = (q ⟨0, by decide⟩).val :=
  dotX.rhsIdx_val_of_single rfl i q

/-- That product into the zero accumulator, at entry `(p, q)`: the row against row `q` of the block. -/
theorem mmX_apply {φ₁ φ₂ : FTy} (l : FVec Ideal S1x6 φ₁) (r : FVec Ideal S256x6 φ₂) (p : Fin 1) (q : Fin 256) :
    (matmul dotX none l r (constant S1x256 .f32 0x00000000#32) : S1x256.Idx → EReal) (ix2 p q)
      = ∑ k : Fin 6, (l : S1x6.Idx → EReal) (ix2 (0 : Fin 1) k) * (r : S256x6.Idx → EReal) (ix2 q k) := by
  refine (Ideal.matmul_constant_zero_apply dotX none l r (ix2 p q)).trans ?_
  rw [← Equiv.sum_comp (contrEquiv1 dotX 6 rfl rfl).symm]
  refine Finset.sum_congr rfl fun k _ => ?_
  have hk := contrEquiv1_symm_val dotX 6 rfl rfl k
  have el : dotX.lhsIdx (ix2 p q) ((contrEquiv1 dotX 6 rfl rfl).symm k) = ix2 (0 : Fin 1) k := funext fun a => Fin.ext (by
    match a with
    | ⟨0, _⟩ => exact (dotX_lhs0 _ _).trans (by show p.val = 0; omega)
    | ⟨1, _⟩ => exact (dotX_lhs1 _ _).trans hk)
  have er : dotX.rhsIdx (ix2 p q) ((contrEquiv1 dotX 6 rfl rfl).symm k) = ix2 q k := funext fun a => Fin.ext (by
    match a with
    | ⟨0, _⟩ => exact dotX_rhs0 _ _
    | ⟨1, _⟩ => exact (dotX_rhs1 _ _).trans hk)
  rw [el, er]

/-- A gate's pre-activation block at an entry: the row against row `q` of the weight block, plus the bias entry. -/
theorem l0_pay4_apply (x : Vec Ideal S1x6 .f32) (W : Vec Ideal S256x6 .f32) (b : Vec Ideal S1x256 .f32) (p : Fin 1) (q : Fin 256) :
    (k0_pay4 x W b : S1x256.Idx → EReal) (ix2 p q)
      = (∑ k : Fin 6, (x : S1x6.Idx → EReal) (ix2 (0 : Fin 1) k) * (W : S256x6.Idx → EReal) (ix2 q k)) + (b : S1x256.Idx → EReal) (ix2 p q) := by
  unfold k0_pay4 k0_pay2
  simp only [shapeCast_self]
  rw [addf_apply]
  exact congrArg (· + _) (mmX_apply _ _ p q)

/-- A gate's pre-activation block at an entry: the row against row `q` of the weight block, plus the bias entry. -/
theorem l0_pay5_apply (x : Vec Ideal S1x6 .f32) (W : Vec Ideal S256x6 .f32) (b : Vec Ideal S1x256 .f32) (p : Fin 1) (q : Fin 256) :
    (k0_pay5 x W b : S1x256.Idx → EReal) (ix2 p q)
      = (∑ k : Fin 6, (x : S1x6.Idx → EReal) (ix2 (0 : Fin 1) k) * (W : S256x6.Idx → EReal) (ix2 q k)) + (b : S1x256.Idx → EReal) (ix2 p q) := by
  unfold k0_pay5 k0_pay2
  simp only [shapeCast_self]
  rw [addf_apply]
  exact congrArg (· + _) (mmX_apply _ _ p q)

/-- A gate's pre-activation block at an entry: the row against row `q` of the weight block, plus the bias entry. -/
theorem l0_pay6_apply (x : Vec Ideal S1x6 .f32) (W : Vec Ideal S256x6 .f32) (b : Vec Ideal S1x256 .f32) (p : Fin 1) (q : Fin 256) :
    (k0_pay6 x W b : S1x256.Idx → EReal) (ix2 p q)
      = (∑ k : Fin 6, (x : S1x6.Idx → EReal) (ix2 (0 : Fin 1) k) * (W : S256x6.Idx → EReal) (ix2 q k)) + (b : S1x256.Idx → EReal) (ix2 p q) := by
  unfold k0_pay6 k0_pay2
  simp only [shapeCast_self]
  rw [addf_apply]
  exact congrArg (· + _) (mmX_apply _ _ p q)

/-- A gate's pre-activation block at an entry: the row against row `q` of the weight block, plus the bias entry. -/
theorem l0_pay7_apply (x : Vec Ideal S1x2048 .f32) (W : Vec Ideal S256x2048 .f32) (b : Vec Ideal S1x256 .f32) (p : Fin 1) (q : Fin 256) :
    (k0_pay7 x W b : S1x256.Idx → EReal) (ix2 p q)
      = (∑ k : Fin 2048, (x : S1x2048.Idx → EReal) (ix2 (0 : Fin 1) k) * (W : S256x2048.Idx → EReal) (ix2 q k)) + (b : S1x256.Idx → EReal) (ix2 p q) := by
  unfold k0_pay7 k0_pay3
  simp only [shapeCast_self]
  rw [addf_apply]
  exact congrArg (· + _) (mmH_apply _ _ p q)

/-- The hidden row as the gate products read it (a change of format that is the identity on extended reals). -/
theorem l0_pay3_apply (h : Vec Ideal S1x2048 .f32) (i : S1x2048.Idx) : (k0_pay3 h : S1x2048.Idx → EReal) i = (h : S1x2048.Idx → EReal) i := by
  unfold k0_pay3
  simp only [shapeCast_self]
  rfl

/-- THE CELL'S PAYLOAD AT AN ENTRY, from the four pre-activations computed before it (`gir giz gin ghr`), the two it
    computes itself (`ghz ghn`: the hidden row against the update and candidate gates' blocks, plus their biases) and the
    previous hidden entry `hv`: `(1 - z) * n + z * hv` with `r = σ (gir + ghr)`, `z = σ (giz + ghz)`, `n = tanh (gin + r * ghn)`. -/
theorem l0_pay1_of (v7 : FVec Ideal S1x2048 .bf16) (v13 v19 v25 v31 : FVec Ideal S1x256 .f32) (v32 : Vec Ideal S256x2048 .f32)
    (v35 : Vec Ideal S1x256 .f32) (v38 : Vec Ideal S256x2048 .f32) (v41 v52 : Vec Ideal S1x256 .f32) (p : Fin 1) (q : Fin 256)
    (gir giz gin ghr ghz ghn hv : EReal)
    (e13 : (v13 : S1x256.Idx → EReal) (ix2 p q) = gir) (e19 : (v19 : S1x256.Idx → EReal) (ix2 p q) = giz)
    (e25 : (v25 : S1x256.Idx → EReal) (ix2 p q) = gin) (e31 : (v31 : S1x256.Idx → EReal) (ix2 p q) = ghr)
    (ez : (∑ k : Fin 2048, (v7 : S1x2048.Idx → EReal) (ix2 (0 : Fin 1) k) * (v32 : S256x2048.Idx → EReal) (ix2 q k)) + (v35 : S1x256.Idx → EReal) (ix2 p q) = ghz)
    (en : (∑ k : Fin 2048, (v7 : S1x2048.Idx → EReal) (ix2 (0 : Fin 1) k) * (v38 : S256x2048.Idx → EReal) (ix2 q k)) + (v41 : S1x256.Idx → EReal) (ix2 p q) = ghn)
    (e52 : (v52 : S1x256.Idx → EReal) (ix2 p q) = hv) :
    (k0_pay1 v7 v13 v19 v25 v31 v32 v35 v38 v41 v52 : S1x256.Idx → EReal) (ix2 p q)
      = (Cert.Spec.one - Ideal.logistic (giz + ghz)) * Ideal.tanh (gin + Ideal.logistic (gir + ghr) * ghn)
        + Ideal.logistic (giz + ghz) * hv := by
  subst e13 e19 e25 e31 ez en e52
  unfold k0_pay1
  simp only [shapeCast_self]
  simp only [addf_apply, mulf_apply, subf_apply, broadcast_apply, l0_logistic_apply, l0_tanh_apply]
  rw [mmH_apply _ _ p q, mmH_apply _ _ p q]
  rfl

/-- The cell's one store covers its whole output block: the block holds the payload of the loaded blocks. -/
theorem l0_out_eq (i : grid0.Coords) (x0 : Vec Ideal S1x6 .f32) (x1 : Vec Ideal S1x2048 .f32) (x2 x3 x4 : Vec Ideal S256x6 .f32)
    (x5 x6 x7 : Vec Ideal S256x2048 .f32) (x8 x9 x10 x11 x12 x13 : Vec Ideal S1x256 .f32) :
    out0_14 i x0 x1 x2 x3 x4 x5 x6 x7 x8 x9 x10 x11 x12 x13
      = k0_pay1 (k0_pay3 x1) (k0_pay4 x0 x2 x8) (k0_pay5 x0 x3 x9) (k0_pay6 x0 x4 x10) (k0_pay7 x1 x5 x11) x6 x12 x7 x13
          (View.ld x1 (Rect.unit (s := S1x2048) (k0_off1 i) S1x256.size (k0_off1_inb i))) := by
  unfold out0_14
  rw [View.canon_unit_zero zero_off2]
  simp only [View.ld_unit_zero (S := S1x2048) zero_off2, View.ld_unit_zero (S := S1x6) zero_off2, View.ld_unit_zero (S := S256x6) zero_off2,
    View.ld_unit_zero (S := S256x2048) zero_off2, View.ld_unit_zero (S := S1x256) zero_off2]

/-- The 256 previous hidden entries the body loads at its point's offset: entry `q` is hidden entry `256 t + q`. -/
theorem l0_hslice_apply (i : grid0.Coords) (x1 : Vec Ideal S1x2048 .f32) (p : Fin 1) (q : Fin 256) (j : Fin 2048)
    (hj : j.val = 256 * (i 0).val + q.val) :
    (View.ld x1 (Rect.unit (s := S1x2048) (k0_off1 i) S1x256.size (k0_off1_inb i)) : S1x256.Idx → EReal) (ix2 p q)
      = (x1 : S1x2048.Idx → EReal) (ix2 (0 : Fin 1) j) := by
  show (x1 : S1x2048.Idx → EReal) _ = _
  congr 1
  funext a
  apply Fin.ext
  match a with
  | ⟨0, _⟩ => show k0_off1 i 0 + 1 * p.val = 0; rw [k0_off1_eq]; show 0 + 1 * p.val = 0; omega
  | ⟨1, _⟩ => show k0_off1 i 1 + 1 * q.val = j.val; rw [k0_off1_eq, hj]; show 256 * (i 0).val + 1 * q.val = _; omega

/-- THE OUTPUT BLOCK AT AN ENTRY is the specification's cell at hidden entry `256 n + q`, when the point's input blocks are
    the input row, the previous hidden row, and the three gates' rows `g * 2048 + 256 n + q` of the weights and biases. -/
theorem l0_block_apply (i : grid0.Coords) (n : Nat) (hn : n < 8) (hi : (i 0).val = n)
    (x0 : Vec Ideal S1x6 .f32) (x1 : Vec Ideal S1x2048 .f32) (x2 x3 x4 : Vec Ideal S256x6 .f32)
    (x5 x6 x7 : Vec Ideal S256x2048 .f32) (x8 x9 x10 x11 x12 x13 : Vec Ideal S1x256 .f32)
    (x : Cert.Spec.Row6.Idx → EReal) (h : Cert.Spec.Row2048.Idx → EReal) (Wi : Cert.Spec.Mat6144x6.Idx → EReal)
    (Wh : Cert.Spec.Mat6144x2048.Idx → EReal) (bi bh : Cert.Spec.Vec6144.Idx → EReal)
    (h0 : ∀ k : Fin 6, (x0 : S1x6.Idx → EReal) (ix2 (0 : Fin 1) k) = x (ix2 (0 : Fin 1) k))
    (h1 : ∀ k : Fin 2048, (x1 : S1x2048.Idx → EReal) (ix2 (0 : Fin 1) k) = h (ix2 (0 : Fin 1) k))
    (h2 : ∀ (q : Fin 256) (k : Fin 6), (x2 : S256x6.Idx → EReal) (ix2 q k) = Wi (ix2 (Cert.Spec.gateRow 0 (colAt n hn q)) k))
    (h3 : ∀ (q : Fin 256) (k : Fin 6), (x3 : S256x6.Idx → EReal) (ix2 q k) = Wi (ix2 (Cert.Spec.gateRow 1 (colAt n hn q)) k))
    (h4 : ∀ (q : Fin 256) (k : Fin 6), (x4 : S256x6.Idx → EReal) (ix2 q k) = Wi (ix2 (Cert.Spec.gateRow 2 (colAt n hn q)) k))
    (h5 : ∀ (q : Fin 256) (k : Fin 2048), (x5 : S256x2048.Idx → EReal) (ix2 q k) = Wh (ix2 (Cert.Spec.gateRow 0 (colAt n hn q)) k))
    (h6 : ∀ (q : Fin 256) (k : Fin 2048), (x6 : S256x2048.Idx → EReal) (ix2 q k) = Wh (ix2 (Cert.Spec.gateRow 1 (colAt n hn q)) k))
    (h7 : ∀ (q : Fin 256) (k : Fin 2048), (x7 : S256x2048.Idx → EReal) (ix2 q k) = Wh (ix2 (Cert.Spec.gateRow 2 (colAt n hn q)) k))
    (h8 : ∀ (p : Fin 1) (q : Fin 256), (x8 : S1x256.Idx → EReal) (ix2 p q) = bi (ix1 (Cert.Spec.gateRow 0 (colAt n hn q))))
    (h9 : ∀ (p : Fin 1) (q : Fin 256), (x9 : S1x256.Idx → EReal) (ix2 p q) = bi (ix1 (Cert.Spec.gateRow 1 (colAt n hn q))))
    (h10 : ∀ (p : Fin 1) (q : Fin 256), (x10 : S1x256.Idx → EReal) (ix2 p q) = bi (ix1 (Cert.Spec.gateRow 2 (colAt n hn q))))
    (h11 : ∀ (p : Fin 1) (q : Fin 256), (x11 : S1x256.Idx → EReal) (ix2 p q) = bh (ix1 (Cert.Spec.gateRow 0 (colAt n hn q))))
    (h12 : ∀ (p : Fin 1) (q : Fin 256), (x12 : S1x256.Idx → EReal) (ix2 p q) = bh (ix1 (Cert.Spec.gateRow 1 (colAt n hn q))))
    (h13 : ∀ (p : Fin 1) (q : Fin 256), (x13 : S1x256.Idx → EReal) (ix2 p q) = bh (ix1 (Cert.Spec.gateRow 2 (colAt n hn q))))
    (p : Fin 1) (q : Fin 256) :
    (out0_14 i x0 x1 x2 x3 x4 x5 x6 x7 x8 x9 x10 x11 x12 x13 : S1x256.Idx → EReal) (ix2 p q)
      = Cert.Spec.layer0 x h Wi Wh bi bh (ix2 (0 : Fin 1) (colAt n hn q)) := by
  have gir : (k0_pay4 x0 x2 x8 : S1x256.Idx → EReal) (ix2 p q) = Cert.Spec.pre6 x Wi bi (Cert.Spec.gateRow 0 (colAt n hn q)) := by
    rw [l0_pay4_apply, h8]; unfold Cert.Spec.pre6
    exact congrArg (· + _) (Finset.sum_congr rfl fun k _ => by rw [h0, h2])
  have giz : (k0_pay5 x0 x3 x9 : S1x256.Idx → EReal) (ix2 p q) = Cert.Spec.pre6 x Wi bi (Cert.Spec.gateRow 1 (colAt n hn q)) := by
    rw [l0_pay5_apply, h9]; unfold Cert.Spec.pre6
    exact congrArg (· + _) (Finset.sum_congr rfl fun k _ => by rw [h0, h3])
  have gin : (k0_pay6 x0 x4 x10 : S1x256.Idx → EReal) (ix2 p q) = Cert.Spec.pre6 x Wi bi (Cert.Spec.gateRow 2 (colAt n hn q)) := by
    rw [l0_pay6_apply, h10]; unfold Cert.Spec.pre6
    exact congrArg (· + _) (Finset.sum_congr rfl fun k _ => by rw [h0, h4])
  have ghr : (k0_pay7 x1 x5 x11 : S1x256.Idx → EReal) (ix2 p q) = Cert.Spec.pre2048 h Wh bh (Cert.Spec.gateRow 0 (colAt n hn q)) := by
    rw [l0_pay7_apply, h11]; unfold Cert.Spec.pre2048
    exact congrArg (· + _) (Finset.sum_congr rfl fun k _ => by rw [h1, h5])
  have ghz : (∑ k : Fin 2048, (k0_pay3 x1 : S1x2048.Idx → EReal) (ix2 (0 : Fin 1) k) * (x6 : S256x2048.Idx → EReal) (ix2 q k)) + (x12 : S1x256.Idx → EReal) (ix2 p q)
      = Cert.Spec.pre2048 h Wh bh (Cert.Spec.gateRow 1 (colAt n hn q)) := by
    rw [h12]; unfold Cert.Spec.pre2048
    exact congrArg (· + _) (Finset.sum_congr rfl fun k _ => by rw [l0_pay3_apply, h1, h6])
  have ghn : (∑ k : Fin 2048, (k0_pay3 x1 : S1x2048.Idx → EReal) (ix2 (0 : Fin 1) k) * (x7 : S256x2048.Idx → EReal) (ix2 q k)) + (x13 : S1x256.Idx → EReal) (ix2 p q)
      = Cert.Spec.pre2048 h Wh bh (Cert.Spec.gateRow 2 (colAt n hn q)) := by
    rw [h13]; unfold Cert.Spec.pre2048
    exact congrArg (· + _) (Finset.sum_congr rfl fun k _ => by rw [l0_pay3_apply, h1, h7])
  have hv : (View.ld x1 (Rect.unit (s := S1x2048) (k0_off1 i) S1x256.size (k0_off1_inb i)) : S1x256.Idx → EReal) (ix2 p q)
      = h (ix2 (0 : Fin 1) (colAt n hn q)) := by
    rw [l0_hslice_apply i x1 p q (colAt n hn q) (by rw [colAt_val, hi]), h1]
  rw [l0_out_eq]
  exact l0_pay1_of _ _ _ _ _ _ _ _ _ _ p q _ _ _ _ _ _ _ gir giz gin ghr ghz ghn hv

/-! ## The blocks at a grid point, read off the arrays -/

/-- The index maps of the input row and the hidden row, decided over the grid: block (0, 0) at every point. -/
theorem l0_idx_rows : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)
/-- The index maps of the three input-weight windows: row block `g * 8 + t` for gate `g`. -/
theorem l0_idx_wi : ∀ t : Fin cfg0.N, win0_2.index t (0 : Fin 2) = 0 + t.val ∧ win0_2.index t (1 : Fin 2) = 0
    ∧ win0_3.index t (0 : Fin 2) = 8 + t.val ∧ win0_3.index t (1 : Fin 2) = 0
    ∧ win0_4.index t (0 : Fin 2) = 16 + t.val ∧ win0_4.index t (1 : Fin 2) = 0 :=
  (by decide +kernel : ∀ t : Fin grid0.N, _)
/-- The index maps of the three hidden-weight windows likewise. -/
theorem l0_idx_wh : ∀ t : Fin cfg0.N, win0_5.index t (0 : Fin 2) = 0 + t.val ∧ win0_5.index t (1 : Fin 2) = 0
    ∧ win0_6.index t (0 : Fin 2) = 8 + t.val ∧ win0_6.index t (1 : Fin 2) = 0
    ∧ win0_7.index t (0 : Fin 2) = 16 + t.val ∧ win0_7.index t (1 : Fin 2) = 0 :=
  (by decide +kernel : ∀ t : Fin grid0.N, _)
/-- The index maps of the three input-bias windows: column block `g * 8 + t`. -/
theorem l0_idx_bi : ∀ t : Fin cfg0.N, win0_8.index t (0 : Fin 2) = 0 ∧ win0_8.index t (1 : Fin 2) = 0 + t.val
    ∧ win0_9.index t (0 : Fin 2) = 0 ∧ win0_9.index t (1 : Fin 2) = 8 + t.val
    ∧ win0_10.index t (0 : Fin 2) = 0 ∧ win0_10.index t (1 : Fin 2) = 16 + t.val :=
  (by decide +kernel : ∀ t : Fin grid0.N, _)
/-- The index maps of the three hidden-bias windows likewise. -/
theorem l0_idx_bh : ∀ t : Fin cfg0.N, win0_11.index t (0 : Fin 2) = 0 ∧ win0_11.index t (1 : Fin 2) = 0 + t.val
    ∧ win0_12.index t (0 : Fin 2) = 0 ∧ win0_12.index t (1 : Fin 2) = 8 + t.val
    ∧ win0_13.index t (0 : Fin 2) = 0 ∧ win0_13.index t (1 : Fin 2) = 16 + t.val :=
  (by decide +kernel : ∀ t : Fin grid0.N, _)
/-- The output window's index map, column block `t`, and the grid coordinate of point `t`. -/
theorem l0_idx_out : ∀ t : Fin cfg0.N, win0_14.index t (0 : Fin 2) = 0 ∧ win0_14.index t (1 : Fin 2) = t.val
    ∧ (grid0.coords t 0).val = t.val :=
  (by decide +kernel : ∀ t : Fin grid0.N, _)

section
variable (V : (c : Dev nD) → (b : Ref sig .tc) → Buf (Elt Ideal) ((c : Thread nD τ).loc b))

/-- The input row's block and the hidden row's block at any point are the rows. -/
theorem l0_iblk0 (c : Dev nD) (t : Fin cfg0.N) (k : Fin 6) :
    (iblk0 V c 0 t : S1x6.Idx → EReal) (ix2 (0 : Fin 1) k) = (V c main_v6 : S1x6.Idx → EReal) (ix2 (0 : Fin 1) k) := by
  obtain ⟨a0, a1, b0, b1⟩ := l0_idx_rows t
  unfold iblk0
  rw [View.read_apply]
  show (V c main_v6 : S1x6.Idx → EReal) _ = _
  congr 1
  funext a
  apply Fin.ext
  match a with
  | ⟨0, _⟩ => show win0_0.index t (0 : Fin 2) * 1 + 1 * 0 = 0; omega
  | ⟨1, _⟩ => show win0_0.index t (1 : Fin 2) * 6 + 1 * k.val = k.val; omega

theorem l0_iblk1 (c : Dev nD) (t : Fin cfg0.N) (k : Fin 2048) :
    (iblk0 V c 1 t : S1x2048.Idx → EReal) (ix2 (0 : Fin 1) k) = (V c main_v8 : S1x2048.Idx → EReal) (ix2 (0 : Fin 1) k) := by
  obtain ⟨a0, a1, b0, b1⟩ := l0_idx_rows t
  unfold iblk0
  rw [View.read_apply]
  show (V c main_v8 : S1x2048.Idx → EReal) _ = _
  congr 1
  funext a
  apply Fin.ext
  match a with
  | ⟨0, _⟩ => show win0_1.index t (0 : Fin 2) * 1 + 1 * 0 = 0; omega
  | ⟨1, _⟩ => show win0_1.index t (1 : Fin 2) * 2048 + 1 * k.val = k.val; omega

/-- Gate `g`'s weight block at point `t`: rows `g * 2048 + 256 t + q` of the stacked weights. -/
theorem l0_iblk2 (c : Dev nD) (t : Fin cfg0.N) (ht : t.val < 8) (q : Fin 256) (k : Fin 6) :
    (iblk0 V c 2 t : S256x6.Idx → EReal) (ix2 q k) = (V c main_arg3 : S6144x6.Idx → EReal) (ix2 (Cert.Spec.gateRow 0 (colAt t.val ht q)) k) := by
  obtain ⟨e0, e1, -⟩ := l0_idx_wi t
  unfold iblk0
  rw [View.read_apply]
  show (V c main_arg3 : S6144x6.Idx → EReal) _ = _
  congr 1
  funext a
  apply Fin.ext
  match a with
  | ⟨0, _⟩ => show win0_2.index t (0 : Fin 2) * 256 + 1 * q.val = 0 * 2048 + (256 * t.val + q.val); omega
  | ⟨1, _⟩ => show win0_2.index t (1 : Fin 2) * 6 + 1 * k.val = k.val; omega

theorem l0_iblk3 (c : Dev nD) (t : Fin cfg0.N) (ht : t.val < 8) (q : Fin 256) (k : Fin 6) :
    (iblk0 V c 3 t : S256x6.Idx → EReal) (ix2 q k) = (V c main_arg3 : S6144x6.Idx → EReal) (ix2 (Cert.Spec.gateRow 1 (colAt t.val ht q)) k) := by
  obtain ⟨-, -, e0, e1, -⟩ := l0_idx_wi t
  unfold iblk0
  rw [View.read_apply]
  show (V c main_arg3 : S6144x6.Idx → EReal) _ = _
  congr 1
  funext a
  apply Fin.ext
  match a with
  | ⟨0, _⟩ => show win0_3.index t (0 : Fin 2) * 256 + 1 * q.val = 1 * 2048 + (256 * t.val + q.val); omega
  | ⟨1, _⟩ => show win0_3.index t (1 : Fin 2) * 6 + 1 * k.val = k.val; omega

theorem l0_iblk4 (c : Dev nD) (t : Fin cfg0.N) (ht : t.val < 8) (q : Fin 256) (k : Fin 6) :
    (iblk0 V c 4 t : S256x6.Idx → EReal) (ix2 q k) = (V c main_arg3 : S6144x6.Idx → EReal) (ix2 (Cert.Spec.gateRow 2 (colAt t.val ht q)) k) := by
  obtain ⟨-, -, -, -, e0, e1⟩ := l0_idx_wi t
  unfold iblk0
  rw [View.read_apply]
  show (V c main_arg3 : S6144x6.Idx → EReal) _ = _
  congr 1
  funext a
  apply Fin.ext
  match a with
  | ⟨0, _⟩ => show win0_4.index t (0 : Fin 2) * 256 + 1 * q.val = 2 * 2048 + (256 * t.val + q.val); omega
  | ⟨1, _⟩ => show win0_4.index t (1 : Fin 2) * 6 + 1 * k.val = k.val; omega

theorem l0_iblk5 (c : Dev nD) (t : Fin cfg0.N) (ht : t.val < 8) (q : Fin 256) (k : Fin 2048) :
    (iblk0 V c 5 t : S256x2048.Idx → EReal) (ix2 q k) = (V c main_arg4 : S6144x2048.Idx → EReal) (ix2 (Cert.Spec.gateRow 0 (colAt t.val ht q)) k) := by
  obtain ⟨e0, e1, -⟩ := l0_idx_wh t
  unfold iblk0
  rw [View.read_apply]
  show (V c main_arg4 : S6144x2048.Idx → EReal) _ = _
  congr 1
  funext a
  apply Fin.ext
  match a with
  | ⟨0, _⟩ => show win0_5.index t (0 : Fin 2) * 256 + 1 * q.val = 0 * 2048 + (256 * t.val + q.val); omega
  | ⟨1, _⟩ => show win0_5.index t (1 : Fin 2) * 2048 + 1 * k.val = k.val; omega

theorem l0_iblk6 (c : Dev nD) (t : Fin cfg0.N) (ht : t.val < 8) (q : Fin 256) (k : Fin 2048) :
    (iblk0 V c 6 t : S256x2048.Idx → EReal) (ix2 q k) = (V c main_arg4 : S6144x2048.Idx → EReal) (ix2 (Cert.Spec.gateRow 1 (colAt t.val ht q)) k) := by
  obtain ⟨-, -, e0, e1, -⟩ := l0_idx_wh t
  unfold iblk0
  rw [View.read_apply]
  show (V c main_arg4 : S6144x2048.Idx → EReal) _ = _
  congr 1
  funext a
  apply Fin.ext
  match a with
  | ⟨0, _⟩ => show win0_6.index t (0 : Fin 2) * 256 + 1 * q.val = 1 * 2048 + (256 * t.val + q.val); omega
  | ⟨1, _⟩ => show win0_6.index t (1 : Fin 2) * 2048 + 1 * k.val = k.val; omega

theorem l0_iblk7 (c : Dev nD) (t : Fin cfg0.N) (ht : t.val < 8) (q : Fin 256) (k : Fin 2048) :
    (iblk0 V c 7 t : S256x2048.Idx → EReal) (ix2 q k) = (V c main_arg4 : S6144x2048.Idx → EReal) (ix2 (Cert.Spec.gateRow 2 (colAt t.val ht q)) k) := by
  obtain ⟨-, -, -, -, e0, e1⟩ := l0_idx_wh t
  unfold iblk0
  rw [View.read_apply]
  show (V c main_arg4 : S6144x2048.Idx → EReal) _ = _
  congr 1
  funext a
  apply Fin.ext
  match a with
  | ⟨0, _⟩ => show win0_7.index t (0 : Fin 2) * 256 + 1 * q.val = 2 * 2048 + (256 * t.val + q.val); omega
  | ⟨1, _⟩ => show win0_7.index t (1 : Fin 2) * 2048 + 1 * k.val = k.val; omega

/-- Gate `g`'s bias block at point `t`: entries `g * 2048 + 256 t + q` of the stacked biases. -/
theorem l0_iblk8 (c : Dev nD) (t : Fin cfg0.N) (ht : t.val < 8) (p : Fin 1) (q : Fin 256) :
    (iblk0 V c 8 t : S1x256.Idx → EReal) (ix2 p q) = (V c main_v11 : S1x6144.Idx → EReal) (ix2 (0 : Fin 1) (Cert.Spec.gateRow 0 (colAt t.val ht q))) := by
  obtain ⟨e0, e1, -⟩ := l0_idx_bi t
  unfold iblk0
  rw [View.read_apply]
  show (V c main_v11 : S1x6144.Idx → EReal) _ = _
  congr 1
  funext a
  apply Fin.ext
  match a with
  | ⟨0, _⟩ => show win0_8.index t (0 : Fin 2) * 1 + 1 * p.val = 0; omega
  | ⟨1, _⟩ => show win0_8.index t (1 : Fin 2) * 256 + 1 * q.val = 0 * 2048 + (256 * t.val + q.val); omega

theorem l0_iblk9 (c : Dev nD) (t : Fin cfg0.N) (ht : t.val < 8) (p : Fin 1) (q : Fin 256) :
    (iblk0 V c 9 t : S1x256.Idx → EReal) (ix2 p q) = (V c main_v11 : S1x6144.Idx → EReal) (ix2 (0 : Fin 1) (Cert.Spec.gateRow 1 (colAt t.val ht q))) := by
  obtain ⟨-, -, e0, e1, -⟩ := l0_idx_bi t
  unfold iblk0
  rw [View.read_apply]
  show (V c main_v11 : S1x6144.Idx → EReal) _ = _
  congr 1
  funext a
  apply Fin.ext
  match a with
  | ⟨0, _⟩ => show win0_9.index t (0 : Fin 2) * 1 + 1 * p.val = 0; omega
  | ⟨1, _⟩ => show win0_9.index t (1 : Fin 2) * 256 + 1 * q.val = 1 * 2048 + (256 * t.val + q.val); omega

theorem l0_iblk10 (c : Dev nD) (t : Fin cfg0.N) (ht : t.val < 8) (p : Fin 1) (q : Fin 256) :
    (iblk0 V c 10 t : S1x256.Idx → EReal) (ix2 p q) = (V c main_v11 : S1x6144.Idx → EReal) (ix2 (0 : Fin 1) (Cert.Spec.gateRow 2 (colAt t.val ht q))) := by
  obtain ⟨-, -, -, -, e0, e1⟩ := l0_idx_bi t
  unfold iblk0
  rw [View.read_apply]
  show (V c main_v11 : S1x6144.Idx → EReal) _ = _
  congr 1
  funext a
  apply Fin.ext
  match a with
  | ⟨0, _⟩ => show win0_10.index t (0 : Fin 2) * 1 + 1 * p.val = 0; omega
  | ⟨1, _⟩ => show win0_10.index t (1 : Fin 2) * 256 + 1 * q.val = 2 * 2048 + (256 * t.val + q.val); omega

theorem l0_iblk11 (c : Dev nD) (t : Fin cfg0.N) (ht : t.val < 8) (p : Fin 1) (q : Fin 256) :
    (iblk0 V c 11 t : S1x256.Idx → EReal) (ix2 p q) = (V c main_v12 : S1x6144.Idx → EReal) (ix2 (0 : Fin 1) (Cert.Spec.gateRow 0 (colAt t.val ht q))) := by
  obtain ⟨e0, e1, -⟩ := l0_idx_bh t
  unfold iblk0
  rw [View.read_apply]
  show (V c main_v12 : S1x6144.Idx → EReal) _ = _
  congr 1
  funext a
  apply Fin.ext
  match a with
  | ⟨0, _⟩ => show win0_11.index t (0 : Fin 2) * 1 + 1 * p.val = 0; omega
  | ⟨1, _⟩ => show win0_11.index t (1 : Fin 2) * 256 + 1 * q.val = 0 * 2048 + (256 * t.val + q.val); omega

theorem l0_iblk12 (c : Dev nD) (t : Fin cfg0.N) (ht : t.val < 8) (p : Fin 1) (q : Fin 256) :
    (iblk0 V c 12 t : S1x256.Idx → EReal) (ix2 p q) = (V c main_v12 : S1x6144.Idx → EReal) (ix2 (0 : Fin 1) (Cert.Spec.gateRow 1 (colAt t.val ht q))) := by
  obtain ⟨-, -, e0, e1, -⟩ := l0_idx_bh t
  unfold iblk0
  rw [View.read_apply]
  show (V c main_v12 : S1x6144.Idx → EReal) _ = _
  congr 1
  funext a
  apply Fin.ext
  match a with
  | ⟨0, _⟩ => show win0_12.index t (0 : Fin 2) * 1 + 1 * p.val = 0; omega
  | ⟨1, _⟩ => show win0_12.index t (1 : Fin 2) * 256 + 1 * q.val = 1 * 2048 + (256 * t.val + q.val); omega

theorem l0_iblk13 (c : Dev nD) (t : Fin cfg0.N) (ht : t.val < 8) (p : Fin 1) (q : Fin 256) :
    (iblk0 V c 13 t : S1x256.Idx → EReal) (ix2 p q) = (V c main_v12 : S1x6144.Idx → EReal) (ix2 (0 : Fin 1) (Cert.Spec.gateRow 2 (colAt t.val ht q))) := by
  obtain ⟨-, -, -, -, e0, e1⟩ := l0_idx_bh t
  unfold iblk0
  rw [View.read_apply]
  show (V c main_v12 : S1x6144.Idx → EReal) _ = _
  congr 1
  funext a
  apply Fin.ext
  match a with
  | ⟨0, _⟩ => show win0_13.index t (0 : Fin 2) * 1 + 1 * p.val = 0; omega
  | ⟨1, _⟩ => show win0_13.index t (1 : Fin 2) * 256 + 1 * q.val = 2 * 2048 + (256 * t.val + q.val); omega

/-! ## From the blocks to the array -/

/-- WHAT POINT `t` WRITES BACK is its block of the layer's new hidden row, computed from the arrays the call finds. -/
theorem l0_flushed (c : Dev nD) (t : Fin cfg0.N) :
    (dat0 (F := Ideal) V c).flushed 14 t = ((cfg0.win 14).blk t).view.read (Elt Ideal)
      (Cert.Spec.layer0 (V c main_v6) (V c main_v8) (V c main_arg3) (V c main_arg4)
      (fun i => V c main_v11 (ix2 (0 : Fin 1) (i 0))) (fun i => V c main_v12 (ix2 (0 : Fin 1) (i 0)))) := by
  have hN : cfg0.N = 8 := N_0
  have ht : t.val < 8 := by have := t.isLt; omega
  obtain ⟨e0, e1, eg⟩ := l0_idx_out t
  show (cfg0.win 14).cut (grid0.coords t) ((dat0 (F := Ideal) V c).after 14 t) = _
  dsimp only [dat0]
  funext j
  obtain ⟨p, q, rfl⟩ : ∃ (p : Fin 1) (q : Fin 256), j = ix2 p q := ⟨j 0, j 1, eq_ix2 j⟩
  rw [View.read_apply]
  show (out0_14 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) : S1x256.Idx → EReal) (ix2 p q) = _
  show _ = Cert.Spec.layer0 (V c main_v6) (V c main_v8) (V c main_arg3) (V c main_arg4)
      (fun i => V c main_v11 (ix2 (0 : Fin 1) (i 0))) (fun i => V c main_v12 (ix2 (0 : Fin 1) (i 0))) _
  refine (l0_block_apply (grid0.coords t) t.val ht eg _ _ _ _ _ _ _ _ _ _ _ _ _ _
    (V c main_v6) (V c main_v8) (V c main_arg3) (V c main_arg4)
    (fun i => V c main_v11 (ix2 (0 : Fin 1) (i 0))) (fun i => V c main_v12 (ix2 (0 : Fin 1) (i 0)))
    (l0_iblk0 V c t) (l0_iblk1 V c t) (l0_iblk2 V c t ht) (l0_iblk3 V c t ht) (l0_iblk4 V c t ht)
    (l0_iblk5 V c t ht) (l0_iblk6 V c t ht) (l0_iblk7 V c t ht) (l0_iblk8 V c t ht) (l0_iblk9 V c t ht)
    (l0_iblk10 V c t ht) (l0_iblk11 V c t ht) (l0_iblk12 V c t ht) (l0_iblk13 V c t ht) p q).trans (congrArg _ ?_)
  funext a
  apply Fin.ext
  match a with
  | ⟨0, _⟩ => show 0 = win0_14.index t (0 : Fin 2) * 1 + 1 * p.val; omega
  | ⟨1, _⟩ => show 256 * t.val + q.val = win0_14.index t (1 : Fin 2) * 256 + 1 * q.val; omega

/-- An index of the output row is in point `t`'s block iff each coordinate is in the block's range on its axis. -/
theorem l0_mem_blk (t : Fin cfg0.N) (i : S1x2048.Idx) :
    i ∈ ((cfg0.win 14).blk t).view.set ↔ ∀ a : Fin 2, win0_14.index t a * S1x256.size a ≤ (i a).val ∧ (i a).val < win0_14.index t a * S1x256.size a + S1x256.size a := by
  show i ∈ ((View.whole main_v16).slice (win0_14.rect t)).set ↔ _
  rw [View.set_slice_whole, Rect.mem_set_unit]
  exact Iff.rfl

/-- THE LAYER'S OUTPUT ARRAY after the call: the new hidden row of the arrays the call finds. The point covering column `q`
    is `q / 256`. -/
theorem arr0_final (c : Dev nD) :
    ((dat0 (F := Ideal) V c).arrAt 14 cfg0.N : S1x2048.Idx → EReal)
      = Cert.Spec.layer0 (V c main_v6) (V c main_v8) (V c main_arg3) (V c main_arg4)
      (fun i => V c main_v11 (ix2 (0 : Fin 1) (i 0))) (fun i => V c main_v12 (ix2 (0 : Fin 1) (i 0))) :=
  (dat0 (F := Ideal) V c).arrAt_eq_of_cover 14 _ (fun t _ => l0_flushed V c t) fun i => by
    have hN : cfg0.N = 8 := N_0
    have h0 : (i 0).val < 1 := (i 0).isLt
    have h1 : (i 1).val < 2048 := (i 1).isLt
    obtain ⟨t, ht⟩ : ∃ t : Fin cfg0.N, t.val = (i 1).val / 256 := ⟨⟨(i 1).val / 256, by omega⟩, rfl⟩
    refine ⟨t, flush0_14 t, ?_⟩
    obtain ⟨e0, e1, -⟩ := l0_idx_out t
    rw [l0_mem_blk]
    intro a
    match a with
    | ⟨0, _⟩ => show win0_14.index t (0 : Fin 2) * 1 ≤ (i 0).val ∧ (i 0).val < win0_14.index t (0 : Fin 2) * 1 + 1; omega
    | ⟨1, _⟩ => show win0_14.index t (1 : Fin 2) * 256 ≤ (i 1).val ∧ (i 1).val < win0_14.index t (1 : Fin 2) * 256 + 256; omega

end

end Cert.KernelIdeal.CellValue

end
-- ==== Proof.KI.Cell1.lean ====
import proofs.«106570_j81046032876009_1_alg».proof.Proof.KI.CellCommon

/-!
# The layer-1 cell call's output array

The call walks the 2048 hidden entries in 8 blocks of 256. At grid point `t` its body reads the input row, the whole previous
hidden row, the three gates' weight blocks (rows `g * 2048 + 256 t + q` of the stacked weights, `g` the gate) and bias blocks,
and stores, over the whole output block, the new hidden entries `256 t + q`. Read at an index that is the specification's
cell at that entry; the 8 blocks tile the row.
-/

noncomputable section

open scoped BigOperators

namespace Cert.KernelIdeal.CellValue

open Cert.KernelIdeal Cert.KernelIdeal.Gen Idealize.ShloMosaic Idealize.ShloMosaic.TcCoe Idealize.SL.Sem
open Idealize.ShloMosaic.ValueIdx
open Idealize.ShloMosaic.Pipeline (Dat)

/-- The logistic function and the hyperbolic tangent of a vector, at an index. -/
theorem l1_logistic_apply {s : Shape} {φ : FTy} (x : FVec Ideal s φ) (i : s.Idx) : logistic x i = Ideal.logistic (x i) := rfl
theorem l1_tanh_apply {s : Shape} {φ : FTy} (x : FVec Ideal s φ) (i : s.Idx) : tanh x i = Ideal.tanh (x i) := rfl

/-- A gate's pre-activation block at an entry: the row against row `q` of the weight block, plus the bias entry. -/
theorem l1_pay4_apply (x : Vec Ideal S1x2048 .f32) (W : Vec Ideal S256x2048 .f32) (b : Vec Ideal S1x256 .f32) (p : Fin 1) (q : Fin 256) :
    (k1_pay4 x W b : S1x256.Idx → EReal) (ix2 p q)
      = (∑ k : Fin 2048, (x : S1x2048.Idx → EReal) (ix2 (0 : Fin 1) k) * (W : S256x2048.Idx → EReal) (ix2 q k)) + (b : S1x256.Idx → EReal) (ix2 p q) := by
  unfold k1_pay4 k1_pay2
  simp only [shapeCast_self]
  rw [addf_apply]
  exact congrArg (· + _) (mmH_apply _ _ p q)

/-- A gate's pre-activation block at an entry: the row against row `q` of the weight block, plus the bias entry. -/
theorem l1_pay5_apply (x : Vec Ideal S1x2048 .f32) (W : Vec Ideal S256x2048 .f32) (b : Vec Ideal S1x256 .f32) (p : Fin 1) (q : Fin 256) :
    (k1_pay5 x W b : S1x256.Idx → EReal) (ix2 p q)
      = (∑ k : Fin 2048, (x : S1x2048.Idx → EReal) (ix2 (0 : Fin 1) k) * (W : S256x2048.Idx → EReal) (ix2 q k)) + (b : S1x256.Idx → EReal) (ix2 p q) := by
  unfold k1_pay5 k1_pay2
  simp only [shapeCast_self]
  rw [addf_apply]
  exact congrArg (· + _) (mmH_apply _ _ p q)

/-- A gate's pre-activation block at an entry: the row against row `q` of the weight block, plus the bias entry. -/
theorem l1_pay6_apply (x : Vec Ideal S1x2048 .f32) (W : Vec Ideal S256x2048 .f32) (b : Vec Ideal S1x256 .f32) (p : Fin 1) (q : Fin 256) :
    (k1_pay6 x W b : S1x256.Idx → EReal) (ix2 p q)
      = (∑ k : Fin 2048, (x : S1x2048.Idx → EReal) (ix2 (0 : Fin 1) k) * (W : S256x2048.Idx → EReal) (ix2 q k)) + (b : S1x256.Idx → EReal) (ix2 p q) := by
  unfold k1_pay6 k1_pay2
  simp only [shapeCast_self]
  rw [addf_apply]
  exact congrArg (· + _) (mmH_apply _ _ p q)

/-- A gate's pre-activation block at an entry: the row against row `q` of the weight block, plus the bias entry. -/
theorem l1_pay7_apply (x : Vec Ideal S1x2048 .f32) (W : Vec Ideal S256x2048 .f32) (b : Vec Ideal S1x256 .f32) (p : Fin 1) (q : Fin 256) :
    (k1_pay7 x W b : S1x256.Idx → EReal) (ix2 p q)
      = (∑ k : Fin 2048, (x : S1x2048.Idx → EReal) (ix2 (0 : Fin 1) k) * (W : S256x2048.Idx → EReal) (ix2 q k)) + (b : S1x256.Idx → EReal) (ix2 p q) := by
  unfold k1_pay7 k1_pay3
  simp only [shapeCast_self]
  rw [addf_apply]
  exact congrArg (· + _) (mmH_apply _ _ p q)

/-- The hidden row as the gate products read it (a change of format that is the identity on extended reals). -/
theorem l1_pay3_apply (h : Vec Ideal S1x2048 .f32) (i : S1x2048.Idx) : (k1_pay3 h : S1x2048.Idx → EReal) i = (h : S1x2048.Idx → EReal) i := by
  unfold k1_pay3
  simp only [shapeCast_self]
  rfl

/-- THE CELL'S PAYLOAD AT AN ENTRY, from the four pre-activations computed before it (`gir giz gin ghr`), the two it
    computes itself (`ghz ghn`: the hidden row against the update and candidate gates' blocks, plus their biases) and the
    previous hidden entry `hv`: `(1 - z) * n + z * hv` with `r = σ (gir + ghr)`, `z = σ (giz + ghz)`, `n = tanh (gin + r * ghn)`. -/
theorem l1_pay1_of (v7 : FVec Ideal S1x2048 .bf16) (v13 v19 v25 v31 : FVec Ideal S1x256 .f32) (v32 : Vec Ideal S256x2048 .f32)
    (v35 : Vec Ideal S1x256 .f32) (v38 : Vec Ideal S256x2048 .f32) (v41 v52 : Vec Ideal S1x256 .f32) (p : Fin 1) (q : Fin 256)
    (gir giz gin ghr ghz ghn hv : EReal)
    (e13 : (v13 : S1x256.Idx → EReal) (ix2 p q) = gir) (e19 : (v19 : S1x256.Idx → EReal) (ix2 p q) = giz)
    (e25 : (v25 : S1x256.Idx → EReal) (ix2 p q) = gin) (e31 : (v31 : S1x256.Idx → EReal) (ix2 p q) = ghr)
    (ez : (∑ k : Fin 2048, (v7 : S1x2048.Idx → EReal) (ix2 (0 : Fin 1) k) * (v32 : S256x2048.Idx → EReal) (ix2 q k)) + (v35 : S1x256.Idx → EReal) (ix2 p q) = ghz)
    (en : (∑ k : Fin 2048, (v7 : S1x2048.Idx → EReal) (ix2 (0 : Fin 1) k) * (v38 : S256x2048.Idx → EReal) (ix2 q k)) + (v41 : S1x256.Idx → EReal) (ix2 p q) = ghn)
    (e52 : (v52 : S1x256.Idx → EReal) (ix2 p q) = hv) :
    (k1_pay1 v7 v13 v19 v25 v31 v32 v35 v38 v41 v52 : S1x256.Idx → EReal) (ix2 p q)
      = (Cert.Spec.one - Ideal.logistic (giz + ghz)) * Ideal.tanh (gin + Ideal.logistic (gir + ghr) * ghn)
        + Ideal.logistic (giz + ghz) * hv := by
  subst e13 e19 e25 e31 ez en e52
  unfold k1_pay1
  simp only [shapeCast_self]
  simp only [addf_apply, mulf_apply, subf_apply, broadcast_apply, l1_logistic_apply, l1_tanh_apply]
  rw [mmH_apply _ _ p q, mmH_apply _ _ p q]
  rfl

/-- The cell's one store covers its whole output block: the block holds the payload of the loaded blocks. -/
theorem l1_out_eq (i : grid1.Coords) (x0 : Vec Ideal S1x2048 .f32) (x1 : Vec Ideal S1x2048 .f32) (x2 x3 x4 : Vec Ideal S256x2048 .f32)
    (x5 x6 x7 : Vec Ideal S256x2048 .f32) (x8 x9 x10 x11 x12 x13 : Vec Ideal S1x256 .f32) :
    out1_14 i x0 x1 x2 x3 x4 x5 x6 x7 x8 x9 x10 x11 x12 x13
      = k1_pay1 (k1_pay3 x1) (k1_pay4 x0 x2 x8) (k1_pay5 x0 x3 x9) (k1_pay6 x0 x4 x10) (k1_pay7 x1 x5 x11) x6 x12 x7 x13
          (View.ld x1 (Rect.unit (s := S1x2048) (k1_off1 i) S1x256.size (k1_off1_inb i))) := by
  unfold out1_14
  rw [View.canon_unit_zero zero_off2]
  simp only [View.ld_unit_zero (S := S1x2048) zero_off2, View.ld_unit_zero (S := S256x2048) zero_off2, View.ld_unit_zero (S := S1x256) zero_off2]

/-- The 256 previous hidden entries the body loads at its point's offset: entry `q` is hidden entry `256 t + q`. -/
theorem l1_hslice_apply (i : grid1.Coords) (x1 : Vec Ideal S1x2048 .f32) (p : Fin 1) (q : Fin 256) (j : Fin 2048)
    (hj : j.val = 256 * (i 0).val + q.val) :
    (View.ld x1 (Rect.unit (s := S1x2048) (k1_off1 i) S1x256.size (k1_off1_inb i)) : S1x256.Idx → EReal) (ix2 p q)
      = (x1 : S1x2048.Idx → EReal) (ix2 (0 : Fin 1) j) := by
  show (x1 : S1x2048.Idx → EReal) _ = _
  congr 1
  funext a
  apply Fin.ext
  match a with
  | ⟨0, _⟩ => show k1_off1 i 0 + 1 * p.val = 0; rw [k1_off1_eq]; show 0 + 1 * p.val = 0; omega
  | ⟨1, _⟩ => show k1_off1 i 1 + 1 * q.val = j.val; rw [k1_off1_eq, hj]; show 256 * (i 0).val + 1 * q.val = _; omega

/-- THE OUTPUT BLOCK AT AN ENTRY is the specification's cell at hidden entry `256 n + q`, when the point's input blocks are
    the input row, the previous hidden row, and the three gates' rows `g * 2048 + 256 n + q` of the weights and biases. -/
theorem l1_block_apply (i : grid1.Coords) (n : Nat) (hn : n < 8) (hi : (i 0).val = n)
    (x0 : Vec Ideal S1x2048 .f32) (x1 : Vec Ideal S1x2048 .f32) (x2 x3 x4 : Vec Ideal S256x2048 .f32)
    (x5 x6 x7 : Vec Ideal S256x2048 .f32) (x8 x9 x10 x11 x12 x13 : Vec Ideal S1x256 .f32)
    (x : Cert.Spec.Row2048.Idx → EReal) (h : Cert.Spec.Row2048.Idx → EReal) (Wi : Cert.Spec.Mat6144x2048.Idx → EReal)
    (Wh : Cert.Spec.Mat6144x2048.Idx → EReal) (bi bh : Cert.Spec.Vec6144.Idx → EReal)
    (h0 : ∀ k : Fin 2048, (x0 : S1x2048.Idx → EReal) (ix2 (0 : Fin 1) k) = x (ix2 (0 : Fin 1) k))
    (h1 : ∀ k : Fin 2048, (x1 : S1x2048.Idx → EReal) (ix2 (0 : Fin 1) k) = h (ix2 (0 : Fin 1) k))
    (h2 : ∀ (q : Fin 256) (k : Fin 2048), (x2 : S256x2048.Idx → EReal) (ix2 q k) = Wi (ix2 (Cert.Spec.gateRow 0 (colAt n hn q)) k))
    (h3 : ∀ (q : Fin 256) (k : Fin 2048), (x3 : S256x2048.Idx → EReal) (ix2 q k) = Wi (ix2 (Cert.Spec.gateRow 1 (colAt n hn q)) k))
    (h4 : ∀ (q : Fin 256) (k : Fin 2048), (x4 : S256x2048.Idx → EReal) (ix2 q k) = Wi (ix2 (Cert.Spec.gateRow 2 (colAt n hn q)) k))
    (h5 : ∀ (q : Fin 256) (k : Fin 2048), (x5 : S256x2048.Idx → EReal) (ix2 q k) = Wh (ix2 (Cert.Spec.gateRow 0 (colAt n hn q)) k))
    (h6 : ∀ (q : Fin 256) (k : Fin 2048), (x6 : S256x2048.Idx → EReal) (ix2 q k) = Wh (ix2 (Cert.Spec.gateRow 1 (colAt n hn q)) k))
    (h7 : ∀ (q : Fin 256) (k : Fin 2048), (x7 : S256x2048.Idx → EReal) (ix2 q k) = Wh (ix2 (Cert.Spec.gateRow 2 (colAt n hn q)) k))
    (h8 : ∀ (p : Fin 1) (q : Fin 256), (x8 : S1x256.Idx → EReal) (ix2 p q) = bi (ix1 (Cert.Spec.gateRow 0 (colAt n hn q))))
    (h9 : ∀ (p : Fin 1) (q : Fin 256), (x9 : S1x256.Idx → EReal) (ix2 p q) = bi (ix1 (Cert.Spec.gateRow 1 (colAt n hn q))))
    (h10 : ∀ (p : Fin 1) (q : Fin 256), (x10 : S1x256.Idx → EReal) (ix2 p q) = bi (ix1 (Cert.Spec.gateRow 2 (colAt n hn q))))
    (h11 : ∀ (p : Fin 1) (q : Fin 256), (x11 : S1x256.Idx → EReal) (ix2 p q) = bh (ix1 (Cert.Spec.gateRow 0 (colAt n hn q))))
    (h12 : ∀ (p : Fin 1) (q : Fin 256), (x12 : S1x256.Idx → EReal) (ix2 p q) = bh (ix1 (Cert.Spec.gateRow 1 (colAt n hn q))))
    (h13 : ∀ (p : Fin 1) (q : Fin 256), (x13 : S1x256.Idx → EReal) (ix2 p q) = bh (ix1 (Cert.Spec.gateRow 2 (colAt n hn q))))
    (p : Fin 1) (q : Fin 256) :
    (out1_14 i x0 x1 x2 x3 x4 x5 x6 x7 x8 x9 x10 x11 x12 x13 : S1x256.Idx → EReal) (ix2 p q)
      = Cert.Spec.layer1 x h Wi Wh bi bh (ix2 (0 : Fin 1) (colAt n hn q)) := by
  have gir : (k1_pay4 x0 x2 x8 : S1x256.Idx → EReal) (ix2 p q) = Cert.Spec.pre2048 x Wi bi (Cert.Spec.gateRow 0 (colAt n hn q)) := by
    rw [l1_pay4_apply, h8]; unfold Cert.Spec.pre2048
    exact congrArg (· + _) (Finset.sum_congr rfl fun k _ => by rw [h0, h2])
  have giz : (k1_pay5 x0 x3 x9 : S1x256.Idx → EReal) (ix2 p q) = Cert.Spec.pre2048 x Wi bi (Cert.Spec.gateRow 1 (colAt n hn q)) := by
    rw [l1_pay5_apply, h9]; unfold Cert.Spec.pre2048
    exact congrArg (· + _) (Finset.sum_congr rfl fun k _ => by rw [h0, h3])
  have gin : (k1_pay6 x0 x4 x10 : S1x256.Idx → EReal) (ix2 p q) = Cert.Spec.pre2048 x Wi bi (Cert.Spec.gateRow 2 (colAt n hn q)) := by
    rw [l1_pay6_apply, h10]; unfold Cert.Spec.pre2048
    exact congrArg (· + _) (Finset.sum_congr rfl fun k _ => by rw [h0, h4])
  have ghr : (k1_pay7 x1 x5 x11 : S1x256.Idx → EReal) (ix2 p q) = Cert.Spec.pre2048 h Wh bh (Cert.Spec.gateRow 0 (colAt n hn q)) := by
    rw [l1_pay7_apply, h11]; unfold Cert.Spec.pre2048
    exact congrArg (· + _) (Finset.sum_congr rfl fun k _ => by rw [h1, h5])
  have ghz : (∑ k : Fin 2048, (k1_pay3 x1 : S1x2048.Idx → EReal) (ix2 (0 : Fin 1) k) * (x6 : S256x2048.Idx → EReal) (ix2 q k)) + (x12 : S1x256.Idx → EReal) (ix2 p q)
      = Cert.Spec.pre2048 h Wh bh (Cert.Spec.gateRow 1 (colAt n hn q)) := by
    rw [h12]; unfold Cert.Spec.pre2048
    exact congrArg (· + _) (Finset.sum_congr rfl fun k _ => by rw [l1_pay3_apply, h1, h6])
  have ghn : (∑ k : Fin 2048, (k1_pay3 x1 : S1x2048.Idx → EReal) (ix2 (0 : Fin 1) k) * (x7 : S256x2048.Idx → EReal) (ix2 q k)) + (x13 : S1x256.Idx → EReal) (ix2 p q)
      = Cert.Spec.pre2048 h Wh bh (Cert.Spec.gateRow 2 (colAt n hn q)) := by
    rw [h13]; unfold Cert.Spec.pre2048
    exact congrArg (· + _) (Finset.sum_congr rfl fun k _ => by rw [l1_pay3_apply, h1, h7])
  have hv : (View.ld x1 (Rect.unit (s := S1x2048) (k1_off1 i) S1x256.size (k1_off1_inb i)) : S1x256.Idx → EReal) (ix2 p q)
      = h (ix2 (0 : Fin 1) (colAt n hn q)) := by
    rw [l1_hslice_apply i x1 p q (colAt n hn q) (by rw [colAt_val, hi]), h1]
  rw [l1_out_eq]
  exact l1_pay1_of _ _ _ _ _ _ _ _ _ _ p q _ _ _ _ _ _ _ gir giz gin ghr ghz ghn hv

/-! ## The blocks at a grid point, read off the arrays -/

/-- The index maps of the input row and the hidden row, decided over the grid: block (0, 0) at every point. -/
theorem l1_idx_rows : ∀ t : Fin cfg1.N, win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)
/-- The index maps of the three input-weight windows: row block `g * 8 + t` for gate `g`. -/
theorem l1_idx_wi : ∀ t : Fin cfg1.N, win1_2.index t (0 : Fin 2) = 0 + t.val ∧ win1_2.index t (1 : Fin 2) = 0
    ∧ win1_3.index t (0 : Fin 2) = 8 + t.val ∧ win1_3.index t (1 : Fin 2) = 0
    ∧ win1_4.index t (0 : Fin 2) = 16 + t.val ∧ win1_4.index t (1 : Fin 2) = 0 :=
  (by decide +kernel : ∀ t : Fin grid1.N, _)
/-- The index maps of the three hidden-weight windows likewise. -/
theorem l1_idx_wh : ∀ t : Fin cfg1.N, win1_5.index t (0 : Fin 2) = 0 + t.val ∧ win1_5.index t (1 : Fin 2) = 0
    ∧ win1_6.index t (0 : Fin 2) = 8 + t.val ∧ win1_6.index t (1 : Fin 2) = 0
    ∧ win1_7.index t (0 : Fin 2) = 16 + t.val ∧ win1_7.index t (1 : Fin 2) = 0 :=
  (by decide +kernel : ∀ t : Fin grid1.N, _)
/-- The index maps of the three input-bias windows: column block `g * 8 + t`. -/
theorem l1_idx_bi : ∀ t : Fin cfg1.N, win1_8.index t (0 : Fin 2) = 0 ∧ win1_8.index t (1 : Fin 2) = 0 + t.val
    ∧ win1_9.index t (0 : Fin 2) = 0 ∧ win1_9.index t (1 : Fin 2) = 8 + t.val
    ∧ win1_10.index t (0 : Fin 2) = 0 ∧ win1_10.index t (1 : Fin 2) = 16 + t.val :=
  (by decide +kernel : ∀ t : Fin grid1.N, _)
/-- The index maps of the three hidden-bias windows likewise. -/
theorem l1_idx_bh : ∀ t : Fin cfg1.N, win1_11.index t (0 : Fin 2) = 0 ∧ win1_11.index t (1 : Fin 2) = 0 + t.val
    ∧ win1_12.index t (0 : Fin 2) = 0 ∧ win1_12.index t (1 : Fin 2) = 8 + t.val
    ∧ win1_13.index t (0 : Fin 2) = 0 ∧ win1_13.index t (1 : Fin 2) = 16 + t.val :=
  (by decide +kernel : ∀ t : Fin grid1.N, _)
/-- The output window's index map, column block `t`, and the grid coordinate of point `t`. -/
theorem l1_idx_out : ∀ t : Fin cfg1.N, win1_14.index t (0 : Fin 2) = 0 ∧ win1_14.index t (1 : Fin 2) = t.val
    ∧ (grid1.coords t 0).val = t.val :=
  (by decide +kernel : ∀ t : Fin grid1.N, _)

section
variable (V : (c : Dev nD) → (b : Ref sig .tc) → Buf (Elt Ideal) ((c : Thread nD τ).loc b))

/-- The input row's block and the hidden row's block at any point are the rows. -/
theorem l1_iblk0 (c : Dev nD) (t : Fin cfg1.N) (k : Fin 2048) :
    (iblk1 V c 0 t : S1x2048.Idx → EReal) (ix2 (0 : Fin 1) k) = (V c main_v16 : S1x2048.Idx → EReal) (ix2 (0 : Fin 1) k) := by
  obtain ⟨a0, a1, b0, b1⟩ := l1_idx_rows t
  unfold iblk1
  rw [View.read_apply]
  show (V c main_v16 : S1x2048.Idx → EReal) _ = _
  congr 1
  funext a
  apply Fin.ext
  match a with
  | ⟨0, _⟩ => show win1_0.index t (0 : Fin 2) * 1 + 1 * 0 = 0; omega
  | ⟨1, _⟩ => show win1_0.index t (1 : Fin 2) * 2048 + 1 * k.val = k.val; omega

theorem l1_iblk1 (c : Dev nD) (t : Fin cfg1.N) (k : Fin 2048) :
    (iblk1 V c 1 t : S1x2048.Idx → EReal) (ix2 (0 : Fin 1) k) = (V c main_v10 : S1x2048.Idx → EReal) (ix2 (0 : Fin 1) k) := by
  obtain ⟨a0, a1, b0, b1⟩ := l1_idx_rows t
  unfold iblk1
  rw [View.read_apply]
  show (V c main_v10 : S1x2048.Idx → EReal) _ = _
  congr 1
  funext a
  apply Fin.ext
  match a with
  | ⟨0, _⟩ => show win1_1.index t (0 : Fin 2) * 1 + 1 * 0 = 0; omega
  | ⟨1, _⟩ => show win1_1.index t (1 : Fin 2) * 2048 + 1 * k.val = k.val; omega

/-- Gate `g`'s weight block at point `t`: rows `g * 2048 + 256 t + q` of the stacked weights. -/
theorem l1_iblk2 (c : Dev nD) (t : Fin cfg1.N) (ht : t.val < 8) (q : Fin 256) (k : Fin 2048) :
    (iblk1 V c 2 t : S256x2048.Idx → EReal) (ix2 q k) = (V c main_arg7 : S6144x2048.Idx → EReal) (ix2 (Cert.Spec.gateRow 0 (colAt t.val ht q)) k) := by
  obtain ⟨e0, e1, -⟩ := l1_idx_wi t
  unfold iblk1
  rw [View.read_apply]
  show (V c main_arg7 : S6144x2048.Idx → EReal) _ = _
  congr 1
  funext a
  apply Fin.ext
  match a with
  | ⟨0, _⟩ => show win1_2.index t (0 : Fin 2) * 256 + 1 * q.val = 0 * 2048 + (256 * t.val + q.val); omega
  | ⟨1, _⟩ => show win1_2.index t (1 : Fin 2) * 2048 + 1 * k.val = k.val; omega

theorem l1_iblk3 (c : Dev nD) (t : Fin cfg1.N) (ht : t.val < 8) (q : Fin 256) (k : Fin 2048) :
    (iblk1 V c 3 t : S256x2048.Idx → EReal) (ix2 q k) = (V c main_arg7 : S6144x2048.Idx → EReal) (ix2 (Cert.Spec.gateRow 1 (colAt t.val ht q)) k) := by
  obtain ⟨-, -, e0, e1, -⟩ := l1_idx_wi t
  unfold iblk1
  rw [View.read_apply]
  show (V c main_arg7 : S6144x2048.Idx → EReal) _ = _
  congr 1
  funext a
  apply Fin.ext
  match a with
  | ⟨0, _⟩ => show win1_3.index t (0 : Fin 2) * 256 + 1 * q.val = 1 * 2048 + (256 * t.val + q.val); omega
  | ⟨1, _⟩ => show win1_3.index t (1 : Fin 2) * 2048 + 1 * k.val = k.val; omega

theorem l1_iblk4 (c : Dev nD) (t : Fin cfg1.N) (ht : t.val < 8) (q : Fin 256) (k : Fin 2048) :
    (iblk1 V c 4 t : S256x2048.Idx → EReal) (ix2 q k) = (V c main_arg7 : S6144x2048.Idx → EReal) (ix2 (Cert.Spec.gateRow 2 (colAt t.val ht q)) k) := by
  obtain ⟨-, -, -, -, e0, e1⟩ := l1_idx_wi t
  unfold iblk1
  rw [View.read_apply]
  show (V c main_arg7 : S6144x2048.Idx → EReal) _ = _
  congr 1
  funext a
  apply Fin.ext
  match a with
  | ⟨0, _⟩ => show win1_4.index t (0 : Fin 2) * 256 + 1 * q.val = 2 * 2048 + (256 * t.val + q.val); omega
  | ⟨1, _⟩ => show win1_4.index t (1 : Fin 2) * 2048 + 1 * k.val = k.val; omega

theorem l1_iblk5 (c : Dev nD) (t : Fin cfg1.N) (ht : t.val < 8) (q : Fin 256) (k : Fin 2048) :
    (iblk1 V c 5 t : S256x2048.Idx → EReal) (ix2 q k) = (V c main_arg8 : S6144x2048.Idx → EReal) (ix2 (Cert.Spec.gateRow 0 (colAt t.val ht q)) k) := by
  obtain ⟨e0, e1, -⟩ := l1_idx_wh t
  unfold iblk1
  rw [View.read_apply]
  show (V c main_arg8 : S6144x2048.Idx → EReal) _ = _
  congr 1
  funext a
  apply Fin.ext
  match a with
  | ⟨0, _⟩ => show win1_5.index t (0 : Fin 2) * 256 + 1 * q.val = 0 * 2048 + (256 * t.val + q.val); omega
  | ⟨1, _⟩ => show win1_5.index t (1 : Fin 2) * 2048 + 1 * k.val = k.val; omega

theorem l1_iblk6 (c : Dev nD) (t : Fin cfg1.N) (ht : t.val < 8) (q : Fin 256) (k : Fin 2048) :
    (iblk1 V c 6 t : S256x2048.Idx → EReal) (ix2 q k) = (V c main_arg8 : S6144x2048.Idx → EReal) (ix2 (Cert.Spec.gateRow 1 (colAt t.val ht q)) k) := by
  obtain ⟨-, -, e0, e1, -⟩ := l1_idx_wh t
  unfold iblk1
  rw [View.read_apply]
  show (V c main_arg8 : S6144x2048.Idx → EReal) _ = _
  congr 1
  funext a
  apply Fin.ext
  match a with
  | ⟨0, _⟩ => show win1_6.index t (0 : Fin 2) * 256 + 1 * q.val = 1 * 2048 + (256 * t.val + q.val); omega
  | ⟨1, _⟩ => show win1_6.index t (1 : Fin 2) * 2048 + 1 * k.val = k.val; omega

theorem l1_iblk7 (c : Dev nD) (t : Fin cfg1.N) (ht : t.val < 8) (q : Fin 256) (k : Fin 2048) :
    (iblk1 V c 7 t : S256x2048.Idx → EReal) (ix2 q k) = (V c main_arg8 : S6144x2048.Idx → EReal) (ix2 (Cert.Spec.gateRow 2 (colAt t.val ht q)) k) := by
  obtain ⟨-, -, -, -, e0, e1⟩ := l1_idx_wh t
  unfold iblk1
  rw [View.read_apply]
  show (V c main_arg8 : S6144x2048.Idx → EReal) _ = _
  congr 1
  funext a
  apply Fin.ext
  match a with
  | ⟨0, _⟩ => show win1_7.index t (0 : Fin 2) * 256 + 1 * q.val = 2 * 2048 + (256 * t.val + q.val); omega
  | ⟨1, _⟩ => show win1_7.index t (1 : Fin 2) * 2048 + 1 * k.val = k.val; omega

/-- Gate `g`'s bias block at point `t`: entries `g * 2048 + 256 t + q` of the stacked biases. -/
theorem l1_iblk8 (c : Dev nD) (t : Fin cfg1.N) (ht : t.val < 8) (p : Fin 1) (q : Fin 256) :
    (iblk1 V c 8 t : S1x256.Idx → EReal) (ix2 p q) = (V c main_v13 : S1x6144.Idx → EReal) (ix2 (0 : Fin 1) (Cert.Spec.gateRow 0 (colAt t.val ht q))) := by
  obtain ⟨e0, e1, -⟩ := l1_idx_bi t
  unfold iblk1
  rw [View.read_apply]
  show (V c main_v13 : S1x6144.Idx → EReal) _ = _
  congr 1
  funext a
  apply Fin.ext
  match a with
  | ⟨0, _⟩ => show win1_8.index t (0 : Fin 2) * 1 + 1 * p.val = 0; omega
  | ⟨1, _⟩ => show win1_8.index t (1 : Fin 2) * 256 + 1 * q.val = 0 * 2048 + (256 * t.val + q.val); omega

theorem l1_iblk9 (c : Dev nD) (t : Fin cfg1.N) (ht : t.val < 8) (p : Fin 1) (q : Fin 256) :
    (iblk1 V c 9 t : S1x256.Idx → EReal) (ix2 p q) = (V c main_v13 : S1x6144.Idx → EReal) (ix2 (0 : Fin 1) (Cert.Spec.gateRow 1 (colAt t.val ht q))) := by
  obtain ⟨-, -, e0, e1, -⟩ := l1_idx_bi t
  unfold iblk1
  rw [View.read_apply]
  show (V c main_v13 : S1x6144.Idx → EReal) _ = _
  congr 1
  funext a
  apply Fin.ext
  match a with
  | ⟨0, _⟩ => show win1_9.index t (0 : Fin 2) * 1 + 1 * p.val = 0; omega
  | ⟨1, _⟩ => show win1_9.index t (1 : Fin 2) * 256 + 1 * q.val = 1 * 2048 + (256 * t.val + q.val); omega

theorem l1_iblk10 (c : Dev nD) (t : Fin cfg1.N) (ht : t.val < 8) (p : Fin 1) (q : Fin 256) :
    (iblk1 V c 10 t : S1x256.Idx → EReal) (ix2 p q) = (V c main_v13 : S1x6144.Idx → EReal) (ix2 (0 : Fin 1) (Cert.Spec.gateRow 2 (colAt t.val ht q))) := by
  obtain ⟨-, -, -, -, e0, e1⟩ := l1_idx_bi t
  unfold iblk1
  rw [View.read_apply]
  show (V c main_v13 : S1x6144.Idx → EReal) _ = _
  congr 1
  funext a
  apply Fin.ext
  match a with
  | ⟨0, _⟩ => show win1_10.index t (0 : Fin 2) * 1 + 1 * p.val = 0; omega
  | ⟨1, _⟩ => show win1_10.index t (1 : Fin 2) * 256 + 1 * q.val = 2 * 2048 + (256 * t.val + q.val); omega

theorem l1_iblk11 (c : Dev nD) (t : Fin cfg1.N) (ht : t.val < 8) (p : Fin 1) (q : Fin 256) :
    (iblk1 V c 11 t : S1x256.Idx → EReal) (ix2 p q) = (V c main_v14 : S1x6144.Idx → EReal) (ix2 (0 : Fin 1) (Cert.Spec.gateRow 0 (colAt t.val ht q))) := by
  obtain ⟨e0, e1, -⟩ := l1_idx_bh t
  unfold iblk1
  rw [View.read_apply]
  show (V c main_v14 : S1x6144.Idx → EReal) _ = _
  congr 1
  funext a
  apply Fin.ext
  match a with
  | ⟨0, _⟩ => show win1_11.index t (0 : Fin 2) * 1 + 1 * p.val = 0; omega
  | ⟨1, _⟩ => show win1_11.index t (1 : Fin 2) * 256 + 1 * q.val = 0 * 2048 + (256 * t.val + q.val); omega

theorem l1_iblk12 (c : Dev nD) (t : Fin cfg1.N) (ht : t.val < 8) (p : Fin 1) (q : Fin 256) :
    (iblk1 V c 12 t : S1x256.Idx → EReal) (ix2 p q) = (V c main_v14 : S1x6144.Idx → EReal) (ix2 (0 : Fin 1) (Cert.Spec.gateRow 1 (colAt t.val ht q))) := by
  obtain ⟨-, -, e0, e1, -⟩ := l1_idx_bh t
  unfold iblk1
  rw [View.read_apply]
  show (V c main_v14 : S1x6144.Idx → EReal) _ = _
  congr 1
  funext a
  apply Fin.ext
  match a with
  | ⟨0, _⟩ => show win1_12.index t (0 : Fin 2) * 1 + 1 * p.val = 0; omega
  | ⟨1, _⟩ => show win1_12.index t (1 : Fin 2) * 256 + 1 * q.val = 1 * 2048 + (256 * t.val + q.val); omega

theorem l1_iblk13 (c : Dev nD) (t : Fin cfg1.N) (ht : t.val < 8) (p : Fin 1) (q : Fin 256) :
    (iblk1 V c 13 t : S1x256.Idx → EReal) (ix2 p q) = (V c main_v14 : S1x6144.Idx → EReal) (ix2 (0 : Fin 1) (Cert.Spec.gateRow 2 (colAt t.val ht q))) := by
  obtain ⟨-, -, -, -, e0, e1⟩ := l1_idx_bh t
  unfold iblk1
  rw [View.read_apply]
  show (V c main_v14 : S1x6144.Idx → EReal) _ = _
  congr 1
  funext a
  apply Fin.ext
  match a with
  | ⟨0, _⟩ => show win1_13.index t (0 : Fin 2) * 1 + 1 * p.val = 0; omega
  | ⟨1, _⟩ => show win1_13.index t (1 : Fin 2) * 256 + 1 * q.val = 2 * 2048 + (256 * t.val + q.val); omega

/-! ## From the blocks to the array -/

/-- WHAT POINT `t` WRITES BACK is its block of the layer's new hidden row, computed from the arrays the call finds. -/
theorem l1_flushed (c : Dev nD) (t : Fin cfg1.N) :
    (dat1 (F := Ideal) V c).flushed 14 t = ((cfg1.win 14).blk t).view.read (Elt Ideal)
      (Cert.Spec.layer1 (V c main_v16) (V c main_v10) (V c main_arg7) (V c main_arg8)
      (fun i => V c main_v13 (ix2 (0 : Fin 1) (i 0))) (fun i => V c main_v14 (ix2 (0 : Fin 1) (i 0)))) := by
  have hN : cfg1.N = 8 := N_1
  have ht : t.val < 8 := by have := t.isLt; omega
  obtain ⟨e0, e1, eg⟩ := l1_idx_out t
  show (cfg1.win 14).cut (grid1.coords t) ((dat1 (F := Ideal) V c).after 14 t) = _
  dsimp only [dat1]
  funext j
  obtain ⟨p, q, rfl⟩ : ∃ (p : Fin 1) (q : Fin 256), j = ix2 p q := ⟨j 0, j 1, eq_ix2 j⟩
  rw [View.read_apply]
  show (out1_14 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) : S1x256.Idx → EReal) (ix2 p q) = _
  show _ = Cert.Spec.layer1 (V c main_v16) (V c main_v10) (V c main_arg7) (V c main_arg8)
      (fun i => V c main_v13 (ix2 (0 : Fin 1) (i 0))) (fun i => V c main_v14 (ix2 (0 : Fin 1) (i 0))) _
  refine (l1_block_apply (grid1.coords t) t.val ht eg _ _ _ _ _ _ _ _ _ _ _ _ _ _
    (V c main_v16) (V c main_v10) (V c main_arg7) (V c main_arg8)
    (fun i => V c main_v13 (ix2 (0 : Fin 1) (i 0))) (fun i => V c main_v14 (ix2 (0 : Fin 1) (i 0)))
    (l1_iblk0 V c t) (l1_iblk1 V c t) (l1_iblk2 V c t ht) (l1_iblk3 V c t ht) (l1_iblk4 V c t ht)
    (l1_iblk5 V c t ht) (l1_iblk6 V c t ht) (l1_iblk7 V c t ht) (l1_iblk8 V c t ht) (l1_iblk9 V c t ht)
    (l1_iblk10 V c t ht) (l1_iblk11 V c t ht) (l1_iblk12 V c t ht) (l1_iblk13 V c t ht) p q).trans (congrArg _ ?_)
  funext a
  apply Fin.ext
  match a with
  | ⟨0, _⟩ => show 0 = win1_14.index t (0 : Fin 2) * 1 + 1 * p.val; omega
  | ⟨1, _⟩ => show 256 * t.val + q.val = win1_14.index t (1 : Fin 2) * 256 + 1 * q.val; omega

/-- An index of the output row is in point `t`'s block iff each coordinate is in the block's range on its axis. -/
theorem l1_mem_blk (t : Fin cfg1.N) (i : S1x2048.Idx) :
    i ∈ ((cfg1.win 14).blk t).view.set ↔ ∀ a : Fin 2, win1_14.index t a * S1x256.size a ≤ (i a).val ∧ (i a).val < win1_14.index t a * S1x256.size a + S1x256.size a := by
  show i ∈ ((View.whole main_v17).slice (win1_14.rect t)).set ↔ _
  rw [View.set_slice_whole, Rect.mem_set_unit]
  exact Iff.rfl

/-- THE LAYER'S OUTPUT ARRAY after the call: the new hidden row of the arrays the call finds. The point covering column `q`
    is `q / 256`. -/
theorem arr1_final (c : Dev nD) :
    ((dat1 (F := Ideal) V c).arrAt 14 cfg1.N : S1x2048.Idx → EReal)
      = Cert.Spec.layer1 (V c main_v16) (V c main_v10) (V c main_arg7) (V c main_arg8)
      (fun i => V c main_v13 (ix2 (0 : Fin 1) (i 0))) (fun i => V c main_v14 (ix2 (0 : Fin 1) (i 0))) :=
  (dat1 (F := Ideal) V c).arrAt_eq_of_cover 14 _ (fun t _ => l1_flushed V c t) fun i => by
    have hN : cfg1.N = 8 := N_1
    have h0 : (i 0).val < 1 := (i 0).isLt
    have h1 : (i 1).val < 2048 := (i 1).isLt
    obtain ⟨t, ht⟩ : ∃ t : Fin cfg1.N, t.val = (i 1).val / 256 := ⟨⟨(i 1).val / 256, by omega⟩, rfl⟩
    refine ⟨t, flush1_14 t, ?_⟩
    obtain ⟨e0, e1, -⟩ := l1_idx_out t
    rw [l1_mem_blk]
    intro a
    match a with
    | ⟨0, _⟩ => show win1_14.index t (0 : Fin 2) * 1 ≤ (i 0).val ∧ (i 0).val < win1_14.index t (0 : Fin 2) * 1 + 1; omega
    | ⟨1, _⟩ => show win1_14.index t (1 : Fin 2) * 256 ≤ (i 1).val ∧ (i 1).val < win1_14.index t (1 : Fin 2) * 256 + 256; omega

end

end Cert.KernelIdeal.CellValue

end
-- ==== Proof.KI.Cell2.lean ====
import proofs.«106570_j81046032876009_1_alg».proof.Proof.KI.CellCommon
import proofs.«106570_j81046032876009_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The decoder call's output array

The decoder has one grid point and whole-array blocks. Its body stores, over the whole output block, the product of the
row `[1, 2048]` with the weight `[100, 2048]` contracted on the second axis of both, plus the bias row. Read at an index
`(p, q)` that is `(∑ k, h k * W q k) + b q`: the read-out of the specification.
-/

noncomputable section

open scoped BigOperators

namespace Cert.KernelIdeal.CellValue

open Cert.KernelIdeal Cert.KernelIdeal.Gen Idealize.ShloMosaic Idealize.ShloMosaic.TcCoe Idealize.SL.Sem
open Idealize.ShloMosaic.ValueIdx
open Idealize.ShloMosaic.Pipeline (Dat)

/-- The read-out's product: row [1, 2048] against the weight [100, 2048], both contracted on their second axis. -/
abbrev dotDec : DotDims S1x2048 S100x2048 S1x100 := dot_S1x2048_S100x2048_S1x100_1_1_0_0_n_n

theorem dotDec_lhs0 (i : S1x100.Idx) (q : dotDec.contr.Idx) : (dotDec.lhsIdx i q 0).val = (i 0).val := by
  unfold DotDims.lhsIdx
  rw [dif_neg (show ¬(0 : Fin S1x2048.rank) ∈ dotDec.lhsBatch by decide), dif_pos (show (0 : Fin S1x2048.rank) ∈ dotDec.lhsNonContracting by decide)]
  rfl
theorem dotDec_lhs1 (i : S1x100.Idx) (q : dotDec.contr.Idx) : (dotDec.lhsIdx i q 1).val = (q ⟨0, by decide⟩).val :=
  dotDec.lhsIdx_val_of_single rfl i q
theorem dotDec_rhs0 (i : S1x100.Idx) (q : dotDec.contr.Idx) : (dotDec.rhsIdx i q 0).val = (i 1).val := by
  unfold DotDims.rhsIdx
  rw [dif_neg (show ¬(0 : Fin S100x2048.rank) ∈ dotDec.rhsBatch by decide), dif_pos (show (0 : Fin S100x2048.rank) ∈ dotDec.rhsNonContracting by decide)]
  rfl
theorem dotDec_rhs1 (i : S1x100.Idx) (q : dotDec.contr.Idx) : (dotDec.rhsIdx i q 1).val = (q ⟨0, by decide⟩).val :=
  dotDec.rhsIdx_val_of_single rfl i q

/-- The decoder's payload at an index: the row against row `q` of the weight, plus the bias. -/
theorem dec_pay_apply (x0 : Vec Ideal S1x2048 .f32) (x1 : Vec Ideal S100x2048 .f32) (x2 : Vec Ideal S1x100 .f32) (p : Fin 1) (q : Fin 100) :
    (k2_pay1 x0 x1 x2 : S1x100.Idx → EReal) (ix2 p q)
      = (∑ k : Fin 2048, (x0 : S1x2048.Idx → EReal) (ix2 (0 : Fin 1) k) * (x1 : S100x2048.Idx → EReal) (ix2 q k)) + (x2 : S1x100.Idx → EReal) (ix2 p q) := by
  unfold k2_pay1
  simp only [shapeCast_self]
  rw [addf_apply]
  congr 1
  refine (Ideal.matmul_constant_zero_apply dotDec none _ _ (ix2 p q)).trans ?_
  rw [← Equiv.sum_comp (contrEquiv1 dotDec 2048 rfl rfl).symm]
  refine Finset.sum_congr rfl fun k _ => ?_
  have hk := contrEquiv1_symm_val dotDec 2048 rfl rfl k
  rw [truncf_apply, truncf_apply]
  have el : dotDec.lhsIdx (ix2 p q) ((contrEquiv1 dotDec 2048 rfl rfl).symm k) = ix2 (0 : Fin 1) k := funext fun a => Fin.ext (by
    match a with
    | ⟨0, _⟩ => exact (dotDec_lhs0 _ _).trans (by show p.val = 0; omega)
    | ⟨1, _⟩ => exact (dotDec_lhs1 _ _).trans hk)
  have er : dotDec.rhsIdx (ix2 p q) ((contrEquiv1 dotDec 2048 rfl rfl).symm k) = ix2 q k := funext fun a => Fin.ext (by
    match a with
    | ⟨0, _⟩ => exact dotDec_rhs0 _ _
    | ⟨1, _⟩ => exact (dotDec_rhs1 _ _).trans hk)
  rw [el, er]

/-- The decoder's one store covers its whole output block: the block holds the payload. -/
theorem out2_3_eq (x0 : Vec Ideal S1x2048 .f32) (x1 : Vec Ideal S100x2048 .f32) (x2 : Vec Ideal S1x100 .f32) :
    out2_3 x0 x1 x2 = k2_pay1 x0 x1 x2 := by
  unfold out2_3
  rw [View.canon_unit_zero zero_off2]
  simp only [View.ld_unit_zero (S := S1x2048) zero_off2, View.ld_unit_zero (S := S100x2048) zero_off2,
    View.ld_unit_zero (S := S1x100) zero_off2]

/-- The decoder's output block at an index, when its three input blocks are the row, the weight and the bias row. -/
theorem dec_block_apply (x0 : Vec Ideal S1x2048 .f32) (x1 : Vec Ideal S100x2048 .f32) (x2 : Vec Ideal S1x100 .f32)
    (h : Cert.Spec.Row2048.Idx → EReal) (W : Cert.Spec.Mat100x2048.Idx → EReal) (b : Cert.Spec.Vec100.Idx → EReal)
    (h0 : ∀ k : Fin 2048, (x0 : S1x2048.Idx → EReal) (ix2 (0 : Fin 1) k) = h (ix2 (0 : Fin 1) k))
    (h1 : ∀ (q : Fin 100) (k : Fin 2048), (x1 : S100x2048.Idx → EReal) (ix2 q k) = W (ix2 q k))
    (h2 : ∀ (p : Fin 1) (q : Fin 100), (x2 : S1x100.Idx → EReal) (ix2 p q) = b (ix1 q))
    (p : Fin 1) (q : Fin 100) :
    (out2_3 x0 x1 x2 : S1x100.Idx → EReal) (ix2 p q) = Cert.Spec.readout h W b (ix2 p q) := by
  rw [out2_3_eq, dec_pay_apply]
  unfold Cert.Spec.readout
  rw [h2]
  congr 1
  exact Finset.sum_congr rfl fun k _ => by rw [h0, h1]

/-- The decoder's index maps, decided at its one point: every window sits at block (0, 0). -/
theorem dec_idx : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

section
variable (V : (c : Dev nD) → (b : Ref sig .tc) → Buf (Elt Ideal) ((c : Thread nD τ).loc b))

/-- The row's block at the decoder's point is the row. -/
theorem dec_iblk0 (c : Dev nD) (t : Fin cfg2.N) (k : Fin 2048) :
    (iblk2 V c 0 t : S1x2048.Idx → EReal) (ix2 (0 : Fin 1) k) = (V c main_v17 : S1x2048.Idx → EReal) (ix2 (0 : Fin 1) k) := by
  obtain ⟨e0, e1, -⟩ := dec_idx t
  unfold iblk2
  rw [View.read_apply]
  show (V c main_v17 : S1x2048.Idx → EReal) _ = _
  congr 1
  funext a
  apply Fin.ext
  match a with
  | ⟨0, _⟩ => show win2_0.index t (0 : Fin 2) * 1 + 1 * 0 = 0; omega
  | ⟨1, _⟩ => show win2_0.index t (1 : Fin 2) * 2048 + 1 * k.val = k.val; omega

end

section
variable (V : (c : Dev nD) → (b : Ref sig .tc) → Buf (Elt Ideal) ((c : Thread nD τ).loc b))

/-- The weight's block at the decoder's point is the weight. -/
theorem dec_iblk1 (c : Dev nD) (t : Fin cfg2.N) (q : Fin 100) (k : Fin 2048) :
    (iblk2 V c 1 t : S100x2048.Idx → EReal) (ix2 q k) = (V c main_arg11 : S100x2048.Idx → EReal) (ix2 q k) := by
  obtain ⟨-, -, e0, e1, -⟩ := dec_idx t
  unfold iblk2
  rw [View.read_apply]
  show (V c main_arg11 : S100x2048.Idx → EReal) _ = _
  congr 1
  funext a
  apply Fin.ext
  match a with
  | ⟨0, _⟩ => show win2_1.index t (0 : Fin 2) * 100 + 1 * q.val = q.val; omega
  | ⟨1, _⟩ => show win2_1.index t (1 : Fin 2) * 2048 + 1 * k.val = k.val; omega

/-- The bias row's block at the decoder's point is the bias row. -/
theorem dec_iblk2 (c : Dev nD) (t : Fin cfg2.N) (p : Fin 1) (q : Fin 100) :
    (iblk2 V c 2 t : S1x100.Idx → EReal) (ix2 p q) = (V c main_v15 : S1x100.Idx → EReal) (ix2 (0 : Fin 1) q) := by
  obtain ⟨-, -, -, -, e0, e1, -⟩ := dec_idx t
  unfold iblk2
  rw [View.read_apply]
  show (V c main_v15 : S1x100.Idx → EReal) _ = _
  congr 1
  funext a
  apply Fin.ext
  match a with
  | ⟨0, _⟩ => show win2_2.index t (0 : Fin 2) * 1 + 1 * p.val = 0; omega
  | ⟨1, _⟩ => show win2_2.index t (1 : Fin 2) * 100 + 1 * q.val = q.val; omega

/-- What the decoder's point writes back is its block of the read-out of the arrays the call finds. -/
theorem dec_flushed (c : Dev nD) (t : Fin cfg2.N) :
    (dat2 (F := Ideal) V c).flushed 3 t = ((cfg2.win 3).blk t).view.read (Elt Ideal)
      (Cert.Spec.readout (V c main_v17) (V c main_arg11) (fun i => V c main_v15 (ix2 (0 : Fin 1) (i 0)))) := by
  obtain ⟨-, -, -, -, -, -, e0, e1⟩ := dec_idx t
  show (cfg2.win 3).cut (grid2.coords t) ((dat2 (F := Ideal) V c).after 3 t) = _
  dsimp only [dat2]
  funext j
  obtain ⟨p, q, rfl⟩ : ∃ (p : Fin 1) (q : Fin 100), j = ix2 p q := ⟨j 0, j 1, eq_ix2 j⟩
  rw [View.read_apply]
  show (out2_3 (iblk2 V c 0 t) (iblk2 V c 1 t) (iblk2 V c 2 t) : S1x100.Idx → EReal) (ix2 p q) = _
  show _ = Cert.Spec.readout (V c main_v17) (V c main_arg11) (fun i => V c main_v15 (ix2 (0 : Fin 1) (i 0))) _
  refine (dec_block_apply _ _ _ (V c main_v17) (V c main_arg11) (fun i => V c main_v15 (ix2 (0 : Fin 1) (i 0)))
    (dec_iblk0 V c t) (dec_iblk1 V c t) (dec_iblk2 V c t) p q).trans (congrArg _ ?_)
  funext a
  apply Fin.ext
  match a with
  | ⟨0, _⟩ => show p.val = win2_3.index t (0 : Fin 2) * 1 + 1 * p.val; omega
  | ⟨1, _⟩ => show q.val = win2_3.index t (1 : Fin 2) * 100 + 1 * q.val; omega

/-- THE DECODER'S OUTPUT ARRAY after the call: the read-out of the arrays the call finds. -/
theorem arr2_final (c : Dev nD) :
    ((dat2 (F := Ideal) V c).arrAt 3 cfg2.N : S1x100.Idx → EReal)
      = Cert.Spec.readout (V c main_v17) (V c main_arg11) (fun i => V c main_v15 (ix2 (0 : Fin 1) (i 0))) :=
  (dat2 (F := Ideal) V c).arrAt_eq_of_cover 3 _ (fun t _ => dec_flushed V c t) fun i =>
    ⟨t2_0, flush2_3 t2_0, by
      obtain ⟨-, -, -, -, -, -, e0, e1⟩ := dec_idx t2_0
      show i ∈ ((View.whole main_v18).slice (win2_3.rect t2_0)).set
      rw [View.set_slice_whole, Rect.mem_set_unit]
      intro a
      have h0 : (i 0 : Nat) < 1 := (i 0).isLt
      have h1 : (i 1 : Nat) < 100 := (i 1).isLt
      match a with
      | ⟨0, _⟩ => show win2_3.index t2_0 (0 : Fin 2) * 1 ≤ (i 0 : Nat) ∧ (i 0 : Nat) < win2_3.index t2_0 (0 : Fin 2) * 1 + 1; omega
      | ⟨1, _⟩ => show win2_3.index t2_0 (1 : Fin 2) * 100 ≤ (i 1 : Nat) ∧ (i 1 : Nat) < win2_3.index t2_0 (1 : Fin 2) * 100 + 100; omega⟩

end

end Cert.KernelIdeal.CellValue

end
-- ==== Proof.KI.KernelValue.lean ====
import proofs.«106570_j81046032876009_1_alg».proof.Proof.KI.Vals
import proofs.«106570_j81046032876009_1_alg».proof.Proof.KI.Cell0
import proofs.«106570_j81046032876009_1_alg».proof.Proof.KI.Cell1
import proofs.«106570_j81046032876009_1_alg».proof.Proof.KI.Cell2
import proofs.«106570_j81046032876009_1_alg».proof.Proof.KI.HostReads

/-!
# The kernel's two results as the specification of its arguments

The three calls' output arrays are the specification's layer functions and read-out of the arrays each call finds. What
each call finds is what the first host stretch prepared from the arguments (the token's row, the two previous hidden
rows, the biases as rows), the weights untouched, and the earlier calls' outputs. Chaining these gives the new first-layer
row, the new second-layer row and the read-out as functions of the arguments alone; the last host stretch gives the
read-out two unit axes and stacks the two new rows.
-/

noncomputable section

namespace Cert.KernelIdeal.CellValue

open Cert.KernelIdeal Cert.KernelIdeal.Gen Idealize.ShloMosaic Idealize.ShloMosaic.TcCoe Idealize.SL.Sem
open Idealize.ShloMosaic.ValueIdx

section Rows
variable {F : FTy → Type} [FloatOps F]

/-- The token's row of the embedding table `a2`: the table gathered at the token index `a0`, the index first wrapped by the
    table's 100 rows when it is negative. -/
def xrowK (a0 : (⟨S1, .i32⟩ : BufTy).Contents (Elt F)) (a2 : (⟨S100x6, .f32⟩ : BufTy).Contents (Elt F)) :
    (⟨S1x6, .f32⟩ : BufTy).Contents (Elt F) :=
  Host.gather gather_S100x6_S1x1_S1x6_1_0_n_n_0_1_16 a2
    (broadcastInDim S1x1 ![0] bcast_S1_S1x1_0
      (select (cmpi .slt a0 (broadcastInDim S1 ![] bcast_S_S1 (constantI S_ 32 0#32)))
        (addi a0 (broadcastInDim S1 ![] bcast_S_S1 (constantI S_ 32 100#32))) a0))

/-- Layer 0's previous hidden row: slab 0 of the stacked state `a1`, as a row. -/
def hrow0K (a1 : (⟨S2x1x2048, .f32⟩ : BufTy).Contents (Elt F)) : (⟨S1x2048, .f32⟩ : BufTy).Contents (Elt F) :=
  shapeCast S1x2048 (extractStridedSlice S1x1x2048 ![0, 0, 0] a1 slices_S2x1x2048_S1x1x2048_0_0_0) shapeCasts_S1x1x2048_S1x2048

/-- Layer 1's previous hidden row: slab 1 of the stacked state `a1`, as a row. -/
def hrow1K (a1 : (⟨S2x1x2048, .f32⟩ : BufTy).Contents (Elt F)) : (⟨S1x2048, .f32⟩ : BufTy).Contents (Elt F) :=
  shapeCast S1x2048 (extractStridedSlice S1x1x2048 ![1, 0, 0] a1 slices_S2x1x2048_S1x1x2048_1_0_0) shapeCasts_S1x1x2048_S1x2048

/-- A row of length 100 with two unit axes in front. -/
def outK (r : (⟨S1x100, .f32⟩ : BufTy).Contents (Elt F)) : (⟨S1x1x100, .f32⟩ : BufTy).Contents (Elt F) :=
  broadcastInDim S1x1x100 ![1, 2] bcast_S1x100_S1x1x100_1_2 r

/-- The two new hidden rows, each given a unit axis, one above the other. -/
def stackK (h0 h1 : (⟨S1x2048, .f32⟩ : BufTy).Contents (Elt F)) : (⟨S2x1x2048, .f32⟩ : BufTy).Contents (Elt F) :=
  concatenate S2x1x2048 0 [⟨S1x1x2048, broadcastInDim S1x1x2048 ![1, 2] bcast_S1x2048_S1x1x2048_1_2 h0⟩,
    ⟨S1x1x2048, broadcastInDim S1x1x2048 ![1, 2] bcast_S1x2048_S1x1x2048_1_2 h1⟩]
    concatenates_S1x1x2048_S1x1x2048_S2x1x2048_d0

end Rows

/-! ## The specification's functions respect equality of their arguments -/

theorem layer0_congr {x x' : Cert.Spec.Row6.Idx → EReal} {h h' : Cert.Spec.Row2048.Idx → EReal}
    {Wi Wi' : Cert.Spec.Mat6144x6.Idx → EReal} {Wh Wh' : Cert.Spec.Mat6144x2048.Idx → EReal} {bi bi' bh bh' : Cert.Spec.Vec6144.Idx → EReal}
    (ex : x = x') (eh : h = h') (ei : Wi = Wi') (eh' : Wh = Wh') (ebi : bi = bi') (ebh : bh = bh') :
    Cert.Spec.layer0 x h Wi Wh bi bh = Cert.Spec.layer0 x' h' Wi' Wh' bi' bh' := by
  subst ex eh ei eh' ebi ebh; rfl

theorem layer1_congr {x x' h h' : Cert.Spec.Row2048.Idx → EReal}
    {Wi Wi' Wh Wh' : Cert.Spec.Mat6144x2048.Idx → EReal} {bi bi' bh bh' : Cert.Spec.Vec6144.Idx → EReal}
    (ex : x = x') (eh : h = h') (ei : Wi = Wi') (eh' : Wh = Wh') (ebi : bi = bi') (ebh : bh = bh') :
    Cert.Spec.layer1 x h Wi Wh bi bh = Cert.Spec.layer1 x' h' Wi' Wh' bi' bh' := by
  subst ex eh ei eh' ebi ebh; rfl

theorem readout_congr {h h' : Cert.Spec.Row2048.Idx → EReal} {W W' : Cert.Spec.Mat100x2048.Idx → EReal} {b b' : Cert.Spec.Vec100.Idx → EReal}
    (eh : h = h') (eW : W = W') (eb : b = b') : Cert.Spec.readout h W b = Cert.Spec.readout h' W' b' := by
  subst eh eW eb; rfl

/-- A bias reshaped to a row of length 6144, read back as the vector it was. -/
theorem bias_row (f : S1x6144.Idx → EReal) (b : S6144.Idx → EReal) (e : f = shapeCast S1x6144 b shapeCasts_S6144_S1x6144) :
    (fun i : Cert.Spec.Vec6144.Idx => f (ix2 (0 : Fin 1) (i 0))) = b := by
  funext i
  obtain ⟨q, rfl⟩ : ∃ q : Fin 6144, i = ix1 q := ⟨i 0, eq_ix1 i⟩
  exact (congrFun e (ix2 (0 : Fin 1) q)).trans (row6144_apply b q)

/-- The decoder bias reshaped to a row of length 100, read back as the vector it was. -/
theorem bias_row100 (f : S1x100.Idx → EReal) (b : S100.Idx → EReal) (e : f = shapeCast S1x100 b shapeCasts_S100_S1x100) :
    (fun i : Cert.Spec.Vec100.Idx => f (ix2 (0 : Fin 1) (i 0))) = b := by
  funext i
  obtain ⟨q, rfl⟩ : ∃ q : Fin 100, i = ix1 q := ⟨i 0, eq_ix1 i⟩
  exact (congrFun e (ix2 (0 : Fin 1) q)).trans (row100_apply b q)

section
variable (m : (ℓ : Loc nD τ sig) → Buf (Elt Ideal) ℓ)

/-- THE NEW FIRST-LAYER HIDDEN ROW as the specification of the arguments. -/
theorem hid0_eq (c : Dev nD) :
    (hid0 (F := Ideal) m c : S1x2048.Idx → EReal) = Cert.Spec.layer0 (xrowK (m ((c : Thread nD τ).loc main_arg0)) (m ((c : Thread nD τ).loc main_arg2))) (hrow0K (m ((c : Thread nD τ).loc main_arg1))) (m ((c : Thread nD τ).loc main_arg3)) (m ((c : Thread nD τ).loc main_arg4)) (m ((c : Thread nD τ).loc main_arg5)) (m ((c : Thread nD τ).loc main_arg6)) := by
  unfold hid0
  refine (arr0_final (T1 m) c).trans ?_
  have e6 : (T1 m c main_v6 : S1x6.Idx → EReal) = xrowK (m ((c : Thread nD τ).loc main_arg0)) (m ((c : Thread nD τ).loc main_arg2)) := host0_v6 (W0 m c)
  have e8 : (T1 m c main_v8 : S1x2048.Idx → EReal) = hrow0K (m ((c : Thread nD τ).loc main_arg1)) := host0_v8 (W0 m c)
  have e3 : (T1 m c main_arg3 : S6144x6.Idx → EReal) = (m ((c : Thread nD τ).loc main_arg3)) := host0_keep (W0 m c) main_arg3 (by decide)
  have e4 : (T1 m c main_arg4 : S6144x2048.Idx → EReal) = (m ((c : Thread nD τ).loc main_arg4)) := host0_keep (W0 m c) main_arg4 (by decide)
  have e11 := bias_row (T1 m c main_v11) (m ((c : Thread nD τ).loc main_arg5)) (host0_v11 (W0 m c))
  have e12 := bias_row (T1 m c main_v12) (m ((c : Thread nD τ).loc main_arg6)) (host0_v12 (W0 m c))
  exact layer0_congr e6 e8 e3 e4 e11 e12

/-- THE NEW SECOND-LAYER HIDDEN ROW as the specification of the arguments: its input row is the new first-layer row. -/
theorem hid1_eq (c : Dev nD) :
    (hid1 (F := Ideal) m c : S1x2048.Idx → EReal) = Cert.Spec.layer1 (Cert.Spec.layer0 (xrowK (m ((c : Thread nD τ).loc main_arg0)) (m ((c : Thread nD τ).loc main_arg2))) (hrow0K (m ((c : Thread nD τ).loc main_arg1))) (m ((c : Thread nD τ).loc main_arg3)) (m ((c : Thread nD τ).loc main_arg4)) (m ((c : Thread nD τ).loc main_arg5)) (m ((c : Thread nD τ).loc main_arg6))) (hrow1K (m ((c : Thread nD τ).loc main_arg1))) (m ((c : Thread nD τ).loc main_arg7)) (m ((c : Thread nD τ).loc main_arg8)) (m ((c : Thread nD τ).loc main_arg9)) (m ((c : Thread nD τ).loc main_arg10)) := by
  unfold hid1
  refine (arr1_final (T2 m) c).trans ?_
  have e16 : (T2 m c main_v16 : S1x2048.Idx → EReal) = Cert.Spec.layer0 (xrowK (m ((c : Thread nD τ).loc main_arg0)) (m ((c : Thread nD τ).loc main_arg2))) (hrow0K (m ((c : Thread nD τ).loc main_arg1))) (m ((c : Thread nD τ).loc main_arg3)) (m ((c : Thread nD τ).loc main_arg4)) (m ((c : Thread nD τ).loc main_arg5)) (m ((c : Thread nD τ).loc main_arg6)) := (W2_out m c).trans (hid0_eq m c)
  have e10 : (T2 m c main_v10 : S1x2048.Idx → EReal) = hrow1K (m ((c : Thread nD τ).loc main_arg1)) :=
    (W2_of_ne m c main_v10 (by decide)).trans (host0_v10 (W0 m c))
  have e7 : (T2 m c main_arg7 : S6144x2048.Idx → EReal) = (m ((c : Thread nD τ).loc main_arg7)) :=
    (W2_of_ne m c main_arg7 (by decide)).trans (host0_keep (W0 m c) main_arg7 (by decide))
  have e8 : (T2 m c main_arg8 : S6144x2048.Idx → EReal) = (m ((c : Thread nD τ).loc main_arg8)) :=
    (W2_of_ne m c main_arg8 (by decide)).trans (host0_keep (W0 m c) main_arg8 (by decide))
  have e13 := bias_row (T2 m c main_v13) (m ((c : Thread nD τ).loc main_arg9)) ((W2_of_ne m c main_v13 (by decide)).trans (host0_v13 (W0 m c)))
  have e14 := bias_row (T2 m c main_v14) (m ((c : Thread nD τ).loc main_arg10)) ((W2_of_ne m c main_v14 (by decide)).trans (host0_v14 (W0 m c)))
  exact layer1_congr e16 e10 e7 e8 e13 e14

/-- THE READ-OUT ROW as the specification of the arguments: the read-out of the new second-layer row. -/
theorem dec_eq (c : Dev nD) :
    (dec (F := Ideal) m c : S1x100.Idx → EReal) = Cert.Spec.readout (Cert.Spec.layer1 (Cert.Spec.layer0 (xrowK (m ((c : Thread nD τ).loc main_arg0)) (m ((c : Thread nD τ).loc main_arg2))) (hrow0K (m ((c : Thread nD τ).loc main_arg1))) (m ((c : Thread nD τ).loc main_arg3)) (m ((c : Thread nD τ).loc main_arg4)) (m ((c : Thread nD τ).loc main_arg5)) (m ((c : Thread nD τ).loc main_arg6))) (hrow1K (m ((c : Thread nD τ).loc main_arg1))) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) := by
  unfold dec
  refine (arr2_final (T3 m) c).trans ?_
  have e17 : (T3 m c main_v17 : S1x2048.Idx → EReal) = Cert.Spec.layer1 (Cert.Spec.layer0 (xrowK (m ((c : Thread nD τ).loc main_arg0)) (m ((c : Thread nD τ).loc main_arg2))) (hrow0K (m ((c : Thread nD τ).loc main_arg1))) (m ((c : Thread nD τ).loc main_arg3)) (m ((c : Thread nD τ).loc main_arg4)) (m ((c : Thread nD τ).loc main_arg5)) (m ((c : Thread nD τ).loc main_arg6))) (hrow1K (m ((c : Thread nD τ).loc main_arg1))) (m ((c : Thread nD τ).loc main_arg7)) (m ((c : Thread nD τ).loc main_arg8)) (m ((c : Thread nD τ).loc main_arg9)) (m ((c : Thread nD τ).loc main_arg10)) := (W3_out m c).trans (hid1_eq m c)
  have e11 : (T3 m c main_arg11 : S100x2048.Idx → EReal) = (m ((c : Thread nD τ).loc main_arg11)) :=
    ((W3_of_ne m c main_arg11 (by decide)).trans (W2_of_ne m c main_arg11 (by decide))).trans (host0_keep (W0 m c) main_arg11 (by decide))
  have e15 := bias_row100 (T3 m c main_v15) (m ((c : Thread nD τ).loc main_arg12))
    (((W3_of_ne m c main_v15 (by decide)).trans (W2_of_ne m c main_v15 (by decide))).trans (host0_v15 (W0 m c)))
  exact readout_congr e17 e11 e15

/-- THE FIRST RESULT: the read-out with two unit axes in front. -/
theorem out_eq (c : Dev nD) :
    (W5 (F := Ideal) m c (Proc.devRef .tc main_v19) : S1x1x100.Idx → EReal)
      = broadcastInDim S1x1x100 ![1, 2] bcast_S1x100_S1x1x100_1_2 (Cert.Spec.readout (Cert.Spec.layer1 (Cert.Spec.layer0 (xrowK (m ((c : Thread nD τ).loc main_arg0)) (m ((c : Thread nD τ).loc main_arg2))) (hrow0K (m ((c : Thread nD τ).loc main_arg1))) (m ((c : Thread nD τ).loc main_arg3)) (m ((c : Thread nD τ).loc main_arg4)) (m ((c : Thread nD τ).loc main_arg5)) (m ((c : Thread nD τ).loc main_arg6))) (hrow1K (m ((c : Thread nD τ).loc main_arg1))) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12))) :=
  have e19 : (W5 (F := Ideal) m c (Proc.devRef .tc main_v19) : S1x1x100.Idx → EReal) = outK (T4 m c main_v18) := host3_v19 (W4 m c)
  e19.trans (congrArg outK ((W4_out m c).trans (dec_eq m c)))

/-- THE SECOND RESULT: the two new hidden rows, each given a unit axis, one above the other. -/
theorem hidden_eq (c : Dev nD) :
    (W5 (F := Ideal) m c (Proc.devRef .tc main_v22) : S2x1x2048.Idx → EReal)
      = concatenate S2x1x2048 0 [⟨S1x1x2048, broadcastInDim S1x1x2048 ![1, 2] bcast_S1x2048_S1x1x2048_1_2 (Cert.Spec.layer0 (xrowK (m ((c : Thread nD τ).loc main_arg0)) (m ((c : Thread nD τ).loc main_arg2))) (hrow0K (m ((c : Thread nD τ).loc main_arg1))) (m ((c : Thread nD τ).loc main_arg3)) (m ((c : Thread nD τ).loc main_arg4)) (m ((c : Thread nD τ).loc main_arg5)) (m ((c : Thread nD τ).loc main_arg6)))⟩,
          ⟨S1x1x2048, broadcastInDim S1x1x2048 ![1, 2] bcast_S1x2048_S1x1x2048_1_2 (Cert.Spec.layer1 (Cert.Spec.layer0 (xrowK (m ((c : Thread nD τ).loc main_arg0)) (m ((c : Thread nD τ).loc main_arg2))) (hrow0K (m ((c : Thread nD τ).loc main_arg1))) (m ((c : Thread nD τ).loc main_arg3)) (m ((c : Thread nD τ).loc main_arg4)) (m ((c : Thread nD τ).loc main_arg5)) (m ((c : Thread nD τ).loc main_arg6))) (hrow1K (m ((c : Thread nD τ).loc main_arg1))) (m ((c : Thread nD τ).loc main_arg7)) (m ((c : Thread nD τ).loc main_arg8)) (m ((c : Thread nD τ).loc main_arg9)) (m ((c : Thread nD τ).loc main_arg10)))⟩]
          concatenates_S1x1x2048_S1x1x2048_S2x1x2048_d0 := by
  have e16 : (T4 m c main_v16 : S1x2048.Idx → EReal) = Cert.Spec.layer0 (xrowK (m ((c : Thread nD τ).loc main_arg0)) (m ((c : Thread nD τ).loc main_arg2))) (hrow0K (m ((c : Thread nD τ).loc main_arg1))) (m ((c : Thread nD τ).loc main_arg3)) (m ((c : Thread nD τ).loc main_arg4)) (m ((c : Thread nD τ).loc main_arg5)) (m ((c : Thread nD τ).loc main_arg6)) :=
    (((W4_of_ne m c main_v16 (by decide)).trans (W3_of_ne m c main_v16 (by decide))).trans (W2_out m c)).trans (hid0_eq m c)
  have e17 : (T4 m c main_v17 : S1x2048.Idx → EReal) = Cert.Spec.layer1 (Cert.Spec.layer0 (xrowK (m ((c : Thread nD τ).loc main_arg0)) (m ((c : Thread nD τ).loc main_arg2))) (hrow0K (m ((c : Thread nD τ).loc main_arg1))) (m ((c : Thread nD τ).loc main_arg3)) (m ((c : Thread nD τ).loc main_arg4)) (m ((c : Thread nD τ).loc main_arg5)) (m ((c : Thread nD τ).loc main_arg6))) (hrow1K (m ((c : Thread nD τ).loc main_arg1))) (m ((c : Thread nD τ).loc main_arg7)) (m ((c : Thread nD τ).loc main_arg8)) (m ((c : Thread nD τ).loc main_arg9)) (m ((c : Thread nD τ).loc main_arg10)) :=
    ((W4_of_ne m c main_v17 (by decide)).trans (W3_out m c)).trans (hid1_eq m c)
  have e22 : (W5 (F := Ideal) m c (Proc.devRef .tc main_v22) : S2x1x2048.Idx → EReal) = stackK (T4 m c main_v16) (T4 m c main_v17) :=
    host3_v22 (W4 m c)
  exact e22.trans (congrArg₂ stackK e16 e17)

end

end Cert.KernelIdeal.CellValue

end
-- ==== Proof.Ref.RefBase.lean ====
import proofs.«106570_j81046032876009_1_alg».proof.Proof.Gen.ReferenceIdeal.Read
import proofs.«106570_j81046032876009_1_alg».proof.Proof.Spec

/-!
# The reference program: the values both programs share before any arithmetic

The reference program first picks the embedding row of the (wrapped) token index and the two previous hidden rows out of
the stacked hidden state. These three rows are named here as terms of the argument arrays; the gather is never opened.
The float word of one is the real number one, so the quotient `1 / (1 + e⁻ˣ)` the program spells out is the logistic
function.
-/

noncomputable section

namespace Cert.ReferenceIdeal.RefValue

open Cert.ReferenceIdeal Cert.ReferenceIdeal.Gen Idealize.ShloMosaic Idealize.ShloMosaic.StableHlo
open Idealize.ShloMosaic.ValueIdx

/-- The embedding row of the token index, a negative index wrapped by the table's length first: a `[1, 6]` row. -/
def xrow (a0 : (⟨S1, .i32⟩ : BufTy).Contents (Elt Ideal)) (a2 : (⟨S100x6, .f32⟩ : BufTy).Contents (Elt Ideal)) :
    (⟨S1x6, .f32⟩ : BufTy).Contents (Elt Ideal) :=
  Host.gather gather_S100x6_S1x1_S1x6_1_0_n_n_0_1_16 a2
    (broadcastInDim S1x1 ![0] bcast_S1_S1x1_0
      (select (cmpi .slt a0 (broadcastInDim S1 ![] bcast_S_S1 (constantI S_ 32 0#32)))
        (addi a0 (broadcastInDim S1 ![] bcast_S_S1 (constantI S_ 32 100#32))) a0))

/-- The first layer's previous hidden row: slab 0 of the stacked hidden state, as a `[1, 2048]` row. -/
def hrow0 (a1 : (⟨S2x1x2048, .f32⟩ : BufTy).Contents (Elt Ideal)) : (⟨S1x2048, .f32⟩ : BufTy).Contents (Elt Ideal) :=
  shapeCast _ (extractStridedSlice S1x1x2048 ![0, 0, 0] a1 slices_S2x1x2048_S1x1x2048_0_0_0) shapeCasts_S1x1x2048_S1x2048

/-- The second layer's previous hidden row: slab 1 of the stacked hidden state, as a `[1, 2048]` row. -/
def hrow1 (a1 : (⟨S2x1x2048, .f32⟩ : BufTy).Contents (Elt Ideal)) : (⟨S1x2048, .f32⟩ : BufTy).Contents (Elt Ideal) :=
  shapeCast _ (extractStridedSlice S1x1x2048 ![1, 0, 0] a1 slices_S2x1x2048_S1x1x2048_1_0_0) shapeCasts_S1x1x2048_S1x2048

theorem xrow_eq (a0 : (⟨S1, .i32⟩ : BufTy).Contents (Elt Ideal)) (a2 : (⟨S100x6, .f32⟩ : BufTy).Contents (Elt Ideal)) :
    Read.val_main_v6 (F := Ideal) a0 a2 = xrow a0 a2 := rfl

theorem hrow0_eq (a1 : (⟨S2x1x2048, .f32⟩ : BufTy).Contents (Elt Ideal)) :
    Read.val_main_v8 (F := Ideal) a1 = hrow0 a1 := rfl

theorem hrow1_eq (a1 : (⟨S2x1x2048, .f32⟩ : BufTy).Contents (Elt Ideal)) :
    Read.val_main_v46 (F := Ideal) a1 = hrow1 a1 := rfl

/-- Entry `j` of the first layer's previous hidden row is entry `(0, 0, j)` of the stacked state. -/
theorem hrow0_apply (a1 : (⟨S2x1x2048, .f32⟩ : BufTy).Contents (Elt Ideal)) (j : Fin 2048) :
    hrow0 a1 (ix2 (0 : Fin 1) j) = a1 (ix3 (0 : Fin 2) (0 : Fin 1) j) := by
  rw [← hrow0_eq, Read.val_main_v8_apply, Read.val_main_v7_apply]
  congr 1
  funext a
  match a with
  | ⟨0, _⟩ => rfl
  | ⟨1, _⟩ => rfl
  | ⟨2, _⟩ => exact Fin.ext (show (0 * 2048 + j.val) % 2048 = j.val by have := j.isLt; omega)

/-- Entry `j` of the second layer's previous hidden row is entry `(1, 0, j)` of the stacked state. -/
theorem hrow1_apply (a1 : (⟨S2x1x2048, .f32⟩ : BufTy).Contents (Elt Ideal)) (j : Fin 2048) :
    hrow1 a1 (ix2 (0 : Fin 1) j) = a1 (ix3 (1 : Fin 2) (0 : Fin 1) j) := by
  rw [← hrow1_eq, Read.val_main_v46_apply, Read.val_main_v45_apply]
  congr 1
  funext a
  match a with
  | ⟨0, _⟩ => rfl
  | ⟨1, _⟩ => rfl
  | ⟨2, _⟩ => exact Fin.ext (show (0 * 2048 + j.val) % 2048 = j.val by have := j.isLt; omega)

/-- The float word `0x3F800000` is the number one. -/
theorem one_eq : Ideal.ofBits .f32 0x3F800000#32 = 1 := by
  simp [Ideal.ofBits, Ideal.ieee, -EReal.coe_mul]; norm_num

theorem spec_one_eq : Cert.Spec.one = 1 := one_eq

/-- The quotient the program spells out, `1 / (1 + e⁻ˢ)` with both ones the float word of one, is the logistic function. -/
theorem logistic_eq (s : EReal) :
    Ideal.div (Ideal.ofBits .f32 0x3F800000#32) (Ideal.ofBits .f32 0x3F800000#32 + Ideal.exp (-s)) = Ideal.logistic s := by
  rw [one_eq]; rfl

end Cert.ReferenceIdeal.RefValue

end
-- ==== Proof.Ref.RefIdx.lean ====
import proofs.«106570_j81046032876009_1_alg».proof.Proof.Ref.RefBase

/-!
# The reference program's index maps at a row's entry

Every array of the reference program is a single row, so an index is `(0, q)`. The composed index maps the generated
reading lemmas produce are identified here with the literal-size constructors: a product's left operand at `(0, k)`, a
transposed weight at `(q, k)`, a broadcast bias at `q`, and gate `g`'s slice at `g · 2048 + j`.
-/

noncomputable section

namespace Cert.ReferenceIdeal.RefValue

open Cert.ReferenceIdeal Cert.ReferenceIdeal.Gen Idealize.ShloMosaic Idealize.ShloMosaic.StableHlo
open Idealize.ShloMosaic.ValueIdx
open scoped BigOperators

theorem lidx_v10 (q : Fin 6144) (k : Fin 6) : Read.lidx_main_v10 (ix2 (0 : Fin 1) q) k = ix2 (0 : Fin 1) k := by
  funext a; match a with | ⟨0, _⟩ => rfl | ⟨1, _⟩ => rfl
theorem ridx_v10 (q : Fin 6144) (k : Fin 6) : Read.idx_main_v9 (Read.ridx_main_v10 (ix2 (0 : Fin 1) q) k) = ix2 q k := by
  funext a; match a with | ⟨0, _⟩ => rfl | ⟨1, _⟩ => rfl
theorem idx_v11 (q : Fin 6144) : Read.idx_main_v11 (ix2 (0 : Fin 1) q) = ix1 q := by
  funext a; match a with | ⟨0, _⟩ => rfl

theorem lidx_v14 (q : Fin 6144) (k : Fin 2048) : Read.lidx_main_v14 (ix2 (0 : Fin 1) q) k = ix2 (0 : Fin 1) k := by
  funext a; match a with | ⟨0, _⟩ => rfl | ⟨1, _⟩ => rfl
theorem ridx_v14 (q : Fin 6144) (k : Fin 2048) : Read.idx_main_v13 (Read.ridx_main_v14 (ix2 (0 : Fin 1) q) k) = ix2 q k := by
  funext a; match a with | ⟨0, _⟩ => rfl | ⟨1, _⟩ => rfl
theorem idx_v15 (q : Fin 6144) : Read.idx_main_v15 (ix2 (0 : Fin 1) q) = ix1 q := by
  funext a; match a with | ⟨0, _⟩ => rfl

theorem lidx_v48 (q : Fin 6144) (k : Fin 2048) : Read.lidx_main_v48 (ix2 (0 : Fin 1) q) k = ix2 (0 : Fin 1) k := by
  funext a; match a with | ⟨0, _⟩ => rfl | ⟨1, _⟩ => rfl
theorem ridx_v48 (q : Fin 6144) (k : Fin 2048) : Read.idx_main_v47 (Read.ridx_main_v48 (ix2 (0 : Fin 1) q) k) = ix2 q k := by
  funext a; match a with | ⟨0, _⟩ => rfl | ⟨1, _⟩ => rfl
theorem idx_v49 (q : Fin 6144) : Read.idx_main_v49 (ix2 (0 : Fin 1) q) = ix1 q := by
  funext a; match a with | ⟨0, _⟩ => rfl

theorem lidx_v52 (q : Fin 6144) (k : Fin 2048) : Read.lidx_main_v52 (ix2 (0 : Fin 1) q) k = ix2 (0 : Fin 1) k := by
  funext a; match a with | ⟨0, _⟩ => rfl | ⟨1, _⟩ => rfl
theorem ridx_v52 (q : Fin 6144) (k : Fin 2048) : Read.idx_main_v51 (Read.ridx_main_v52 (ix2 (0 : Fin 1) q) k) = ix2 q k := by
  funext a; match a with | ⟨0, _⟩ => rfl | ⟨1, _⟩ => rfl
theorem idx_v53 (q : Fin 6144) : Read.idx_main_v53 (ix2 (0 : Fin 1) q) = ix1 q := by
  funext a; match a with | ⟨0, _⟩ => rfl

theorem lidx_v87 (q : Fin 100) (k : Fin 2048) : Read.lidx_main_v87 (ix2 (0 : Fin 1) q) k = ix2 (0 : Fin 1) k := by
  funext a; match a with | ⟨0, _⟩ => rfl | ⟨1, _⟩ => rfl
theorem ridx_v87 (q : Fin 100) (k : Fin 2048) : Read.idx_main_v86 (Read.ridx_main_v87 (ix2 (0 : Fin 1) q) k) = ix2 q k := by
  funext a; match a with | ⟨0, _⟩ => rfl | ⟨1, _⟩ => rfl
theorem idx_v88 (q : Fin 100) : Read.idx_main_v88 (ix2 (0 : Fin 1) q) = ix1 q := by
  funext a; match a with | ⟨0, _⟩ => rfl

theorem idx_v17 (j : Fin 2048) : Read.idx_main_v17 (ix2 (0 : Fin 1) j) = ix2 (0 : Fin 1) (Cert.Spec.gateRow 0 j) := by
  funext a
  match a with
  | ⟨0, _⟩ => rfl
  | ⟨1, _⟩ => exact Fin.ext (show j.val = 0 * 2048 + j.val by omega)

theorem idx_v18 (j : Fin 2048) : Read.idx_main_v18 (ix2 (0 : Fin 1) j) = ix2 (0 : Fin 1) (Cert.Spec.gateRow 1 j) := by
  funext a
  match a with
  | ⟨0, _⟩ => rfl
  | ⟨1, _⟩ => exact Fin.ext (show 2048 + j.val = 1 * 2048 + j.val by omega)

theorem idx_v19 (j : Fin 2048) : Read.idx_main_v19 (ix2 (0 : Fin 1) j) = ix2 (0 : Fin 1) (Cert.Spec.gateRow 2 j) := by
  funext a
  match a with
  | ⟨0, _⟩ => rfl
  | ⟨1, _⟩ => exact Fin.ext (show 4096 + j.val = 2 * 2048 + j.val by omega)

theorem idx_v20 (j : Fin 2048) : Read.idx_main_v20 (ix2 (0 : Fin 1) j) = ix2 (0 : Fin 1) (Cert.Spec.gateRow 0 j) := by
  funext a
  match a with
  | ⟨0, _⟩ => rfl
  | ⟨1, _⟩ => exact Fin.ext (show j.val = 0 * 2048 + j.val by omega)

theorem idx_v21 (j : Fin 2048) : Read.idx_main_v21 (ix2 (0 : Fin 1) j) = ix2 (0 : Fin 1) (Cert.Spec.gateRow 1 j) := by
  funext a
  match a with
  | ⟨0, _⟩ => rfl
  | ⟨1, _⟩ => exact Fin.ext (show 2048 + j.val = 1 * 2048 + j.val by omega)

theorem idx_v22 (j : Fin 2048) : Read.idx_main_v22 (ix2 (0 : Fin 1) j) = ix2 (0 : Fin 1) (Cert.Spec.gateRow 2 j) := by
  funext a
  match a with
  | ⟨0, _⟩ => rfl
  | ⟨1, _⟩ => exact Fin.ext (show 4096 + j.val = 2 * 2048 + j.val by omega)

theorem idx_v55 (j : Fin 2048) : Read.idx_main_v55 (ix2 (0 : Fin 1) j) = ix2 (0 : Fin 1) (Cert.Spec.gateRow 0 j) := by
  funext a
  match a with
  | ⟨0, _⟩ => rfl
  | ⟨1, _⟩ => exact Fin.ext (show j.val = 0 * 2048 + j.val by omega)

theorem idx_v56 (j : Fin 2048) : Read.idx_main_v56 (ix2 (0 : Fin 1) j) = ix2 (0 : Fin 1) (Cert.Spec.gateRow 1 j) := by
  funext a
  match a with
  | ⟨0, _⟩ => rfl
  | ⟨1, _⟩ => exact Fin.ext (show 2048 + j.val = 1 * 2048 + j.val by omega)

theorem idx_v57 (j : Fin 2048) : Read.idx_main_v57 (ix2 (0 : Fin 1) j) = ix2 (0 : Fin 1) (Cert.Spec.gateRow 2 j) := by
  funext a
  match a with
  | ⟨0, _⟩ => rfl
  | ⟨1, _⟩ => exact Fin.ext (show 4096 + j.val = 2 * 2048 + j.val by omega)

theorem idx_v58 (j : Fin 2048) : Read.idx_main_v58 (ix2 (0 : Fin 1) j) = ix2 (0 : Fin 1) (Cert.Spec.gateRow 0 j) := by
  funext a
  match a with
  | ⟨0, _⟩ => rfl
  | ⟨1, _⟩ => exact Fin.ext (show j.val = 0 * 2048 + j.val by omega)

theorem idx_v59 (j : Fin 2048) : Read.idx_main_v59 (ix2 (0 : Fin 1) j) = ix2 (0 : Fin 1) (Cert.Spec.gateRow 1 j) := by
  funext a
  match a with
  | ⟨0, _⟩ => rfl
  | ⟨1, _⟩ => exact Fin.ext (show 2048 + j.val = 1 * 2048 + j.val by omega)

theorem idx_v60 (j : Fin 2048) : Read.idx_main_v60 (ix2 (0 : Fin 1) j) = ix2 (0 : Fin 1) (Cert.Spec.gateRow 2 j) := by
  funext a
  match a with
  | ⟨0, _⟩ => rfl
  | ⟨1, _⟩ => exact Fin.ext (show 4096 + j.val = 2 * 2048 + j.val by omega)

end Cert.ReferenceIdeal.RefValue

end
-- ==== Proof.Ref.RefPre0.lean ====
import proofs.«106570_j81046032876009_1_alg».proof.Proof.Ref.RefIdx

/-!
# The first layer's gate pre-activations in the reference program

The reference forms the two stacks of 6144 pre-activations as a row times a transposed weight plus a bias. Entry `q` of a
stack is the specification's `pre6` / `pre2048` at `q`.
-/

noncomputable section

namespace Cert.ReferenceIdeal.RefValue

open Cert.ReferenceIdeal Cert.ReferenceIdeal.Gen Idealize.ShloMosaic Idealize.ShloMosaic.StableHlo
open Idealize.ShloMosaic.ValueIdx
open scoped BigOperators

/-- Entry `q` of the input-side stack: the embedding row against row `q` of the weight, plus the bias. -/
theorem gi0_apply (a0 : (⟨S1, .i32⟩ : BufTy).Contents (Elt Ideal)) (a2 : (⟨S100x6, .f32⟩ : BufTy).Contents (Elt Ideal)) (a3 : (⟨S6144x6, .f32⟩ : BufTy).Contents (Elt Ideal)) (a5 : (⟨S6144, .f32⟩ : BufTy).Contents (Elt Ideal)) (q : Fin 6144) :
    Read.val_main_v12 (F := Ideal) a0 a2 a3 a5 (ix2 (0 : Fin 1) q) = Cert.Spec.pre6 (xrow a0 a2) a3 a5 q := by
  rw [Read.val_main_v12_apply, Read.val_main_v10_apply, Read.val_main_v11_apply, idx_v11, Ideal.addf_def, xrow_eq]
  unfold Cert.Spec.pre6
  refine congrArg (· + a5 (ix1 q)) (Finset.sum_congr rfl fun k _ => ?_)
  rw [lidx_v10, Read.val_main_v9_apply, ridx_v10]

/-- Entry `q` of the hidden-side stack: the previous hidden row against row `q` of the weight, plus the bias. -/
theorem gh0_apply (a1 : (⟨S2x1x2048, .f32⟩ : BufTy).Contents (Elt Ideal)) (a4 : (⟨S6144x2048, .f32⟩ : BufTy).Contents (Elt Ideal)) (a6 : (⟨S6144, .f32⟩ : BufTy).Contents (Elt Ideal)) (q : Fin 6144) :
    Read.val_main_v16 (F := Ideal) a1 a4 a6 (ix2 (0 : Fin 1) q) = Cert.Spec.pre2048 (hrow0 a1) a4 a6 q := by
  rw [Read.val_main_v16_apply, Read.val_main_v14_apply, Read.val_main_v15_apply, idx_v15, Ideal.addf_def, hrow0_eq]
  unfold Cert.Spec.pre2048
  refine congrArg (· + a6 (ix1 q)) (Finset.sum_congr rfl fun k _ => ?_)
  rw [lidx_v14, Read.val_main_v13_apply, ridx_v14]

end Cert.ReferenceIdeal.RefValue

end
-- ==== Proof.Ref.RefCell0.lean ====
import proofs.«106570_j81046032876009_1_alg».proof.Proof.Ref.RefPre0

/-!
# The first layer's cell in the reference program

The three gates' slices of the two stacks, then the cell itself: reset and update gates as `1 / (1 + e⁻ˢ)`, the candidate
as a hyperbolic tangent, and the convex mix with the previous hidden row. Index by index this is the specification's cell.
-/

noncomputable section

namespace Cert.ReferenceIdeal.RefValue

open Cert.ReferenceIdeal Cert.ReferenceIdeal.Gen Idealize.ShloMosaic Idealize.ShloMosaic.StableHlo
open Idealize.ShloMosaic.ValueIdx
open scoped BigOperators

theorem gi0_r (a0 : (⟨S1, .i32⟩ : BufTy).Contents (Elt Ideal)) (a2 : (⟨S100x6, .f32⟩ : BufTy).Contents (Elt Ideal)) (a3 : (⟨S6144x6, .f32⟩ : BufTy).Contents (Elt Ideal)) (a5 : (⟨S6144, .f32⟩ : BufTy).Contents (Elt Ideal)) (j : Fin 2048) :
    Read.val_main_v17 (F := Ideal) a0 a2 a3 a5 (ix2 (0 : Fin 1) j) = Cert.Spec.pre6 (xrow a0 a2) a3 a5 (Cert.Spec.gateRow 0 j) := by
  rw [Read.val_main_v17_apply, idx_v17, gi0_apply]

theorem gi0_z (a0 : (⟨S1, .i32⟩ : BufTy).Contents (Elt Ideal)) (a2 : (⟨S100x6, .f32⟩ : BufTy).Contents (Elt Ideal)) (a3 : (⟨S6144x6, .f32⟩ : BufTy).Contents (Elt Ideal)) (a5 : (⟨S6144, .f32⟩ : BufTy).Contents (Elt Ideal)) (j : Fin 2048) :
    Read.val_main_v18 (F := Ideal) a0 a2 a3 a5 (ix2 (0 : Fin 1) j) = Cert.Spec.pre6 (xrow a0 a2) a3 a5 (Cert.Spec.gateRow 1 j) := by
  rw [Read.val_main_v18_apply, idx_v18, gi0_apply]

theorem gi0_n (a0 : (⟨S1, .i32⟩ : BufTy).Contents (Elt Ideal)) (a2 : (⟨S100x6, .f32⟩ : BufTy).Contents (Elt Ideal)) (a3 : (⟨S6144x6, .f32⟩ : BufTy).Contents (Elt Ideal)) (a5 : (⟨S6144, .f32⟩ : BufTy).Contents (Elt Ideal)) (j : Fin 2048) :
    Read.val_main_v19 (F := Ideal) a0 a2 a3 a5 (ix2 (0 : Fin 1) j) = Cert.Spec.pre6 (xrow a0 a2) a3 a5 (Cert.Spec.gateRow 2 j) := by
  rw [Read.val_main_v19_apply, idx_v19, gi0_apply]

theorem gh0_r (a1 : (⟨S2x1x2048, .f32⟩ : BufTy).Contents (Elt Ideal)) (a4 : (⟨S6144x2048, .f32⟩ : BufTy).Contents (Elt Ideal)) (a6 : (⟨S6144, .f32⟩ : BufTy).Contents (Elt Ideal)) (j : Fin 2048) :
    Read.val_main_v20 (F := Ideal) a1 a4 a6 (ix2 (0 : Fin 1) j) = Cert.Spec.pre2048 (hrow0 a1) a4 a6 (Cert.Spec.gateRow 0 j) := by
  rw [Read.val_main_v20_apply, idx_v20, gh0_apply]

theorem gh0_z (a1 : (⟨S2x1x2048, .f32⟩ : BufTy).Contents (Elt Ideal)) (a4 : (⟨S6144x2048, .f32⟩ : BufTy).Contents (Elt Ideal)) (a6 : (⟨S6144, .f32⟩ : BufTy).Contents (Elt Ideal)) (j : Fin 2048) :
    Read.val_main_v21 (F := Ideal) a1 a4 a6 (ix2 (0 : Fin 1) j) = Cert.Spec.pre2048 (hrow0 a1) a4 a6 (Cert.Spec.gateRow 1 j) := by
  rw [Read.val_main_v21_apply, idx_v21, gh0_apply]

theorem gh0_n (a1 : (⟨S2x1x2048, .f32⟩ : BufTy).Contents (Elt Ideal)) (a4 : (⟨S6144x2048, .f32⟩ : BufTy).Contents (Elt Ideal)) (a6 : (⟨S6144, .f32⟩ : BufTy).Contents (Elt Ideal)) (j : Fin 2048) :
    Read.val_main_v22 (F := Ideal) a1 a4 a6 (ix2 (0 : Fin 1) j) = Cert.Spec.pre2048 (hrow0 a1) a4 a6 (Cert.Spec.gateRow 2 j) := by
  rw [Read.val_main_v22_apply, idx_v22, gh0_apply]

/-- Entry `j` of the layer's new hidden row in the reference program: the cell's value from the two stacks of
    pre-activations and the previous hidden row. -/
theorem cell0_apply (a0 : (⟨S1, .i32⟩ : BufTy).Contents (Elt Ideal)) (a1 : (⟨S2x1x2048, .f32⟩ : BufTy).Contents (Elt Ideal)) (a2 : (⟨S100x6, .f32⟩ : BufTy).Contents (Elt Ideal)) (a3 : (⟨S6144x6, .f32⟩ : BufTy).Contents (Elt Ideal)) (a4 : (⟨S6144x2048, .f32⟩ : BufTy).Contents (Elt Ideal)) (a5 : (⟨S6144, .f32⟩ : BufTy).Contents (Elt Ideal)) (a6 : (⟨S6144, .f32⟩ : BufTy).Contents (Elt Ideal)) (j : Fin 2048) :
    Read.val_main_v44 (F := Ideal) a0 a1 a2 a3 a4 a5 a6 (ix2 (0 : Fin 1) j)
      = Cert.Spec.cellOf (Cert.Spec.pre6 (xrow a0 a2) a3 a5) (Cert.Spec.pre2048 (hrow0 a1) a4 a6) (hrow0 a1) j := by
  simp only [Read.val_main_v44_apply, Read.val_main_v43_apply, Read.val_main_v42_apply, Read.val_main_v41_apply, Read.val_main_v40_apply, Read.val_main_v39_apply, Read.val_main_v38_apply, Read.val_main_v37_apply, Read.val_main_v36_apply, Read.val_main_v35_apply, Read.val_main_v34_apply, Read.val_main_v33_apply, Read.val_main_v32_apply, Read.val_main_v31_apply, Read.val_main_v30_apply, Read.val_main_v29_apply, Read.val_main_v28_apply, Read.val_main_v27_apply, Read.val_main_v26_apply, Read.val_main_v25_apply, Read.val_main_v24_apply, Read.val_main_v23_apply, Read.val_main_cst_apply, Read.val_main_cst_1_apply, Read.val_main_cst_2_apply, Read.val_main_cst_3_apply, Read.val_main_cst_4_apply,
    gi0_r, gi0_z, gi0_n, gh0_r, gh0_z, gh0_n, hrow0_eq,
    Ideal.addf_def, Ideal.subf_def, Ideal.mulf_def, Ideal.hostDivf_def, Ideal.hostNegf_def, Ideal.negf_def,
    Ideal.hostUnary_exp_def, Ideal.hostUnary_tanh_def, Ideal.ofBits_def, logistic_eq, Cert.Spec.cellOf, Cert.Spec.one]

/-- The layer's new hidden row in the reference program is the specification's. -/
theorem layer0_eq (a0 : (⟨S1, .i32⟩ : BufTy).Contents (Elt Ideal)) (a1 : (⟨S2x1x2048, .f32⟩ : BufTy).Contents (Elt Ideal)) (a2 : (⟨S100x6, .f32⟩ : BufTy).Contents (Elt Ideal)) (a3 : (⟨S6144x6, .f32⟩ : BufTy).Contents (Elt Ideal)) (a4 : (⟨S6144x2048, .f32⟩ : BufTy).Contents (Elt Ideal)) (a5 : (⟨S6144, .f32⟩ : BufTy).Contents (Elt Ideal)) (a6 : (⟨S6144, .f32⟩ : BufTy).Contents (Elt Ideal)) :
    Read.val_main_v44 (F := Ideal) a0 a1 a2 a3 a4 a5 a6 = Cert.Spec.layer0 (xrow a0 a2) (hrow0 a1) a3 a4 a5 a6 := by
  funext i
  obtain ⟨p, j, rfl⟩ : ∃ (p : Fin 1) (j : Fin 2048), i = ix2 p j := ⟨i 0, i 1, eq_ix2 i⟩
  obtain rfl : p = 0 := Subsingleton.elim _ _
  exact cell0_apply a0 a1 a2 a3 a4 a5 a6 j

end Cert.ReferenceIdeal.RefValue

end
-- ==== Proof.Ref.RefPre1.lean ====
import proofs.«106570_j81046032876009_1_alg».proof.Proof.Ref.RefCell0

/-!
# The second layer's gate pre-activations in the reference program

The second layer's input row is the first layer's new hidden row; its previous hidden row is slab 1 of the stacked state.
-/

noncomputable section

namespace Cert.ReferenceIdeal.RefValue

open Cert.ReferenceIdeal Cert.ReferenceIdeal.Gen Idealize.ShloMosaic Idealize.ShloMosaic.StableHlo
open Idealize.ShloMosaic.ValueIdx
open scoped BigOperators

/-- Entry `q` of the input-side stack: the first layer's new hidden row against row `q` of the weight, plus the bias. -/
theorem gi1_apply (a0 : (⟨S1, .i32⟩ : BufTy).Contents (Elt Ideal)) (a1 : (⟨S2x1x2048, .f32⟩ : BufTy).Contents (Elt Ideal)) (a2 : (⟨S100x6, .f32⟩ : BufTy).Contents (Elt Ideal)) (a3 : (⟨S6144x6, .f32⟩ : BufTy).Contents (Elt Ideal)) (a4 : (⟨S6144x2048, .f32⟩ : BufTy).Contents (Elt Ideal)) (a5 : (⟨S6144, .f32⟩ : BufTy).Contents (Elt Ideal)) (a6 : (⟨S6144, .f32⟩ : BufTy).Contents (Elt Ideal)) (a7 : (⟨S6144x2048, .f32⟩ : BufTy).Contents (Elt Ideal)) (a9 : (⟨S6144, .f32⟩ : BufTy).Contents (Elt Ideal)) (q : Fin 6144) :
    Read.val_main_v50 (F := Ideal) a0 a1 a2 a3 a4 a5 a6 a7 a9 (ix2 (0 : Fin 1) q) = Cert.Spec.pre2048 (Cert.Spec.layer0 (xrow a0 a2) (hrow0 a1) a3 a4 a5 a6) a7 a9 q := by
  rw [Read.val_main_v50_apply, Read.val_main_v48_apply, Read.val_main_v49_apply, idx_v49, Ideal.addf_def, layer0_eq]
  unfold Cert.Spec.pre2048
  refine congrArg (· + a9 (ix1 q)) (Finset.sum_congr rfl fun k _ => ?_)
  rw [lidx_v48, Read.val_main_v47_apply, ridx_v48]

/-- Entry `q` of the hidden-side stack: the previous hidden row against row `q` of the weight, plus the bias. -/
theorem gh1_apply (a1 : (⟨S2x1x2048, .f32⟩ : BufTy).Contents (Elt Ideal)) (a8 : (⟨S6144x2048, .f32⟩ : BufTy).Contents (Elt Ideal)) (a10 : (⟨S6144, .f32⟩ : BufTy).Contents (Elt Ideal)) (q : Fin 6144) :
    Read.val_main_v54 (F := Ideal) a1 a8 a10 (ix2 (0 : Fin 1) q) = Cert.Spec.pre2048 (hrow1 a1) a8 a10 q := by
  rw [Read.val_main_v54_apply, Read.val_main_v52_apply, Read.val_main_v53_apply, idx_v53, Ideal.addf_def, hrow1_eq]
  unfold Cert.Spec.pre2048
  refine congrArg (· + a10 (ix1 q)) (Finset.sum_congr rfl fun k _ => ?_)
  rw [lidx_v52, Read.val_main_v51_apply, ridx_v52]

end Cert.ReferenceIdeal.RefValue

end
-- ==== Proof.Ref.RefCell1.lean ====
import proofs.«106570_j81046032876009_1_alg».proof.Proof.Ref.RefPre1

/-!
# The second layer's cell in the reference program

The same cell as the first layer's, over the first layer's new hidden row and slab 1 of the stacked state.
-/

noncomputable section

namespace Cert.ReferenceIdeal.RefValue

open Cert.ReferenceIdeal Cert.ReferenceIdeal.Gen Idealize.ShloMosaic Idealize.ShloMosaic.StableHlo
open Idealize.ShloMosaic.ValueIdx
open scoped BigOperators

theorem gi1_r (a0 : (⟨S1, .i32⟩ : BufTy).Contents (Elt Ideal)) (a1 : (⟨S2x1x2048, .f32⟩ : BufTy).Contents (Elt Ideal)) (a2 : (⟨S100x6, .f32⟩ : BufTy).Contents (Elt Ideal)) (a3 : (⟨S6144x6, .f32⟩ : BufTy).Contents (Elt Ideal)) (a4 : (⟨S6144x2048, .f32⟩ : BufTy).Contents (Elt Ideal)) (a5 : (⟨S6144, .f32⟩ : BufTy).Contents (Elt Ideal)) (a6 : (⟨S6144, .f32⟩ : BufTy).Contents (Elt Ideal)) (a7 : (⟨S6144x2048, .f32⟩ : BufTy).Contents (Elt Ideal)) (a9 : (⟨S6144, .f32⟩ : BufTy).Contents (Elt Ideal)) (j : Fin 2048) :
    Read.val_main_v55 (F := Ideal) a0 a1 a2 a3 a4 a5 a6 a7 a9 (ix2 (0 : Fin 1) j) = Cert.Spec.pre2048 (Cert.Spec.layer0 (xrow a0 a2) (hrow0 a1) a3 a4 a5 a6) a7 a9 (Cert.Spec.gateRow 0 j) := by
  rw [Read.val_main_v55_apply, idx_v55, gi1_apply]

theorem gi1_z (a0 : (⟨S1, .i32⟩ : BufTy).Contents (Elt Ideal)) (a1 : (⟨S2x1x2048, .f32⟩ : BufTy).Contents (Elt Ideal)) (a2 : (⟨S100x6, .f32⟩ : BufTy).Contents (Elt Ideal)) (a3 : (⟨S6144x6, .f32⟩ : BufTy).Contents (Elt Ideal)) (a4 : (⟨S6144x2048, .f32⟩ : BufTy).Contents (Elt Ideal)) (a5 : (⟨S6144, .f32⟩ : BufTy).Contents (Elt Ideal)) (a6 : (⟨S6144, .f32⟩ : BufTy).Contents (Elt Ideal)) (a7 : (⟨S6144x2048, .f32⟩ : BufTy).Contents (Elt Ideal)) (a9 : (⟨S6144, .f32⟩ : BufTy).Contents (Elt Ideal)) (j : Fin 2048) :
    Read.val_main_v56 (F := Ideal) a0 a1 a2 a3 a4 a5 a6 a7 a9 (ix2 (0 : Fin 1) j) = Cert.Spec.pre2048 (Cert.Spec.layer0 (xrow a0 a2) (hrow0 a1) a3 a4 a5 a6) a7 a9 (Cert.Spec.gateRow 1 j) := by
  rw [Read.val_main_v56_apply, idx_v56, gi1_apply]

theorem gi1_n (a0 : (⟨S1, .i32⟩ : BufTy).Contents (Elt Ideal)) (a1 : (⟨S2x1x2048, .f32⟩ : BufTy).Contents (Elt Ideal)) (a2 : (⟨S100x6, .f32⟩ : BufTy).Contents (Elt Ideal)) (a3 : (⟨S6144x6, .f32⟩ : BufTy).Contents (Elt Ideal)) (a4 : (⟨S6144x2048, .f32⟩ : BufTy).Contents (Elt Ideal)) (a5 : (⟨S6144, .f32⟩ : BufTy).Contents (Elt Ideal)) (a6 : (⟨S6144, .f32⟩ : BufTy).Contents (Elt Ideal)) (a7 : (⟨S6144x2048, .f32⟩ : BufTy).Contents (Elt Ideal)) (a9 : (⟨S6144, .f32⟩ : BufTy).Contents (Elt Ideal)) (j : Fin 2048) :
    Read.val_main_v57 (F := Ideal) a0 a1 a2 a3 a4 a5 a6 a7 a9 (ix2 (0 : Fin 1) j) = Cert.Spec.pre2048 (Cert.Spec.layer0 (xrow a0 a2) (hrow0 a1) a3 a4 a5 a6) a7 a9 (Cert.Spec.gateRow 2 j) := by
  rw [Read.val_main_v57_apply, idx_v57, gi1_apply]

theorem gh1_r (a1 : (⟨S2x1x2048, .f32⟩ : BufTy).Contents (Elt Ideal)) (a8 : (⟨S6144x2048, .f32⟩ : BufTy).Contents (Elt Ideal)) (a10 : (⟨S6144, .f32⟩ : BufTy).Contents (Elt Ideal)) (j : Fin 2048) :
    Read.val_main_v58 (F := Ideal) a1 a8 a10 (ix2 (0 : Fin 1) j) = Cert.Spec.pre2048 (hrow1 a1) a8 a10 (Cert.Spec.gateRow 0 j) := by
  rw [Read.val_main_v58_apply, idx_v58, gh1_apply]

theorem gh1_z (a1 : (⟨S2x1x2048, .f32⟩ : BufTy).Contents (Elt Ideal)) (a8 : (⟨S6144x2048, .f32⟩ : BufTy).Contents (Elt Ideal)) (a10 : (⟨S6144, .f32⟩ : BufTy).Contents (Elt Ideal)) (j : Fin 2048) :
    Read.val_main_v59 (F := Ideal) a1 a8 a10 (ix2 (0 : Fin 1) j) = Cert.Spec.pre2048 (hrow1 a1) a8 a10 (Cert.Spec.gateRow 1 j) := by
  rw [Read.val_main_v59_apply, idx_v59, gh1_apply]

theorem gh1_n (a1 : (⟨S2x1x2048, .f32⟩ : BufTy).Contents (Elt Ideal)) (a8 : (⟨S6144x2048, .f32⟩ : BufTy).Contents (Elt Ideal)) (a10 : (⟨S6144, .f32⟩ : BufTy).Contents (Elt Ideal)) (j : Fin 2048) :
    Read.val_main_v60 (F := Ideal) a1 a8 a10 (ix2 (0 : Fin 1) j) = Cert.Spec.pre2048 (hrow1 a1) a8 a10 (Cert.Spec.gateRow 2 j) := by
  rw [Read.val_main_v60_apply, idx_v60, gh1_apply]

/-- Entry `j` of the layer's new hidden row in the reference program: the cell's value from the two stacks of
    pre-activations and the previous hidden row. -/
theorem cell1_apply (a0 : (⟨S1, .i32⟩ : BufTy).Contents (Elt Ideal)) (a1 : (⟨S2x1x2048, .f32⟩ : BufTy).Contents (Elt Ideal)) (a2 : (⟨S100x6, .f32⟩ : BufTy).Contents (Elt Ideal)) (a3 : (⟨S6144x6, .f32⟩ : BufTy).Contents (Elt Ideal)) (a4 : (⟨S6144x2048, .f32⟩ : BufTy).Contents (Elt Ideal)) (a5 : (⟨S6144, .f32⟩ : BufTy).Contents (Elt Ideal)) (a6 : (⟨S6144, .f32⟩ : BufTy).Contents (Elt Ideal)) (a7 : (⟨S6144x2048, .f32⟩ : BufTy).Contents (Elt Ideal)) (a8 : (⟨S6144x2048, .f32⟩ : BufTy).Contents (Elt Ideal)) (a9 : (⟨S6144, .f32⟩ : BufTy).Contents (Elt Ideal)) (a10 : (⟨S6144, .f32⟩ : BufTy).Contents (Elt Ideal)) (j : Fin 2048) :
    Read.val_main_v82 (F := Ideal) a0 a1 a2 a3 a4 a5 a6 a7 a8 a9 a10 (ix2 (0 : Fin 1) j)
      = Cert.Spec.cellOf (Cert.Spec.pre2048 (Cert.Spec.layer0 (xrow a0 a2) (hrow0 a1) a3 a4 a5 a6) a7 a9) (Cert.Spec.pre2048 (hrow1 a1) a8 a10) (hrow1 a1) j := by
  simp only [Read.val_main_v82_apply, Read.val_main_v81_apply, Read.val_main_v80_apply, Read.val_main_v79_apply, Read.val_main_v78_apply, Read.val_main_v77_apply, Read.val_main_v76_apply, Read.val_main_v75_apply, Read.val_main_v74_apply, Read.val_main_v73_apply, Read.val_main_v72_apply, Read.val_main_v71_apply, Read.val_main_v70_apply, Read.val_main_v69_apply, Read.val_main_v68_apply, Read.val_main_v67_apply, Read.val_main_v66_apply, Read.val_main_v65_apply, Read.val_main_v64_apply, Read.val_main_v63_apply, Read.val_main_v62_apply, Read.val_main_v61_apply, Read.val_main_cst_5_apply, Read.val_main_cst_6_apply, Read.val_main_cst_7_apply, Read.val_main_cst_8_apply, Read.val_main_cst_9_apply,
    gi1_r, gi1_z, gi1_n, gh1_r, gh1_z, gh1_n, hrow1_eq,
    Ideal.addf_def, Ideal.subf_def, Ideal.mulf_def, Ideal.hostDivf_def, Ideal.hostNegf_def, Ideal.negf_def,
    Ideal.hostUnary_exp_def, Ideal.hostUnary_tanh_def, Ideal.ofBits_def, logistic_eq, Cert.Spec.cellOf, Cert.Spec.one]

/-- The layer's new hidden row in the reference program is the specification's. -/
theorem layer1_eq (a0 : (⟨S1, .i32⟩ : BufTy).Contents (Elt Ideal)) (a1 : (⟨S2x1x2048, .f32⟩ : BufTy).Contents (Elt Ideal)) (a2 : (⟨S100x6, .f32⟩ : BufTy).Contents (Elt Ideal)) (a3 : (⟨S6144x6, .f32⟩ : BufTy).Contents (Elt Ideal)) (a4 : (⟨S6144x2048, .f32⟩ : BufTy).Contents (Elt Ideal)) (a5 : (⟨S6144, .f32⟩ : BufTy).Contents (Elt Ideal)) (a6 : (⟨S6144, .f32⟩ : BufTy).Contents (Elt Ideal)) (a7 : (⟨S6144x2048, .f32⟩ : BufTy).Contents (Elt Ideal)) (a8 : (⟨S6144x2048, .f32⟩ : BufTy).Contents (Elt Ideal)) (a9 : (⟨S6144, .f32⟩ : BufTy).Contents (Elt Ideal)) (a10 : (⟨S6144, .f32⟩ : BufTy).Contents (Elt Ideal)) :
    Read.val_main_v82 (F := Ideal) a0 a1 a2 a3 a4 a5 a6 a7 a8 a9 a10 = Cert.Spec.layer1 (Cert.Spec.layer0 (xrow a0 a2) (hrow0 a1) a3 a4 a5 a6) (hrow1 a1) a7 a8 a9 a10 := by
  funext i
  obtain ⟨p, j, rfl⟩ : ∃ (p : Fin 1) (j : Fin 2048), i = ix2 p j := ⟨i 0, i 1, eq_ix2 i⟩
  obtain rfl : p = 0 := Subsingleton.elim _ _
  exact cell1_apply a0 a1 a2 a3 a4 a5 a6 a7 a8 a9 a10 j

end Cert.ReferenceIdeal.RefValue

end
-- ==== Proof.Ref.RefReadout.lean ====
import proofs.«106570_j81046032876009_1_alg».proof.Proof.Ref.RefCell1

/-!
# The read-out in the reference program

The top layer's new hidden row times the transposed decoder weight plus the decoder bias.
-/

noncomputable section

namespace Cert.ReferenceIdeal.RefValue

open Cert.ReferenceIdeal Cert.ReferenceIdeal.Gen Idealize.ShloMosaic Idealize.ShloMosaic.StableHlo
open Idealize.ShloMosaic.ValueIdx
open scoped BigOperators

/-- The specification's read-out at entry `(0, q)`. -/
theorem spec_readout_at (h : Cert.Spec.Row2048.Idx → EReal) (W : Cert.Spec.Mat100x2048.Idx → EReal) (b : Cert.Spec.Vec100.Idx → EReal)
    (q : Fin 100) :
    Cert.Spec.readout h W b (ix2 (0 : Fin 1) q) = (∑ k : Fin 2048, h (ix2 (0 : Fin 1) k) * W (ix2 q k)) + b (ix1 q) := rfl

/-- Entry `q` of the read-out row. -/
theorem readout_apply (a0 : (⟨S1, .i32⟩ : BufTy).Contents (Elt Ideal)) (a1 : (⟨S2x1x2048, .f32⟩ : BufTy).Contents (Elt Ideal)) (a2 : (⟨S100x6, .f32⟩ : BufTy).Contents (Elt Ideal)) (a3 : (⟨S6144x6, .f32⟩ : BufTy).Contents (Elt Ideal)) (a4 : (⟨S6144x2048, .f32⟩ : BufTy).Contents (Elt Ideal)) (a5 : (⟨S6144, .f32⟩ : BufTy).Contents (Elt Ideal)) (a6 : (⟨S6144, .f32⟩ : BufTy).Contents (Elt Ideal)) (a7 : (⟨S6144x2048, .f32⟩ : BufTy).Contents (Elt Ideal)) (a8 : (⟨S6144x2048, .f32⟩ : BufTy).Contents (Elt Ideal)) (a9 : (⟨S6144, .f32⟩ : BufTy).Contents (Elt Ideal)) (a10 : (⟨S6144, .f32⟩ : BufTy).Contents (Elt Ideal)) (a11 : (⟨S100x2048, .f32⟩ : BufTy).Contents (Elt Ideal)) (a12 : (⟨S100, .f32⟩ : BufTy).Contents (Elt Ideal)) (q : Fin 100) :
    Read.val_main_v89 (F := Ideal) a0 a1 a2 a3 a4 a5 a6 a7 a8 a9 a10 a11 a12 (ix2 (0 : Fin 1) q)
      = Cert.Spec.readout (Cert.Spec.layer1 (Cert.Spec.layer0 (xrow a0 a2) (hrow0 a1) a3 a4 a5 a6) (hrow1 a1) a7 a8 a9 a10) a11 a12 (ix2 (0 : Fin 1) q) := by
  rw [Read.val_main_v89_apply, Read.val_main_v87_apply, Read.val_main_v88_apply, idx_v88, Ideal.addf_def, layer1_eq, spec_readout_at]
  refine congrArg (· + a12 (ix1 q)) (Finset.sum_congr rfl fun k _ => ?_)
  rw [lidx_v87, Read.val_main_v86_apply, ridx_v87]

/-- The read-out row in the reference program is the specification's. -/
theorem readout_eq (a0 : (⟨S1, .i32⟩ : BufTy).Contents (Elt Ideal)) (a1 : (⟨S2x1x2048, .f32⟩ : BufTy).Contents (Elt Ideal)) (a2 : (⟨S100x6, .f32⟩ : BufTy).Contents (Elt Ideal)) (a3 : (⟨S6144x6, .f32⟩ : BufTy).Contents (Elt Ideal)) (a4 : (⟨S6144x2048, .f32⟩ : BufTy).Contents (Elt Ideal)) (a5 : (⟨S6144, .f32⟩ : BufTy).Contents (Elt Ideal)) (a6 : (⟨S6144, .f32⟩ : BufTy).Contents (Elt Ideal)) (a7 : (⟨S6144x2048, .f32⟩ : BufTy).Contents (Elt Ideal)) (a8 : (⟨S6144x2048, .f32⟩ : BufTy).Contents (Elt Ideal)) (a9 : (⟨S6144, .f32⟩ : BufTy).Contents (Elt Ideal)) (a10 : (⟨S6144, .f32⟩ : BufTy).Contents (Elt Ideal)) (a11 : (⟨S100x2048, .f32⟩ : BufTy).Contents (Elt Ideal)) (a12 : (⟨S100, .f32⟩ : BufTy).Contents (Elt Ideal)) :
    Read.val_main_v89 (F := Ideal) a0 a1 a2 a3 a4 a5 a6 a7 a8 a9 a10 a11 a12 = Cert.Spec.readout (Cert.Spec.layer1 (Cert.Spec.layer0 (xrow a0 a2) (hrow0 a1) a3 a4 a5 a6) (hrow1 a1) a7 a8 a9 a10) a11 a12 := by
  funext i
  obtain ⟨p, q, rfl⟩ : ∃ (p : Fin 1) (q : Fin 100), i = ix2 p q := ⟨i 0, i 1, eq_ix2 i⟩
  obtain rfl : p = 0 := Subsingleton.elim _ _
  exact readout_apply a0 a1 a2 a3 a4 a5 a6 a7 a8 a9 a10 a11 a12 q

end Cert.ReferenceIdeal.RefValue

end
-- ==== Proof.Ref.RefRun.lean ====
import proofs.«106570_j81046032876009_1_alg».proof.Proof.Ref.RefReadout

/-!
# The reference program's run, with its two results as named terms

Every weakly fair execution of the reference program ends with its first result at the read-out row (given a leading
unit axis) and its second at the two layers' new hidden rows stacked, both as the specification's functions of the
argument arrays, and with the arguments unchanged.
-/

noncomputable section

namespace Cert.ReferenceIdeal.RefValue

open Cert.ReferenceIdeal Cert.ReferenceIdeal.Gen Idealize.ShloMosaic Idealize.ShloMosaic.StableHlo
open Idealize.ShloMosaic.ValueIdx
open Idealize.ShloMosaic.TcCoe Idealize.SL.Sem
open scoped BigOperators

/-- The first result: the read-out row of the second layer's new hidden row, given a leading unit axis. -/
def refOut (a0 : (⟨S1, .i32⟩ : BufTy).Contents (Elt Ideal)) (a1 : (⟨S2x1x2048, .f32⟩ : BufTy).Contents (Elt Ideal)) (a2 : (⟨S100x6, .f32⟩ : BufTy).Contents (Elt Ideal)) (a3 : (⟨S6144x6, .f32⟩ : BufTy).Contents (Elt Ideal)) (a4 : (⟨S6144x2048, .f32⟩ : BufTy).Contents (Elt Ideal)) (a5 : (⟨S6144, .f32⟩ : BufTy).Contents (Elt Ideal)) (a6 : (⟨S6144, .f32⟩ : BufTy).Contents (Elt Ideal)) (a7 : (⟨S6144x2048, .f32⟩ : BufTy).Contents (Elt Ideal)) (a8 : (⟨S6144x2048, .f32⟩ : BufTy).Contents (Elt Ideal)) (a9 : (⟨S6144, .f32⟩ : BufTy).Contents (Elt Ideal)) (a10 : (⟨S6144, .f32⟩ : BufTy).Contents (Elt Ideal)) (a11 : (⟨S100x2048, .f32⟩ : BufTy).Contents (Elt Ideal)) (a12 : (⟨S100, .f32⟩ : BufTy).Contents (Elt Ideal)) : (⟨S1x1x100, .f32⟩ : BufTy).Contents (Elt Ideal) :=
  broadcastInDim S1x1x100 ![1, 2] bcast_S1x100_S1x1x100_1_2
    (Cert.Spec.readout (Cert.Spec.layer1 (Cert.Spec.layer0 (xrow a0 a2) (hrow0 a1) a3 a4 a5 a6) (hrow1 a1) a7 a8 a9 a10) a11 a12 : (⟨S1x100, .f32⟩ : BufTy).Contents (Elt Ideal))

/-- The second result: the two layers' new hidden rows, each given a leading unit axis, stacked. -/
def refHidden (a0 : (⟨S1, .i32⟩ : BufTy).Contents (Elt Ideal)) (a1 : (⟨S2x1x2048, .f32⟩ : BufTy).Contents (Elt Ideal)) (a2 : (⟨S100x6, .f32⟩ : BufTy).Contents (Elt Ideal)) (a3 : (⟨S6144x6, .f32⟩ : BufTy).Contents (Elt Ideal)) (a4 : (⟨S6144x2048, .f32⟩ : BufTy).Contents (Elt Ideal)) (a5 : (⟨S6144, .f32⟩ : BufTy).Contents (Elt Ideal)) (a6 : (⟨S6144, .f32⟩ : BufTy).Contents (Elt Ideal)) (a7 : (⟨S6144x2048, .f32⟩ : BufTy).Contents (Elt Ideal)) (a8 : (⟨S6144x2048, .f32⟩ : BufTy).Contents (Elt Ideal)) (a9 : (⟨S6144, .f32⟩ : BufTy).Contents (Elt Ideal)) (a10 : (⟨S6144, .f32⟩ : BufTy).Contents (Elt Ideal)) : (⟨S2x1x2048, .f32⟩ : BufTy).Contents (Elt Ideal) :=
  concatenate S2x1x2048 0
    [⟨S1x1x2048, broadcastInDim S1x1x2048 ![1, 2] bcast_S1x2048_S1x1x2048_1_2
        (Cert.Spec.layer0 (xrow a0 a2) (hrow0 a1) a3 a4 a5 a6 : (⟨S1x2048, .f32⟩ : BufTy).Contents (Elt Ideal))⟩,
     ⟨S1x1x2048, broadcastInDim S1x1x2048 ![1, 2] bcast_S1x2048_S1x1x2048_1_2
        (Cert.Spec.layer1 (Cert.Spec.layer0 (xrow a0 a2) (hrow0 a1) a3 a4 a5 a6) (hrow1 a1) a7 a8 a9 a10 : (⟨S1x2048, .f32⟩ : BufTy).Contents (Elt Ideal))⟩]
    concatenates_S1x1x2048_S1x1x2048_S2x1x2048_d0

/-- The reference's first result stage is `refOut` of the arguments. -/
theorem out_stage_eq (a0 : (⟨S1, .i32⟩ : BufTy).Contents (Elt Ideal)) (a1 : (⟨S2x1x2048, .f32⟩ : BufTy).Contents (Elt Ideal)) (a2 : (⟨S100x6, .f32⟩ : BufTy).Contents (Elt Ideal)) (a3 : (⟨S6144x6, .f32⟩ : BufTy).Contents (Elt Ideal)) (a4 : (⟨S6144x2048, .f32⟩ : BufTy).Contents (Elt Ideal)) (a5 : (⟨S6144, .f32⟩ : BufTy).Contents (Elt Ideal)) (a6 : (⟨S6144, .f32⟩ : BufTy).Contents (Elt Ideal)) (a7 : (⟨S6144x2048, .f32⟩ : BufTy).Contents (Elt Ideal)) (a8 : (⟨S6144x2048, .f32⟩ : BufTy).Contents (Elt Ideal)) (a9 : (⟨S6144, .f32⟩ : BufTy).Contents (Elt Ideal)) (a10 : (⟨S6144, .f32⟩ : BufTy).Contents (Elt Ideal)) (a11 : (⟨S100x2048, .f32⟩ : BufTy).Contents (Elt Ideal)) (a12 : (⟨S100, .f32⟩ : BufTy).Contents (Elt Ideal)) :
    Read.val_main_v90 (F := Ideal) a0 a1 a2 a3 a4 a5 a6 a7 a8 a9 a10 a11 a12 = refOut a0 a1 a2 a3 a4 a5 a6 a7 a8 a9 a10 a11 a12 := by
  unfold Read.val_main_v90 refOut
  rw [readout_eq]

/-- The reference's second result stage is `refHidden` of the arguments. -/
theorem hidden_stage_eq (a0 : (⟨S1, .i32⟩ : BufTy).Contents (Elt Ideal)) (a1 : (⟨S2x1x2048, .f32⟩ : BufTy).Contents (Elt Ideal)) (a2 : (⟨S100x6, .f32⟩ : BufTy).Contents (Elt Ideal)) (a3 : (⟨S6144x6, .f32⟩ : BufTy).Contents (Elt Ideal)) (a4 : (⟨S6144x2048, .f32⟩ : BufTy).Contents (Elt Ideal)) (a5 : (⟨S6144, .f32⟩ : BufTy).Contents (Elt Ideal)) (a6 : (⟨S6144, .f32⟩ : BufTy).Contents (Elt Ideal)) (a7 : (⟨S6144x2048, .f32⟩ : BufTy).Contents (Elt Ideal)) (a8 : (⟨S6144x2048, .f32⟩ : BufTy).Contents (Elt Ideal)) (a9 : (⟨S6144, .f32⟩ : BufTy).Contents (Elt Ideal)) (a10 : (⟨S6144, .f32⟩ : BufTy).Contents (Elt Ideal)) :
    Read.val_main_v85 (F := Ideal) a0 a1 a2 a3 a4 a5 a6 a7 a8 a9 a10 = refHidden a0 a1 a2 a3 a4 a5 a6 a7 a8 a9 a10 := by
  unfold Read.val_main_v85 Read.val_main_v83 Read.val_main_v84 refHidden
  rw [layer1_eq, layer0_eq]

/-- Every weakly fair execution of the reference program terminates with its two results at `refOut` and `refHidden`
    of the arguments' launch contents, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v90) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v85) = refHidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
      ⟨(h c).1.trans ((Read.val_main_v90_eq m c).trans (out_stage_eq ..)),
       (h c).2.1.trans ((Read.val_main_v85_eq m c).trans (hidden_stage_eq ..)),
       (h c).2.2⟩)
    (Cert.ReferenceIdeal.Value.run (F := Ideal) m ρ)

end Cert.ReferenceIdeal.RefValue

end
-- ==== Proof.Ref.RefFrame.lean ====
import proofs.«106570_j81046032876009_1_alg».proof.Defs
import proofs.«106570_j81046032876009_1_alg».proof.Proof.Gen.ReferenceIdeal.Run
import proofs.«106570_j81046032876009_1_alg».proof.Proof.Gen.Pre_finite_inputs

/-!
# The reference program runs and leaves its arguments unchanged
-/

noncomputable section

namespace Cert.ReferenceIdeal.RefValue

open Idealize.ShloMosaic Idealize.ShloMosaic.TcCoe Idealize.SL.Sem

/-- Every weakly fair execution of the reference program terminates with the argument arrays unchanged. -/
theorem frame_ri : Cert.frame_ReferenceIdeal := fun m ρ _ =>
  (θ_run Cert.ReferenceIdeal.defs _ _).mono (fun _ h c => (h c).2.2) (Cert.ReferenceIdeal.Value.run (F := Ideal) m ρ)

end Cert.ReferenceIdeal.RefValue

end
-- ==== Proof.Ref.Bridge.lean ====
import proofs.«106570_j81046032876009_1_alg».proof.Proof.Ref.RefRun
import proofs.«106570_j81046032876009_1_alg».proof.KernelIdeal

/-!
# The two programs apply the same host operations

Before its first call the kernel program picks the embedding row and the two previous hidden rows exactly as the reference
program does, and after its last call it gives its results a leading unit axis and stacks the two hidden rows exactly as
the reference does. Each program states these operations over its own copies of the shapes (the same literals) and its own
side conditions; a side condition is a proposition, so the two spellings of each operation are one term.
-/

noncomputable section

namespace Cert.Bridge

open Idealize.ShloMosaic Idealize.ShloMosaic.StableHlo

variable [hK : Cert.KernelIdeal.Facts] [hR : Cert.ReferenceIdeal.Facts]

/-- The kernel program's embedding row is the reference's. -/
theorem xrow_bridge (a0 : (⟨Cert.ReferenceIdeal.S1, .i32⟩ : BufTy).Contents (Elt Ideal)) (a2 : (⟨Cert.ReferenceIdeal.S100x6, .f32⟩ : BufTy).Contents (Elt Ideal)) :
    Host.gather Cert.KernelIdeal.gather_S100x6_S1x1_S1x6_1_0_n_n_0_1_16 a2
      (broadcastInDim Cert.KernelIdeal.S1x1 ![0] Cert.KernelIdeal.Facts₀.bcast_S1_S1x1_0
        (select (cmpi .slt a0 (broadcastInDim Cert.KernelIdeal.S1 ![] Cert.KernelIdeal.Facts₀.bcast_S_S1 (constantI Cert.KernelIdeal.S_ 32 0#32)))
          (addi a0 (broadcastInDim Cert.KernelIdeal.S1 ![] Cert.KernelIdeal.Facts₀.bcast_S_S1 (constantI Cert.KernelIdeal.S_ 32 100#32))) a0))
      = Cert.ReferenceIdeal.RefValue.xrow a0 a2 := rfl

/-- The kernel program's first previous hidden row is the reference's. -/
theorem hrow0_bridge (a1 : (⟨Cert.ReferenceIdeal.S2x1x2048, .f32⟩ : BufTy).Contents (Elt Ideal)) :
    shapeCast Cert.KernelIdeal.S1x2048 (extractStridedSlice Cert.KernelIdeal.S1x1x2048 ![0, 0, 0] a1 Cert.KernelIdeal.Facts₀.slices_S2x1x2048_S1x1x2048_0_0_0) Cert.KernelIdeal.Facts₀.shapeCasts_S1x1x2048_S1x2048
      = Cert.ReferenceIdeal.RefValue.hrow0 a1 := rfl

/-- The kernel program's second previous hidden row is the reference's. -/
theorem hrow1_bridge (a1 : (⟨Cert.ReferenceIdeal.S2x1x2048, .f32⟩ : BufTy).Contents (Elt Ideal)) :
    shapeCast Cert.KernelIdeal.S1x2048 (extractStridedSlice Cert.KernelIdeal.S1x1x2048 ![1, 0, 0] a1 Cert.KernelIdeal.Facts₀.slices_S2x1x2048_S1x1x2048_1_0_0) Cert.KernelIdeal.Facts₀.shapeCasts_S1x1x2048_S1x2048
      = Cert.ReferenceIdeal.RefValue.hrow1 a1 := rfl

/-- Giving the read-out row a leading unit axis is one operation in the two programs. -/
theorem out_bridge (d : (⟨Cert.ReferenceIdeal.S1x100, .f32⟩ : BufTy).Contents (Elt Ideal)) :
    broadcastInDim Cert.KernelIdeal.S1x1x100 ![1, 2] Cert.KernelIdeal.Facts₀.bcast_S1x100_S1x1x100_1_2 d = broadcastInDim Cert.ReferenceIdeal.S1x1x100 ![1, 2] Cert.ReferenceIdeal.Facts₀.bcast_S1x100_S1x1x100_1_2 d := rfl

/-- Giving the two hidden rows a leading unit axis and stacking them is one operation in the two programs. -/
theorem hidden_bridge (h0 h1 : (⟨Cert.ReferenceIdeal.S1x2048, .f32⟩ : BufTy).Contents (Elt Ideal)) :
    concatenate Cert.KernelIdeal.S2x1x2048 0
      [⟨Cert.KernelIdeal.S1x1x2048, broadcastInDim Cert.KernelIdeal.S1x1x2048 ![1, 2] Cert.KernelIdeal.Facts₀.bcast_S1x2048_S1x1x2048_1_2 h0⟩,
       ⟨Cert.KernelIdeal.S1x1x2048, broadcastInDim Cert.KernelIdeal.S1x1x2048 ![1, 2] Cert.KernelIdeal.Facts₀.bcast_S1x2048_S1x1x2048_1_2 h1⟩]
      Cert.KernelIdeal.Facts₀.concatenates_S1x1x2048_S1x1x2048_S2x1x2048_d0
    = concatenate Cert.ReferenceIdeal.S2x1x2048 0
      [⟨Cert.ReferenceIdeal.S1x1x2048, broadcastInDim Cert.ReferenceIdeal.S1x1x2048 ![1, 2] Cert.ReferenceIdeal.Facts₀.bcast_S1x2048_S1x1x2048_1_2 h0⟩,
       ⟨Cert.ReferenceIdeal.S1x1x2048, broadcastInDim Cert.ReferenceIdeal.S1x1x2048 ![1, 2] Cert.ReferenceIdeal.Facts₀.bcast_S1x2048_S1x1x2048_1_2 h1⟩]
      Cert.ReferenceIdeal.Facts₀.concatenates_S1x1x2048_S1x1x2048_S2x1x2048_d0 := rfl

/-- The reference's first result, over the kernel program's spelling of the shared host operations. -/
theorem refOut_bridge (a0 : (⟨Cert.ReferenceIdeal.S1, .i32⟩ : BufTy).Contents (Elt Ideal)) (a1 : (⟨Cert.ReferenceIdeal.S2x1x2048, .f32⟩ : BufTy).Contents (Elt Ideal)) (a2 : (⟨Cert.ReferenceIdeal.S100x6, .f32⟩ : BufTy).Contents (Elt Ideal)) (a3 : (⟨Cert.ReferenceIdeal.S6144x6, .f32⟩ : BufTy).Contents (Elt Ideal)) (a4 : (⟨Cert.ReferenceIdeal.S6144x2048, .f32⟩ : BufTy).Contents (Elt Ideal)) (a5 : (⟨Cert.ReferenceIdeal.S6144, .f32⟩ : BufTy).Contents (Elt Ideal)) (a6 : (⟨Cert.ReferenceIdeal.S6144, .f32⟩ : BufTy).Contents (Elt Ideal)) (a7 : (⟨Cert.ReferenceIdeal.S6144x2048, .f32⟩ : BufTy).Contents (Elt Ideal)) (a8 : (⟨Cert.ReferenceIdeal.S6144x2048, .f32⟩ : BufTy).Contents (Elt Ideal)) (a9 : (⟨Cert.ReferenceIdeal.S6144, .f32⟩ : BufTy).Contents (Elt Ideal)) (a10 : (⟨Cert.ReferenceIdeal.S6144, .f32⟩ : BufTy).Contents (Elt Ideal)) (a11 : (⟨Cert.ReferenceIdeal.S100x2048, .f32⟩ : BufTy).Contents (Elt Ideal)) (a12 : (⟨Cert.ReferenceIdeal.S100, .f32⟩ : BufTy).Contents (Elt Ideal)) :
    Cert.ReferenceIdeal.RefValue.refOut a0 a1 a2 a3 a4 a5 a6 a7 a8 a9 a10 a11 a12
      = broadcastInDim Cert.KernelIdeal.S1x1x100 ![1, 2] Cert.KernelIdeal.Facts₀.bcast_S1x100_S1x1x100_1_2 (Cert.Spec.readout (Cert.Spec.layer1 (Cert.Spec.layer0 (Host.gather Cert.KernelIdeal.gather_S100x6_S1x1_S1x6_1_0_n_n_0_1_16 a2
      (broadcastInDim Cert.KernelIdeal.S1x1 ![0] Cert.KernelIdeal.Facts₀.bcast_S1_S1x1_0
        (select (cmpi .slt a0 (broadcastInDim Cert.KernelIdeal.S1 ![] Cert.KernelIdeal.Facts₀.bcast_S_S1 (constantI Cert.KernelIdeal.S_ 32 0#32)))
          (addi a0 (broadcastInDim Cert.KernelIdeal.S1 ![] Cert.KernelIdeal.Facts₀.bcast_S_S1 (constantI Cert.KernelIdeal.S_ 32 100#32))) a0))) (shapeCast Cert.KernelIdeal.S1x2048 (extractStridedSlice Cert.KernelIdeal.S1x1x2048 ![0, 0, 0] a1 Cert.KernelIdeal.Facts₀.slices_S2x1x2048_S1x1x2048_0_0_0) Cert.KernelIdeal.Facts₀.shapeCasts_S1x1x2048_S1x2048) a3 a4 a5 a6) (shapeCast Cert.KernelIdeal.S1x2048 (extractStridedSlice Cert.KernelIdeal.S1x1x2048 ![1, 0, 0] a1 Cert.KernelIdeal.Facts₀.slices_S2x1x2048_S1x1x2048_1_0_0) Cert.KernelIdeal.Facts₀.shapeCasts_S1x1x2048_S1x2048) a7 a8 a9 a10) a11 a12) := by
  unfold Cert.ReferenceIdeal.RefValue.refOut
  rw [xrow_bridge, hrow0_bridge, hrow1_bridge]

/-- The reference's second result, over the kernel program's spelling of the shared host operations. -/
theorem refHidden_bridge (a0 : (⟨Cert.ReferenceIdeal.S1, .i32⟩ : BufTy).Contents (Elt Ideal)) (a1 : (⟨Cert.ReferenceIdeal.S2x1x2048, .f32⟩ : BufTy).Contents (Elt Ideal)) (a2 : (⟨Cert.ReferenceIdeal.S100x6, .f32⟩ : BufTy).Contents (Elt Ideal)) (a3 : (⟨Cert.ReferenceIdeal.S6144x6, .f32⟩ : BufTy).Contents (Elt Ideal)) (a4 : (⟨Cert.ReferenceIdeal.S6144x2048, .f32⟩ : BufTy).Contents (Elt Ideal)) (a5 : (⟨Cert.ReferenceIdeal.S6144, .f32⟩ : BufTy).Contents (Elt Ideal)) (a6 : (⟨Cert.ReferenceIdeal.S6144, .f32⟩ : BufTy).Contents (Elt Ideal)) (a7 : (⟨Cert.ReferenceIdeal.S6144x2048, .f32⟩ : BufTy).Contents (Elt Ideal)) (a8 : (⟨Cert.ReferenceIdeal.S6144x2048, .f32⟩ : BufTy).Contents (Elt Ideal)) (a9 : (⟨Cert.ReferenceIdeal.S6144, .f32⟩ : BufTy).Contents (Elt Ideal)) (a10 : (⟨Cert.ReferenceIdeal.S6144, .f32⟩ : BufTy).Contents (Elt Ideal)) :
    Cert.ReferenceIdeal.RefValue.refHidden a0 a1 a2 a3 a4 a5 a6 a7 a8 a9 a10
      = concatenate Cert.KernelIdeal.S2x1x2048 0
      [⟨Cert.KernelIdeal.S1x1x2048, broadcastInDim Cert.KernelIdeal.S1x1x2048 ![1, 2] Cert.KernelIdeal.Facts₀.bcast_S1x2048_S1x1x2048_1_2 (Cert.Spec.layer0 (Host.gather Cert.KernelIdeal.gather_S100x6_S1x1_S1x6_1_0_n_n_0_1_16 a2
      (broadcastInDim Cert.KernelIdeal.S1x1 ![0] Cert.KernelIdeal.Facts₀.bcast_S1_S1x1_0
        (select (cmpi .slt a0 (broadcastInDim Cert.KernelIdeal.S1 ![] Cert.KernelIdeal.Facts₀.bcast_S_S1 (constantI Cert.KernelIdeal.S_ 32 0#32)))
          (addi a0 (broadcastInDim Cert.KernelIdeal.S1 ![] Cert.KernelIdeal.Facts₀.bcast_S_S1 (constantI Cert.KernelIdeal.S_ 32 100#32))) a0))) (shapeCast Cert.KernelIdeal.S1x2048 (extractStridedSlice Cert.KernelIdeal.S1x1x2048 ![0, 0, 0] a1 Cert.KernelIdeal.Facts₀.slices_S2x1x2048_S1x1x2048_0_0_0) Cert.KernelIdeal.Facts₀.shapeCasts_S1x1x2048_S1x2048) a3 a4 a5 a6)⟩,
       ⟨Cert.KernelIdeal.S1x1x2048, broadcastInDim Cert.KernelIdeal.S1x1x2048 ![1, 2] Cert.KernelIdeal.Facts₀.bcast_S1x2048_S1x1x2048_1_2 (Cert.Spec.layer1 (Cert.Spec.layer0 (Host.gather Cert.KernelIdeal.gather_S100x6_S1x1_S1x6_1_0_n_n_0_1_16 a2
      (broadcastInDim Cert.KernelIdeal.S1x1 ![0] Cert.KernelIdeal.Facts₀.bcast_S1_S1x1_0
        (select (cmpi .slt a0 (broadcastInDim Cert.KernelIdeal.S1 ![] Cert.KernelIdeal.Facts₀.bcast_S_S1 (constantI Cert.KernelIdeal.S_ 32 0#32)))
          (addi a0 (broadcastInDim Cert.KernelIdeal.S1 ![] Cert.KernelIdeal.Facts₀.bcast_S_S1 (constantI Cert.KernelIdeal.S_ 32 100#32))) a0))) (shapeCast Cert.KernelIdeal.S1x2048 (extractStridedSlice Cert.KernelIdeal.S1x1x2048 ![0, 0, 0] a1 Cert.KernelIdeal.Facts₀.slices_S2x1x2048_S1x1x2048_0_0_0) Cert.KernelIdeal.Facts₀.shapeCasts_S1x1x2048_S1x2048) a3 a4 a5 a6) (shapeCast Cert.KernelIdeal.S1x2048 (extractStridedSlice Cert.KernelIdeal.S1x1x2048 ![1, 0, 0] a1 Cert.KernelIdeal.Facts₀.slices_S2x1x2048_S1x1x2048_1_0_0) Cert.KernelIdeal.Facts₀.shapeCasts_S1x1x2048_S1x2048) a7 a8 a9 a10)⟩]
      Cert.KernelIdeal.Facts₀.concatenates_S1x1x2048_S1x1x2048_S2x1x2048_d0 := by
  unfold Cert.ReferenceIdeal.RefValue.refHidden
  rw [xrow_bridge, hrow0_bridge, hrow1_bridge]

end Cert.Bridge

end
-- ==== Proof.lean ====
/-
  One step of a two-layer gated recurrent cell on a single row, with a linear read-out: the kernel program (three
  calls — the two layers, each walking the 2048 hidden entries in eight blocks of 256, and the read-out — among host
  operations) against its plain reference, at the extended reals.

  The three frames. The word-level kernel and its idealization are one text read at two instances, so one proof, generic
  in the instance, serves both: the contents of every unscoped buffer are followed through @main's five stretches, each
  call's body is run once at a symbolic grid point, and a weight or bias array that three gate windows read is divided
  among them at the call's entry and put together again at its exit; no stretch writes an argument. The reference's frame
  is its run with the results dropped.

  The idealization rewrote nothing, so there is nothing to preserve.

  The values. Each call's output array, after its write-backs, is the specification's function of the arrays the call
  found: entry j of a new hidden row is (1 − z) · n + z · h with r, z the logistic function and n the hyperbolic tangent of
  the gates' pre-activations, a pre-activation being a row of a weight against the input row plus a bias; the matrix
  unit's product into a zero accumulator is that sum, a change of float format is the identity, and the eight blocks cover
  the row. The reference computes the same function entry by entry: its transposes and dot products are the same sums, its
  slices pick the three gates' rows, and its quotient 1 / (1 + exp (−s)) is the logistic function. Both programs gather the
  embedding row, cut the two hidden rows and assemble the two results by the same host operations, which are never opened.
-/
import proofs.«106570_j81046032876009_1_alg».proof.Defs
import proofs.«106570_j81046032876009_1_alg».proof.Proof.K.Run
import proofs.«106570_j81046032876009_1_alg».proof.Proof.K.Body0
import proofs.«106570_j81046032876009_1_alg».proof.Proof.K.Body1
import proofs.«106570_j81046032876009_1_alg».proof.Proof.K.Body2
import proofs.«106570_j81046032876009_1_alg».proof.Proof.K.Kept
import proofs.«106570_j81046032876009_1_alg».proof.Proof.KI.Run
import proofs.«106570_j81046032876009_1_alg».proof.Proof.KI.Body0
import proofs.«106570_j81046032876009_1_alg».proof.Proof.KI.Body1
import proofs.«106570_j81046032876009_1_alg».proof.Proof.KI.Body2
import proofs.«106570_j81046032876009_1_alg».proof.Proof.KI.Kept
import proofs.«106570_j81046032876009_1_alg».proof.Proof.KI.KernelValue
import proofs.«106570_j81046032876009_1_alg».proof.Proof.Ref.RefRun
import proofs.«106570_j81046032876009_1_alg».proof.Proof.Ref.RefFrame
import proofs.«106570_j81046032876009_1_alg».proof.Proof.Ref.Bridge
import proofs.«106570_j81046032876009_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ =>
  Cert.Kernel.Gen.frame_of_run m ρ
    (Cert.Kernel.Gen.run_all m (fun V c => Cert.Kernel.Gen.body_obligation0 V c) (fun V c => Cert.Kernel.Gen.body_obligation1 V c)
      (fun V c => Cert.Kernel.Gen.body_obligation2 V c) ρ)

/-- So does its idealization. -/
theorem frame_ki : Cert.frame_KernelIdeal := fun m ρ _ =>
  Cert.KernelIdeal.Gen.frame_of_run m ρ
    (Cert.KernelIdeal.Gen.run_all m (fun V c => Cert.KernelIdeal.Gen.body_obligation0 V c) (fun V c => Cert.KernelIdeal.Gen.body_obligation1 V c)
      (fun V c => Cert.KernelIdeal.Gen.body_obligation2 V c) ρ)

/-- And the reference. -/
theorem frame_ri : Cert.frame_ReferenceIdeal := Cert.ReferenceIdeal.RefValue.frame_ri

/-- The idealization rewrote nothing. -/
theorem preserves : Cert.preserves_Kernel_KernelIdeal := trivial

open Cert.KernelIdeal Cert.KernelIdeal.Gen Cert.KernelIdeal.CellValue in
/-- From memories agreeing on the arguments both idealized programs run, and end with equal results: the read-out row and
    the two new hidden rows, each the specification's function of the arguments. -/
theorem algebraic : Cert.algebraic_KernelIdeal_ReferenceIdeal := by
  intro m ρ m' ρ' _ hagree
  refine ⟨fun c => W5 (F := Ideal) m c (Proc.devRef .tc main_v19), fun c => W5 (F := Ideal) m c (Proc.devRef .tc main_v22), ?_, ?_⟩
  · refine (θ_run Cert.KernelIdeal.defs _ _).mono (fun r hr c => ?_)
      (run_all m (fun V c => body_obligation0 V c) (fun V c => body_obligation1 V c) (fun V c => body_obligation2 V c) ρ)
    exact ⟨hr c (Proc.devRef .tc main_v19) (mem_ucRefs main_v19 (by decide)),
      hr c (Proc.devRef .tc main_v22) (mem_ucRefs main_v22 (by decide)),
      (hr c (Proc.devRef .tc main_arg0) (mem_ucRefs main_arg0 (by decide))).trans (W5_main_arg0 m c),
      (hr c (Proc.devRef .tc main_arg1) (mem_ucRefs main_arg1 (by decide))).trans (W5_main_arg1 m c),
      (hr c (Proc.devRef .tc main_arg2) (mem_ucRefs main_arg2 (by decide))).trans (W5_main_arg2 m c),
      (hr c (Proc.devRef .tc main_arg3) (mem_ucRefs main_arg3 (by decide))).trans (W5_main_arg3 m c),
      (hr c (Proc.devRef .tc main_arg4) (mem_ucRefs main_arg4 (by decide))).trans (W5_main_arg4 m c),
      (hr c (Proc.devRef .tc main_arg5) (mem_ucRefs main_arg5 (by decide))).trans (W5_main_arg5 m c),
      (hr c (Proc.devRef .tc main_arg6) (mem_ucRefs main_arg6 (by decide))).trans (W5_main_arg6 m c),
      (hr c (Proc.devRef .tc main_arg7) (mem_ucRefs main_arg7 (by decide))).trans (W5_main_arg7 m c),
      (hr c (Proc.devRef .tc main_arg8) (mem_ucRefs main_arg8 (by decide))).trans (W5_main_arg8 m c),
      (hr c (Proc.devRef .tc main_arg9) (mem_ucRefs main_arg9 (by decide))).trans (W5_main_arg9 m c),
      (hr c (Proc.devRef .tc main_arg10) (mem_ucRefs main_arg10 (by decide))).trans (W5_main_arg10 m c),
      (hr c (Proc.devRef .tc main_arg11) (mem_ucRefs main_arg11 (by decide))).trans (W5_main_arg11 m c),
      (hr c (Proc.devRef .tc main_arg12) (mem_ucRefs main_arg12 (by decide))).trans (W5_main_arg12 m c)⟩
  · refine (θ_run Cert.ReferenceIdeal.defs _ _).mono (fun r h c => ⟨(h c).1.trans ?_, (h c).2.1.trans ?_, (h c).2.2⟩)
      (Cert.ReferenceIdeal.RefValue.ref_run m' ρ')
    · obtain ⟨e0, e1, e2, e3, e4, e5, e6, e7, e8, e9, e10, e11, e12⟩ := hagree c
      rw [e0, e1, e2, e3, e4, e5, e6, e7, e8, e9, e10, e11, e12]
      exact (Cert.Bridge.refOut_bridge _ _ _ _ _ _ _ _ _ _ _ _ _).trans (out_eq m c).symm
    · obtain ⟨e0, e1, e2, e3, e4, e5, e6, e7, e8, e9, e10, e11, e12⟩ := hagree c
      rw [e0, e1, e2, e3, e4, e5, e6, e7, e8, e9, e10]
      exact (Cert.Bridge.refHidden_bridge _ _ _ _ _ _ _ _ _ _ _).trans (hidden_eq m c).symm

/-- The five claims, under the programs' stated side conditions. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
